-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x64 : Shape := ⟨3, ![16, 4096, 64]⟩
abbrev S16x4096x128 : Shape := ⟨3, ![16, 4096, 128]⟩
abbrev S960x128 : Shape := ⟨2, ![960, 128]⟩
abbrev S128 : Shape := ⟨1, ![128]⟩
abbrev S2x65536 : Shape := ⟨2, ![2, 65536]⟩
abbrev S_ : Shape := ⟨0, ![]⟩

class Facts : Prop where
  bcast_S_S16x4096x64 : S_.BroadcastsInDim S16x4096x64 (![] : Fin 0 → Fin S16x4096x64.rank)
  reducesTo_S16x4096x64_S_d0_1_2 : S16x4096x64.ReducesTo [0, 1, 2] S_
  h_S_ : 0 < S_.numel
  bcast_S_S16x4096x128 : S_.BroadcastsInDim S16x4096x128 (![] : Fin 0 → Fin S16x4096x128.rank)
  reducesTo_S16x4096x128_S_d0_1_2 : S16x4096x128.ReducesTo [0, 1, 2] S_
  bcast_S_S960x128 : S_.BroadcastsInDim S960x128 (![] : Fin 0 → Fin S960x128.rank)
  reducesTo_S960x128_S_d0_1 : S960x128.ReducesTo [0, 1] S_
  bcast_S_S128 : S_.BroadcastsInDim S128 (![] : Fin 0 → Fin S128.rank)
  reducesTo_S128_S_d0 : S128.ReducesTo [0] S_
  bcast_S_S2x65536 : S_.BroadcastsInDim S2x65536 (![] : Fin 0 → Fin S2x65536.rank)
  reducesTo_S2x65536_S_d0_1 : S2x65536.ReducesTo [0, 1] S_

variable [Facts]

def fn_part2 {F : FTy → Type} [FloatOps F] (main_arg5 : IVec S2x65536 32) (main_v30 : IVec S_ 1) (main_v32 : IVec S2x65536 1) (main_c_12 : IVec S_ 32) : IVec S_ 1 :=
  let main_v33 : IVec S2x65536 32 := broadcastInDim S2x65536 ![] bcast_S_S2x65536 main_c_12
  let main_v34 : IVec S2x65536 1 := cmpi .slt main_arg5 main_v33
  let main_v35 : IVec S2x65536 1 := andi main_v32 main_v34
  let main_c_13 : IVec S_ 1 := constantI S_ 1 1#1
  let main_v36 : IVec S_ 1 := (fun x v => Host.reduce IntOp.andi x v reducesTo_S2x65536_S_d0_1 h_S_) main_v35 main_c_13
  let main_v37 : IVec S_ 1 := andi main_v30 main_v36
  main_v37

def fn_part1 {F : FTy → Type} [FloatOps F] (main_arg4 : IVec S2x65536 32) (main_arg5 : IVec S2x65536 32) (main_arg6 : FVec F S2x65536 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S2x65536 .f32 := Host.absf main_arg6
  let main_cst_6 : FVec F S_ .f32 := constant S_ .f32 0x7F800000#32
  let main_v20 : FVec F S2x65536 .f32 := broadcastInDim S2x65536 ![] bcast_S_S2x65536 main_cst_6
  let main_v21 : IVec S2x65536 1 := cmpf .olt main_v19 main_v20
  let main_c_7 : IVec S_ 1 := constantI S_ 1 1#1
  let main_v22 : IVec S_ 1 := (fun x v => Host.reduce IntOp.andi x v reducesTo_S2x65536_S_d0_1 h_S_) main_v21 main_c_7
  let main_v23 : IVec S_ 1 := andi main_v18 main_v22
  let main_c_8 : IVec S_ 32 := constantI S_ 32 0#32
  let main_v24 : IVec S2x65536 32 := broadcastInDim S2x65536 ![] bcast_S_S2x65536 main_c_8
  let main_v25 : IVec S2x65536 1 := cmpi .sge main_arg4 main_v24
  let main_c_9 : IVec S_ 32 := constantI S_ 32 4096#32
  let main_v26 : IVec S2x65536 32 := broadcastInDim S2x65536 ![] bcast_S_S2x65536 main_c_9
  let main_v27 : IVec S2x65536 1 := cmpi .slt main_arg4 main_v26
  let main_v28 : IVec S2x65536 1 := andi main_v25 main_v27
  let main_c_10 : IVec S_ 1 := constantI S_ 1 1#1
  let main_v29 : IVec S_ 1 := (fun x v => Host.reduce IntOp.andi x v reducesTo_S2x65536_S_d0_1 h_S_) main_v28 main_c_10
  let main_v30 : IVec S_ 1 := andi main_v23 main_v29
  let main_c_11 : IVec S_ 32 := constantI S_ 32 0#32
  let main_v31 : IVec S2x65536 32 := broadcastInDim S2x65536 ![] bcast_S_S2x65536 main_c_11
  let main_v32 : IVec S2x65536 1 := cmpi .sge main_arg5 main_v31
  let main_c_12 : IVec S_ 32 := constantI S_ 32 4096#32
  fn_part2 (F := F) main_arg5 main_v30 main_v32 main_c_12

def fn {F : FTy → Type} [FloatOps F] (main_arg0 : FVec F S16x4096x64 .f32) (main_arg1 : FVec F S16x4096x128 .f32) (main_arg2 : FVec F S960x128 .f32) (main_arg3 : FVec F S128 .f32) (main_arg4 : IVec S2x65536 32) (main_arg5 : IVec S2x65536 32) (main_arg6 : FVec F S2x65536 .f32) : IVec S_ 1 :=
  let main_v0 : FVec F S16x4096x64 .f32 := Host.absf main_arg0
  let main_cst : FVec F S_ .f32 := constant S_ .f32 0x7F800000#32
  let main_v1 : FVec F S16x4096x64 .f32 := broadcastInDim S16x4096x64 ![] bcast_S_S16x4096x64 main_cst
  let main_v2 : IVec S16x4096x64 1 := cmpf .olt main_v0 main_v1
  let main_c : IVec S_ 1 := constantI S_ 1 1#1
  let main_v3 : IVec S_ 1 := (fun x v => Host.reduce IntOp.andi x v reducesTo_S16x4096x64_S_d0_1_2 h_S_) main_v2 main_c
  let main_v4 : FVec F S16x4096x128 .f32 := Host.absf main_arg1
  let main_cst_0 : FVec F S_ .f32 := constant S_ .f32 0x7F800000#32
  let main_v5 : FVec F S16x4096x128 .f32 := broadcastInDim S16x4096x128 ![] bcast_S_S16x4096x128 main_cst_0
  let main_v6 : IVec S16x4096x128 1 := cmpf .olt main_v4 main_v5
  let main_c_1 : IVec S_ 1 := constantI S_ 1 1#1
  let main_v7 : IVec S_ 1 := (fun x v => Host.reduce IntOp.andi x v reducesTo_S16x4096x128_S_d0_1_2 h_S_) main_v6 main_c_1
  let main_v8 : IVec S_ 1 := andi main_v3 main_v7
  let main_v9 : FVec F S960x128 .f32 := Host.absf main_arg2
  let main_cst_2 : FVec F S_ .f32 := constant S_ .f32 0x7F800000#32
  let main_v10 : FVec F S960x128 .f32 := broadcastInDim S960x128 ![] bcast_S_S960x128 main_cst_2
  let main_v11 : IVec S960x128 1 := cmpf .olt main_v9 main_v10
  let main_c_3 : IVec S_ 1 := constantI S_ 1 1#1
  let main_v12 : IVec S_ 1 := (fun x v => Host.reduce IntOp.andi x v reducesTo_S960x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S16x4096x64 : Shape := ⟨3, ![16, 4096, 64]⟩
abbrev S16x4096x128 : Shape := ⟨3, ![16, 4096, 128]⟩
abbrev S960x128 : Shape := ⟨2, ![960, 128]⟩
abbrev S128 : Shape := ⟨1, ![128]⟩
abbrev S2x65536 : Shape := ⟨2, ![2, 65536]⟩
abbrev S16x4096x192 : Shape := ⟨3, ![16, 4096, 192]⟩
abbrev S4096x192x16 : Shape := ⟨3, ![4096, 192, 16]⟩
abbrev S4096x3072 : Shape := ⟨2, ![4096, 3072]⟩
abbrev S1x65536 : Shape := ⟨2, ![1, 65536]⟩
abbrev S65536 : Shape := ⟨1, ![65536]⟩
abbrev S_ : Shape := ⟨0, ![]⟩
abbrev S4096x4096 : Shape := ⟨2, ![4096, 4096]⟩
abbrev S65536x1 : Shape := ⟨2, ![65536, 1]⟩
abbrev S65536x2 : Shape := ⟨2, ![65536, 2]⟩
abbrev S1024x1024 : Shape := ⟨2, ![1024, 1024]⟩
abbrev S1024x1536 : Shape := ⟨2, ![1024, 1536]⟩
abbrev S1x4096x3072 : Shape := ⟨3, ![1, 4096, 3072]⟩
abbrev S5x4096x3072 : Shape := ⟨3, ![5, 4096, 3072]⟩
abbrev S5x4096x192x16 : Shape := ⟨4, ![5, 4096, 192, 16]⟩
abbrev S16x4096x192x5 : Shape := ⟨4, ![16, 4096, 192, 5]⟩
abbrev S65536x960 : Shape := ⟨2, ![65536, 960]⟩
abbrev S65536x128 : Shape := ⟨2, ![65536, 128]⟩
abbrev S4096x960 : Shape := ⟨2, ![4096, 960]⟩
abbrev S4096x128 : Shape := ⟨2, ![4096, 128]⟩
abbrev S1x128 : Shape := ⟨2, ![1, 128]⟩

abbrev nBuf : Space → Nat
  | .hbm => 93
  | .vmem => 34
  | .smem => 0
  | _ => 0

abbrev bufTy : (tb : Table) → Fin (tcTables nBuf tb) → BufTy
  | .hbm, ⟨0, _⟩ => ⟨S16x4096x64, .f32⟩
  | .hbm, ⟨1, _⟩ => ⟨S16x4096x128, .f32⟩
  | .hbm, ⟨2, _⟩ => ⟨S960x128, .f32⟩
  | .hbm, ⟨3, _⟩ => ⟨S128, .f32⟩
  | .hbm, ⟨4, _⟩ => ⟨S2x65536, .i32⟩
  | .hbm, ⟨5, _⟩ => ⟨S2x65536, .i32⟩
  | .hbm, ⟨6, _⟩ => ⟨S2x65536, .f32⟩
  | .hbm, ⟨7, _⟩ => ⟨S16x4096x192, .f32⟩
  | .hbm, ⟨8, _⟩ => ⟨S4096x192x16, .f32⟩
  | .hbm, ⟨9, _⟩ => ⟨S4096x3072, .f32⟩
  | .hbm, ⟨10, _⟩ => ⟨S1x65536, .i32⟩
  | .hbm, ⟨11, _⟩ => ⟨S65536, .i32⟩
  | .hbm, ⟨12, _⟩ => ⟨S1x65536, .i32⟩
  | .hbm, ⟨13, _⟩ => ⟨S65536, .i32⟩
  | .hbm, ⟨14, _⟩ => ⟨S1x65536, .f32⟩
  | .hbm, ⟨15, _⟩ => ⟨S65536, .f32⟩
  | .hbm, ⟨16, _⟩ => ⟨S_, .f32⟩
  | .hbm, ⟨17, _⟩ => ⟨S4096x4096, .f32⟩
  | .hbm, ⟨18, _⟩ => ⟨S_, .i32⟩
  | .hbm, ⟨19, _⟩ => ⟨S65536, .i32⟩
  | .hbm, ⟨20, _⟩ => ⟨S65536, .i1⟩
  | .hbm, ⟨21, _⟩ => ⟨S_, .i32⟩
  | .hbm, ⟨22, _⟩ => ⟨S65536, .i32⟩
  | .hbm, ⟨23, _⟩ => ⟨S65536, .i32⟩
  | .hbm, ⟨24, _⟩ => ⟨S65536, .i32⟩
  | .hbm, ⟨25, _⟩ => ⟨S_, .i32⟩
  | .hbm, ⟨26, _⟩ => ⟨S65536, .i32⟩
  | .hbm, ⟨27, _⟩ => ⟨S65536, .i1⟩
  | .hbm, ⟨28, _⟩ => ⟨S_, .i32⟩
  | .hbm, ⟨29, _⟩ => ⟨S65536, .i32⟩
  | .hbm, ⟨30, _⟩ => ⟨S65536, .i32⟩
  | .hbm, ⟨31, _⟩ => ⟨S65536, .i32⟩
  | .hbm, ⟨32, _⟩ => ⟨S65536x1, .i32⟩
  | .hbm, ⟨33, _⟩ => ⟨S65536x1, .i32⟩
  | .hbm, ⟨34, _⟩ => ⟨S65536x2, .i32⟩
  | .hbm, ⟨35, _⟩ => ⟨S4096x4096, .f32⟩
  | .hbm, ⟨36, _⟩ => ⟨S4096x4096, .bf16⟩
  | .hbm, ⟨37, _⟩ => ⟨S4096x3072, .bf16⟩
  | .hbm, ⟨38, _⟩ => ⟨S4096x3072, .f32⟩
  | .hbm, ⟨39, _⟩ => ⟨S4096x3072, .bf16⟩
  | .hbm, ⟨40, _⟩ => ⟨S4096x3072, .f32⟩
  | .hbm, ⟨41, _⟩ => ⟨S_, .f32⟩
  | .hbm, ⟨42, _⟩ => ⟨S4096x3072, .f32⟩
  | .hbm, ⟨43, _⟩ => ⟨S4096x3072, .f32⟩
  | .hbm, ⟨44, _⟩ => ⟨S4096x3072, .f32⟩
  | .hbm, ⟨45, _⟩ => ⟨S1x65536, .i32⟩
  | .hbm, ⟨46, _⟩ => ⟨S65536, .i32⟩
  | .hbm, ⟨47, _⟩ => ⟨S1x65536, .i32⟩
  | .hbm, ⟨48, _⟩ => ⟨S65536, .i32⟩
  | .hbm, ⟨49, _⟩ => ⟨S1x65536, .f32⟩
  | .hbm, ⟨50, _⟩ => ⟨S65536, .f32⟩
  | .hbm, ⟨51, _⟩ => ⟨S_, .f32⟩
  | .hbm, ⟨52, _⟩ => ⟨S4096x4096, .f32⟩
  | .hbm, ⟨53, _⟩ => ⟨S_, .i32⟩
  | .hbm, ⟨54, _⟩ => ⟨S65536, .i32⟩
  | .hbm, ⟨55, _⟩ => ⟨S65536, .i1⟩
  | .hbm, ⟨56, _⟩ => ⟨S_, .i32⟩
  | .hbm, ⟨57, _⟩ => ⟨S65536, .i32⟩
  | .hbm, ⟨58, _⟩ => ⟨S65536, .i32⟩
  | .hbm, ⟨59, _⟩ => ⟨S65536, .i32⟩
  | .hbm, ⟨60, _⟩ => ⟨S_, .i32⟩
  | .hbm, ⟨61, _⟩ => ⟨S65536, .i32⟩
  | .hbm, ⟨62, _⟩ => ⟨S65536, .i1⟩
  | .hbm, ⟨63, _⟩ => ⟨S_, .i32⟩
  | .hbm, ⟨64, _⟩ => ⟨S65536, .i32⟩
  | .hbm, ⟨65, _⟩ => ⟨S65536, .i32⟩
  | .hbm, ⟨66, _⟩ => ⟨S65536, .i32⟩
  | .hbm, ⟨67, _⟩ => ⟨S65536x1, .i32⟩
  | .hbm, ⟨68, _⟩ => ⟨S65536x1, .i32⟩
  | .hbm, ⟨69, _⟩ => ⟨S65536x2, .i32⟩
  | .hbm, ⟨70, _⟩ => ⟨S4096x4096, .f32⟩
  | .hbm, ⟨71, _⟩ => ⟨S4096x4096, .bf16⟩
  | .hbm, ⟨72, _⟩ => ⟨S4096x3072, .bf16⟩
  | .hbm, ⟨73, _⟩ => ⟨S4096x3072, .f32⟩
  | .hbm, ⟨74, _⟩ => ⟨S4096x3072, .bf16⟩
  | .hbm, ⟨75, _⟩ => ⟨S4096x3072, .f32⟩
  | .hbm, ⟨76, _⟩ => ⟨S_, .f32⟩
  | .hbm, ⟨77, _⟩ => ⟨S4096x3072, .f32⟩
  | .hbm, ⟨78, _⟩ => ⟨S4096x3072, .f32⟩
  | .hbm, ⟨79, _⟩ => ⟨S4096x3072, .f32⟩
  | .hbm, ⟨80, _⟩ => ⟨S1x4096x3072, .f32⟩
  | .hbm, ⟨81, _⟩ => ⟨S1x4096x3072, .f32⟩
  | .hbm, ⟨82, _⟩ => ⟨S1x4096x3072, .f32⟩
  | .hbm, ⟨83, _⟩ => ⟨S1x4096x3072, .f32⟩
  | .hbm, ⟨84, _⟩ => ⟨S1x4096x3072, .f32⟩
  | .hbm, ⟨85, _⟩ => ⟨S5x4096x3072, .f32⟩
  | .hbm, ⟨86, _⟩ => ⟨S5x4096x192x16, .f32⟩
  | .hbm, ⟨87, _⟩ => ⟨S16x4096x192x5, .f32⟩
  | .hbm, ⟨88, _⟩ => ⟨S65536x960, .f32⟩
  | .hbm, ⟨89, _⟩ => ⟨S65536x960, .bf16⟩
  | .hbm, ⟨90, _⟩ => ⟨S960x128, .bf16⟩
  | .hbm, ⟨91, _⟩ => ⟨S65536x128, .f32⟩
  | .hbm, ⟨92, _⟩ => ⟨S16x4096x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | .local _ .vmem, ⟨7, _⟩ => ⟨S1024x1024, .bf16⟩
  | .local _ .vmem, ⟨8, _⟩ => ⟨S1024x1024, .bf16⟩
  | .local _ .vmem, ⟨9, _⟩ => ⟨S1024x1536, .bf16⟩
  | .local _ .vmem, ⟨10, _⟩ => ⟨S1024x1536, .bf16⟩
  | .local _ .vmem, ⟨11, _⟩ => ⟨S1024x1536, .f32⟩
  | .local _ .vmem, ⟨12, _⟩ => ⟨S1024x1536, .f32⟩
  | .local _ .vmem, ⟨13, _⟩ => ⟨S1024x1536, .f32⟩
  | .local _ .vmem, ⟨14, _⟩ => ⟨S1024x1024, .bf16⟩
  | .local _ .vmem, ⟨15, _⟩ => ⟨S1024x1024, .bf16⟩
  | .local _ .vmem, ⟨16, _⟩ => ⟨S1024x1536, .bf16⟩
  | .local _ .vmem, ⟨17, _⟩ => ⟨S1024x1536, .bf16⟩
  | .local _ .vmem, ⟨18, _⟩ => ⟨S1024x1536, .f32⟩
  | .local _ .vmem, ⟨19, _⟩ => ⟨S1024x1536, .f32⟩
  | .local _ .vmem, ⟨20, _⟩ => ⟨S1024x1536, .f32⟩
  | .local _ .vmem, ⟨21, _⟩ => ⟨S1024x1024, .bf16⟩
  | .local _ .vmem, ⟨22, _⟩ => ⟨S1024x1024, .bf16⟩
  | .local _ .vmem, ⟨23, _⟩ => ⟨S1024x1536, .bf16⟩
  | .local _ .vmem, ⟨24, _⟩ => ⟨S1024x1536, .bf16⟩
  | .local _ .vmem, ⟨25, _⟩ => ⟨S1024x1536, .f32⟩
  | .local _ .vmem, ⟨26, _⟩ => ⟨S1024x1536, .f32⟩
  | .local _ .vmem, ⟨27, _⟩ => ⟨S1024x1536, .f32⟩
  | .local _ .vmem, ⟨28, _⟩ => ⟨S4096x960, .bf16⟩
  | .local _ .vmem, ⟨29, _⟩ => ⟨S4096x960, .bf16⟩
  | .local _ .vmem, ⟨30, _⟩ => ⟨S960x128, .bf16⟩
  | .local _ .vmem, ⟨31, _⟩ => ⟨S128, .f32⟩
  | .local _ .vmem, ⟨32, _⟩ => ⟨S4096x128, .f32⟩
  | .local _ .vmem, ⟨33, _⟩ => ⟨S4096x128, .f32⟩
  | _, _ => ⟨S16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_c_5 : Ref sig .tc := ⟨.hbm, 53, rfl⟩
abbrev main_v39 : Ref sig .tc := ⟨.hbm, 54, rfl⟩
abbrev main_v40 : Ref sig .tc := ⟨.hbm, 55, rfl⟩
abbrev main_c_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_7 : Ref sig .tc := ⟨.hbm, 60, rfl⟩
abbrev main_v44 : Ref sig .tc := ⟨.hbm, 61, rfl⟩
abbrev main_v45 : Ref sig .tc := ⟨.hbm, 62, rfl⟩
abbrev main_c_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_9 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_scratch0 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 2, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1536 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1536 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 2, 4], ![false, false, false]⟩

def k2_cond2 (i : grid2.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1536 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1536 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 2, 4], ![false, false, false]⟩

def k3_cond2 (i : grid3.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1536 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1536 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x960 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S960x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4096x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  concatenates_S16x4096x64_S16x4096x128_S16x4096x192_d2 : Shape.Concatenates [S16x4096x64, S16x4096x128] S16x4096x192 2
  transposes_S16x4096x192_S4096x192x16_1_2_0 : S16x4096x192.Transposes [1, 2, 0] S4096x192x16
  shapeCasts_S4096x192x16_S4096x3072 : S4096x192x16.ShapeCasts S4096x3072
  slices_S2x65536_S1x65536_0_0 : S2x65536.Slices ![0, 0] S1x65536
  shapeCasts_S1x65536_S65536 : S1x65536.ShapeCasts S65536
  bcast_S_S4096x4096 : S_.BroadcastsInDim S4096x4096 (![] : Fin 0 → Fin S4096x4096.rank)
  bcast_S_S65536 : S_.BroadcastsInDim S65536 (![] : Fin 0 → Fin S65536.rank)
  bcast_S65536_S65536x1_0 : S65536.BroadcastsInDim S65536x1 (![0] : Fin 1 → Fin S65536x1.rank)
  concatenates_S65536x1_S65536x1_S65536x2_d1 : Shape.Concatenates [S65536x1, S65536x1] S65536x2 1
  bitsLt_bf16_f32 : FTy.bits .bf16 < FTy.bits .f32
  inb_S1024x1536_S1024x1536_0_0 : ∀ a, (![0, 0] : Fin 2 → Nat) a + S1024x1536.size a ≤ S1024x1536.size a
  h_S1024x1536 : 0 < S1024x1536.numel
  shapeCasts_S1024x1536_S1024x1536 : S1024x1536.ShapeCasts S1024x1536
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bcast_S_S4096x3072 : S_.BroadcastsInDim S4096x3072 (![] : Fin 0 → Fin S4096x3072.rank)
  slices_S2x65536_S1x65536_1_0 : S2x65536.Slices ![1, 0] S1x65536
  bcast_S4096x3072_S1x4096x3072_1_2 : S4096x3072.BroadcastsInDim S1x4096x3072 (![1, 2] : Fin 2 → Fin S1x4096x3072.rank)
  concatenates_S1x4096x3072_S1x4096x3072_S1x4096x3072_S1x4096x3072_S1x4096x3072_S5x4096x3072_d0 : Shape.Concatenates [S1x4096x3072, S1x4096x3072, S1x4096x3072, S1x4096x3072, S1x4096x3072] S5x4096x3072 0
  shapeCasts_S5x4096x3072_S5x4096x192x16 : S5x4096x3072.ShapeCasts S5x4096x192x16
  transposes_S5x4096x192x16_S16x4096x192x5_3_1_2_0 : S5x4096x192x16.Transposes [3, 1, 2, 0] S16x4096x192x5
  shapeCasts_S16x4096x192x5_S65536x960 : S16x4096x192x5.ShapeCasts S65536x960
  inb_S4096x960_S4096x960_0_0 : ∀ a, (![0, 0] : Fin 2 → Nat) a + S4096x960.size a ≤ S4096x960.size a
  h_S4096x960 : 0 < S4096x960.numel
  shapeCasts_S4096x960_S4096x960 : S4096x960.ShapeCasts S4096x960
  inb_S960x128_S960x128_0_0 : ∀ a, (![0, 0] : Fin 2 → Nat) a + S960x128.size a ≤ S960x128.size a
  h_S960x128 : 0 < S960x128.numel
  shapeCasts_S960x128_S960x128 : S960x128.ShapeCasts S960x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  shapeCasts_S65536x128_S16x4096x128 : S65536x128.ShapeCasts S16x4096x128
  scatter_S4096x4096_S65536x2_S65536_n_01_01_1_wf : ScatterDims.WF S4096x4096 S65536x2 S65536 [] [0, 1] [0, 1] 1
  dot_S1024x1024_S1024x1536_S1024x1536_1_0_0_1_n_n_wf : DotDims.WF S1024x1024 S1024x1536 S1024x1536 [1] [0] [0] [1] [] []
  dot_S4096x960_S960x128_S4096x128_1_0_0_1_n_n_wf : DotDims.WF S4096x960 S960x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1536.size a ≤ S4096x3072.size a
  hwx0_1 : ∀ i : grid0.Coords, EltTy.bits .bf16 = 32 ∨ (Rect.block (s := S4096x3072) S1024x1536.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1536.size a ≤ S4096x3072.size a
  hwx0_2 : ∀ i : grid0.Coords, EltTy.bits .f32 = 32 ∨ (Rect.block (s := S4096x3072) S1024x1536.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .bf16 = 32 ∨ (Rect.block (s := S4096x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1536.size a ≤ S4096x3072.size a
  hwx1_1 : ∀ i : grid1.Coords, EltTy.bits .bf16 = 32 ∨ (Rect.block (s := S4096x3072) S1024x1536.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1536.size a ≤ S4096x3072.size a
  hwx1_2 : ∀ i : grid1.Coords, EltTy.bits .f32 = 32 ∨ (Rect.block (s := S4096x3072) S1024x1536.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x4096.size a
  hwx2_0 : ∀ i : grid2.Coords, EltTy.bits .bf16 = 32 ∨ (Rect.block (s := S4096x4096) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1536.size a ≤ S4096x3072.size a
  hwx2_1 : ∀ i : grid2.Coords, EltTy.bits .bf16 = 32 ∨ (Rect.block (s := S4096x3072) S1024x1536.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1536.size a ≤ S4096x3072.size a
  hwx2_2 : ∀ i : grid2.Coords, EltTy.bits .f32 = 32 ∨ (Rect.block (s := S4096x3072) S1024x1536.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S4096x4096.size a
  hwx3_0 : ∀ i : grid3.Coords, EltTy.bits .bf16 = 32 ∨ (Rect.block (s := S4096x4096) S1024x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1536.size a ≤ S4096x3072.size a
  hwx3_1 : ∀ i : grid3.Coords, EltTy.bits .bf16 = 32 ∨ (Rect.block (s := S4096x3072) S1024x1536.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1536.size a ≤ S4096x3072.size a
  hwx3_2 : ∀ i : grid3.Coords, EltTy.bits .f32 = 32 ∨ (Rect.block (s := S4096x3072) S1024x1536.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x960.size a ≤ S65536x960.size a
  hwx4_0 : ∀ i : grid4.Coords, EltTy.bits .bf16 = 32 ∨ (Rect.block (s := S65536x960) S4096x960.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S960x128.size a ≤ S960x128.size a
  hwx4_1 : ∀ i : grid4.Coords, EltTy.bits .bf16 = 32 ∨ (Rect.block (s := S960x128) S960x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4096x128.size a ≤ S65536x128.size a
  hwx4_3 : ∀ i : grid4.Coords, EltTy.bits .f32 = 32 ∨ (Rect.block (s := S65536x128) S4096x128.size (cc4_transform_3 i) (hinb4_3 i)).WholeWords (EltTy.packing .f32)

variable [Facts₀]

def scatter_S4096x4096_S65536x2_S65536_n_01_01_1 : ScatterDims S4096x4096 S65536x2 S65536 where
  updateWindowDims := []
  insertedWindowDims := [0, 1]
  scatterDimsToOperandDims := [0, 1]
  indexVectorDim := 1
  wf := scatter_S4096x4096_S65536x2_S65536_n_01_01_1_wf
def dot_S1024x1024_S1024x1536_S1024x1536_1_0_0_1_n_n : DotDims S1024x1024 S1024x1536 S1024x1536 where
  lhsContracting := [1]
  rhsContracting := [0]
  lhsNonContracting := [0]
  rhsNonContracting := [1]
  lhsBatch := []
  rhsBatch := []
  wf := dot_S1024x1024_S1024x1536_S1024x1536_1_0_0_1_n_n_wf
def dot_S4096x960_S960x128_S4096x128_1_0_0_1_n_n : DotDims S4096x960 S960x128 S4096x128 where
  lhsContracting := [1]
  rhsContracting := [0]
  lhsNonContracting := [0]
  rhsNonContracting := [1]
  lhsBatch := []
  rhsBatch := []
  wf := dot_S4096x960_S960x128_S4096x128_1_0_0_1_n_n_wf

abbrev win0_0 : Pipeline.Window sig grid0 :=
  Pipeline.Window.ofSpec (Memref.whole main_v24) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S1024x1536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1024x1536.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v24) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1024x1536.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1024x1536.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v53) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S1024x1536.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1024x1536.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v53) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S1024x1536.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S1024x1536.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v70) S4096x960.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71) S960x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg3) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v72) S4096x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S16x4096x64 : Shape := ⟨3, ![16, 4096, 64]⟩
abbrev S16x4096x128 : Shape := ⟨3, ![16, 4096, 128]⟩
abbrev S960x128 : Shape := ⟨2, ![960, 128]⟩
abbrev S128 : Shape := ⟨1, ![128]⟩
abbrev S2x65536 : Shape := ⟨2, ![2, 65536]⟩
abbrev S16x4096x192 : Shape := ⟨3, ![16, 4096, 192]⟩
abbrev S4096x192x16 : Shape := ⟨3, ![4096, 192, 16]⟩
abbrev S4096x3072 : Shape := ⟨2, ![4096, 3072]⟩
abbrev S1x65536 : Shape := ⟨2, ![1, 65536]⟩
abbrev S65536 : Shape := ⟨1, ![65536]⟩
abbrev S65536x1 : Shape := ⟨2, ![65536, 1]⟩
abbrev S_ : Shape := ⟨0, ![]⟩
abbrev S65536x3072 : Shape := ⟨2, ![65536, 3072]⟩
abbrev S1x4096x3072 : Shape := ⟨3, ![1, 4096, 3072]⟩
abbrev S5x4096x3072 : Shape := ⟨3, ![5, 4096, 3072]⟩
abbrev S5x4096x192x16 : Shape := ⟨4, ![5, 4096, 192, 16]⟩
abbrev S16x4096x192x5 : Shape := ⟨4, ![16, 4096, 192, 5]⟩
abbrev S65536x960 : Shape := ⟨2, ![65536, 960]⟩
abbrev S65536x128 : Shape := ⟨2, ![65536, 128]⟩
abbrev S1x128 : Shape := ⟨2, ![1, 128]⟩

abbrev nBuf : Space → Nat
  | .hbm => 109
  | .vmem => 0
  | .smem => 0
  | _ => 0

abbrev bufTy : (tb : Table) → Fin (tcTables nBuf tb) → BufTy
  | .hbm, ⟨0, _⟩ => ⟨S16x4096x64, .f32⟩
  | .hbm, ⟨1, _⟩ => ⟨S16x4096x128, .f32⟩
  | .hbm, ⟨2, _⟩ => ⟨S960x128, .f32⟩
  | .hbm, ⟨3, _⟩ => ⟨S128, .f32⟩
  | .hbm, ⟨4, _⟩ => ⟨S2x65536, .i32⟩
  | .hbm, ⟨5, _⟩ => ⟨S2x65536, .i32⟩
  | .hbm, ⟨6, _⟩ => ⟨S2x65536, .f32⟩
  | .hbm, ⟨7, _⟩ => ⟨S16x4096x192, .f32⟩
  | .hbm, ⟨8, _⟩ => ⟨S4096x192x16, .f32⟩
  | .hbm, ⟨9, _⟩ => ⟨S4096x3072, .f32⟩
  | .hbm, ⟨10, _⟩ => ⟨S1x65536, .i32⟩
  | .hbm, ⟨11, _⟩ => ⟨S65536, .i32⟩
  | .hbm, ⟨12, _⟩ => ⟨S1x65536, .i32⟩
  | .hbm, ⟨13, _⟩ => ⟨S65536, .i32⟩
  | .hbm, ⟨14, _⟩ => ⟨S1x65536, .f32⟩
  | .hbm, ⟨15, _⟩ => ⟨S65536, .f32⟩
  | .hbm, ⟨16, _⟩ => ⟨S65536x1, .f32⟩
  | .hbm, ⟨17, _⟩ => ⟨S_, .i32⟩
  | .hbm, ⟨18, _⟩ => ⟨S65536, .i32⟩
  | .hbm, ⟨19, _⟩ => ⟨S65536, .i1⟩
  | .hbm, ⟨20, _⟩ => ⟨S_, .i32⟩
  | .hbm, ⟨21, _⟩ => ⟨S65536, .i32⟩
  | .hbm, ⟨22, _⟩ => ⟨S65536, .i32⟩
  | .hbm, ⟨23, _⟩ => ⟨S65536, .i32⟩
  | .hbm, ⟨24, _⟩ => ⟨S65536x1, .i32⟩
  | .hbm, ⟨25, _⟩ => ⟨S65536x3072, .f32⟩
  | .hbm, ⟨26, _⟩ => ⟨S65536x3072, .f32⟩
  | .hbm, ⟨27, _⟩ => ⟨S65536x3072, .f32⟩
  | .hbm, ⟨28, _⟩ => ⟨S_, .f32⟩
  | .hbm, ⟨29, _⟩ => ⟨S4096x3072, .f32⟩
  | .hbm, ⟨30, _⟩ => ⟨S65536x1, .i32⟩
  | .hbm, ⟨31, _⟩ => ⟨S4096x3072, .f32⟩
  | .hbm, ⟨32, _⟩ => ⟨S65536x1, .f32⟩
  | .hbm, ⟨33, _⟩ => ⟨S_, .i32⟩
  | .hbm, ⟨34, _⟩ => ⟨S65536, .i32⟩
  | .hbm, ⟨35, _⟩ => ⟨S65536, .i1⟩
  | .hbm, ⟨36, _⟩ => ⟨S_, .i32⟩
  | .hbm, ⟨37, _⟩ => ⟨S65536, .i32⟩
  | .hbm, ⟨38, _⟩ => ⟨S65536, .i32⟩
  | .hbm, ⟨39, _⟩ => ⟨S65536, .i32⟩
  | .hbm, ⟨40, _⟩ => ⟨S65536x1, .i32⟩
  | .hbm, ⟨41, _⟩ => ⟨S65536x3072, .f32⟩
  | .hbm, ⟨42, _⟩ => ⟨S65536x3072, .f32⟩
  | .hbm, ⟨43, _⟩ => ⟨S65536x3072, .f32⟩
  | .hbm, ⟨44, _⟩ => ⟨S_, .f32⟩
  | .hbm, ⟨45, _⟩ => ⟨S4096x3072, .f32⟩
  | .hbm, ⟨46, _⟩ => ⟨S65536x1, .i32⟩
  | .hbm, ⟨47, _⟩ => ⟨S4096x3072, .f32⟩
  | .hbm, ⟨48, _⟩ => ⟨S_, .f32⟩
  | .hbm, ⟨49, _⟩ => ⟨S4096x3072, .f32⟩
  | .hbm, ⟨50, _⟩ => ⟨S4096x3072, .f32⟩
  | .hbm, ⟨51, _⟩ => ⟨S4096x3072, .f32⟩
  | .hbm, ⟨52, _⟩ => ⟨S1x65536, .i32⟩
  | .hbm, ⟨53, _⟩ => ⟨S65536, .i32⟩
  | .hbm, ⟨54, _⟩ => ⟨S1x65536, .i32⟩
  | .hbm, ⟨55, _⟩ => ⟨S65536, .i32⟩
  | .hbm, ⟨56, _⟩ => ⟨S1x65536, .f32⟩
  | .hbm, ⟨57, _⟩ => ⟨S65536, .f32⟩
  | .hbm, ⟨58, _⟩ => ⟨S65536x1, .f32⟩
  | .hbm, ⟨59, _⟩ => ⟨S_, .i32⟩
  | .hbm, ⟨60, _⟩ => ⟨S65536, .i32⟩
  | .hbm, ⟨61, _⟩ => ⟨S65536, .i1⟩
  | .hbm, ⟨62, _⟩ => ⟨S_, .i32⟩
  | .hbm, ⟨63, _⟩ => ⟨S65536, .i32⟩
  | .hbm, ⟨64, _⟩ => ⟨S65536, .i32⟩
  | .hbm, ⟨65, _⟩ => ⟨S65536, .i32⟩
  | .hbm, ⟨66, _⟩ => ⟨S65536x1, .i32⟩
  | .hbm, ⟨67, _⟩ => ⟨S65536x3072, .f32⟩
  | .hbm, ⟨68, _⟩ => ⟨S65536x3072, .f32⟩
  | .hbm, ⟨69, _⟩ => ⟨S65536x3072, .f32⟩
  | .hbm, ⟨70, _⟩ => ⟨S_, .f32⟩
  | .hbm, ⟨71, _⟩ => ⟨S4096x3072, .f32⟩
  | .hbm, ⟨72, _⟩ => ⟨S65536x1, .i32⟩
  | .hbm, ⟨73, _⟩ => ⟨S4096x3072, .f32⟩
  | .hbm, ⟨74, _⟩ => ⟨S65536x1, .f32⟩
  | .hbm, ⟨75, _⟩ => ⟨S_, .i32⟩
  | .hbm, ⟨76, _⟩ => ⟨S65536, .i32⟩
  | .hbm, ⟨77, _⟩ => ⟨S65536, .i1⟩
  | .hbm, ⟨78, _⟩ => ⟨S_, .i32⟩
  | .hbm, ⟨79, _⟩ => ⟨S65536, .i32⟩
  | .hbm, ⟨80, _⟩ => ⟨S65536, .i32⟩
  | .hbm, ⟨81, _⟩ => ⟨S65536, .i32⟩
  | .hbm, ⟨82, _⟩ => ⟨S65536x1, .i32⟩
  | .hbm, ⟨83, _⟩ => ⟨S65536x3072, .f32⟩
  | .hbm, ⟨84, _⟩ => ⟨S65536x3072, .f32⟩
  | .hbm, ⟨85, _⟩ => ⟨S65536x3072, .f32⟩
  | .hbm, ⟨86, _⟩ => ⟨S_, .f32⟩
  | .hbm, ⟨87, _⟩ => ⟨S4096x3072, .f32⟩
  | .hbm, ⟨88, _⟩ => ⟨S65536x1, .i32⟩
  | .hbm, ⟨89, _⟩ => ⟨S4096x3072, .f32⟩
  | .hbm, ⟨90, _⟩ => ⟨S_, .f32⟩
  | .hbm, ⟨91, _⟩ => ⟨S4096x3072, .f32⟩
  | .hbm, ⟨92, _⟩ => ⟨S4096x3072, .f32⟩
  | .hbm, ⟨93, _⟩ => ⟨S4096x3072, .f32⟩
  | .hbm, ⟨94, _⟩ => ⟨S1x4096x3072, .f32⟩
  | .hbm, ⟨95, _⟩ => ⟨S1x4096x3072, .f32⟩
  | .hbm, ⟨96, _⟩ => ⟨S1x4096x3072, .f32⟩
  | .hbm, ⟨97, _⟩ => ⟨S1x4096x3072, .f32⟩
  | .hbm, ⟨98, _⟩ => ⟨S1x4096x3072, .f32⟩
  | .hbm, ⟨99, _⟩ => ⟨S5x4096x3072, .f32⟩
  | .hbm, ⟨100, _⟩ => ⟨S5x4096x192x16, .f32⟩
  | .hbm, ⟨101, _⟩ => ⟨S16x4096x192x5, .f32⟩
  | .hbm, ⟨102, _⟩ => ⟨S65536x960, .f32⟩
  | .hbm, ⟨103, _⟩ => ⟨S65536x128, .f32⟩
  | .hbm, ⟨104, _⟩ => ⟨S1x128, .f32⟩
  | .hbm, ⟨105, _⟩ => ⟨S65536x128, .f32⟩
  | .hbm, ⟨106, _⟩ => ⟨S65536x128, .f32⟩
  | .hbm, ⟨107, _⟩ => ⟨S65536x128, .f32⟩
  | .hbm, ⟨108, _⟩ => ⟨S16x4096x128, .f32⟩
  | _, _ => ⟨S16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_1 : Ref sig .tc := ⟨.hbm, 33, rfl⟩
abbrev main_v23 : Ref sig .tc := ⟨.hbm, 34, rfl⟩
abbrev main_v24 : Ref sig .tc := ⟨.hbm, 35, rfl⟩
abbrev main_c_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_5 : Ref sig .tc := ⟨.hbm, 59, rfl⟩
abbrev main_v45 : Ref sig .tc := ⟨.hbm, 60, rfl⟩
abbrev main_v46 : Ref sig .tc := ⟨.hbm, 61, rfl⟩
abbrev main_c_6 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_7 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c_8 : Ref sig .tc := ⟨.hbm, 75, rfl⟩
abbrev main_v58 : Ref sig .tc := ⟨.hbm, 76, rfl⟩
abbrev main_v59 : Ref sig .tc := ⟨.hbm, 77, rfl⟩
abbrev main_c_9 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_10 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_11 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩

abbrev nD : Nat := 1
abbrev τ : Topo := Topo.v7x

variable {F : FTy → Type} [FloatOps F]

class Facts₀ : Prop where
  concatenates_S16x4096x64_S16x4096x128_S16x4096x192_d2 : Shape.Concatenates [S16x4096x64, S16x4096x128] S16x4096x192 2
  transposes_S16x4096x192_S4096x192x16_1_2_0 : S16x4096x192.Transposes [1, 2, 0] S4096x192x16
  shapeCasts_S4096x192x16_S4096x3072 : S4096x192x16.ShapeCasts S4096x3072
  slices_S2x65536_S1x65536_0_0 : S2x65536.Slices ![0, 0] S1x65536
  shapeCasts_S1x65536_S65536 : S1x65536.ShapeCasts S65536
  bcast_S65536_S65536x1_0 : S65536.BroadcastsInDim S65536x1 (![0] : Fin 1 → Fin S65536x1.rank)
  bcast_S_S65536 : S_.BroadcastsInDim S65536 (![] : Fin 0 → Fin S65536.rank)
  bcast_S65536x1_S65536x3072_0_1 : S65536x1.BroadcastsInDim S65536x3072 (![0, 1] : Fin 2 → Fin S65536x3072.rank)
  bcast_S_S4096x3072 : S_.BroadcastsInDim S4096x3072 (![] : Fin 0 → Fin S4096x3072.rank)
  slices_S2x65536_S1x65536_1_0 : S2x65536.Slices ![1, 0] S1x65536
  bcast_S4096x3072_S1x4096x3072_1_2 : S4096x3072.BroadcastsInDim S1x4096x3072 (![1, 2] : Fin 2 → Fin S1x4096x3072.rank)
  concatenates_S1x4096x3072_S1x4096x3072_S1x4096x3072_S1x4096x3072_S1x4096x3072_S5x4096x3072_d0 : Shape.Concatenates [S1x4096x3072, S1x4096x3072, S1x4096x3072, S1x4096x3072, S1x4096x3072] S5x4096x3072 0
  shapeCasts_S5x4096x3072_S5x4096x192x16 : S5x4096x3072.ShapeCasts S5x4096x192x16
  transposes_S5x4096x192x16_S16x4096x192x5_3_1_2_0 : S5x4096x192x16.Transposes [3, 1, 2, 0] S16x4096x192x5
  shapeCasts_S16x4096x192x5_S65536x960 : S16x4096x192x5.ShapeCasts S65536x960
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  shapeCasts_S65536x128_S16x4096x128 : S65536x128.ShapeCasts S16x4096x128
  gather_S4096x3072_S65536x1_S65536x3072_1_0_n_n_0_1_13072_wf : GatherDims.WF S4096x3072 S65536x1 S65536x3072 [1] [0] [] [0] [] 1 ![1, 3072]
  scatter_S4096x3072_S65536x1_S65536x3072_1_0_0_1_wf : ScatterDims.WF S4096x3072 S65536x1 S65536x3072 [1] [0] [0] 1
  dot_S65536x960_S960x128_S65536x128_1_0_0_1_n_n_wf : DotDims.WF S65536x960 S960x128 S65536x128 [1] [0] [0] [1] [] []

variable [Facts₀]

def gather_S4096x3072_S65536x1_S65536x3072_1_0_n_n_0_1_13072 : GatherDims S4096x3072 S65536x1 S65536x3072 where
  offsetDims := [1]
  collapsedSliceDims := [0]
  operandBatchingDims := []
  startIndicesBatchingDims := []
  startIndexMap := [0]
  indexVectorDim := 1
  sliceSizes := ![1, 3072]
  wf := gather_S4096x3072_S65536x1_S65536x3072_1_0_n_n_0_1_13072_wf
def scatter_S4096x3072_S65536x1_S65536x3072_1_0_0_1 : ScatterDims S4096x3072 S65536x1 S65536x3072 where
  updateWindowDims := [1]
  insertedWindowDims := [0]
  scatterDimsToOperandDims := [0]
  indexVectorDim := 1
  wf := scatter_S4096x3072_S65536x1_S65536x3072_1_0_0_1_wf
def dot_S65536x960_S960x128_S65536x128_1_0_0_1_n_n : DotDims S65536x960 S960x128 S65536x128 where
  lhsContracting := [1]
  rhsContracting := [0]
  lhsNonContracting := [0]
  rhsNonContracting := [1]
  lhsBatch := []
  rhsBatch := []
  wf := dot_S65536x960_S960x128_S65536x128_1_0_0_1_n_n_wf

class Facts : Prop extends Facts₀ where

variable [Facts]
-- ==== Proof.RegionFinalBits.lean ====
/- The final TensorCore region (custom call 4, the kernel `cc4__final_kernel`) of `Kernel`: its proof data and its
   body obligation, at a parameter `V` — the TensorCore's buffer contents when the region is entered.

   The region is a pipeline over a grid of 16 points with four windows: window 0 the row block `[4096, 960]` of the
   left operand (block index `(i, 0)`), window 1 the whole right operand `[960, 128]` (index `(0, 0)`), window 2 the
   whole bias `[128]` (index `(0)`), window 3 the row block `[4096, 128]` of the result (index `(i, 0)`). The body
   reads the three input blocks whole and stores `tanh (x · w + bias)` over the whole output block: one control case,
   whole-block loads and one whole-block store. -/
import proofs.«106054_j120259084553_1_alg».proof.Proof.Gen.Kernel.Launch
import proofs.«106054_j120259084553_1_alg».proof.Proof.Gen.Kernel.Skeleton
import proofs.«106054_j120259084553_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents is decided by a structural recursion, once per coordinate of
-- the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`: the entries of its array, as the region finds it (`V`), at the block's
    indices. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, for any proof data whose array is
    `V`'s (`hA`) and whose body leaves the block in place (`hafter`): at a point where it is fetched it holds what
    the fetch brought; at a point where it is not, the block index has not moved since the point before, and the
    body left the block there. The window is uncut and has no idle point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (constant block index: fetched at the first point only) holds its block at every point, by the
    same argument: after the first point the index never moves and the body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2 (constant block index) holds its block at every point, likewise. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev r4_0 : Rect S4096x960 := Rect.unit (s := S4096x960) ![0, 0] S4096x960.size inb_S4096x960_S4096x960_0_0
abbrev r4_1 : Rect S960x128 := Rect.unit (s := S960x128) ![0, 0] S960x128.size inb_S960x128_S960x128_0_0
abbrev r4_2 : Rect S128 := Rect.unit (s := S128) ![0] S128.size inb_S128_S128_0
abbrev r4_3 : Rect S4096x128 := Rect.unit (s := S4096x128) ![0, 0] S4096x128.size inb_S4096x128_S4096x128_0_0

/-! ## What the body leaves in the output window's buffer -/

/-- Window 3's staging buffer after the body, from the three input blocks: its one store, over the whole buffer,
    of `tanh (x0 · x1 + x2)` (the payload `k4_pay1` of the values loaded through the whole-buffer rectangles). -/
def out4_3 (x0 : Vec F S4096x960 .bf16) (x1 : Vec F S960x128 .bf16) (x2 : Vec F S128 .f32) : Vec F S4096x128 .f32 :=
  View.canon [⟨r4_3, k4_pay1 (View.ld x0 r4_0) (View.ld x1 r4_1) (View.ld x2 r4_2)⟩]

/-- The one store is of the whole buffer, so it covers every index (the tiling checked by evaluation). -/
theorem cover4_3 (p0 : Vec F S4096x128 .f32) (y : S4096x128.Idx) :
    ∃ pc ∈ ([⟨r4_3, p0⟩] : List (View.Piece (Elt F) S4096x128 .f32)), y ∈ pc.1.set :=
  View.cover_of_tiled [⟨r4_3, p0⟩] S4096x128.size (by rfl) y

/-! ## The body's triple -/

set_option maxHeartbeats 1000000 in
/-- The kernel body on whole staging memrefs, the inputs' at read contents `x0`, `x1`, `x2` and the output's at
    anything, runs to the continuation holding the inputs' as they were and the output's at `out4_3` of the inputs:
    three whole-buffer loads, a load of the output buffer whose value is not used, and one whole-buffer store. -/
theorem sound_kernel4 (c : Dev nD) (E : Set ℕ) (i : grid4.Coords)
    (arg1 : Memref sig .tc .vmem S4096x960 .bf16) (harg1 : arg1.IsWhole) (arg2 : Memref sig .tc .vmem S960x128 .bf16) (harg2 : arg2.IsWhole)
    (arg3 : Memref sig .tc .vmem S128 .f32) (harg3 : arg3.IsWhole) (arg4 : Memref sig .tc .vmem S4096x128 .f32) (harg4 : arg4.IsWhole)
    (x0 : Vec F S4096x960 .bf16) (x1 : Vec F S960x128 .bf16) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__final_kernel i arg1 harg1 arg2 harg2 arg3 harg3 arg4 harg4) K := by
  simp only [cc4__final_kernel_eq_skeleton]; unfold cc4__final_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of the region's pipeline on core `c`: the arrays as the region finds them (`V`); after the body
    at point `t` each input's buffer at its block and the output's at `out4_3` of the three input blocks; the
    invariant "the scoped rest and the generator register, untouched"; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents (the definition projected). -/
theorem A_eq4 (c : Dev nD) (w : Fin cfg4.W) : (dat4 V c).A w = V c (Pipeline.arrRef spec4 w) := by
  dsimp only [dat4]

/-- What the body leaves, window by window (the definition's case split reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`: the invariant, what is owed, and each window's current staging
    buffer at what the pipeline left in it, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns: the same invariant and debt, each buffer at what the proof data says the body leaves. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks (`before4_W`), so `sound_kernel4` applies; the
    invariant and what is owed pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.MatmulRun0Bits.lean ====
/-
  The first diffusion product A·X as a blocked matrix product: the grid is (4, 2, 4), point t = (i, j, k) with
  k = t mod 4 the contraction block.  The body keeps a 1024×1536 accumulator in a scratch buffer: at k = 0 it is
  reset to zero, at every k the product of the point's 1024×1024 block of A and 1024×1536 block of X is added to
  it, and at k = 3 it is copied to the output block.  This module runs the body once per control case
  (k = 0; 0 < k < 3; k = 3) on whole staging buffers and states what the scratch and the output hold afterwards.
-/
import proofs.«106054_j120259084553_1_alg».proof.Proof.Gen.Kernel.Launch
import proofs.«106054_j120259084553_1_alg».proof.Proof.Gen.Kernel.Skeleton
import proofs.«106054_j120259084553_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, decided over the grid -/

/-- The reset branch is taken where the contraction coordinate is zero. -/
abbrev cond0_0 (i : grid0.Coords) : Prop :=
  (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The copy-out branch is taken where the contraction coordinate is the last one. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last contraction block the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The staging memrefs and the scratch -/

abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1536 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1536 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S1024x1536 .f32 := Memref.whole cc0_scratch0

/-- The region's invariant before the first point, with the accumulator named: it is owned at some contents,
    beside the other scoped buffers and the generator register. -/
theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; rfl

/-! ## What one step does to the accumulator -/

/-- One accumulation step: the accumulator `s` plus the product of the block `a` of A and the block `x` of X. -/
abbrev step0 (s : Vec F S1024x1536 .f32) (a : Vec F S1024x1024 .bf16) (x : Vec F S1024x1536 .bf16) : Vec F S1024x1536 .f32 :=
  k0_pay2 s a x
/-- The first step starts from the zero block. -/
abbrev first0 (a : Vec F S1024x1024 .bf16) (x : Vec F S1024x1536 .bf16) : Vec F S1024x1536 .f32 :=
  k0_pay2 (k0_pay1 (F := F)) a x

theorem hz2 : (![0, 0] : Fin 2 → Nat) = fun _ => 0 := by funext a; fin_cases a <;> rfl

/-- A list of stores whose last one (listed first) is the whole accumulator block covers the block. -/
theorem cover_whole (p : Vec F S1024x1536 .f32) (L : List (View.Piece (Elt F) S1024x1536 .f32)) (y : S1024x1536.Idx) :
    ∃ pc ∈ ((⟨Rect.unit (s := S1024x1536) ![0, 0] S1024x1536.size inb_S1024x1536_S1024x1536_0_0, p⟩ : View.Piece (Elt F) S1024x1536 .f32) :: L), y ∈ pc.1.set :=
  ⟨_, List.mem_cons_self, View.mem_set_unit_zero hz2 inb_S1024x1536_S1024x1536_0_0 y⟩

/-! ## The body, case by case -/

set_option maxHeartbeats 4000000 in
/-- At a point with k = 0 the body leaves the inputs and the (idle) output buffer as they were and the accumulator
    at the first step's value, whatever it held. -/
theorem run0_A (c : Dev nD) (i : grid0.Coords) (arg3 : Memref sig .tc .vmem S1024x1024 .bf16) (harg3 : arg3.IsWhole)
    (arg4 : Memref sig .tc .vmem S1024x1536 .bf16) (harg4 : arg4.IsWhole) (arg5 : Memref sig .tc .vmem S1024x1536 .f32) (harg5 : arg5.IsWhole)
    (arg6 : Memref sig .tc .vmem S1024x1536 .f32) (harg6 : arg6.IsWhole) (hc0 : cond0_0 i) (hc1 : ¬cond0_1 i)
    (a : Vec F S1024x1024 .bf16) (x : Vec F S1024x1536 .bf16) (xi : Vec F S1024x1536 .f32) (E : Set ℕ) (K : PUnit → sProp 𝕄) :
    iprop(owns (c : Thread nD τ) arg3 fullShare a ∗ owns (c : Thread nD τ) arg4 fullShare x ∗ owns (c : Thread nD τ) arg5 fullShare xi
        ∗ (∃ d, owns (c : Thread nD τ) arg6 fullShare d)
        ∗ (iprop(owns (c : Thread nD τ) arg3 fullShare a ∗ owns (c : Thread nD τ) arg4 fullShare x ∗ owns (c : Thread nD τ) arg5 fullShare xi
            ∗ owns (c : Thread nD τ) arg6 fullShare (first0 a x)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  rw [View.read_writes_eq_canon _ _ _ (cover_whole _ _), View.canon_cons_unit_zero hz2]
  sl_unfold_run_names
  simp only [View.readAt_eq_ld, hf0, hf1, View.ld_unit_zero (S := S1024x1536) hz2, View.ld_unit_zero (S := S1024x1024) hz2]
  exact congrArg (fun z => k0_pay2 z a x) (View.readCov_unit_zero arg6.view hz2 _ _)

set_option maxHeartbeats 4000000 in
/-- At a point with 0 < k < 3 the body leaves the inputs and the (idle) output buffer as they were and moves the
    accumulator from `s` to one step further. -/
theorem run0_B (c : Dev nD) (i : grid0.Coords) (arg3 : Memref sig .tc .vmem S1024x1024 .bf16) (harg3 : arg3.IsWhole)
    (arg4 : Memref sig .tc .vmem S1024x1536 .bf16) (harg4 : arg4.IsWhole) (arg5 : Memref sig .tc .vmem S1024x1536 .f32) (harg5 : arg5.IsWhole)
    (arg6 : Memref sig .tc .vmem S1024x1536 .f32) (harg6 : arg6.IsWhole) (hc0 : ¬cond0_0 i) (hc1 : ¬cond0_1 i)
    (a : Vec F S1024x1024 .bf16) (x : Vec F S1024x1536 .bf16) (xi : Vec F S1024x1536 .f32) (s : Vec F S1024x1536 .f32) (E : Set ℕ) (K : PUnit → sProp 𝕄) :
    iprop(owns (c : Thread nD τ) arg3 fullShare a ∗ owns (c : Thread nD τ) arg4 fullShare x ∗ owns (c : Thread nD τ) arg5 fullShare xi
        ∗ owns (c : Thread nD τ) arg6 fullShare s
        ∗ (iprop(owns (c : Thread nD τ) arg3 fullShare a ∗ owns (c : Thread nD τ) arg4 fullShare x ∗ owns (c : Thread nD τ) arg5 fullShare xi
            ∗ owns (c : Thread nD τ) arg6 fullShare (step0 s a x)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2
  obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  sl_unfold_run_names
  rw [View.read_writes_eq_canon _ _ _ (cover_whole _ []), View.canon_unit_zero hz2]
  simp only [View.readAt_eq_ld, hf0, hf1, hfs, View.ld_unit_zero (S := S1024x1536) hz2, View.ld_unit_zero (S := S1024x1024) hz2]

set_option maxHeartbeats 4000000 in
/-- At a point with k = 3 the body moves the accumulator from `s` one step further and stores it into the output
    block, whatever that held. -/
theorem run0_C (c : Dev nD) (i : grid0.Coords) (arg3 : Memref sig .tc .vmem S1024x1024 .bf16) (harg3 : arg3.IsWhole)
    (arg4 : Memref sig .tc .vmem S1024x1536 .bf16) (harg4 : arg4.IsWhole) (arg5 : Memref sig .tc .vmem S1024x1536 .f32) (harg5 : arg5.IsWhole)
    (arg6 : Memref sig .tc .vmem S1024x1536 .f32) (harg6 : arg6.IsWhole) (hc0 : ¬cond0_0 i) (hc1 : cond0_1 i)
    (a : Vec F S1024x1024 .bf16) (x : Vec F S1024x1536 .bf16) (s : Vec F S1024x1536 .f32) (E : Set ℕ) (K : PUnit → sProp 𝕄) :
    iprop(owns (c : Thread nD τ) arg3 fullShare a ∗ owns (c : Thread nD τ) arg4 fullShare x ∗ (∃ d, owns (c : Thread nD τ) arg5 fullShare d)
        ∗ owns (c : Thread nD τ) arg6 fullShare s
        ∗ (iprop(owns (c : Thread nD τ) arg3 fullShare a ∗ owns (c : Thread nD τ) arg4 fullShare x ∗ owns (c : Thread nD τ) arg5 fullShare (step0 s a x)
            ∗ owns (c : Thread nD τ) arg6 fullShare (step0 s a x)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1
  obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    rw [View.read_writes_eq_canon _ _ _ (cover_whole _ []), View.canon_unit_zero hz2]
    sl_unfold_run_names
    simp only [View.readAt_eq_ld, hf0, hf1, hfs, View.ld_unit_zero (S := S1024x1536) hz2, View.ld_unit_zero (S := S1024x1024) hz2]
    exact View.readCov_unit_zero arg6.view hz2 _ _
  iexists _; isplitr
  swap; · iexact HS
  ipureintro
  sl_unfold_run_names
  rw [View.read_writes_eq_canon _ _ _ (cover_whole _ []), View.canon_unit_zero hz2]
  simp only [View.readAt_eq_ld, hf0, hf1, hfs, View.ld_unit_zero (S := S1024x1536) hz2, View.ld_unit_zero (S := S1024x1024) hz2]

end Cert.Kernel.Hand

end
-- ==== Proof.Matmul0Bits.lean ====
/-
  The first diffusion product as proof data for the pipeline: the arrays as the region finds them, the accumulator's
  contents after every grid point (a running sum over the contraction blocks, restarted at k = 0), what each staging
  buffer holds after the body, and the body's obligation at every point.
-/
import proofs.«106054_j120259084553_1_alg».proof.Proof.Gen.Kernel.Launch
import proofs.«106054_j120259084553_1_alg».proof.Proof.Gen.Kernel.Skeleton
import proofs.«106054_j120259084553_1_alg».proof.Proof.Gen.Kernel.Points
import proofs.«106054_j120259084553_1_alg».proof.Proof.MatmulRun0Bits
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of A sits in its current staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The block of X sits in its current staging buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator after each point -/

/-- The accumulator after the body at position `n`: the first step's value where k = n mod 4 = 0, else one step
    further than after position `n − 1`. -/
def acc0 (c : Dev nD) : (n : ℕ) → n < cfg0.N → Vec F S1024x1536 .f32
  | 0, hn => first0 (iblk0 V c 0 ⟨0, hn⟩) (iblk0 V c 1 ⟨0, hn⟩)
  | n + 1, hn =>
    if (n + 1) % 4 = 0 then first0 (iblk0 V c 0 ⟨n + 1, hn⟩) (iblk0 V c 1 ⟨n + 1, hn⟩)
    else step0 (acc0 c n (Nat.lt_of_succ_lt hn)) (iblk0 V c 0 ⟨n + 1, hn⟩) (iblk0 V c 1 ⟨n + 1, hn⟩)

theorem acc0_first (c : Dev nD) (t : Fin cfg0.N) (h0 : t.val % 4 = 0) :
    acc0 V c t.val t.isLt = first0 (iblk0 V c 0 t) (iblk0 V c 1 t) := by
  obtain ⟨n, hn⟩ := t
  cases n with
  | zero => rfl
  | succ n => exact if_pos h0

theorem acc0_step (c : Dev nD) (t : Fin cfg0.N) (h0 : ¬t.val % 4 = 0) :
    acc0 V c t.val t.isLt = step0 (acc0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h0
  | succ n => exact if_neg h0

/-! ## The region's invariant -/

/-- Before position `n`: at the start the class's invariant (the accumulator at anything); afterwards the accumulator
    at what the point before left, beside the other scoped buffers and the generator register. -/
def PhiS0 (c : Dev nD) : (n : ℕ) → n ≤ cfg0.N → sProp 𝕄
  | 0, _ => Pipeline.ΦA spec0 c
  | n + 1, hn => iprop(iprop(owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega))
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The arrays as the region finds them; after the body each input's buffer at its block and the output's at the
    accumulator; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; k = t mod 4 says which case the point is in; the
    invariant hands the body the accumulator (at anything at the very first point, else at what the point before
    left) and takes it back at this point's value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h1 : t.val % 4 = 3
  · -- k = 3: accumulate and copy out
    have h0 : ¬t.val % 4 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [acc0_step V c t h0]
    rw [PhiS0_castSucc V c t, PhiS0_pos V c _ _ hz]
    iintro ⟨⟨⟨HS, HR⟩, Hg⟩, Ho, ⟨%d0, H0⟩, ⟨%d1, H1⟩, ⟨%d2, H2⟩⟩
    iapply (run0_C c (grid0.coords t) _ _ _ _ _ _ _ _ (fun h => h0 ((hcond0_0 t).mp h)) ((hcond0_1 t).mpr h1) (iblk0 V c 0 t) (iblk0 V c 1 t) _ Set.univ _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · rw [Dat.leavesExact_idle (dat0 V c) 2 t (idleAt0_2 t (fun h => h1 ((hcond0_1 t).mp h))) (noFlush0_2 t (fun h => h1 ((hcond0_1 t).mp h)))]
    by_cases h0 : t.val % 4 = 0
    · -- k = 0: reset and accumulate
      rw [acc0_first V c t h0]
      by_cases hz : t.val = 0
      · rw [PhiS0_castSucc V c t, PhiS0_zero V c _ _ hz, PhiA0_eq]
        iintro ⟨⟨⟨HS, HR⟩, Hg⟩, Ho, ⟨%d0, H0⟩, ⟨%d1, H1⟩, ⟨%d2, H2⟩⟩
        iapply (run0_A c (grid0.coords t) _ _ _ _ _ _ _ _ ((hcond0_0 t).mpr h0) (fun h => h1 ((hcond0_1 t).mp h)) (iblk0 V c 0 t) (iblk0 V c 1 t) _ Set.univ _)
        isplitl [H0]; · iexact H0
        isplitl [H1]; · iexact H1
        isplitl [H2]; · iexact H2
        isplitl [HS]; · iexact HS
        iintro ⟨H0, H1, H2, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS, HR⟩, Hg⟩, Ho, ⟨%d0, H0⟩, ⟨%d1, H1⟩, ⟨%d2, H2⟩⟩
        iapply (run0_A c (grid0.coords t) _ _ _ _ _ _ _ _ ((hcond0_0 t).mpr h0) (fun h => h1 ((hcond0_1 t).mp h)) (iblk0 V c 0 t) (iblk0 V c 1 t) _ Set.univ _)
        isplitl [H0]; · iexact H0
        isplitl [H1]; · iexact H1
        isplitl [H2]; · iexact H2
        isplitl [HS]; · iexists _; iexact HS
        iintro ⟨H0, H1, H2, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact H2
    · -- 0 < k < 3: accumulate
      have hz : t.val ≠ 0 := by omega
      rw [acc0_step V c t h0]
      rw [PhiS0_castSucc V c t, PhiS0_pos V c _ _ hz]
      iintro ⟨⟨⟨HS, HR⟩, Hg⟩, Ho, ⟨%d0, H0⟩, ⟨%d1, H1⟩, ⟨%d2, H2⟩⟩
      iapply (run0_B c (grid0.coords t) _ _ _ _ _ _ _ _ (fun h => h0 ((hcond0_0 t).mp h)) (fun h => h1 ((hcond0_1 t).mp h)) (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS, HR⟩, Hg⟩
  isplitl [HS HR]
  · isplitl [HS]; · iexists _; iexact HS
    iexact HR
  iexact Hg

end

end Cert.Kernel.Hand

end
-- ==== Proof.MatmulRun1Bits.lean ====
/-
  The second diffusion product A·X as a blocked matrix product: the grid is (4, 2, 4), point t = (i, j, k) with
  k = t mod 4 the contraction block.  The body keeps a 1024×1536 accumulator in a scratch buffer: at k = 0 it is
  reset to zero, at every k the product of the point's 1024×1024 block of A and 1024×1536 block of X is added to
  it, and at k = 3 it is copied to the output block.  This module runs the body once per control case
  (k = 0; 0 < k < 3; k = 3) on whole staging buffers and states what the scratch and the output hold afterwards.
-/
import proofs.«106054_j120259084553_1_alg».proof.Proof.Gen.Kernel.Launch
import proofs.«106054_j120259084553_1_alg».proof.Proof.Gen.Kernel.Skeleton
import proofs.«106054_j120259084553_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, decided over the grid -/

/-- The reset branch is taken where the contraction coordinate is zero. -/
abbrev cond1_0 (i : grid1.Coords) : Prop :=
  (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The copy-out branch is taken where the contraction coordinate is the last one. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last contraction block the output window is idle and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The staging memrefs and the scratch -/

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1536 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1536 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1 : Memref sig .tc .vmem S1024x1536 .f32 := Memref.whole cc1_scratch0

/-- The region's invariant before the first point, with the accumulator named: it is owned at some contents,
    beside the other scoped buffers and the generator register. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; rfl

/-! ## What one step does to the accumulator -/

/-- One accumulation step: the accumulator `s` plus the product of the block `a` of A and the block `x` of X. -/
abbrev step1 (s : Vec F S1024x1536 .f32) (a : Vec F S1024x1024 .bf16) (x : Vec F S1024x1536 .bf16) : Vec F S1024x1536 .f32 :=
  k1_pay2 s a x
/-- The first step starts from the zero block. -/
abbrev first1 (a : Vec F S1024x1024 .bf16) (x : Vec F S1024x1536 .bf16) : Vec F S1024x1536 .f32 :=
  k1_pay2 (k1_pay1 (F := F)) a x

theorem hz2_1 : (![0, 0] : Fin 2 → Nat) = fun _ => 0 := by funext a; fin_cases a <;> rfl

/-- A list of stores whose last one (listed first) is the whole accumulator block covers the block. -/
theorem cover_whole_1 (p : Vec F S1024x1536 .f32) (L : List (View.Piece (Elt F) S1024x1536 .f32)) (y : S1024x1536.Idx) :
    ∃ pc ∈ ((⟨Rect.unit (s := S1024x1536) ![0, 0] S1024x1536.size inb_S1024x1536_S1024x1536_0_0, p⟩ : View.Piece (Elt F) S1024x1536 .f32) :: L), y ∈ pc.1.set :=
  ⟨_, List.mem_cons_self, View.mem_set_unit_zero hz2_1 inb_S1024x1536_S1024x1536_0_0 y⟩

/-! ## The body, case by case -/

set_option maxHeartbeats 4000000 in
/-- At a point with k = 0 the body leaves the inputs and the (idle) output buffer as they were and the accumulator
    at the first step's value, whatever it held. -/
theorem run1_A (c : Dev nD) (i : grid1.Coords) (arg3 : Memref sig .tc .vmem S1024x1024 .bf16) (harg3 : arg3.IsWhole)
    (arg4 : Memref sig .tc .vmem S1024x1536 .bf16) (harg4 : arg4.IsWhole) (arg5 : Memref sig .tc .vmem S1024x1536 .f32) (harg5 : arg5.IsWhole)
    (arg6 : Memref sig .tc .vmem S1024x1536 .f32) (harg6 : arg6.IsWhole) (hc0 : cond1_0 i) (hc1 : ¬cond1_1 i)
    (a : Vec F S1024x1024 .bf16) (x : Vec F S1024x1536 .bf16) (xi : Vec F S1024x1536 .f32) (E : Set ℕ) (K : PUnit → sProp 𝕄) :
    iprop(owns (c : Thread nD τ) arg3 fullShare a ∗ owns (c : Thread nD τ) arg4 fullShare x ∗ owns (c : Thread nD τ) arg5 fullShare xi
        ∗ (∃ d, owns (c : Thread nD τ) arg6 fullShare d)
        ∗ (iprop(owns (c : Thread nD τ) arg3 fullShare a ∗ owns (c : Thread nD τ) arg4 fullShare x ∗ owns (c : Thread nD τ) arg5 fullShare xi
            ∗ owns (c : Thread nD τ) arg6 fullShare (first1 a x)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  rw [View.read_writes_eq_canon _ _ _ (cover_whole_1 _ _), View.canon_cons_unit_zero hz2_1]
  sl_unfold_run_names
  simp only [View.readAt_eq_ld, hf0, hf1, View.ld_unit_zero (S := S1024x1536) hz2_1, View.ld_unit_zero (S := S1024x1024) hz2_1]
  exact congrArg (fun z => k1_pay2 z a x) (View.readCov_unit_zero arg6.view hz2_1 _ _)

set_option maxHeartbeats 4000000 in
/-- At a point with 0 < k < 3 the body leaves the inputs and the (idle) output buffer as they were and moves the
    accumulator from `s` to one step further. -/
theorem run1_B (c : Dev nD) (i : grid1.Coords) (arg3 : Memref sig .tc .vmem S1024x1024 .bf16) (harg3 : arg3.IsWhole)
    (arg4 : Memref sig .tc .vmem S1024x1536 .bf16) (harg4 : arg4.IsWhole) (arg5 : Memref sig .tc .vmem S1024x1536 .f32) (harg5 : arg5.IsWhole)
    (arg6 : Memref sig .tc .vmem S1024x1536 .f32) (harg6 : arg6.IsWhole) (hc0 : ¬cond1_0 i) (hc1 : ¬cond1_1 i)
    (a : Vec F S1024x1024 .bf16) (x : Vec F S1024x1536 .bf16) (xi : Vec F S1024x1536 .f32) (s : Vec F S1024x1536 .f32) (E : Set ℕ) (K : PUnit → sProp 𝕄) :
    iprop(owns (c : Thread nD τ) arg3 fullShare a ∗ owns (c : Thread nD τ) arg4 fullShare x ∗ owns (c : Thread nD τ) arg5 fullShare xi
        ∗ owns (c : Thread nD τ) arg6 fullShare s
        ∗ (iprop(owns (c : Thread nD τ) arg3 fullShare a ∗ owns (c : Thread nD τ) arg4 fullShare x ∗ owns (c : Thread nD τ) arg5 fullShare xi
            ∗ owns (c : Thread nD τ) arg6 fullShare (step1 s a x)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2
  obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  sl_unfold_run_names
  rw [View.read_writes_eq_canon _ _ _ (cover_whole_1 _ []), View.canon_unit_zero hz2_1]
  simp only [View.readAt_eq_ld, hf0, hf1, hfs, View.ld_unit_zero (S := S1024x1536) hz2_1, View.ld_unit_zero (S := S1024x1024) hz2_1]

set_option maxHeartbeats 4000000 in
/-- At a point with k = 3 the body moves the accumulator from `s` one step further and stores it into the output
    block, whatever that held. -/
theorem run1_C (c : Dev nD) (i : grid1.Coords) (arg3 : Memref sig .tc .vmem S1024x1024 .bf16) (harg3 : arg3.IsWhole)
    (arg4 : Memref sig .tc .vmem S1024x1536 .bf16) (harg4 : arg4.IsWhole) (arg5 : Memref sig .tc .vmem S1024x1536 .f32) (harg5 : arg5.IsWhole)
    (arg6 : Memref sig .tc .vmem S1024x1536 .f32) (harg6 : arg6.IsWhole) (hc0 : ¬cond1_0 i) (hc1 : cond1_1 i)
    (a : Vec F S1024x1024 .bf16) (x : Vec F S1024x1536 .bf16) (s : Vec F S1024x1536 .f32) (E : Set ℕ) (K : PUnit → sProp 𝕄) :
    iprop(owns (c : Thread nD τ) arg3 fullShare a ∗ owns (c : Thread nD τ) arg4 fullShare x ∗ (∃ d, owns (c : Thread nD τ) arg5 fullShare d)
        ∗ owns (c : Thread nD τ) arg6 fullShare s
        ∗ (iprop(owns (c : Thread nD τ) arg3 fullShare a ∗ owns (c : Thread nD τ) arg4 fullShare x ∗ owns (c : Thread nD τ) arg5 fullShare (step1 s a x)
            ∗ owns (c : Thread nD τ) arg6 fullShare (step1 s a x)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1
  obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    rw [View.read_writes_eq_canon _ _ _ (cover_whole_1 _ []), View.canon_unit_zero hz2_1]
    sl_unfold_run_names
    simp only [View.readAt_eq_ld, hf0, hf1, hfs, View.ld_unit_zero (S := S1024x1536) hz2_1, View.ld_unit_zero (S := S1024x1024) hz2_1]
    exact View.readCov_unit_zero arg6.view hz2_1 _ _
  iexists _; isplitr
  swap; · iexact HS
  ipureintro
  sl_unfold_run_names
  rw [View.read_writes_eq_canon _ _ _ (cover_whole_1 _ []), View.canon_unit_zero hz2_1]
  simp only [View.readAt_eq_ld, hf0, hf1, hfs, View.ld_unit_zero (S := S1024x1536) hz2_1, View.ld_unit_zero (S := S1024x1024) hz2_1]

end Cert.Kernel.Hand

end
-- ==== Proof.Matmul1Bits.lean ====
/-
  The second diffusion product as proof data for the pipeline: the arrays as the region finds them, the accumulator's
  contents after every grid point (a running sum over the contraction blocks, restarted at k = 0), what each staging
  buffer holds after the body, and the body's obligation at every point.
-/
import proofs.«106054_j120259084553_1_alg».proof.Proof.Gen.Kernel.Launch
import proofs.«106054_j120259084553_1_alg».proof.Proof.Gen.Kernel.Skeleton
import proofs.«106054_j120259084553_1_alg».proof.Proof.Gen.Kernel.Points
import proofs.«106054_j120259084553_1_alg».proof.Proof.MatmulRun1Bits
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of A sits in its current staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The block of X sits in its current staging buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator after each point -/

/-- The accumulator after the body at position `n`: the first step's value where k = n mod 4 = 0, else one step
    further than after position `n − 1`. -/
def acc1 (c : Dev nD) : (n : ℕ) → n < cfg1.N → Vec F S1024x1536 .f32
  | 0, hn => first1 (iblk1 V c 0 ⟨0, hn⟩) (iblk1 V c 1 ⟨0, hn⟩)
  | n + 1, hn =>
    if (n + 1) % 4 = 0 then first1 (iblk1 V c 0 ⟨n + 1, hn⟩) (iblk1 V c 1 ⟨n + 1, hn⟩)
    else step1 (acc1 c n (Nat.lt_of_succ_lt hn)) (iblk1 V c 0 ⟨n + 1, hn⟩) (iblk1 V c 1 ⟨n + 1, hn⟩)

theorem acc1_first (c : Dev nD) (t : Fin cfg1.N) (h0 : t.val % 4 = 0) :
    acc1 V c t.val t.isLt = first1 (iblk1 V c 0 t) (iblk1 V c 1 t) := by
  obtain ⟨n, hn⟩ := t
  cases n with
  | zero => rfl
  | succ n => exact if_pos h0

theorem acc1_step (c : Dev nD) (t : Fin cfg1.N) (h0 : ¬t.val % 4 = 0) :
    acc1 V c t.val t.isLt = step1 (acc1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => exact if_neg h0

/-! ## The region's invariant -/

/-- Before position `n`: at the start the class's invariant (the accumulator at anything); afterwards the accumulator
    at what the point before left, beside the other scoped buffers and the generator register. -/
def PhiS1 (c : Dev nD) : (n : ℕ) → n ≤ cfg1.N → sProp 𝕄
  | 0, _ => Pipeline.ΦA spec1 c
  | n + 1, hn => iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The arrays as the region finds them; after the body each input's buffer at its block and the output's at the
    accumulator; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; k = t mod 4 says which case the point is in; the
    invariant hands the body the accumulator (at anything at the very first point, else at what the point before
    left) and takes it back at this point's value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h1 : t.val % 4 = 3
  · -- k = 3: accumulate and copy out
    have h0 : ¬t.val % 4 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [acc1_step V c t h0]
    rw [PhiS1_castSucc V c t, PhiS1_pos V c _ _ hz]
    iintro ⟨⟨⟨HS, HR⟩, Hg⟩, Ho, ⟨%d0, H0⟩, ⟨%d1, H1⟩, ⟨%d2, H2⟩⟩
    iapply (run1_C c (grid1.coords t) _ _ _ _ _ _ _ _ (fun h => h0 ((hcond1_0 t).mp h)) ((hcond1_1 t).mpr h1) (iblk1 V c 0 t) (iblk1 V c 1 t) _ Set.univ _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · rw [Dat.leavesExact_idle (dat1 V c) 2 t (idleAt1_2 t (fun h => h1 ((hcond1_1 t).mp h))) (noFlush1_2 t (fun h => h1 ((hcond1_1 t).mp h)))]
    by_cases h0 : t.val % 4 = 0
    · -- k = 0: reset and accumulate
      rw [acc1_first V c t h0]
      by_cases hz : t.val = 0
      · rw [PhiS1_castSucc V c t, PhiS1_zero V c _ _ hz, PhiA1_eq]
        iintro ⟨⟨⟨HS, HR⟩, Hg⟩, Ho, ⟨%d0, H0⟩, ⟨%d1, H1⟩, ⟨%d2, H2⟩⟩
        iapply (run1_A c (grid1.coords t) _ _ _ _ _ _ _ _ ((hcond1_0 t).mpr h0) (fun h => h1 ((hcond1_1 t).mp h)) (iblk1 V c 0 t) (iblk1 V c 1 t) _ Set.univ _)
        isplitl [H0]; · iexact H0
        isplitl [H1]; · iexact H1
        isplitl [H2]; · iexact H2
        isplitl [HS]; · iexact HS
        iintro ⟨H0, H1, H2, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS, HR⟩, Hg⟩, Ho, ⟨%d0, H0⟩, ⟨%d1, H1⟩, ⟨%d2, H2⟩⟩
        iapply (run1_A c (grid1.coords t) _ _ _ _ _ _ _ _ ((hcond1_0 t).mpr h0) (fun h => h1 ((hcond1_1 t).mp h)) (iblk1 V c 0 t) (iblk1 V c 1 t) _ Set.univ _)
        isplitl [H0]; · iexact H0
        isplitl [H1]; · iexact H1
        isplitl [H2]; · iexact H2
        isplitl [HS]; · iexists _; iexact HS
        iintro ⟨H0, H1, H2, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact H2
    · -- 0 < k < 3: accumulate
      have hz : t.val ≠ 0 := by omega
      rw [acc1_step V c t h0]
      rw [PhiS1_castSucc V c t, PhiS1_pos V c _ _ hz]
      iintro ⟨⟨⟨HS, HR⟩, Hg⟩, Ho, ⟨%d0, H0⟩, ⟨%d1, H1⟩, ⟨%d2, H2⟩⟩
      iapply (run1_B c (grid1.coords t) _ _ _ _ _ _ _ _ (fun h => h0 ((hcond1_0 t).mp h)) (fun h => h1 ((hcond1_1 t).mp h)) (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨HS, HR⟩, Hg⟩
  isplitl [HS HR]
  · isplitl [HS]; · iexists _; iexact HS
    iexact HR
  iexact Hg

end

end Cert.Kernel.Hand

end
-- ==== Proof.MatmulRun2Bits.lean ====
/-
  The third diffusion product A·X as a blocked matrix product: the grid is (4, 2, 4), point t = (i, j, k) with
  k = t mod 4 the contraction block.  The body keeps a 1024×1536 accumulator in a scratch buffer: at k = 0 it is
  reset to zero, at every k the product of the point's 1024×1024 block of A and 1024×1536 block of X is added to
  it, and at k = 3 it is copied to the output block.  This module runs the body once per control case
  (k = 0; 0 < k < 3; k = 3) on whole staging buffers and states what the scratch and the output hold afterwards.
-/
import proofs.«106054_j120259084553_1_alg».proof.Proof.Gen.Kernel.Launch
import proofs.«106054_j120259084553_1_alg».proof.Proof.Gen.Kernel.Skeleton
import proofs.«106054_j120259084553_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, decided over the grid -/

/-- The reset branch is taken where the contraction coordinate is zero. -/
abbrev cond2_0 (i : grid2.Coords) : Prop :=
  (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- The copy-out branch is taken where the contraction coordinate is the last one. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- Away from the last contraction block the output window is idle and is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-! ## The staging memrefs and the scratch -/

abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1536 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1536 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2 : Memref sig .tc .vmem S1024x1536 .f32 := Memref.whole cc2_scratch0

/-- The region's invariant before the first point, with the accumulator named: it is owned at some contents,
    beside the other scoped buffers and the generator register. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; rfl

/-! ## What one step does to the accumulator -/

/-- One accumulation step: the accumulator `s` plus the product of the block `a` of A and the block `x` of X. -/
abbrev step2 (s : Vec F S1024x1536 .f32) (a : Vec F S1024x1024 .bf16) (x : Vec F S1024x1536 .bf16) : Vec F S1024x1536 .f32 :=
  k2_pay2 s a x
/-- The first step starts from the zero block. -/
abbrev first2 (a : Vec F S1024x1024 .bf16) (x : Vec F S1024x1536 .bf16) : Vec F S1024x1536 .f32 :=
  k2_pay2 (k2_pay1 (F := F)) a x

theorem hz2_2 : (![0, 0] : Fin 2 → Nat) = fun _ => 0 := by funext a; fin_cases a <;> rfl

/-- A list of stores whose last one (listed first) is the whole accumulator block covers the block. -/
theorem cover_whole_2 (p : Vec F S1024x1536 .f32) (L : List (View.Piece (Elt F) S1024x1536 .f32)) (y : S1024x1536.Idx) :
    ∃ pc ∈ ((⟨Rect.unit (s := S1024x1536) ![0, 0] S1024x1536.size inb_S1024x1536_S1024x1536_0_0, p⟩ : View.Piece (Elt F) S1024x1536 .f32) :: L), y ∈ pc.1.set :=
  ⟨_, List.mem_cons_self, View.mem_set_unit_zero hz2_2 inb_S1024x1536_S1024x1536_0_0 y⟩

/-! ## The body, case by case -/

set_option maxHeartbeats 4000000 in
/-- At a point with k = 0 the body leaves the inputs and the (idle) output buffer as they were and the accumulator
    at the first step's value, whatever it held. -/
theorem run2_A (c : Dev nD) (i : grid2.Coords) (arg3 : Memref sig .tc .vmem S1024x1024 .bf16) (harg3 : arg3.IsWhole)
    (arg4 : Memref sig .tc .vmem S1024x1536 .bf16) (harg4 : arg4.IsWhole) (arg5 : Memref sig .tc .vmem S1024x1536 .f32) (harg5 : arg5.IsWhole)
    (arg6 : Memref sig .tc .vmem S1024x1536 .f32) (harg6 : arg6.IsWhole) (hc0 : cond2_0 i) (hc1 : ¬cond2_1 i)
    (a : Vec F S1024x1024 .bf16) (x : Vec F S1024x1536 .bf16) (xi : Vec F S1024x1536 .f32) (E : Set ℕ) (K : PUnit → sProp 𝕄) :
    iprop(owns (c : Thread nD τ) arg3 fullShare a ∗ owns (c : Thread nD τ) arg4 fullShare x ∗ owns (c : Thread nD τ) arg5 fullShare xi
        ∗ (∃ d, owns (c : Thread nD τ) arg6 fullShare d)
        ∗ (iprop(owns (c : Thread nD τ) arg3 fullShare a ∗ owns (c : Thread nD τ) arg4 fullShare x ∗ owns (c : Thread nD τ) arg5 fullShare xi
            ∗ owns (c : Thread nD τ) arg6 fullShare (first2 a x)) -∗ K ⟨⟩))
      ⊢ wp frame (wpE (defs₀ (F := F)) Variants.none c none) E (cc2__matmul_kernel i arg3 harg3 arg4 harg4 arg5 harg5 arg6 harg6) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  rw [View.read_writes_eq_canon _ _ _ (cover_whole_2 _ _), View.canon_cons_unit_zero hz2_2]
  sl_unfold_run_names
  simp only [View.readAt_eq_ld, hf0, hf1, View.ld_unit_zero (S := S1024x1536) hz2_2, View.ld_unit_zero (S := S1024x1024) hz2_2]
  exact congrArg (fun z => k2_pay2 z a x) (View.readCov_unit_zero arg6.view hz2_2 _ _)

set_option maxHeartbeats 4000000 in
/-- At a point with 0 < k < 3 the body leaves the inputs and the (idle) output buffer as they were and moves the
    accumulator from `s` to one step further. -/
theorem run2_B (c : Dev nD) (i : grid2.Coords) (arg3 : Memref sig .tc .vmem S1024x1024 .bf16) (harg3 : arg3.IsWhole)
    (arg4 : Memref sig .tc .vmem S1024x1536 .bf16) (harg4 : arg4.IsWhole) (arg5 : Memref sig .tc .vmem S1024x1536 .f32) (harg5 : arg5.IsWhole)
    (arg6 : Memref sig .tc .vmem S1024x1536 .f32) (harg6 : arg6.IsWhole) (hc0 : ¬cond2_0 i) (hc1 : ¬cond2_1 i)
    (a : Vec F S1024x1024 .bf16) (x : Vec F S1024x1536 .bf16) (xi : Vec F S1024x1536 .f32) (s : Vec F S1024x1536 .f32) (E : Set ℕ) (K : PUnit → sProp 𝕄) :
    iprop(owns (c : Thread nD τ) arg3 fullShare a ∗ owns (c : Thread nD τ) arg4 fullShare x ∗ owns (c : Thread nD τ) arg5 fullShare xi
        ∗ owns (c : Thread nD τ) arg6 fullShare s
        ∗ (iprop(owns (c : Thread nD τ) arg3 fullShare a ∗ owns (c : Thread nD τ) arg4 fullShare x ∗ owns (c : Thread nD τ) arg5 fullShare xi
            ∗ owns (c : Thread nD τ) arg6 fullShare (step2 s a x)) -∗ K ⟨⟩))
      ⊢ wp frame (wpE (defs₀ (F := F)) Variants.none c none) E (cc2__matmul_kernel i arg3 harg3 arg4 harg4 arg5 harg5 arg6 harg6) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2
  obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  sl_unfold_run_names
  rw [View.read_writes_eq_canon _ _ _ (cover_whole_2 _ []), View.canon_unit_zero hz2_2]
  simp only [View.readAt_eq_ld, hf0, hf1, hfs, View.ld_unit_zero (S := S1024x1536) hz2_2, View.ld_unit_zero (S := S1024x1024) hz2_2]

set_option maxHeartbeats 4000000 in
/-- At a point with k = 3 the body moves the accumulator from `s` one step further and stores it into the output
    block, whatever that held. -/
theorem run2_C (c : Dev nD) (i : grid2.Coords) (arg3 : Memref sig .tc .vmem S1024x1024 .bf16) (harg3 : arg3.IsWhole)
    (arg4 : Memref sig .tc .vmem S1024x1536 .bf16) (harg4 : arg4.IsWhole) (arg5 : Memref sig .tc .vmem S1024x1536 .f32) (harg5 : arg5.IsWhole)
    (arg6 : Memref sig .tc .vmem S1024x1536 .f32) (harg6 : arg6.IsWhole) (hc0 : ¬cond2_0 i) (hc1 : cond2_1 i)
    (a : Vec F S1024x1024 .bf16) (x : Vec F S1024x1536 .bf16) (s : Vec F S1024x1536 .f32) (E : Set ℕ) (K : PUnit → sProp 𝕄) :
    iprop(owns (c : Thread nD τ) arg3 fullShare a ∗ owns (c : Thread nD τ) arg4 fullShare x ∗ (∃ d, owns (c : Thread nD τ) arg5 fullShare d)
        ∗ owns (c : Thread nD τ) arg6 fullShare s
        ∗ (iprop(owns (c : Thread nD τ) arg3 fullShare a ∗ owns (c : Thread nD τ) arg4 fullShare x ∗ owns (c : Thread nD τ) arg5 fullShare (step2 s a x)
            ∗ owns (c : Thread nD τ) arg6 fullShare (step2 s a x)) -∗ K ⟨⟩))
      ⊢ wp frame (wpE (defs₀ (F := F)) Variants.none c none) E (cc2__matmul_kernel i arg3 harg3 arg4 harg4 arg5 harg5 arg6 harg6) K := by
  simp only [cc2__matmul_kernel_eq_skeleton]; unfold cc2__matmul_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1
  obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    rw [View.read_writes_eq_canon _ _ _ (cover_whole_2 _ []), View.canon_unit_zero hz2_2]
    sl_unfold_run_names
    simp only [View.readAt_eq_ld, hf0, hf1, hfs, View.ld_unit_zero (S := S1024x1536) hz2_2, View.ld_unit_zero (S := S1024x1024) hz2_2]
    exact View.readCov_unit_zero arg6.view hz2_2 _ _
  iexists _; isplitr
  swap; · iexact HS
  ipureintro
  sl_unfold_run_names
  rw [View.read_writes_eq_canon _ _ _ (cover_whole_2 _ []), View.canon_unit_zero hz2_2]
  simp only [View.readAt_eq_ld, hf0, hf1, hfs, View.ld_unit_zero (S := S1024x1536) hz2_2, View.ld_unit_zero (S := S1024x1024) hz2_2]

end Cert.Kernel.Hand

end
-- ==== Proof.Matmul2Bits.lean ====
/-
  The third diffusion product as proof data for the pipeline: the arrays as the region finds them, the accumulator's
  contents after every grid point (a running sum over the contraction blocks, restarted at k = 0), what each staging
  buffer holds after the body, and the body's obligation at every point.
-/
import proofs.«106054_j120259084553_1_alg».proof.Proof.Gen.Kernel.Launch
import proofs.«106054_j120259084553_1_alg».proof.Proof.Gen.Kernel.Skeleton
import proofs.«106054_j120259084553_1_alg».proof.Proof.Gen.Kernel.Points
import proofs.«106054_j120259084553_1_alg».proof.Proof.MatmulRun2Bits
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of A sits in its current staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The block of X sits in its current staging buffer at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The accumulator after each point -/

/-- The accumulator after the body at position `n`: the first step's value where k = n mod 4 = 0, else one step
    further than after position `n − 1`. -/
def acc2 (c : Dev nD) : (n : ℕ) → n < cfg2.N → Vec F S1024x1536 .f32
  | 0, hn => first2 (iblk2 V c 0 ⟨0, hn⟩) (iblk2 V c 1 ⟨0, hn⟩)
  | n + 1, hn =>
    if (n + 1) % 4 = 0 then first2 (iblk2 V c 0 ⟨n + 1, hn⟩) (iblk2 V c 1 ⟨n + 1, hn⟩)
    else step2 (acc2 c n (Nat.lt_of_succ_lt hn)) (iblk2 V c 0 ⟨n + 1, hn⟩) (iblk2 V c 1 ⟨n + 1, hn⟩)

theorem acc2_first (c : Dev nD) (t : Fin cfg2.N) (h0 : t.val % 4 = 0) :
    acc2 V c t.val t.isLt = first2 (iblk2 V c 0 t) (iblk2 V c 1 t) := by
  obtain ⟨n, hn⟩ := t
  cases n with
  | zero => rfl
  | succ n => exact if_pos h0

theorem acc2_step (c : Dev nD) (t : Fin cfg2.N) (h0 : ¬t.val % 4 = 0) :
    acc2 V c t.val t.isLt = step2 (acc2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h0
  | succ n => exact if_neg h0

/-! ## The region's invariant -/

/-- Before position `n`: at the start the class's invariant (the accumulator at anything); afterwards the accumulator
    at what the point before left, beside the other scoped buffers and the generator register. -/
def PhiS2 (c : Dev nD) : (n : ℕ) → n ≤ cfg2.N → sProp 𝕄
  | 0, _ => Pipeline.ΦA spec2 c
  | n + 1, hn => iprop(iprop(owns (c : Thread nD τ) scM2 fullShare (acc2 V c n hn)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (acc2 V c n hn)
      ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2 fullShare (acc2 V c (n - 1) (by omega))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The arrays as the region finds them; after the body each input's buffer at its block and the output's at the
    accumulator; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' buffers hold their blocks; k = t mod 4 says which case the point is in; the
    invariant hands the body the accumulator (at anything at the very first point, else at what the point before
    left) and takes it back at this point's value. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h1 : t.val % 4 = 3
  · -- k = 3: accumulate and copy out
    have h0 : ¬t.val % 4 = 0 := by omega
    have hz : t.val ≠ 0 := by omega
    rw [show (dat2 V c).leavesExact 2 t = owns (c : Thread nD τ) (ms2_2 t) fullShare ((dat2 V c).after 2 t) from by
      unfold Dat.leavesExact; rw [liveAt2_2 t ((hcond2_1 t).mpr h1)], after2_2]
    rw [acc2_step V c t h0]
    rw [PhiS2_castSucc V c t, PhiS2_pos V c _ _ hz]
    iintro ⟨⟨⟨HS, HR⟩, Hg⟩, Ho, ⟨%d0, H0⟩, ⟨%d1, H1⟩, ⟨%d2, H2⟩⟩
    iapply (run2_C c (grid2.coords t) _ _ _ _ _ _ _ _ (fun h => h0 ((hcond2_0 t).mp h)) ((hcond2_1 t).mpr h1) (iblk2 V c 0 t) (iblk2 V c 1 t) _ Set.univ _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · rw [Dat.leavesExact_idle (dat2 V c) 2 t (idleAt2_2 t (fun h => h1 ((hcond2_1 t).mp h))) (noFlush2_2 t (fun h => h1 ((hcond2_1 t).mp h)))]
    by_cases h0 : t.val % 4 = 0
    · -- k = 0: reset and accumulate
      rw [acc2_first V c t h0]
      by_cases hz : t.val = 0
      · rw [PhiS2_castSucc V c t, PhiS2_zero V c _ _ hz, PhiA2_eq]
        iintro ⟨⟨⟨HS, HR⟩, Hg⟩, Ho, ⟨%d0, H0⟩, ⟨%d1, H1⟩, ⟨%d2, H2⟩⟩
        iapply (run2_A c (grid2.coords t) _ _ _ _ _ _ _ _ ((hcond2_0 t).mpr h0) (fun h => h1 ((hcond2_1 t).mp h)) (iblk2 V c 0 t) (iblk2 V c 1 t) _ Set.univ _)
        isplitl [H0]; · iexact H0
        isplitl [H1]; · iexact H1
        isplitl [H2]; · iexact H2
        isplitl [HS]; · iexact HS
        iintro ⟨H0, H1, H2, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact H2
      · rw [PhiS2_castSucc V c t, PhiS2_pos V c _ _ hz]
        iintro ⟨⟨⟨HS, HR⟩, Hg⟩, Ho, ⟨%d0, H0⟩, ⟨%d1, H1⟩, ⟨%d2, H2⟩⟩
        iapply (run2_A c (grid2.coords t) _ _ _ _ _ _ _ _ ((hcond2_0 t).mpr h0) (fun h => h1 ((hcond2_1 t).mp h)) (iblk2 V c 0 t) (iblk2 V c 1 t) _ Set.univ _)
        isplitl [H0]; · iexact H0
        isplitl [H1]; · iexact H1
        isplitl [H2]; · iexact H2
        isplitl [HS]; · iexists _; iexact HS
        iintro ⟨H0, H1, H2, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact H2
    · -- 0 < k < 3: accumulate
      have hz : t.val ≠ 0 := by omega
      rw [acc2_step V c t h0]
      rw [PhiS2_castSucc V c t, PhiS2_pos V c _ _ hz]
      iintro ⟨⟨⟨HS, HR⟩, Hg⟩, Ho, ⟨%d0, H0⟩, ⟨%d1, H1⟩, ⟨%d2, H2⟩⟩
      iapply (run2_B c (grid2.coords t) _ _ _ _ _ _ _ _ (fun h => h0 ((hcond2_0 t).mp h)) (fun h => h1 ((hcond2_1 t).mp h)) (iblk2 V c 0 t) (iblk2 V c 1 t) _ _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]

/-- After the last point the invariant gives the class's back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega), PhiA2_eq]
  iintro ⟨⟨HS, HR⟩, Hg⟩
  isplitl [HS HR]
  · isplitl [HS]; · iexists _; iexact HS
    iexact HR
  iexact Hg

end

end Cert.Kernel.Hand

end
-- ==== Proof.MatmulRun3Bits.lean ====
/-
  The fourth diffusion product A·X as a blocked matrix product: the grid is (4, 2, 4), point t = (i, j, k) with
  k = t mod 4 the contraction block.  The body keeps a 1024×1536 accumulator in a scratch buffer: at k = 0 it is
  reset to zero, at every k the product of the point's 1024×1024 block of A and 1024×1536 block of X is added to
  it, and at k = 3 it is copied to the output block.  This module runs the body once per control case
  (k = 0; 0 < k < 3; k = 3) on whole staging buffers and states what the scratch and the output hold afterwards.
-/
import proofs.«106054_j120259084553_1_alg».proof.Proof.Gen.Kernel.Launch
import proofs.«106054_j120259084553_1_alg».proof.Proof.Gen.Kernel.Skeleton
import proofs.«106054_j120259084553_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, decided over the grid -/

/-- The reset branch is taken where the contraction coordinate is zero. -/
abbrev cond3_0 (i : grid3.Coords) : Prop :=
  (Scalar.cmpi .ne (Scalar.extui (Scalar.cmpi .eq (BitVec.ofNat 32 (i 2).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)

/-- The copy-out branch is taken where the contraction coordinate is the last one. -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
/-- Away from the last contraction block the output window is idle and is not written back. -/
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
theorem liveAt3_2 : ∀ t : Fin cfg3.N, cond3_1 (grid3.coords t) → cfg3.idle 2 (grid3.coords t) = false := by decide +kernel

/-! ## The staging memrefs and the scratch -/

abbrev ms3_0 (t : Fin cfg3.N) : Memref sig .tc .vmem S1024x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1536 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x1536 .f32 := win3_2.stage (cfg3.slots t 2)
abbrev hs3_2 (t : Fin cfg3.N) : (ms3_2 t).IsWhole := hstage3_2 ((cfg3.slots t 2).cast nbuf3_2)
/-- The accumulator: a whole scoped buffer of the kernel's own. -/
abbrev scM3 : Memref sig .tc .vmem S1024x1536 .f32 := Memref.whole cc3_scratch0

/-- The region's invariant before the first point, with the accumulator named: it is owned at some contents,
    beside the other scoped buffers and the generator register. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; rfl

/-! ## What one step does to the accumulator -/

/-- One accumulation step: the accumulator `s` plus the product of the block `a` of A and the block `x` of X. -/
abbrev step3 (s : Vec F S1024x1536 .f32) (a : Vec F S1024x1024 .bf16) (x : Vec F S1024x1536 .bf16) : Vec F S1024x1536 .f32 :=
  k3_pay2 s a x
/-- The first step starts from the zero block. -/
abbrev first3 (a : Vec F S1024x1024 .bf16) (x : Vec F S1024x1536 .bf16) : Vec F S1024x1536 .f32 :=
  k3_pay2 (k3_pay1 (F := F)) a x

theorem hz2_3 : (![0, 0] : Fin 2 → Nat) = fun _ => 0 := by funext a; fin_cases a <;> rfl

/-- A list of stores whose last one (listed first) is the whole accumulator block covers the block. -/
theorem cover_whole_3 (p : Vec F S1024x1536 .f32) (L : List (View.Piece (Elt F) S1024x1536 .f32)) (y : S1024x1536.Idx) :
    ∃ pc ∈ ((⟨Rect.unit (s := S1024x1536) ![0, 0] S1024x1536.size inb_S1024x1536_S1024x1536_0_0, p⟩ : View.Piece (Elt F) S1024x1536 .f32) :: L), y ∈ pc.1.set :=
  ⟨_, List.mem_cons_self, View.mem_set_unit_zero hz2_3 inb_S1024x1536_S1024x1536_0_0 y⟩

/-! ## The body, case by case -/

set_option maxHeartbeats 4000000 in
/-- At a point with k = 0 the body leaves the inputs and the (idle) output buffer as they were and the accumulator
    at the first step's value, whatever it held. -/
theorem run3_A (c : Dev nD) (i : grid3.Coords) (arg3 : Memref sig .tc .vmem S1024x1024 .bf16) (harg3 : arg3.IsWhole)
    (arg4 : Memref sig .tc .vmem S1024x1536 .bf16) (harg4 : arg4.IsWhole) (arg5 : Memref sig .tc .vmem S1024x1536 .f32) (harg5 : arg5.IsWhole)
    (arg6 : Memref sig .tc .vmem S1024x1536 .f32) (harg6 : arg6.IsWhole) (hc0 : cond3_0 i) (hc1 : ¬cond3_1 i)
    (a : Vec F S1024x1024 .bf16) (x : Vec F S1024x1536 .bf16) (xi : Vec F S1024x1536 .f32) (E : Set ℕ) (K : PUnit → sProp 𝕄) :
    iprop(owns (c : Thread nD τ) arg3 fullShare a ∗ owns (c : Thread nD τ) arg4 fullShare x ∗ owns (c : Thread nD τ) arg5 fullShare xi
        ∗ (∃ d, owns (c : Thread nD τ) arg6 fullShare d)
        ∗ (iprop(owns (c : Thread nD τ) arg3 fullShare a ∗ owns (c : Thread nD τ) arg4 fullShare x ∗ owns (c : Thread nD τ) arg5 fullShare xi
            ∗ owns (c : Thread nD τ) arg6 fullShare (first3 a x)) -∗ K ⟨⟩))
      ⊢ wp frame (wpE (defs₀ (F := F)) Variants.none c none) E (cc3__matmul_kernel i arg3 harg3 arg4 harg4 arg5 harg5 arg6 harg6) K := by
  simp only [cc3__matmul_kernel_eq_skeleton]; unfold cc3__matmul_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  rw [View.read_writes_eq_canon _ _ _ (cover_whole_3 _ _), View.canon_cons_unit_zero hz2_3]
  sl_unfold_run_names
  simp only [View.readAt_eq_ld, hf0, hf1, View.ld_unit_zero (S := S1024x1536) hz2_3, View.ld_unit_zero (S := S1024x1024) hz2_3]
  exact congrArg (fun z => k3_pay2 z a x) (View.readCov_unit_zero arg6.view hz2_3 _ _)

set_option maxHeartbeats 4000000 in
/-- At a point with 0 < k < 3 the body leaves the inputs and the (idle) output buffer as they were and moves the
    accumulator from `s` to one step further. -/
theorem run3_B (c : Dev nD) (i : grid3.Coords) (arg3 : Memref sig .tc .vmem S1024x1024 .bf16) (harg3 : arg3.IsWhole)
    (arg4 : Memref sig .tc .vmem S1024x1536 .bf16) (harg4 : arg4.IsWhole) (arg5 : Memref sig .tc .vmem S1024x1536 .f32) (harg5 : arg5.IsWhole)
    (arg6 : Memref sig .tc .vmem S1024x1536 .f32) (harg6 : arg6.IsWhole) (hc0 : ¬cond3_0 i) (hc1 : ¬cond3_1 i)
    (a : Vec F S1024x1024 .bf16) (x : Vec F S1024x1536 .bf16) (xi : Vec F S1024x1536 .f32) (s : Vec F S1024x1536 .f32) (E : Set ℕ) (K : PUnit → sProp 𝕄) :
    iprop(owns (c : Thread nD τ) arg3 fullShare a ∗ owns (c : Thread nD τ) arg4 fullShare x ∗ owns (c : Thread nD τ) arg5 fullShare xi
        ∗ owns (c : Thread nD τ) arg6 fullShare s
        ∗ (iprop(owns (c : Thread nD τ) arg3 fullShare a ∗ owns (c : Thread nD τ) arg4 fullShare x ∗ owns (c : Thread nD τ) arg5 fullShare xi
            ∗ owns (c : Thread nD τ) arg6 fullShare (step3 s a x)) -∗ K ⟨⟩))
      ⊢ wp frame (wpE (defs₀ (F := F)) Variants.none c none) E (cc3__matmul_kernel i arg3 harg3 arg4 harg4 arg5 harg5 arg6 harg6) K := by
  simp only [cc3__matmul_kernel_eq_skeleton]; unfold cc3__matmul_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2
  obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  sl_unfold_run_names
  rw [View.read_writes_eq_canon _ _ _ (cover_whole_3 _ []), View.canon_unit_zero hz2_3]
  simp only [View.readAt_eq_ld, hf0, hf1, hfs, View.ld_unit_zero (S := S1024x1536) hz2_3, View.ld_unit_zero (S := S1024x1024) hz2_3]

set_option maxHeartbeats 4000000 in
/-- At a point with k = 3 the body moves the accumulator from `s` one step further and stores it into the output
    block, whatever that held. -/
theorem run3_C (c : Dev nD) (i : grid3.Coords) (arg3 : Memref sig .tc .vmem S1024x1024 .bf16) (harg3 : arg3.IsWhole)
    (arg4 : Memref sig .tc .vmem S1024x1536 .bf16) (harg4 : arg4.IsWhole) (arg5 : Memref sig .tc .vmem S1024x1536 .f32) (harg5 : arg5.IsWhole)
    (arg6 : Memref sig .tc .vmem S1024x1536 .f32) (harg6 : arg6.IsWhole) (hc0 : ¬cond3_0 i) (hc1 : cond3_1 i)
    (a : Vec F S1024x1024 .bf16) (x : Vec F S1024x1536 .bf16) (s : Vec F S1024x1536 .f32) (E : Set ℕ) (K : PUnit → sProp 𝕄) :
    iprop(owns (c : Thread nD τ) arg3 fullShare a ∗ owns (c : Thread nD τ) arg4 fullShare x ∗ (∃ d, owns (c : Thread nD τ) arg5 fullShare d)
        ∗ owns (c : Thread nD τ) arg6 fullShare s
        ∗ (iprop(owns (c : Thread nD τ) arg3 fullShare a ∗ owns (c : Thread nD τ) arg4 fullShare x ∗ owns (c : Thread nD τ) arg5 fullShare (step3 s a x)
            ∗ owns (c : Thread nD τ) arg6 fullShare (step3 s a x)) -∗ K ⟨⟩))
      ⊢ wp frame (wpE (defs₀ (F := F)) Variants.none c none) E (cc3__matmul_kernel i arg3 harg3 arg4 harg4 arg5 harg5 arg6 harg6) K := by
  simp only [cc3__matmul_kernel_eq_skeleton]; unfold cc3__matmul_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1
  obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    rw [View.read_writes_eq_canon _ _ _ (cover_whole_3 _ []), View.canon_unit_zero hz2_3]
    sl_unfold_run_names
    simp only [View.readAt_eq_ld, hf0, hf1, hfs, View.ld_unit_zero (S := S1024x1536) hz2_3, View.ld_unit_zero (S := S1024x1024) hz2_3]
    exact View.readCov_unit_zero arg6.view hz2_3 _ _
  iexists _; isplitr
  swap; · iexact HS
  ipureintro
  sl_unfold_run_names
  rw [View.read_writes_eq_canon _ _ _ (cover_whole_3 _ []), View.canon_unit_zero hz2_3]
  simp only [View.readAt_eq_ld, hf0, hf1, hfs, View.ld_unit_zero (S := S1024x1536) hz2_3, View.ld_unit_zero (S := S1024x1024) hz2_3]

end Cert.Kernel.Hand

end
-- ==== Proof.Matmul3Bits.lean ====
/-
  The fourth diffusion product as proof data for the pipeline: the arrays as the region finds them, the accumulator's
  contents after every grid point (a running sum over the contraction blocks, restarted at k = 0), what each staging
  buffer holds after the body, and the body's obligation at every point.
-/
import proofs.«106054_j120259084553_1_alg».proof.Proof.Gen.Kernel.Launch
import proofs.«106054_j120259084553_1_alg».proof.Proof.Gen.Kernel.Skeleton
import proofs.«106054_j120259084553_1_alg».proof.Proof.Gen.Kernel.Points
import proofs.«106054_j120259084553_1_alg».proof.Proof.MatmulRun3Bits
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The block of A sits in its current staging buffer at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The block of X sits in its current staging buffer at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The accumulator after each point -/

/-- The accumulator after the body at position `n`: the first step's value where k = n mod 4 = 0, else one step
    further than after position `n − 1`. -/
def acc3 (c : Dev nD) : (n : ℕ) → n < cfg3.N → Vec F S1024x1536 .f32
  | 0, hn => first3 (iblk3 V c 0 ⟨0, hn⟩) (iblk3 V c 1 ⟨0, hn⟩)
  | n + 1, hn =>
    if (n + 1) % 4 = 0 then first3 (iblk3 V c 0 ⟨n + 1, hn⟩) (iblk3 V c 1 ⟨n + 1, hn⟩)
    else step3 (acc3 c n (Nat.lt_of_succ_lt hn)) (iblk3 V c 0 ⟨n + 1, hn⟩) (iblk3 V c 1 ⟨n + 1, hn⟩)

theorem acc3_first (c : Dev nD) (t : Fin cfg3.N) (h0 : t.val % 4 = 0) :
    acc3 V c t.val t.isLt = first3 (iblk3 V c 0 t) (iblk3 V c 1 t) := by
  obtain ⟨n, hn⟩ := t
  cases n with
  | zero => rfl
  | succ n => exact if_pos h0

theorem acc3_step (c : Dev nD) (t : Fin cfg3.N) (h0 : ¬t.val % 4 = 0) :
    acc3 V c t.val t.isLt = step3 (acc3 V c (t.val - 1) (Nat.lt_of_le_of_lt (Nat.sub_le _ _) t.isLt)) (iblk3 V c 0 t) (iblk3 V c 1 t) := by
  obtain ⟨n, hn⟩ := t
  cases n with
  | zero => exact absurd (Nat.zero_mod _) h0
  | succ n => exact if_neg h0

/-! ## The region's invariant -/

/-- Before position `n`: at the start the class's invariant (the accumulator at anything); afterwards the accumulator
    at what the point before left, beside the other scoped buffers and the generator register. -/
def PhiS3 (c : Dev nD) : (n : ℕ) → n ≤ cfg3.N → sProp 𝕄
  | 0, _ => Pipeline.ΦA spec3 c
  | n + 1, hn => iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The arrays as the region finds them; after the body each input's buffer at its block and the output's at the
    accumulator; the invariant above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c t.val t.isLt := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point: the inputs' buffers hold their blocks; k = t mod 4 says which case the point is in; the
    invariant hands the body the accumulator (at anything at the very first point, else at what the point before
    left) and takes it back at this point's value. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 32 := lt_of_lt_of_eq t.isLt (show cfg3.N = 32 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  by_cases h1 : t.val % 4 = 3
  · -- k = 3: accumulate and copy out
    have h0 : ¬t.val % 4 = 0 := by omega
    have hz : t.val ≠ 0 := by omega
    rw [show (dat3 V c).leavesExact 2 t = owns (c : Thread nD τ) (ms3_2 t) fullShare ((dat3 V c).after 2 t) from by
      unfold Dat.leavesExact; rw [liveAt3_2 t ((hcond3_1 t).mpr h1)], after3_2]
    rw [acc3_step V c t h0]
    rw [PhiS3_castSucc V c t, PhiS3_pos V c _ _ hz]
    iintro ⟨⟨⟨HS, HR⟩, Hg⟩, Ho, ⟨%d0, H0⟩, ⟨%d1, H1⟩, ⟨%d2, H2⟩⟩
    iapply (run3_C c (grid3.coords t) _ _ _ _ _ _ _ _ (fun h => h0 ((hcond3_0 t).mp h)) ((hcond3_1 t).mpr h1) (iblk3 V c 0 t) (iblk3 V c 1 t) _ Set.univ _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · rw [Dat.leavesExact_idle (dat3 V c) 2 t (idleAt3_2 t (fun h => h1 ((hcond3_1 t).mp h))) (noFlush3_2 t (fun h => h1 ((hcond3_1 t).mp h)))]
    by_cases h0 : t.val % 4 = 0
    · -- k = 0: reset and accumulate
      rw [acc3_first V c t h0]
      by_cases hz : t.val = 0
      · rw [PhiS3_castSucc V c t, PhiS3_zero V c _ _ hz, PhiA3_eq]
        iintro ⟨⟨⟨HS, HR⟩, Hg⟩, Ho, ⟨%d0, H0⟩, ⟨%d1, H1⟩, ⟨%d2, H2⟩⟩
        iapply (run3_A c (grid3.coords t) _ _ _ _ _ _ _ _ ((hcond3_0 t).mpr h0) (fun h => h1 ((hcond3_1 t).mp h)) (iblk3 V c 0 t) (iblk3 V c 1 t) _ Set.univ _)
        isplitl [H0]; · iexact H0
        isplitl [H1]; · iexact H1
        isplitl [H2]; · iexact H2
        isplitl [HS]; · iexact HS
        iintro ⟨H0, H1, H2, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact H2
      · rw [PhiS3_castSucc V c t, PhiS3_pos V c _ _ hz]
        iintro ⟨⟨⟨HS, HR⟩, Hg⟩, Ho, ⟨%d0, H0⟩, ⟨%d1, H1⟩, ⟨%d2, H2⟩⟩
        iapply (run3_A c (grid3.coords t) _ _ _ _ _ _ _ _ ((hcond3_0 t).mpr h0) (fun h => h1 ((hcond3_1 t).mp h)) (iblk3 V c 0 t) (iblk3 V c 1 t) _ Set.univ _)
        isplitl [H0]; · iexact H0
        isplitl [H1]; · iexact H1
        isplitl [H2]; · iexact H2
        isplitl [HS]; · iexists _; iexact HS
        iintro ⟨H0, H1, H2, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact H2
    · -- 0 < k < 3: accumulate
      have hz : t.val ≠ 0 := by omega
      rw [acc3_step V c t h0]
      rw [PhiS3_castSucc V c t, PhiS3_pos V c _ _ hz]
      iintro ⟨⟨⟨HS, HR⟩, Hg⟩, Ho, ⟨%d0, H0⟩, ⟨%d1, H1⟩, ⟨%d2, H2⟩⟩
      iapply (run3_B c (grid3.coords t) _ _ _ _ _ _ _ _ (fun h => h0 ((hcond3_0 t).mp h)) (fun h => h1 ((hcond3_1 t).mp h)) (iblk3 V c 0 t) (iblk3 V c 1 t) _ _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the region is entered with is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]

/-- After the last point the invariant gives the class's back: the accumulator's contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 32 := N_3; omega), PhiA3_eq]
  iintro ⟨⟨HS, HR⟩, Hg⟩
  isplitl [HS HR]
  · isplitl [HS]; · iexists _; iexact HS
    iexact HR
  iexact Hg

end

end Cert.Kernel.Hand

end
-- ==== Proof.KernelRunBits.lean ====
/- The whole run of `Kernel`'s @main: five TensorCore regions between six stretches of host operations. Per region
   the contents of every unscoped buffer at its entry and at its exit, the region as a segment record over those
   contents, and the run theorem: from any memory with zero counters every weakly fair execution terminates, and at
   the end every unscoped buffer holds the last boundary's contents. -/
import proofs.«106054_j120259084553_1_alg».proof.Proof.RegionFinalBits
import proofs.«106054_j120259084553_1_alg».proof.Proof.Matmul0Bits
import proofs.«106054_j120259084553_1_alg».proof.Proof.Matmul1Bits
import proofs.«106054_j120259084553_1_alg».proof.Proof.Matmul2Bits
import proofs.«106054_j120259084553_1_alg».proof.Proof.Matmul3Bits
import proofs.«106054_j120259084553_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary

`W J c` is core `c`'s valuation of the unscoped buffers after item `J - 1` of @main (items: host stretch 0, region 0,
host stretch 1, region 1, …, region 4, host stretch 5); `E J c` the same read at the TensorCore's references. A
region leaves its output array at what its write-backs fold to and every other buffer as it found it. -/

/-- At region 0's entry: the launch memory after the first host stretch. -/
abbrev W1 (c : Dev nD) : Valuation τ sig (Elt F) := Gen.V1 m c
abbrev E1 : (c : Dev nD) → (b : Ref sig .tc) → Buf (Elt F) ((c : Thread nD τ).loc b) := fun c b => W1 m c b

/-- Region 0's arrays at what the pipeline leaves in them (an input as entered, the output's write-backs folded),
    every other buffer as entered. -/
def X2 (c : Dev nD) : Valuation τ sig (Elt F) :=
  Pipeline.withArrays spec0 c (W1 m c) fun w => (dat0 (E1 m) c).arrAt w cfg0.N
theorem X2_arr (c : Dev nD) (w : Fin cfg0.W) :
    X2 m c (Proc.devRef .tc (Pipeline.arrRef spec0 w)) = (dat0 (E1 m) c).arrAt w cfg0.N := by
  unfold X2; exact Pipeline.withArrays_arr spec0 launch0.win.arr_inj c _ _ w
/-- What region 0 leaves in buffer `r` of core `c`. -/
def o2 (r : Ref sig .tc) (c : Dev nD) : Buf (Elt F) ((c : Thread nD τ).loc r) := X2 m c (Proc.devRef .tc r)
/-- At region 0's exit: only its output array `main_v26` has changed. -/
abbrev W2 (c : Dev nD) : Valuation τ sig (Elt F) := Function.update (W1 m c) main_v26 (o2 m main_v26 c)
abbrev E2 : (c : Dev nD) → (b : Ref sig .tc) → Buf (Elt F) ((c : Thread nD τ).loc b) := fun c b => W2 m c b
/-- After the host stretch that follows region 0. -/
abbrev W3 (c : Dev nD) : Valuation τ sig (Elt F) := StableHlo.after hostOps1 (W2 m c)
abbrev E3 : (c : Dev nD) → (b : Ref sig .tc) → Buf (Elt F) ((c : Thread nD τ).loc b) := fun c b => W3 m c b

/-- Region 1's arrays at what the pipeline leaves in them (an input as entered, the output's write-backs folded),
    every other buffer as entered. -/
def X4 (c : Dev nD) : Valuation τ sig (Elt F) :=
  Pipeline.withArrays spec1 c (W3 m c) fun w => (dat1 (E3 m) c).arrAt w cfg1.N
theorem X4_arr (c : Dev nD) (w : Fin cfg1.W) :
    X4 m c (Proc.devRef .tc (Pipeline.arrRef spec1 w)) = (dat1 (E3 m) c).arrAt w cfg1.N := by
  unfold X4; exact Pipeline.withArrays_arr spec1 launch1.win.arr_inj c _ _ w
/-- What region 1 leaves in buffer `r` of core `c`. -/
def o4 (r : Ref sig .tc) (c : Dev nD) : Buf (Elt F) ((c : Thread nD τ).loc r) := X4 m c (Proc.devRef .tc r)
/-- At region 1's exit: only its output array `main_v28` has changed. -/
abbrev W4 (c : Dev nD) : Valuation τ sig (Elt F) := Function.update (W3 m c) main_v28 (o4 m main_v28 c)
abbrev E4 : (c : Dev nD) → (b : Ref sig .tc) → Buf (Elt F) ((c : Thread nD τ).loc b) := fun c b => W4 m c b
/-- After the host stretch that follows region 1. -/
abbrev W5 (c : Dev nD) : Valuation τ sig (Elt F) := StableHlo.after hostOps2 (W4 m c)
abbrev E5 : (c : Dev nD) → (b : Ref sig .tc) → Buf (Elt F) ((c : Thread nD τ).loc b) := fun c b => W5 m c b

/-- Region 2's arrays at what the pipeline leaves in them (an input as entered, the output's write-backs folded),
    every other buffer as entered. -/
def X6 (c : Dev nD) : Valuation τ sig (Elt F) :=
  Pipeline.withArrays spec2 c (W5 m c) fun w => (dat2 (E5 m) c).arrAt w cfg2.N
theorem X6_arr (c : Dev nD) (w : Fin cfg2.W) :
    X6 m c (Proc.devRef .tc (Pipeline.arrRef spec2 w)) = (dat2 (E5 m) c).arrAt w cfg2.N := by
  unfold X6; exact Pipeline.withArrays_arr spec2 launch2.win.arr_inj c _ _ w
/-- What region 2 leaves in buffer `r` of core `c`. -/
def o6 (r : Ref sig .tc) (c : Dev nD) : Buf (Elt F) ((c : Thread nD τ).loc r) := X6 m c (Proc.devRef .tc r)
/-- At region 2's exit: only its output array `main_v55` has changed. -/
abbrev W6 (c : Dev nD) : Valuation τ sig (Elt F) := Function.update (W5 m c) main_v55 (o6 m main_v55 c)
abbrev E6 : (c : Dev nD) → (b : Ref sig .tc) → Buf (Elt F) ((c : Thread nD τ).loc b) := fun c b => W6 m c b
/-- After the host stretch that follows region 2. -/
abbrev W7 (c : Dev nD) : Valuation τ sig (Elt F) := StableHlo.after hostOps3 (W6 m c)
abbrev E7 : (c : Dev nD) → (b : Ref sig .tc) → Buf (Elt F) ((c : Thread nD τ).loc b) := fun c b => W7 m c b

/-- Region 3's arrays at what the pipeline leaves in them (an input as entered, the output's write-backs folded),
    every other buffer as entered. -/
def X8 (c : Dev nD) : Valuation τ sig (Elt F) :=
  Pipeline.withArrays spec3 c (W7 m c) fun w => (dat3 (E7 m) c).arrAt w cfg3.N
theorem X8_arr (c : Dev nD) (w : Fin cfg3.W) :
    X8 m c (Proc.devRef .tc (Pipeline.arrRef spec3 w)) = (dat3 (E7 m) c).arrAt w cfg3.N := by
  unfold X8; exact Pipeline.withArrays_arr spec3 launch3.win.arr_inj c _ _ w
/-- What region 3 leaves in buffer `r` of core `c`. -/
def o8 (r : Ref sig .tc) (c : Dev nD) : Buf (Elt F) ((c : Thread nD τ).loc r) := X8 m c (Proc.devRef .tc r)
/-- At region 3's exit: only its output array `main_v57` has changed. -/
abbrev W8 (c : Dev nD) : Valuation τ sig (Elt F) := Function.update (W7 m c) main_v57 (o8 m main_v57 c)
abbrev E8 : (c : Dev nD) → (b : Ref sig .tc) → Buf (Elt F) ((c : Thread nD τ).loc b) := fun c b => W8 m c b
/-- After the host stretch that follows region 3. -/
abbrev W9 (c : Dev nD) : Valuation τ sig (Elt F) := StableHlo.after hostOps4 (W8 m c)
abbrev E9 : (c : Dev nD) → (b : Ref sig .tc) → Buf (Elt F) ((c : Thread nD τ).loc b) := fun c b => W9 m c b

/-- Region 4's arrays at what the pipeline leaves in them (an input as entered, the output's write-backs folded),
    every other buffer as entered. -/
def X10 (c : Dev nD) : Valuation τ sig (Elt F) :=
  Pipeline.withArrays spec4 c (W9 m c) fun w => (dat4 (E9 m) c).arrAt w cfg4.N
theorem X10_arr (c : Dev nD) (w : Fin cfg4.W) :
    X10 m c (Proc.devRef .tc (Pipeline.arrRef spec4 w)) = (dat4 (E9 m) c).arrAt w cfg4.N := by
  unfold X10; exact Pipeline.withArrays_arr spec4 launch4.win.arr_inj c _ _ w
/-- What region 4 leaves in buffer `r` of core `c`. -/
def o10 (r : Ref sig .tc) (c : Dev nD) : Buf (Elt F) ((c : Thread nD τ).loc r) := X10 m c (Proc.devRef .tc r)
/-- At region 4's exit: only its output array `main_v72` has changed. -/
abbrev W10 (c : Dev nD) : Valuation τ sig (Elt F) := Function.update (W9 m c) main_v72 (o10 m main_v72 c)
abbrev E10 : (c : Dev nD) → (b : Ref sig .tc) → Buf (Elt F) ((c : Thread nD τ).loc b) := fun c b => W10 m c b
/-- After the host stretch that follows region 4. -/
abbrev W11 (c : Dev nD) : Valuation τ sig (Elt F) := StableHlo.after hostOps5 (W10 m c)

/-- What the regions leave, as one family: after item `J - 1` buffer `r` of core `c` holds `outs J r c`
    (read only at `(2, main_v26)`, `(4, main_v28)`, `(6, main_v55)`, `(8, main_v57)`, `(10, main_v72)`). -/
def outs : Gen.Outs (F := F) := fun J r c =>
  match J with
  | 2 => o2 m r c
  | 4 => o4 m r c
  | 6 => o6 m r c
  | 8 => o8 m r c
  | 10 => o10 m r c
  | _ => m ((c : Thread nD τ).loc r)

/-! The boundary contents of the imported Regions module, read at this family `outs`, are these, boundary by
    boundary (both sides unfold to the same term). -/
theorem V1_eq (c : Dev nD) : Gen.V1 m c = W1 m c := rfl
theorem V2_eq (c : Dev nD) : Gen.V2 m (outs m) c = W2 m c := rfl
theorem V3_eq (c : Dev nD) : Gen.V3 m (outs m) c = W3 m c := rfl
theorem V4_eq (c : Dev nD) : Gen.V4 m (outs m) c = W4 m c := rfl
theorem V5_eq (c : Dev nD) : Gen.V5 m (outs m) c = W5 m c := rfl
theorem V6_eq (c : Dev nD) : Gen.V6 m (outs m) c = W6 m c := rfl
theorem V7_eq (c : Dev nD) : Gen.V7 m (outs m) c = W7 m c := rfl
theorem V8_eq (c : Dev nD) : Gen.V8 m (outs m) c = W8 m c := rfl
theorem V9_eq (c : Dev nD) : Gen.V9 m (outs m) c = W9 m c := rfl
theorem V10_eq (c : Dev nD) : Gen.V10 m (outs m) c = W10 m c := rfl
theorem V11_eq (c : Dev nD) : Gen.V11 m (outs m) c = W11 m c := rfl

/-! ## The proof data family and what rides beside the buffers -/

/-- Every pipeline's proof data, each at its region's entry contents (a literal case split, so that the pinned
    configuration at a numeral reduces to the printed one). -/
def pdats : (p : Fin 5) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E3 m) c
  | ⟨2, _⟩ => fun c => dat2 (E5 m) c
  | ⟨3, _⟩ => fun c => dat3 (E7 m) c
  | ⟨4, _⟩ => fun c => dat4 (E9 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    debt, at nothing. -/
abbrev R (c : Dev nD) : sProp 𝕄 := iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Region 0: its arrays at the exit contents, the rest untouched -/

/-- Input window 0's array is not the output array, so it holds at the exit what it held at the entry, which is
    what the pipeline leaves in an array it only reads. -/
theorem hF0_0 (c : Dev nD) : (dat0 (E1 m) c).arrAt 0 cfg0.N = E2 m c (Pipeline.arrRef spec0 0) :=
  ((dat0 (E1 m) c).arrAt_in 0 rfl _).trans ((A_eq0 (E1 m) c 0).trans
    (Function.update_of_ne (StableHlo.devRef_ne_of_ne (by decide)) _ _).symm)
/-- Input window 1's array is not the output array, so it holds at the exit what it held at the entry, which is
    what the pipeline leaves in an array it only reads. -/
theorem hF0_1 (c : Dev nD) : (dat0 (E1 m) c).arrAt 1 cfg0.N = E2 m c (Pipeline.arrRef spec0 1) :=
  ((dat0 (E1 m) c).arrAt_in 1 rfl _).trans ((A_eq0 (E1 m) c 1).trans
    (Function.update_of_ne (StableHlo.devRef_ne_of_ne (by decide)) _ _).symm)
/-- The output window's array holds what the write-backs fold to. -/
theorem hF0_2 (c : Dev nD) : (dat0 (E1 m) c).arrAt 2 cfg0.N = E2 m c (Pipeline.arrRef spec0 2) := by
  show _ = Function.update (W1 m c) (Proc.devRef .tc main_v26) (o2 m main_v26 c) (Proc.devRef .tc main_v26)
  rw [Function.update_self]
  exact (X2_arr m c 2).symm
theorem hF0 (c : Dev nD) : ∀ w : Fin cfg0.W, (dat0 (E1 m) c).arrAt w cfg0.N = E2 m c (Pipeline.arrRef spec0 w)
  | ⟨0, _⟩ => hF0_0 m c
  | ⟨1, _⟩ => hF0_1 m c
  | ⟨2, _⟩ => hF0_2 m c
/-- A buffer that is none of the region's arrays is not its output array, so it is as entered. -/
theorem hrest0 (c : Dev nD) : ∀ b, b ∉ Finset.univ.image (Pipeline.arrRef spec0) → E2 m c b = E1 m c b :=
  fun b hb => Function.update_of_ne (StableHlo.devRef_ne_of_ne fun e =>
    hb (Finset.mem_image.mpr ⟨2, Finset.mem_univ _, (show Pipeline.arrRef spec0 2 = b from e.symm)⟩)) _ _

/-! ## Region 1: its arrays at the exit contents, the rest untouched -/

/-- Input window 0's array is not the output array, so it holds at the exit what it held at the entry, which is
    what the pipeline leaves in an array it only reads. -/
theorem hF1_0 (c : Dev nD) : (dat1 (E3 m) c).arrAt 0 cfg1.N = E4 m c (Pipeline.arrRef spec1 0) :=
  ((dat1 (E3 m) c).arrAt_in 0 rfl _).trans ((A_eq1 (E3 m) c 0).trans
    (Function.update_of_ne (StableHlo.devRef_ne_of_ne (by decide)) _ _).symm)
/-- Input window 1's array is not the output array, so it holds at the exit what it held at the entry, which is
    what the pipeline leaves in an array it only reads. -/
theorem hF1_1 (c : Dev nD) : (dat1 (E3 m) c).arrAt 1 cfg1.N = E4 m c (Pipeline.arrRef spec1 1) :=
  ((dat1 (E3 m) c).arrAt_in 1 rfl _).trans ((A_eq1 (E3 m) c 1).trans
    (Function.update_of_ne (StableHlo.devRef_ne_of_ne (by decide)) _ _).symm)
/-- The output window's array holds what the write-backs fold to. -/
theorem hF1_2 (c : Dev nD) : (dat1 (E3 m) c).arrAt 2 cfg1.N = E4 m c (Pipeline.arrRef spec1 2) := by
  show _ = Function.update (W3 m c) (Proc.devRef .tc main_v28) (o4 m main_v28 c) (Proc.devRef .tc main_v28)
  rw [Function.update_self]
  exact (X4_arr m c 2).symm
theorem hF1 (c : Dev nD) : ∀ w : Fin cfg1.W, (dat1 (E3 m) c).arrAt w cfg1.N = E4 m c (Pipeline.arrRef spec1 w)
  | ⟨0, _⟩ => hF1_0 m c
  | ⟨1, _⟩ => hF1_1 m c
  | ⟨2, _⟩ => hF1_2 m c
/-- A buffer that is none of the region's arrays is not its output array, so it is as entered. -/
theorem hrest1 (c : Dev nD) : ∀ b, b ∉ Finset.univ.image (Pipeline.arrRef spec1) → E4 m c b = E3 m c b :=
  fun b hb => Function.update_of_ne (StableHlo.devRef_ne_of_ne fun e =>
    hb (Finset.mem_image.mpr ⟨2, Finset.mem_univ _, (show Pipeline.arrRef spec1 2 = b from e.symm)⟩)) _ _

/-! ## Region 2: its arrays at the exit contents, the rest untouched -/

/-- Input window 0's array is not the output array, so it holds at the exit what it held at the entry, which is
    what the pipeline leaves in an array it only reads. -/
theorem hF2_0 (c : Dev nD) : (dat2 (E5 m) c).arrAt 0 cfg2.N = E6 m c (Pipeline.arrRef spec2 0) :=
  ((dat2 (E5 m) c).arrAt_in 0 rfl _).trans ((A_eq2 (E5 m) c 0).trans
    (Function.update_of_ne (StableHlo.devRef_ne_of_ne (by decide)) _ _).symm)
/-- Input window 1's array is not the output array, so it holds at the exit what it held at the entry, which is
    what the pipeline leaves in an array it only reads. -/
theorem hF2_1 (c : Dev nD) : (dat2 (E5 m) c).arrAt 1 cfg2.N = E6 m c (Pipeline.arrRef spec2 1) :=
  ((dat2 (E5 m) c).arrAt_in 1 rfl _).trans ((A_eq2 (E5 m) c 1).trans
    (Function.update_of_ne (StableHlo.devRef_ne_of_ne (by decide)) _ _).symm)
/-- The output window's array holds what the write-backs fold to. -/
theorem hF2_2 (c : Dev nD) : (dat2 (E5 m) c).arrAt 2 cfg2.N = E6 m c (Pipeline.arrRef spec2 2) := by
  show _ = Function.update (W5 m c) (Proc.devRef .tc main_v55) (o6 m main_v55 c) (Proc.devRef .tc main_v55)
  rw [Function.update_self]
  exact (X6_arr m c 2).symm
theorem hF2 (c : Dev nD) : ∀ w : Fin cfg2.W, (dat2 (E5 m) c).arrAt w cfg2.N = E6 m c (Pipeline.arrRef spec2 w)
  | ⟨0, _⟩ => hF2_0 m c
  | ⟨1, _⟩ => hF2_1 m c
  | ⟨2, _⟩ => hF2_2 m c
/-- A buffer that is none of the region's arrays is not its output array, so it is as entered. -/
theorem hrest2 (c : Dev nD) : ∀ b, b ∉ Finset.univ.image (Pipeline.arrRef spec2) → E6 m c b = E5 m c b :=
  fun b hb => Function.update_of_ne (StableHlo.devRef_ne_of_ne fun e =>
    hb (Finset.mem_image.mpr ⟨2, Finset.mem_univ _, (show Pipeline.arrRef spec2 2 = b from e.symm)⟩)) _ _

/-! ## Region 3: its arrays at the exit contents, the rest untouched -/

/-- Input window 0's array is not the output array, so it holds at the exit what it held at the entry, which is
    what the pipeline leaves in an array it only reads. -/
theorem hF3_0 (c : Dev nD) : (dat3 (E7 m) c).arrAt 0 cfg3.N = E8 m c (Pipeline.arrRef spec3 0) :=
  ((dat3 (E7 m) c).arrAt_in 0 rfl _).trans ((A_eq3 (E7 m) c 0).trans
    (Function.update_of_ne (StableHlo.devRef_ne_of_ne (by decide)) _ _).symm)
/-- Input window 1's array is not the output array, so it holds at the exit what it held at the entry, which is
    what the pipeline leaves in an array it only reads. -/
theorem hF3_1 (c : Dev nD) : (dat3 (E7 m) c).arrAt 1 cfg3.N = E8 m c (Pipeline.arrRef spec3 1) :=
  ((dat3 (E7 m) c).arrAt_in 1 rfl _).trans ((A_eq3 (E7 m) c 1).trans
    (Function.update_of_ne (StableHlo.devRef_ne_of_ne (by decide)) _ _).symm)
/-- The output window's array holds what the write-backs fold to. -/
theorem hF3_2 (c : Dev nD) : (dat3 (E7 m) c).arrAt 2 cfg3.N = E8 m c (Pipeline.arrRef spec3 2) := by
  show _ = Function.update (W7 m c) (Proc.devRef .tc main_v57) (o8 m main_v57 c) (Proc.devRef .tc main_v57)
  rw [Function.update_self]
  exact (X8_arr m c 2).symm
theorem hF3 (c : Dev nD) : ∀ w : Fin cfg3.W, (dat3 (E7 m) c).arrAt w cfg3.N = E8 m c (Pipeline.arrRef spec3 w)
  | ⟨0, _⟩ => hF3_0 m c
  | ⟨1, _⟩ => hF3_1 m c
  | ⟨2, _⟩ => hF3_2 m c
/-- A buffer that is none of the region's arrays is not its output array, so it is as entered. -/
theorem hrest3 (c : Dev nD) : ∀ b, b ∉ Finset.univ.image (Pipeline.arrRef spec3) → E8 m c b = E7 m c b :=
  fun b hb => Function.update_of_ne (StableHlo.devRef_ne_of_ne fun e =>
    hb (Finset.mem_image.mpr ⟨2, Finset.mem_univ _, (show Pipeline.arrRef spec3 2 = b from e.symm)⟩)) _ _

/-! ## Region 4: its arrays at the exit contents, the rest untouched -/

/-- Input window 0's array is not the output array, so it holds at the exit what it held at the entry, which is
    what the pipeline leaves in an array it only reads. -/
theorem hF4_0 (c : Dev nD) : (dat4 (E9 m) c).arrAt 0 cfg4.N = E10 m c (Pipeline.arrRef spec4 0) :=
  ((dat4 (E9 m) c).arrAt_in 0 rfl _).trans ((A_eq4 (E9 m) c 0).trans
    (Function.update_of_ne (StableHlo.devRef_ne_of_ne (by decide)) _ _).symm)
/-- Input window 1's array is not the output array, so it holds at the exit what it held at the entry, which is
    what the pipeline leaves in an array it only reads. -/
theorem hF4_1 (c : Dev nD) : (dat4 (E9 m) c).arrAt 1 cfg4.N = E10 m c (Pipeline.arrRef spec4 1) :=
  ((dat4 (E9 m) c).arrAt_in 1 rfl _).trans ((A_eq4 (E9 m) c 1).trans
    (Function.update_of_ne (StableHlo.devRef_ne_of_ne (by decide)) _ _).symm)
/-- Input window 2's array is not the output array, so it holds at the exit what it held at the entry, which is
    what the pipeline leaves in an array it only reads. -/
theorem hF4_2 (c : Dev nD) : (dat4 (E9 m) c).arrAt 2 cfg4.N = E10 m c (Pipeline.arrRef spec4 2) :=
  ((dat4 (E9 m) c).arrAt_in 2 rfl _).trans ((A_eq4 (E9 m) c 2).trans
    (Function.update_of_ne (StableHlo.devRef_ne_of_ne (by decide)) _ _).symm)
/-- The output window's array holds what the write-backs fold to. -/
theorem hF4_3 (c : Dev nD) : (dat4 (E9 m) c).arrAt 3 cfg4.N = E10 m c (Pipeline.arrRef spec4 3) := by
  show _ = Function.update (W9 m c) (Proc.devRef .tc main_v72) (o10 m main_v72 c) (Proc.devRef .tc main_v72)
  rw [Function.update_self]
  exact (X10_arr m c 3).symm
theorem hF4 (c : Dev nD) : ∀ w : Fin cfg4.W, (dat4 (E9 m) c).arrAt w cfg4.N = E10 m c (Pipeline.arrRef spec4 w)
  | ⟨0, _⟩ => hF4_0 m c
  | ⟨1, _⟩ => hF4_1 m c
  | ⟨2, _⟩ => hF4_2 m c
  | ⟨3, _⟩ => hF4_3 m c
/-- A buffer that is none of the region's arrays is not its output array, so it is as entered. -/
theorem hrest4 (c : Dev nD) : ∀ b, b ∉ Finset.univ.image (Pipeline.arrRef spec4) → E10 m c b = E9 m c b :=
  fun b hb => Function.update_of_ne (StableHlo.devRef_ne_of_ne fun e =>
    hb (Finset.mem_image.mpr ⟨3, Finset.mem_univ _, (show Pipeline.arrRef spec4 3 = b from e.symm)⟩)) _ _

/-! ## Reading the family `outs` and the entry contents -/

/-- What region 0 leaves in its output array: its write-backs folded. -/
theorem outs_2 (c : Dev nD) : outs m 2 main_v26 c = (dat0 (E1 m) c).arrAt 2 cfg0.N := X2_arr m c 2
/-- What region 1 leaves in its output array: its write-backs folded. -/
theorem outs_4 (c : Dev nD) : outs m 4 main_v28 c = (dat1 (E3 m) c).arrAt 2 cfg1.N := X4_arr m c 2
/-- What region 2 leaves in its output array: its write-backs folded. -/
theorem outs_6 (c : Dev nD) : outs m 6 main_v55 c = (dat2 (E5 m) c).arrAt 2 cfg2.N := X6_arr m c 2
/-- What region 3 leaves in its output array: its write-backs folded. -/
theorem outs_8 (c : Dev nD) : outs m 8 main_v57 c = (dat3 (E7 m) c).arrAt 2 cfg3.N := X8_arr m c 2
/-- What region 4 leaves in its output array: its write-backs folded. -/
theorem outs_10 (c : Dev nD) : outs m 10 main_v72 c = (dat4 (E9 m) c).arrAt 3 cfg4.N := X10_arr m c 3
/-- Each region's entry contents are that module's boundary contents at this family `outs`. -/
theorem E1_eq (c : Dev nD) (b : Ref sig .tc) : E1 m c b = Gen.V1 m c b := rfl
theorem E3_eq (c : Dev nD) (b : Ref sig .tc) : E3 m c b = Gen.V3 m (outs m) c b := rfl
theorem E5_eq (c : Dev nD) (b : Ref sig .tc) : E5 m c b = Gen.V5 m (outs m) c b := rfl
theorem E7_eq (c : Dev nD) (b : Ref sig .tc) : E7 m c b = Gen.V7 m (outs m) c b := rfl
theorem E9_eq (c : Dev nD) (b : Ref sig .tc) : E9 m c b = Gen.V9 m (outs m) c b := rfl

/-! ## The regions as segments -/

-- a library lemma stated over the pinned configuration unifies with the printed one only when unification may unfold
-- plain definitions in a metavariable's type
set_option backward.isDefEq.respectTransparency.types false in
/-- REGION 0 over the thread state: entered from every unscoped buffer at `W1`, left at `W2`. Its arrays are
    split out of the unscoped buffers and put back at the exit contents (`hF0`, `hrest0`); the generator register
    goes into the region's invariant and comes back; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E1 m) c)
    unfold Pipeline.ΦA
    iintro ⟨Hp, -, Hr⟩
    isplitl [Hr]; · iexact Hr
    iexact Hp
  hout c := by
    rw [Pipeline.ownSems0_none]
    refine BIBase.Entails.trans (hout0 (E1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 over the thread state: entered from every unscoped buffer at `W3`, left at `W4`. Its arrays are
    split out of the unscoped buffers and put back at the exit contents (`hF1`, `hrest1`); the generator register
    goes into the region's invariant and comes back; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E3 m) c)
    unfold Pipeline.ΦA
    iintro ⟨Hp, -, Hr⟩
    isplitl [Hr]; · iexact Hr
    iexact Hp
  hout c := by
    rw [Pipeline.ownSems0_none]
    refine BIBase.Entails.trans (hout1 (E3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 2 over the thread state: entered from every unscoped buffer at `W5`, left at `W6`. Its arrays are
    split out of the unscoped buffers and put back at the exit contents (`hF2`, `hrest2`); the generator register
    goes into the region's invariant and comes back; nothing is owed; the kernel has no semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E5 m) c)
    unfold Pipeline.ΦA
    iintro ⟨Hp, -, Hr⟩
    isplitl [Hr]; · iexact Hr
    iexact Hp
  hout c := by
    rw [Pipeline.ownSems0_none]
    refine BIBase.Entails.trans (hout2 (E5 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 3 over the thread state: entered from every unscoped buffer at `W7`, left at `W8`. Its arrays are
    split out of the unscoped buffers and put back at the exit contents (`hF3`, `hrest3`); the generator register
    goes into the region's invariant and comes back; nothing is owed; the kernel has no semaphore of its own. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (E7 m) c)
    unfold Pipeline.ΦA
    iintro ⟨Hp, -, Hr⟩
    isplitl [Hr]; · iexact Hr
    iexact Hp
  hout c := by
    rw [Pipeline.ownSems0_none]
    refine BIBase.Entails.trans (hout3 (E7 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (E7 m c) (E8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 4 over the thread state: entered from every unscoped buffer at `W9`, left at `W10`. Its arrays are
    split out of the unscoped buffers and put back at the exit contents (`hF4`, `hrest4`); the generator register
    goes into the region's invariant and comes back; nothing is owed; the kernel has no semaphore of its own. -/
def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (E9 m c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (E9 m c) (E10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- What rides along ends with the core owing nothing. -/
theorem hR_owes (c : Dev nD) : (R c : sProp 𝕄) ⊢ iprop(∃ W, owes (c : Thread nD τ) (0 : CellTallies nD τ sig Unit) W) := by
  iintro ⟨-, H⟩; iexact H

-- the launch lemma's implicit arguments are found by unifying its conclusion with this one, which takes unfolding
-- plain definitions in a metavariable's type
set_option backward.isDefEq.respectTransparency.types false in
/-- THE RUN. From any memory with zero counters, every weakly fair execution of @main on the TensorCores terminates,
    nothing faulting, and in every final state every unscoped buffer of every core holds the last boundary's contents:
    @main is the chain of its eleven items; each host stretch takes the contents at its boundary to the next, each
    region is entered from its boundary's contents and left at the next one's; the last thread state is read against
    the final state. -/
theorem run_all : θ_run defs (onTc (τ := τ) (main (F := F))) ⟨m, fun _ => 0, ρ⟩
    (fun r => ∀ c : Dev nD, ∀ b ∈ Pipeline.ucRefs τ sig, r.2.mem ((c : Thread nD τ).1, b) = Gen.V11 m (outs m) c b) := by
  refine Pipeline.θ_run_regions_kit_dev (pcfgs (F := F)) Gen.adm (pdats m) () cellOf_inj emb₁ defs₀ 𝒱₀ L lv m ρ main
    (Gen.segs m (outs m) 𝒱₀ L lv (fun _ c => R c) () (pdats m) (reg0 m) (reg1 m) (reg2 m) (reg3 m) (reg4 m))
    (fun c Q => by
      rewrite [main_chain c, Pipeline.Seg.run_eq_chain,
        show (Gen.segs m (outs m) 𝒱₀ L lv (fun _ c => R c) () (pdats m) (reg0 m) (reg1 m) (reg2 m) (reg3 m) (reg4 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V11 m (outs m) c))
    (hch := fun c => ⟨.rfl, .rfl, .rfl, .rfl, .rfl, .rfl, .rfl, .rfl, .rfl, .rfl, .rfl, sep_mono .rfl (hR_owes c)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V11 m (outs m) c b)
    (hfin := fun c s' => by
      iintro ⟨Hh, HSI⟩
      unfold StableHlo.held
      imodintro
      iapply (pointsTo_read_all (Pipeline.ucRefs τ sig) (fun b => (((c : Thread nD τ)).1, b)) (Gen.V11 m (outs m) c) s')
      isplitl [Hh] <;> iassumption)
    (hQ := fun s h c => h c)

/-- The run's result and frame together: at the end the result array `main_v73` holds the last boundary's contents
    of it, and every argument array what it held at launch (no host stretch writes an argument and no region may
    change one). -/
theorem run_result : θ_run defs (onTc (τ := τ) (main (F := F))) ⟨m, fun _ => 0, ρ⟩ (fun r => ∀ c : Dev nD,
      r.2.mem ((c.tc : Thread nD τ).loc main_v73) = Gen.V11 m (outs m) c main_v73
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v73 (by decide)),
      (h c _ (mem_uc main_arg0 (by decide))).trans (Gen.V11_main_arg0 m (outs m) c),
      (h c _ (mem_uc main_arg1 (by decide))).trans (Gen.V11_main_arg1 m (outs m) c),
      (h c _ (mem_uc main_arg2 (by decide))).trans (Gen.V11_main_arg2 m (outs m) c),
      (h c _ (mem_uc main_arg3 (by decide))).trans (Gen.V11_main_arg3 m (outs m) c),
      (h c _ (mem_uc main_arg4 (by decide))).trans (Gen.V11_main_arg4 m (outs m) c),
      (h c _ (mem_uc main_arg5 (by decide))).trans (Gen.V11_main_arg5 m (outs m) c),
      (h c _ (mem_uc main_arg6 (by decide))).trans (Gen.V11_main_arg6 m (outs m) c)⟩) (run_all m ρ)

/-- The frame alone: every argument array ends holding what it held at launch. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_result m ρ)

/-- The result alone. -/
theorem result_all : θ_run defs (onTc (τ := τ) (main (F := F))) ⟨m, fun _ => 0, ρ⟩ (fun r => ∀ c : Dev nD,
      r.2.mem ((c.tc : Thread nD τ).loc main_v73) = Gen.V11 m (outs m) c main_v73) :=
  (θ_run defs _ _).mono (fun r h c => (h c).1) (run_result m ρ)

end Cert.Kernel.Hand

end
-- ==== Proof.RegionFinal.lean ====
/- The final TensorCore region (custom call 4, the kernel `cc4__final_kernel`) of `KernelIdeal`: its proof data and its
   body obligation, at a parameter `V` — the TensorCore's buffer contents when the region is entered.

   The region is a pipeline over a grid of 16 points with four windows: window 0 the row block `[4096, 960]` of the
   left operand (block index `(i, 0)`), window 1 the whole right operand `[960, 128]` (index `(0, 0)`), window 2 the
   whole bias `[128]` (index `(0)`), window 3 the row block `[4096, 128]` of the result (index `(i, 0)`). The body
   reads the three input blocks whole and stores `tanh (x · w + bias)` over the whole output block: one control case,
   whole-block loads and one whole-block store. -/
import proofs.«106054_j120259084553_1_alg».proof.Proof.Gen.KernelIdeal.Launch
import proofs.«106054_j120259084553_1_alg».proof.Proof.Gen.KernelIdeal.Skeleton
import proofs.«106054_j120259084553_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents is decided by a structural recursion, once per coordinate of
-- the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`: the entries of its array, as the region finds it (`V`), at the block's
    indices. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, for any proof data whose array is
    `V`'s (`hA`) and whose body leaves the block in place (`hafter`): at a point where it is fetched it holds what
    the fetch brought; at a point where it is not, the block index has not moved since the point before, and the
    body left the block there. The window is uncut and has no idle point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (constant block index: fetched at the first point only) holds its block at every point, by the
    same argument: after the first point the index never moves and the body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2 (constant block index) holds its block at every point, likewise. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev r4_0 : Rect S4096x960 := Rect.unit (s := S4096x960) ![0, 0] S4096x960.size inb_S4096x960_S4096x960_0_0
abbrev r4_1 : Rect S960x128 := Rect.unit (s := S960x128) ![0, 0] S960x128.size inb_S960x128_S960x128_0_0
abbrev r4_2 : Rect S128 := Rect.unit (s := S128) ![0] S128.size inb_S128_S128_0
abbrev r4_3 : Rect S4096x128 := Rect.unit (s := S4096x128) ![0, 0] S4096x128.size inb_S4096x128_S4096x128_0_0

/-! ## What the body leaves in the output window's buffer -/

/-- Window 3's staging buffer after the body, from the three input blocks: its one store, over the whole buffer,
    of `tanh (x0 · x1 + x2)` (the payload `k4_pay1` of the values loaded through the whole-buffer rectangles). -/
def out4_3 (x0 : Vec F S4096x960 .bf16) (x1 : Vec F S960x128 .bf16) (x2 : Vec F S128 .f32) : Vec F S4096x128 .f32 :=
  View.canon [⟨r4_3, k4_pay1 (View.ld x0 r4_0) (View.ld x1 r4_1) (View.ld x2 r4_2)⟩]

/-- The one store is of the whole buffer, so it covers every index (the tiling checked by evaluation). -/
theorem cover4_3 (p0 : Vec F S4096x128 .f32) (y : S4096x128.Idx) :
    ∃ pc ∈ ([⟨r4_3, p0⟩] : List (View.Piece (Elt F) S4096x128 .f32)), y ∈ pc.1.set :=
  View.cover_of_tiled [⟨r4_3, p0⟩] S4096x128.size (by rfl) y

/-! ## The body's triple -/

set_option maxHeartbeats 1000000 in
/-- The kernel body on whole staging memrefs, the inputs' at read contents `x0`, `x1`, `x2` and the output's at
    anything, runs to the continuation holding the inputs' as they were and the output's at `out4_3` of the inputs:
    three whole-buffer loads, a load of the output buffer whose value is not used, and one whole-buffer store. -/
theorem sound_kernel4 (c : Dev nD) (E : Set ℕ) (i : grid4.Coords)
    (arg1 : Memref sig .tc .vmem S4096x960 .bf16) (harg1 : arg1.IsWhole) (arg2 : Memref sig .tc .vmem S960x128 .bf16) (harg2 : arg2.IsWhole)
    (arg3 : Memref sig .tc .vmem S128 .f32) (harg3 : arg3.IsWhole) (arg4 : Memref sig .tc .vmem S4096x128 .f32) (harg4 : arg4.IsWhole)
    (x0 : Vec F S4096x960 .bf16) (x1 : Vec F S960x128 .bf16) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__final_kernel i arg1 harg1 arg2 harg2 arg3 harg3 arg4 harg4) K := by
  simp only [cc4__final_kernel_eq_skeleton]; unfold cc4__final_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of the region's pipeline on core `c`: the arrays as the region finds them (`V`); after the body
    at point `t` each input's buffer at its block and the output's at `out4_3` of the three input blocks; the
    invariant "the scoped rest and the generator register, untouched"; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents (the definition projected). -/
theorem A_eq4 (c : Dev nD) (w : Fin cfg4.W) : (dat4 V c).A w = V c (Pipeline.arrRef spec4 w) := by
  dsimp only [dat4]

/-- What the body leaves, window by window (the definition's case split reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`: the invariant, what is owed, and each window's current staging
    buffer at what the pipeline left in it, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns: the same invariant and debt, each buffer at what the proof data says the body leaves. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks (`before4_W`), so `sound_kernel4` applies; the
    invariant and what is owed pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.MatmulRun0.lean ====
/-
  The first diffusion product A·X as a blocked matrix product: the grid is (4, 2, 4), point t = (i, j, k) with
  k = t mod 4 the contraction block.  The body keeps a 1024×1536 accumulator in a scratch buffer: at k = 0 it is
  reset to zero, at every k the product of the point's 1024×1024 block of A and 1024×1536 block of X is added to
  it, and at k = 3 it is copied to the output block.  This module runs the body once per control case
  (k = 0; 0 < k < 3; k = 3) on whole staging buffers and states what the scratch and the output hold afterwards.
-/
import proofs.«106054_j120259084553_1_alg».proof.Proof.Gen.KernelIdeal.Launch
import proofs.«106054_j120259084553_1_alg».proof.Proof.Gen.KernelIdeal.Skeleton
import proofs.«106054_j120259084553_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, decided over the grid -/

/-- The reset branch is taken where the contraction coordinate is zero. -/
abbrev cond0_0 (i : grid0.Coords) : Prop :=
  (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The copy-out branch is taken where the contraction coordinate is the last one. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last contraction block the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The staging memrefs and the scratch -/

abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1536 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1536 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S1024x1536 .f32 := Memref.whole cc0_scratch0

/-- The region's invariant before the first point, with the accumulator named: it is owned at some contents,
    beside the other scoped buffers and the generator register. -/
theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; rfl

/-! ## What one step does to the accumulator -/

/-- One accumulation step: the accumulator `s` plus the product of the block `a` of A and the block `x` of X. -/
abbrev step0 (s : Vec F S1024x1536 .f32) (a : Vec F S1024x1024 .bf16) (x : Vec F S1024x1536 .bf16) : Vec F S1024x1536 .f32 :=
  k0_pay2 s a x
/-- The first step starts from the zero block. -/
abbrev first0 (a : Vec F S1024x1024 .bf16) (x : Vec F S1024x1536 .bf16) : Vec F S1024x1536 .f32 :=
  k0_pay2 (k0_pay1 (F := F)) a x

theorem hz2 : (![0, 0] : Fin 2 → Nat) = fun _ => 0 := by funext a; fin_cases a <;> rfl

/-- A list of stores whose last one (listed first) is the whole accumulator block covers the block. -/
theorem cover_whole (p : Vec F S1024x1536 .f32) (L : List (View.Piece (Elt F) S1024x1536 .f32)) (y : S1024x1536.Idx) :
    ∃ pc ∈ ((⟨Rect.unit (s := S1024x1536) ![0, 0] S1024x1536.size inb_S1024x1536_S1024x1536_0_0, p⟩ : View.Piece (Elt F) S1024x1536 .f32) :: L), y ∈ pc.1.set :=
  ⟨_, List.mem_cons_self, View.mem_set_unit_zero hz2 inb_S1024x1536_S1024x1536_0_0 y⟩

/-! ## The body, case by case -/

set_option maxHeartbeats 4000000 in
/-- At a point with k = 0 the body leaves the inputs and the (idle) output buffer as they were and the accumulator
    at the first step's value, whatever it held. -/
theorem run0_A (c : Dev nD) (i : grid0.Coords) (arg3 : Memref sig .tc .vmem S1024x1024 .bf16) (harg3 : arg3.IsWhole)
    (arg4 : Memref sig .tc .vmem S1024x1536 .bf16) (harg4 : arg4.IsWhole) (arg5 : Memref sig .tc .vmem S1024x1536 .f32) (harg5 : arg5.IsWhole)
    (arg6 : Memref sig .tc .vmem S1024x1536 .f32) (harg6 : arg6.IsWhole) (hc0 : cond0_0 i) (hc1 : ¬cond0_1 i)
    (a : Vec F S1024x1024 .bf16) (x : Vec F S1024x1536 .bf16) (xi : Vec F S1024x1536 .f32) (E : Set ℕ) (K : PUnit → sProp 𝕄) :
    iprop(owns (c : Thread nD τ) arg3 fullShare a ∗ owns (c : Thread nD τ) arg4 fullShare x ∗ owns (c : Thread nD τ) arg5 fullShare xi
        ∗ (∃ d, owns (c : Thread nD τ) arg6 fullShare d)
        ∗ (iprop(owns (c : Thread nD τ) arg3 fullShare a ∗ owns (c : Thread nD τ) arg4 fullShare x ∗ owns (c : Thread nD τ) arg5 fullShare xi
            ∗ owns (c : Thread nD τ) arg6 fullShare (first0 a x)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  rw [View.read_writes_eq_canon _ _ _ (cover_whole _ _), View.canon_cons_unit_zero hz2]
  sl_unfold_run_names
  simp only [View.readAt_eq_ld, hf0, hf1, View.ld_unit_zero (S := S1024x1536) hz2, View.ld_unit_zero (S := S1024x1024) hz2]
  exact congrArg (fun z => k0_pay2 z a x) (View.readCov_unit_zero arg6.view hz2 _ _)

set_option maxHeartbeats 4000000 in
/-- At a point with 0 < k < 3 the body leaves the inputs and the (idle) output buffer as they were and moves the
    accumulator from `s` to one step further. -/
theorem run0_B (c : Dev nD) (i : grid0.Coords) (arg3 : Memref sig .tc .vmem S1024x1024 .bf16) (harg3 : arg3.IsWhole)
    (arg4 : Memref sig .tc .vmem S1024x1536 .bf16) (harg4 : arg4.IsWhole) (arg5 : Memref sig .tc .vmem S1024x1536 .f32) (harg5 : arg5.IsWhole)
    (arg6 : Memref sig .tc .vmem S1024x1536 .f32) (harg6 : arg6.IsWhole) (hc0 : ¬cond0_0 i) (hc1 : ¬cond0_1 i)
    (a : Vec F S1024x1024 .bf16) (x : Vec F S1024x1536 .bf16) (xi : Vec F S1024x1536 .f32) (s : Vec F S1024x1536 .f32) (E : Set ℕ) (K : PUnit → sProp 𝕄) :
    iprop(owns (c : Thread nD τ) arg3 fullShare a ∗ owns (c : Thread nD τ) arg4 fullShare x ∗ owns (c : Thread nD τ) arg5 fullShare xi
        ∗ owns (c : Thread nD τ) arg6 fullShare s
        ∗ (iprop(owns (c : Thread nD τ) arg3 fullShare a ∗ owns (c : Thread nD τ) arg4 fullShare x ∗ owns (c : Thread nD τ) arg5 fullShare xi
            ∗ owns (c : Thread nD τ) arg6 fullShare (step0 s a x)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2
  obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  sl_unfold_run_names
  rw [View.read_writes_eq_canon _ _ _ (cover_whole _ []), View.canon_unit_zero hz2]
  simp only [View.readAt_eq_ld, hf0, hf1, hfs, View.ld_unit_zero (S := S1024x1536) hz2, View.ld_unit_zero (S := S1024x1024) hz2]

set_option maxHeartbeats 4000000 in
/-- At a point with k = 3 the body moves the accumulator from `s` one step further and stores it into the output
    block, whatever that held. -/
theorem run0_C (c : Dev nD) (i : grid0.Coords) (arg3 : Memref sig .tc .vmem S1024x1024 .bf16) (harg3 : arg3.IsWhole)
    (arg4 : Memref sig .tc .vmem S1024x1536 .bf16) (harg4 : arg4.IsWhole) (arg5 : Memref sig .tc .vmem S1024x1536 .f32) (harg5 : arg5.IsWhole)
    (arg6 : Memref sig .tc .vmem S1024x1536 .f32) (harg6 : arg6.IsWhole) (hc0 : ¬cond0_0 i) (hc1 : cond0_1 i)
    (a : Vec F S1024x1024 .bf16) (x : Vec F S1024x1536 .bf16) (s : Vec F S1024x1536 .f32) (E : Set ℕ) (K : PUnit → sProp 𝕄) :
    iprop(owns (c : Thread nD τ) arg3 fullShare a ∗ owns (c : Thread nD τ) arg4 fullShare x ∗ (∃ d, owns (c : Thread nD τ) arg5 fullShare d)
        ∗ owns (c : Thread nD τ) arg6 fullShare s
        ∗ (iprop(owns (c : Thread nD τ) arg3 fullShare a ∗ owns (c : Thread nD τ) arg4 fullShare x ∗ owns (c : Thread nD τ) arg5 fullShare (step0 s a x)
            ∗ owns (c : Thread nD τ) arg6 fullShare (step0 s a x)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1
  obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    rw [View.read_writes_eq_canon _ _ _ (cover_whole _ []), View.canon_unit_zero hz2]
    sl_unfold_run_names
    simp only [View.readAt_eq_ld, hf0, hf1, hfs, View.ld_unit_zero (S := S1024x1536) hz2, View.ld_unit_zero (S := S1024x1024) hz2]
    exact View.readCov_unit_zero arg6.view hz2 _ _
  iexists _; isplitr
  swap; · iexact HS
  ipureintro
  sl_unfold_run_names
  rw [View.read_writes_eq_canon _ _ _ (cover_whole _ []), View.canon_unit_zero hz2]
  simp only [View.readAt_eq_ld, hf0, hf1, hfs, View.ld_unit_zero (S := S1024x1536) hz2, View.ld_unit_zero (S := S1024x1024) hz2]

end Cert.KernelIdeal.Hand

end
-- ==== Proof.Matmul0.lean ====
/-
  The first diffusion product as proof data for the pipeline: the arrays as the region finds them, the accumulator's
  contents after every grid point (a running sum over the contraction blocks, restarted at k = 0), what each staging
  buffer holds after the body, and the body's obligation at every point.
-/
import proofs.«106054_j120259084553_1_alg».proof.Proof.Gen.KernelIdeal.Launch
import proofs.«106054_j120259084553_1_alg».proof.Proof.Gen.KernelIdeal.Skeleton
import proofs.«106054_j120259084553_1_alg».proof.Proof.Gen.KernelIdeal.Points
import proofs.«106054_j120259084553_1_alg».proof.Proof.MatmulRun0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of A sits in its current staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The block of X sits in its current staging buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator after each point -/

/-- The accumulator after the body at position `n`: the first step's value where k = n mod 4 = 0, else one step
    further than after position `n − 1`. -/
def acc0 (c : Dev nD) : (n : ℕ) → n < cfg0.N → Vec F S1024x1536 .f32
  | 0, hn => first0 (iblk0 V c 0 ⟨0, hn⟩) (iblk0 V c 1 ⟨0, hn⟩)
  | n + 1, hn =>
    if (n + 1) % 4 = 0 then first0 (iblk0 V c 0 ⟨n + 1, hn⟩) (iblk0 V c 1 ⟨n + 1, hn⟩)
    else step0 (acc0 c n (Nat.lt_of_succ_lt hn)) (iblk0 V c 0 ⟨n + 1, hn⟩) (iblk0 V c 1 ⟨n + 1, hn⟩)

theorem acc0_first (c : Dev nD) (t : Fin cfg0.N) (h0 : t.val % 4 = 0) :
    acc0 V c t.val t.isLt = first0 (iblk0 V c 0 t) (iblk0 V c 1 t) := by
  obtain ⟨n, hn⟩ := t
  cases n with
  | zero => rfl
  | succ n => exact if_pos h0

theorem acc0_step (c : Dev nD) (t : Fin cfg0.N) (h0 : ¬t.val % 4 = 0) :
    acc0 V c t.val t.isLt = step0 (acc0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h0
  | succ n => exact if_neg h0

/-! ## The region's invariant -/

/-- Before position `n`: at the start the class's invariant (the accumulator at anything); afterwards the accumulator
    at what the point before left, beside the other scoped buffers and the generator register. -/
def PhiS0 (c : Dev nD) : (n : ℕ) → n ≤ cfg0.N → sProp 𝕄
  | 0, _ => Pipeline.ΦA spec0 c
  | n + 1, hn => iprop(iprop(owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega))
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The arrays as the region finds them; after the body each input's buffer at its block and the output's at the
    accumulator; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; k = t mod 4 says which case the point is in; the
    invariant hands the body the accumulator (at anything at the very first point, else at what the point before
    left) and takes it back at this point's value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h1 : t.val % 4 = 3
  · -- k = 3: accumulate and copy out
    have h0 : ¬t.val % 4 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [acc0_step V c t h0]
    rw [PhiS0_castSucc V c t, PhiS0_pos V c _ _ hz]
    iintro ⟨⟨⟨HS, HR⟩, Hg⟩, Ho, ⟨%d0, H0⟩, ⟨%d1, H1⟩, ⟨%d2, H2⟩⟩
    iapply (run0_C c (grid0.coords t) _ _ _ _ _ _ _ _ (fun h => h0 ((hcond0_0 t).mp h)) ((hcond0_1 t).mpr h1) (iblk0 V c 0 t) (iblk0 V c 1 t) _ Set.univ _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · rw [Dat.leavesExact_idle (dat0 V c) 2 t (idleAt0_2 t (fun h => h1 ((hcond0_1 t).mp h))) (noFlush0_2 t (fun h => h1 ((hcond0_1 t).mp h)))]
    by_cases h0 : t.val % 4 = 0
    · -- k = 0: reset and accumulate
      rw [acc0_first V c t h0]
      by_cases hz : t.val = 0
      · rw [PhiS0_castSucc V c t, PhiS0_zero V c _ _ hz, PhiA0_eq]
        iintro ⟨⟨⟨HS, HR⟩, Hg⟩, Ho, ⟨%d0, H0⟩, ⟨%d1, H1⟩, ⟨%d2, H2⟩⟩
        iapply (run0_A c (grid0.coords t) _ _ _ _ _ _ _ _ ((hcond0_0 t).mpr h0) (fun h => h1 ((hcond0_1 t).mp h)) (iblk0 V c 0 t) (iblk0 V c 1 t) _ Set.univ _)
        isplitl [H0]; · iexact H0
        isplitl [H1]; · iexact H1
        isplitl [H2]; · iexact H2
        isplitl [HS]; · iexact HS
        iintro ⟨H0, H1, H2, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS, HR⟩, Hg⟩, Ho, ⟨%d0, H0⟩, ⟨%d1, H1⟩, ⟨%d2, H2⟩⟩
        iapply (run0_A c (grid0.coords t) _ _ _ _ _ _ _ _ ((hcond0_0 t).mpr h0) (fun h => h1 ((hcond0_1 t).mp h)) (iblk0 V c 0 t) (iblk0 V c 1 t) _ Set.univ _)
        isplitl [H0]; · iexact H0
        isplitl [H1]; · iexact H1
        isplitl [H2]; · iexact H2
        isplitl [HS]; · iexists _; iexact HS
        iintro ⟨H0, H1, H2, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact H2
    · -- 0 < k < 3: accumulate
      have hz : t.val ≠ 0 := by omega
      rw [acc0_step V c t h0]
      rw [PhiS0_castSucc V c t, PhiS0_pos V c _ _ hz]
      iintro ⟨⟨⟨HS, HR⟩, Hg⟩, Ho, ⟨%d0, H0⟩, ⟨%d1, H1⟩, ⟨%d2, H2⟩⟩
      iapply (run0_B c (grid0.coords t) _ _ _ _ _ _ _ _ (fun h => h0 ((hcond0_0 t).mp h)) (fun h => h1 ((hcond0_1 t).mp h)) (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS, HR⟩, Hg⟩
  isplitl [HS HR]
  · isplitl [HS]; · iexists _; iexact HS
    iexact HR
  iexact Hg

end

end Cert.KernelIdeal.Hand

end
-- ==== Proof.MatmulRun1.lean ====
/-
  The second diffusion product A·X as a blocked matrix product: the grid is (4, 2, 4), point t = (i, j, k) with
  k = t mod 4 the contraction block.  The body keeps a 1024×1536 accumulator in a scratch buffer: at k = 0 it is
  reset to zero, at every k the product of the point's 1024×1024 block of A and 1024×1536 block of X is added to
  it, and at k = 3 it is copied to the output block.  This module runs the body once per control case
  (k = 0; 0 < k < 3; k = 3) on whole staging buffers and states what the scratch and the output hold afterwards.
-/
import proofs.«106054_j120259084553_1_alg».proof.Proof.Gen.KernelIdeal.Launch
import proofs.«106054_j120259084553_1_alg».proof.Proof.Gen.KernelIdeal.Skeleton
import proofs.«106054_j120259084553_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, decided over the grid -/

/-- The reset branch is taken where the contraction coordinate is zero. -/
abbrev cond1_0 (i : grid1.Coords) : Prop :=
  (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The copy-out branch is taken where the contraction coordinate is the last one. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last contraction block the output window is idle and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The staging memrefs and the scratch -/

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1536 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1536 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1 : Memref sig .tc .vmem S1024x1536 .f32 := Memref.whole cc1_scratch0

/-- The region's invariant before the first point, with the accumulator named: it is owned at some contents,
    beside the other scoped buffers and the generator register. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; rfl

/-! ## What one step does to the accumulator -/

/-- One accumulation step: the accumulator `s` plus the product of the block `a` of A and the block `x` of X. -/
abbrev step1 (s : Vec F S1024x1536 .f32) (a : Vec F S1024x1024 .bf16) (x : Vec F S1024x1536 .bf16) : Vec F S1024x1536 .f32 :=
  k1_pay2 s a x
/-- The first step starts from the zero block. -/
abbrev first1 (a : Vec F S1024x1024 .bf16) (x : Vec F S1024x1536 .bf16) : Vec F S1024x1536 .f32 :=
  k1_pay2 (k1_pay1 (F := F)) a x

theorem hz2_1 : (![0, 0] : Fin 2 → Nat) = fun _ => 0 := by funext a; fin_cases a <;> rfl

/-- A list of stores whose last one (listed first) is the whole accumulator block covers the block. -/
theorem cover_whole_1 (p : Vec F S1024x1536 .f32) (L : List (View.Piece (Elt F) S1024x1536 .f32)) (y : S1024x1536.Idx) :
    ∃ pc ∈ ((⟨Rect.unit (s := S1024x1536) ![0, 0] S1024x1536.size inb_S1024x1536_S1024x1536_0_0, p⟩ : View.Piece (Elt F) S1024x1536 .f32) :: L), y ∈ pc.1.set :=
  ⟨_, List.mem_cons_self, View.mem_set_unit_zero hz2_1 inb_S1024x1536_S1024x1536_0_0 y⟩

/-! ## The body, case by case -/

set_option maxHeartbeats 4000000 in
/-- At a point with k = 0 the body leaves the inputs and the (idle) output buffer as they were and the accumulator
    at the first step's value, whatever it held. -/
theorem run1_A (c : Dev nD) (i : grid1.Coords) (arg3 : Memref sig .tc .vmem S1024x1024 .bf16) (harg3 : arg3.IsWhole)
    (arg4 : Memref sig .tc .vmem S1024x1536 .bf16) (harg4 : arg4.IsWhole) (arg5 : Memref sig .tc .vmem S1024x1536 .f32) (harg5 : arg5.IsWhole)
    (arg6 : Memref sig .tc .vmem S1024x1536 .f32) (harg6 : arg6.IsWhole) (hc0 : cond1_0 i) (hc1 : ¬cond1_1 i)
    (a : Vec F S1024x1024 .bf16) (x : Vec F S1024x1536 .bf16) (xi : Vec F S1024x1536 .f32) (E : Set ℕ) (K : PUnit → sProp 𝕄) :
    iprop(owns (c : Thread nD τ) arg3 fullShare a ∗ owns (c : Thread nD τ) arg4 fullShare x ∗ owns (c : Thread nD τ) arg5 fullShare xi
        ∗ (∃ d, owns (c : Thread nD τ) arg6 fullShare d)
        ∗ (iprop(owns (c : Thread nD τ) arg3 fullShare a ∗ owns (c : Thread nD τ) arg4 fullShare x ∗ owns (c : Thread nD τ) arg5 fullShare xi
            ∗ owns (c : Thread nD τ) arg6 fullShare (first1 a x)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  rw [View.read_writes_eq_canon _ _ _ (cover_whole_1 _ _), View.canon_cons_unit_zero hz2_1]
  sl_unfold_run_names
  simp only [View.readAt_eq_ld, hf0, hf1, View.ld_unit_zero (S := S1024x1536) hz2_1, View.ld_unit_zero (S := S1024x1024) hz2_1]
  exact congrArg (fun z => k1_pay2 z a x) (View.readCov_unit_zero arg6.view hz2_1 _ _)

set_option maxHeartbeats 4000000 in
/-- At a point with 0 < k < 3 the body leaves the inputs and the (idle) output buffer as they were and moves the
    accumulator from `s` to one step further. -/
theorem run1_B (c : Dev nD) (i : grid1.Coords) (arg3 : Memref sig .tc .vmem S1024x1024 .bf16) (harg3 : arg3.IsWhole)
    (arg4 : Memref sig .tc .vmem S1024x1536 .bf16) (harg4 : arg4.IsWhole) (arg5 : Memref sig .tc .vmem S1024x1536 .f32) (harg5 : arg5.IsWhole)
    (arg6 : Memref sig .tc .vmem S1024x1536 .f32) (harg6 : arg6.IsWhole) (hc0 : ¬cond1_0 i) (hc1 : ¬cond1_1 i)
    (a : Vec F S1024x1024 .bf16) (x : Vec F S1024x1536 .bf16) (xi : Vec F S1024x1536 .f32) (s : Vec F S1024x1536 .f32) (E : Set ℕ) (K : PUnit → sProp 𝕄) :
    iprop(owns (c : Thread nD τ) arg3 fullShare a ∗ owns (c : Thread nD τ) arg4 fullShare x ∗ owns (c : Thread nD τ) arg5 fullShare xi
        ∗ owns (c : Thread nD τ) arg6 fullShare s
        ∗ (iprop(owns (c : Thread nD τ) arg3 fullShare a ∗ owns (c : Thread nD τ) arg4 fullShare x ∗ owns (c : Thread nD τ) arg5 fullShare xi
            ∗ owns (c : Thread nD τ) arg6 fullShare (step1 s a x)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2
  obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  sl_unfold_run_names
  rw [View.read_writes_eq_canon _ _ _ (cover_whole_1 _ []), View.canon_unit_zero hz2_1]
  simp only [View.readAt_eq_ld, hf0, hf1, hfs, View.ld_unit_zero (S := S1024x1536) hz2_1, View.ld_unit_zero (S := S1024x1024) hz2_1]

set_option maxHeartbeats 4000000 in
/-- At a point with k = 3 the body moves the accumulator from `s` one step further and stores it into the output
    block, whatever that held. -/
theorem run1_C (c : Dev nD) (i : grid1.Coords) (arg3 : Memref sig .tc .vmem S1024x1024 .bf16) (harg3 : arg3.IsWhole)
    (arg4 : Memref sig .tc .vmem S1024x1536 .bf16) (harg4 : arg4.IsWhole) (arg5 : Memref sig .tc .vmem S1024x1536 .f32) (harg5 : arg5.IsWhole)
    (arg6 : Memref sig .tc .vmem S1024x1536 .f32) (harg6 : arg6.IsWhole) (hc0 : ¬cond1_0 i) (hc1 : cond1_1 i)
    (a : Vec F S1024x1024 .bf16) (x : Vec F S1024x1536 .bf16) (s : Vec F S1024x1536 .f32) (E : Set ℕ) (K : PUnit → sProp 𝕄) :
    iprop(owns (c : Thread nD τ) arg3 fullShare a ∗ owns (c : Thread nD τ) arg4 fullShare x ∗ (∃ d, owns (c : Thread nD τ) arg5 fullShare d)
        ∗ owns (c : Thread nD τ) arg6 fullShare s
        ∗ (iprop(owns (c : Thread nD τ) arg3 fullShare a ∗ owns (c : Thread nD τ) arg4 fullShare x ∗ owns (c : Thread nD τ) arg5 fullShare (step1 s a x)
            ∗ owns (c : Thread nD τ) arg6 fullShare (step1 s a x)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1
  obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    rw [View.read_writes_eq_canon _ _ _ (cover_whole_1 _ []), View.canon_unit_zero hz2_1]
    sl_unfold_run_names
    simp only [View.readAt_eq_ld, hf0, hf1, hfs, View.ld_unit_zero (S := S1024x1536) hz2_1, View.ld_unit_zero (S := S1024x1024) hz2_1]
    exact View.readCov_unit_zero arg6.view hz2_1 _ _
  iexists _; isplitr
  swap; · iexact HS
  ipureintro
  sl_unfold_run_names
  rw [View.read_writes_eq_canon _ _ _ (cover_whole_1 _ []), View.canon_unit_zero hz2_1]
  simp only [View.readAt_eq_ld, hf0, hf1, hfs, View.ld_unit_zero (S := S1024x1536) hz2_1, View.ld_unit_zero (S := S1024x1024) hz2_1]

end Cert.KernelIdeal.Hand

end
-- ==== Proof.Matmul1.lean ====
/-
  The second diffusion product as proof data for the pipeline: the arrays as the region finds them, the accumulator's
  contents after every grid point (a running sum over the contraction blocks, restarted at k = 0), what each staging
  buffer holds after the body, and the body's obligation at every point.
-/
import proofs.«106054_j120259084553_1_alg».proof.Proof.Gen.KernelIdeal.Launch
import proofs.«106054_j120259084553_1_alg».proof.Proof.Gen.KernelIdeal.Skeleton
import proofs.«106054_j120259084553_1_alg».proof.Proof.Gen.KernelIdeal.Points
import proofs.«106054_j120259084553_1_alg».proof.Proof.MatmulRun1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of A sits in its current staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The block of X sits in its current staging buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator after each point -/

/-- The accumulator after the body at position `n`: the first step's value where k = n mod 4 = 0, else one step
    further than after position `n − 1`. -/
def acc1 (c : Dev nD) : (n : ℕ) → n < cfg1.N → Vec F S1024x1536 .f32
  | 0, hn => first1 (iblk1 V c 0 ⟨0, hn⟩) (iblk1 V c 1 ⟨0, hn⟩)
  | n + 1, hn =>
    if (n + 1) % 4 = 0 then first1 (iblk1 V c 0 ⟨n + 1, hn⟩) (iblk1 V c 1 ⟨n + 1, hn⟩)
    else step1 (acc1 c n (Nat.lt_of_succ_lt hn)) (iblk1 V c 0 ⟨n + 1, hn⟩) (iblk1 V c 1 ⟨n + 1, hn⟩)

theorem acc1_first (c : Dev nD) (t : Fin cfg1.N) (h0 : t.val % 4 = 0) :
    acc1 V c t.val t.isLt = first1 (iblk1 V c 0 t) (iblk1 V c 1 t) := by
  obtain ⟨n, hn⟩ := t
  cases n with
  | zero => rfl
  | succ n => exact if_pos h0

theorem acc1_step (c : Dev nD) (t : Fin cfg1.N) (h0 : ¬t.val % 4 = 0) :
    acc1 V c t.val t.isLt = step1 (acc1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => exact if_neg h0

/-! ## The region's invariant -/

/-- Before position `n`: at the start the class's invariant (the accumulator at anything); afterwards the accumulator
    at what the point before left, beside the other scoped buffers and the generator register. -/
def PhiS1 (c : Dev nD) : (n : ℕ) → n ≤ cfg1.N → sProp 𝕄
  | 0, _ => Pipeline.ΦA spec1 c
  | n + 1, hn => iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The arrays as the region finds them; after the body each input's buffer at its block and the output's at the
    accumulator; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; k = t mod 4 says which case the point is in; the
    invariant hands the body the accumulator (at anything at the very first point, else at what the point before
    left) and takes it back at this point's value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h1 : t.val % 4 = 3
  · -- k = 3: accumulate and copy out
    have h0 : ¬t.val % 4 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [acc1_step V c t h0]
    rw [PhiS1_castSucc V c t, PhiS1_pos V c _ _ hz]
    iintro ⟨⟨⟨HS, HR⟩, Hg⟩, Ho, ⟨%d0, H0⟩, ⟨%d1, H1⟩, ⟨%d2, H2⟩⟩
    iapply (run1_C c (grid1.coords t) _ _ _ _ _ _ _ _ (fun h => h0 ((hcond1_0 t).mp h)) ((hcond1_1 t).mpr h1) (iblk1 V c 0 t) (iblk1 V c 1 t) _ Set.univ _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · rw [Dat.leavesExact_idle (dat1 V c) 2 t (idleAt1_2 t (fun h => h1 ((hcond1_1 t).mp h))) (noFlush1_2 t (fun h => h1 ((hcond1_1 t).mp h)))]
    by_cases h0 : t.val % 4 = 0
    · -- k = 0: reset and accumulate
      rw [acc1_first V c t h0]
      by_cases hz : t.val = 0
      · rw [PhiS1_castSucc V c t, PhiS1_zero V c _ _ hz, PhiA1_eq]
        iintro ⟨⟨⟨HS, HR⟩, Hg⟩, Ho, ⟨%d0, H0⟩, ⟨%d1, H1⟩, ⟨%d2, H2⟩⟩
        iapply (run1_A c (grid1.coords t) _ _ _ _ _ _ _ _ ((hcond1_0 t).mpr h0) (fun h => h1 ((hcond1_1 t).mp h)) (iblk1 V c 0 t) (iblk1 V c 1 t) _ Set.univ _)
        isplitl [H0]; · iexact H0
        isplitl [H1]; · iexact H1
        isplitl [H2]; · iexact H2
        isplitl [HS]; · iexact HS
        iintro ⟨H0, H1, H2, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS, HR⟩, Hg⟩, Ho, ⟨%d0, H0⟩, ⟨%d1, H1⟩, ⟨%d2, H2⟩⟩
        iapply (run1_A c (grid1.coords t) _ _ _ _ _ _ _ _ ((hcond1_0 t).mpr h0) (fun h => h1 ((hcond1_1 t).mp h)) (iblk1 V c 0 t) (iblk1 V c 1 t) _ Set.univ _)
        isplitl [H0]; · iexact H0
        isplitl [H1]; · iexact H1
        isplitl [H2]; · iexact H2
        isplitl [HS]; · iexists _; iexact HS
        iintro ⟨H0, H1, H2, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact H2
    · -- 0 < k < 3: accumulate
      have hz : t.val ≠ 0 := by omega
      rw [acc1_step V c t h0]
      rw [PhiS1_castSucc V c t, PhiS1_pos V c _ _ hz]
      iintro ⟨⟨⟨HS, HR⟩, Hg⟩, Ho, ⟨%d0, H0⟩, ⟨%d1, H1⟩, ⟨%d2, H2⟩⟩
      iapply (run1_B c (grid1.coords t) _ _ _ _ _ _ _ _ (fun h => h0 ((hcond1_0 t).mp h)) (fun h => h1 ((hcond1_1 t).mp h)) (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨HS, HR⟩, Hg⟩
  isplitl [HS HR]
  · isplitl [HS]; · iexists _; iexact HS
    iexact HR
  iexact Hg

end

end Cert.KernelIdeal.Hand

end
-- ==== Proof.MatmulRun2.lean ====
/-
  The third diffusion product A·X as a blocked matrix product: the grid is (4, 2, 4), point t = (i, j, k) with
  k = t mod 4 the contraction block.  The body keeps a 1024×1536 accumulator in a scratch buffer: at k = 0 it is
  reset to zero, at every k the product of the point's 1024×1024 block of A and 1024×1536 block of X is added to
  it, and at k = 3 it is copied to the output block.  This module runs the body once per control case
  (k = 0; 0 < k < 3; k = 3) on whole staging buffers and states what the scratch and the output hold afterwards.
-/
import proofs.«106054_j120259084553_1_alg».proof.Proof.Gen.KernelIdeal.Launch
import proofs.«106054_j120259084553_1_alg».proof.Proof.Gen.KernelIdeal.Skeleton
import proofs.«106054_j120259084553_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, decided over the grid -/

/-- The reset branch is taken where the contraction coordinate is zero. -/
abbrev cond2_0 (i : grid2.Coords) : Prop :=
  (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- The copy-out branch is taken where the contraction coordinate is the last one. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- Away from the last contraction block the output window is idle and is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-! ## The staging memrefs and the scratch -/

abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1536 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1536 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2 : Memref sig .tc .vmem S1024x1536 .f32 := Memref.whole cc2_scratch0

/-- The region's invariant before the first point, with the accumulator named: it is owned at some contents,
    beside the other scoped buffers and the generator register. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; rfl

/-! ## What one step does to the accumulator -/

/-- One accumulation step: the accumulator `s` plus the product of the block `a` of A and the block `x` of X. -/
abbrev step2 (s : Vec F S1024x1536 .f32) (a : Vec F S1024x1024 .bf16) (x : Vec F S1024x1536 .bf16) : Vec F S1024x1536 .f32 :=
  k2_pay2 s a x
/-- The first step starts from the zero block. -/
abbrev first2 (a : Vec F S1024x1024 .bf16) (x : Vec F S1024x1536 .bf16) : Vec F S1024x1536 .f32 :=
  k2_pay2 (k2_pay1 (F := F)) a x

theorem hz2_2 : (![0, 0] : Fin 2 → Nat) = fun _ => 0 := by funext a; fin_cases a <;> rfl

/-- A list of stores whose last one (listed first) is the whole accumulator block covers the block. -/
theorem cover_whole_2 (p : Vec F S1024x1536 .f32) (L : List (View.Piece (Elt F) S1024x1536 .f32)) (y : S1024x1536.Idx) :
    ∃ pc ∈ ((⟨Rect.unit (s := S1024x1536) ![0, 0] S1024x1536.size inb_S1024x1536_S1024x1536_0_0, p⟩ : View.Piece (Elt F) S1024x1536 .f32) :: L), y ∈ pc.1.set :=
  ⟨_, List.mem_cons_self, View.mem_set_unit_zero hz2_2 inb_S1024x1536_S1024x1536_0_0 y⟩

/-! ## The body, case by case -/

set_option maxHeartbeats 4000000 in
/-- At a point with k = 0 the body leaves the inputs and the (idle) output buffer as they were and the accumulator
    at the first step's value, whatever it held. -/
theorem run2_A (c : Dev nD) (i : grid2.Coords) (arg3 : Memref sig .tc .vmem S1024x1024 .bf16) (harg3 : arg3.IsWhole)
    (arg4 : Memref sig .tc .vmem S1024x1536 .bf16) (harg4 : arg4.IsWhole) (arg5 : Memref sig .tc .vmem S1024x1536 .f32) (harg5 : arg5.IsWhole)
    (arg6 : Memref sig .tc .vmem S1024x1536 .f32) (harg6 : arg6.IsWhole) (hc0 : cond2_0 i) (hc1 : ¬cond2_1 i)
    (a : Vec F S1024x1024 .bf16) (x : Vec F S1024x1536 .bf16) (xi : Vec F S1024x1536 .f32) (E : Set ℕ) (K : PUnit → sProp 𝕄) :
    iprop(owns (c : Thread nD τ) arg3 fullShare a ∗ owns (c : Thread nD τ) arg4 fullShare x ∗ owns (c : Thread nD τ) arg5 fullShare xi
        ∗ (∃ d, owns (c : Thread nD τ) arg6 fullShare d)
        ∗ (iprop(owns (c : Thread nD τ) arg3 fullShare a ∗ owns (c : Thread nD τ) arg4 fullShare x ∗ owns (c : Thread nD τ) arg5 fullShare xi
            ∗ owns (c : Thread nD τ) arg6 fullShare (first2 a x)) -∗ K ⟨⟩))
      ⊢ wp frame (wpE (defs₀ (F := F)) Variants.none c none) E (cc2__matmul_kernel i arg3 harg3 arg4 harg4 arg5 harg5 arg6 harg6) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  rw [View.read_writes_eq_canon _ _ _ (cover_whole_2 _ _), View.canon_cons_unit_zero hz2_2]
  sl_unfold_run_names
  simp only [View.readAt_eq_ld, hf0, hf1, View.ld_unit_zero (S := S1024x1536) hz2_2, View.ld_unit_zero (S := S1024x1024) hz2_2]
  exact congrArg (fun z => k2_pay2 z a x) (View.readCov_unit_zero arg6.view hz2_2 _ _)

set_option maxHeartbeats 4000000 in
/-- At a point with 0 < k < 3 the body leaves the inputs and the (idle) output buffer as they were and moves the
    accumulator from `s` to one step further. -/
theorem run2_B (c : Dev nD) (i : grid2.Coords) (arg3 : Memref sig .tc .vmem S1024x1024 .bf16) (harg3 : arg3.IsWhole)
    (arg4 : Memref sig .tc .vmem S1024x1536 .bf16) (harg4 : arg4.IsWhole) (arg5 : Memref sig .tc .vmem S1024x1536 .f32) (harg5 : arg5.IsWhole)
    (arg6 : Memref sig .tc .vmem S1024x1536 .f32) (harg6 : arg6.IsWhole) (hc0 : ¬cond2_0 i) (hc1 : ¬cond2_1 i)
    (a : Vec F S1024x1024 .bf16) (x : Vec F S1024x1536 .bf16) (xi : Vec F S1024x1536 .f32) (s : Vec F S1024x1536 .f32) (E : Set ℕ) (K : PUnit → sProp 𝕄) :
    iprop(owns (c : Thread nD τ) arg3 fullShare a ∗ owns (c : Thread nD τ) arg4 fullShare x ∗ owns (c : Thread nD τ) arg5 fullShare xi
        ∗ owns (c : Thread nD τ) arg6 fullShare s
        ∗ (iprop(owns (c : Thread nD τ) arg3 fullShare a ∗ owns (c : Thread nD τ) arg4 fullShare x ∗ owns (c : Thread nD τ) arg5 fullShare xi
            ∗ owns (c : Thread nD τ) arg6 fullShare (step2 s a x)) -∗ K ⟨⟩))
      ⊢ wp frame (wpE (defs₀ (F := F)) Variants.none c none) E (cc2__matmul_kernel i arg3 harg3 arg4 harg4 arg5 harg5 arg6 harg6) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2
  obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  sl_unfold_run_names
  rw [View.read_writes_eq_canon _ _ _ (cover_whole_2 _ []), View.canon_unit_zero hz2_2]
  simp only [View.readAt_eq_ld, hf0, hf1, hfs, View.ld_unit_zero (S := S1024x1536) hz2_2, View.ld_unit_zero (S := S1024x1024) hz2_2]

set_option maxHeartbeats 4000000 in
/-- At a point with k = 3 the body moves the accumulator from `s` one step further and stores it into the output
    block, whatever that held. -/
theorem run2_C (c : Dev nD) (i : grid2.Coords) (arg3 : Memref sig .tc .vmem S1024x1024 .bf16) (harg3 : arg3.IsWhole)
    (arg4 : Memref sig .tc .vmem S1024x1536 .bf16) (harg4 : arg4.IsWhole) (arg5 : Memref sig .tc .vmem S1024x1536 .f32) (harg5 : arg5.IsWhole)
    (arg6 : Memref sig .tc .vmem S1024x1536 .f32) (harg6 : arg6.IsWhole) (hc0 : ¬cond2_0 i) (hc1 : cond2_1 i)
    (a : Vec F S1024x1024 .bf16) (x : Vec F S1024x1536 .bf16) (s : Vec F S1024x1536 .f32) (E : Set ℕ) (K : PUnit → sProp 𝕄) :
    iprop(owns (c : Thread nD τ) arg3 fullShare a ∗ owns (c : Thread nD τ) arg4 fullShare x ∗ (∃ d, owns (c : Thread nD τ) arg5 fullShare d)
        ∗ owns (c : Thread nD τ) arg6 fullShare s
        ∗ (iprop(owns (c : Thread nD τ) arg3 fullShare a ∗ owns (c : Thread nD τ) arg4 fullShare x ∗ owns (c : Thread nD τ) arg5 fullShare (step2 s a x)
            ∗ owns (c : Thread nD τ) arg6 fullShare (step2 s a x)) -∗ K ⟨⟩))
      ⊢ wp frame (wpE (defs₀ (F := F)) Variants.none c none) E (cc2__matmul_kernel i arg3 harg3 arg4 harg4 arg5 harg5 arg6 harg6) K := by
  simp only [cc2__matmul_kernel_eq_skeleton]; unfold cc2__matmul_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1
  obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    rw [View.read_writes_eq_canon _ _ _ (cover_whole_2 _ []), View.canon_unit_zero hz2_2]
    sl_unfold_run_names
    simp only [View.readAt_eq_ld, hf0, hf1, hfs, View.ld_unit_zero (S := S1024x1536) hz2_2, View.ld_unit_zero (S := S1024x1024) hz2_2]
    exact View.readCov_unit_zero arg6.view hz2_2 _ _
  iexists _; isplitr
  swap; · iexact HS
  ipureintro
  sl_unfold_run_names
  rw [View.read_writes_eq_canon _ _ _ (cover_whole_2 _ []), View.canon_unit_zero hz2_2]
  simp only [View.readAt_eq_ld, hf0, hf1, hfs, View.ld_unit_zero (S := S1024x1536) hz2_2, View.ld_unit_zero (S := S1024x1024) hz2_2]

end Cert.KernelIdeal.Hand

end
-- ==== Proof.Matmul2.lean ====
/-
  The third diffusion product as proof data for the pipeline: the arrays as the region finds them, the accumulator's
  contents after every grid point (a running sum over the contraction blocks, restarted at k = 0), what each staging
  buffer holds after the body, and the body's obligation at every point.
-/
import proofs.«106054_j120259084553_1_alg».proof.Proof.Gen.KernelIdeal.Launch
import proofs.«106054_j120259084553_1_alg».proof.Proof.Gen.KernelIdeal.Skeleton
import proofs.«106054_j120259084553_1_alg».proof.Proof.Gen.KernelIdeal.Points
import proofs.«106054_j120259084553_1_alg».proof.Proof.MatmulRun2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of A sits in its current staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The block of X sits in its current staging buffer at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The accumulator after each point -/

/-- The accumulator after the body at position `n`: the first step's value where k = n mod 4 = 0, else one step
    further than after position `n − 1`. -/
def acc2 (c : Dev nD) : (n : ℕ) → n < cfg2.N → Vec F S1024x1536 .f32
  | 0, hn => first2 (iblk2 V c 0 ⟨0, hn⟩) (iblk2 V c 1 ⟨0, hn⟩)
  | n + 1, hn =>
    if (n + 1) % 4 = 0 then first2 (iblk2 V c 0 ⟨n + 1, hn⟩) (iblk2 V c 1 ⟨n + 1, hn⟩)
    else step2 (acc2 c n (Nat.lt_of_succ_lt hn)) (iblk2 V c 0 ⟨n + 1, hn⟩) (iblk2 V c 1 ⟨n + 1, hn⟩)

theorem acc2_first (c : Dev nD) (t : Fin cfg2.N) (h0 : t.val % 4 = 0) :
    acc2 V c t.val t.isLt = first2 (iblk2 V c 0 t) (iblk2 V c 1 t) := by
  obtain ⟨n, hn⟩ := t
  cases n with
  | zero => rfl
  | succ n => exact if_pos h0

theorem acc2_step (c : Dev nD) (t : Fin cfg2.N) (h0 : ¬t.val % 4 = 0) :
    acc2 V c t.val t.isLt = step2 (acc2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h0
  | succ n => exact if_neg h0

/-! ## The region's invariant -/

/-- Before position `n`: at the start the class's invariant (the accumulator at anything); afterwards the accumulator
    at what the point before left, beside the other scoped buffers and the generator register. -/
def PhiS2 (c : Dev nD) : (n : ℕ) → n ≤ cfg2.N → sProp 𝕄
  | 0, _ => Pipeline.ΦA spec2 c
  | n + 1, hn => iprop(iprop(owns (c : Thread nD τ) scM2 fullShare (acc2 V c n hn)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (acc2 V c n hn)
      ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2 fullShare (acc2 V c (n - 1) (by omega))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The arrays as the region finds them; after the body each input's buffer at its block and the output's at the
    accumulator; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' buffers hold their blocks; k = t mod 4 says which case the point is in; the
    invariant hands the body the accumulator (at anything at the very first point, else at what the point before
    left) and takes it back at this point's value. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h1 : t.val % 4 = 3
  · -- k = 3: accumulate and copy out
    have h0 : ¬t.val % 4 = 0 := by omega
    have hz : t.val ≠ 0 := by omega
    rw [show (dat2 V c).leavesExact 2 t = owns (c : Thread nD τ) (ms2_2 t) fullShare ((dat2 V c).after 2 t) from by
      unfold Dat.leavesExact; rw [liveAt2_2 t ((hcond2_1 t).mpr h1)], after2_2]
    rw [acc2_step V c t h0]
    rw [PhiS2_castSucc V c t, PhiS2_pos V c _ _ hz]
    iintro ⟨⟨⟨HS, HR⟩, Hg⟩, Ho, ⟨%d0, H0⟩, ⟨%d1, H1⟩, ⟨%d2, H2⟩⟩
    iapply (run2_C c (grid2.coords t) _ _ _ _ _ _ _ _ (fun h => h0 ((hcond2_0 t).mp h)) ((hcond2_1 t).mpr h1) (iblk2 V c 0 t) (iblk2 V c 1 t) _ Set.univ _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · rw [Dat.leavesExact_idle (dat2 V c) 2 t (idleAt2_2 t (fun h => h1 ((hcond2_1 t).mp h))) (noFlush2_2 t (fun h => h1 ((hcond2_1 t).mp h)))]
    by_cases h0 : t.val % 4 = 0
    · -- k = 0: reset and accumulate
      rw [acc2_first V c t h0]
      by_cases hz : t.val = 0
      · rw [PhiS2_castSucc V c t, PhiS2_zero V c _ _ hz, PhiA2_eq]
        iintro ⟨⟨⟨HS, HR⟩, Hg⟩, Ho, ⟨%d0, H0⟩, ⟨%d1, H1⟩, ⟨%d2, H2⟩⟩
        iapply (run2_A c (grid2.coords t) _ _ _ _ _ _ _ _ ((hcond2_0 t).mpr h0) (fun h => h1 ((hcond2_1 t).mp h)) (iblk2 V c 0 t) (iblk2 V c 1 t) _ Set.univ _)
        isplitl [H0]; · iexact H0
        isplitl [H1]; · iexact H1
        isplitl [H2]; · iexact H2
        isplitl [HS]; · iexact HS
        iintro ⟨H0, H1, H2, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact H2
      · rw [PhiS2_castSucc V c t, PhiS2_pos V c _ _ hz]
        iintro ⟨⟨⟨HS, HR⟩, Hg⟩, Ho, ⟨%d0, H0⟩, ⟨%d1, H1⟩, ⟨%d2, H2⟩⟩
        iapply (run2_A c (grid2.coords t) _ _ _ _ _ _ _ _ ((hcond2_0 t).mpr h0) (fun h => h1 ((hcond2_1 t).mp h)) (iblk2 V c 0 t) (iblk2 V c 1 t) _ Set.univ _)
        isplitl [H0]; · iexact H0
        isplitl [H1]; · iexact H1
        isplitl [H2]; · iexact H2
        isplitl [HS]; · iexists _; iexact HS
        iintro ⟨H0, H1, H2, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact H2
    · -- 0 < k < 3: accumulate
      have hz : t.val ≠ 0 := by omega
      rw [acc2_step V c t h0]
      rw [PhiS2_castSucc V c t, PhiS2_pos V c _ _ hz]
      iintro ⟨⟨⟨HS, HR⟩, Hg⟩, Ho, ⟨%d0, H0⟩, ⟨%d1, H1⟩, ⟨%d2, H2⟩⟩
      iapply (run2_B c (grid2.coords t) _ _ _ _ _ _ _ _ (fun h => h0 ((hcond2_0 t).mp h)) (fun h => h1 ((hcond2_1 t).mp h)) (iblk2 V c 0 t) (iblk2 V c 1 t) _ _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]

/-- After the last point the invariant gives the class's back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega), PhiA2_eq]
  iintro ⟨⟨HS, HR⟩, Hg⟩
  isplitl [HS HR]
  · isplitl [HS]; · iexists _; iexact HS
    iexact HR
  iexact Hg

end

end Cert.KernelIdeal.Hand

end
-- ==== Proof.MatmulRun3.lean ====
/-
  The fourth diffusion product A·X as a blocked matrix product: the grid is (4, 2, 4), point t = (i, j, k) with
  k = t mod 4 the contraction block.  The body keeps a 1024×1536 accumulator in a scratch buffer: at k = 0 it is
  reset to zero, at every k the product of the point's 1024×1024 block of A and 1024×1536 block of X is added to
  it, and at k = 3 it is copied to the output block.  This module runs the body once per control case
  (k = 0; 0 < k < 3; k = 3) on whole staging buffers and states what the scratch and the output hold afterwards.
-/
import proofs.«106054_j120259084553_1_alg».proof.Proof.Gen.KernelIdeal.Launch
import proofs.«106054_j120259084553_1_alg».proof.Proof.Gen.KernelIdeal.Skeleton
import proofs.«106054_j120259084553_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, decided over the grid -/

/-- The reset branch is taken where the contraction coordinate is zero. -/
abbrev cond3_0 (i : grid3.Coords) : Prop :=
  (Scalar.cmpi .ne (Scalar.extui (Scalar.cmpi .eq (BitVec.ofNat 32 (i 2).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)

/-- The copy-out branch is taken where the contraction coordinate is the last one. -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
/-- Away from the last contraction block the output window is idle and is not written back. -/
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
theorem liveAt3_2 : ∀ t : Fin cfg3.N, cond3_1 (grid3.coords t) → cfg3.idle 2 (grid3.coords t) = false := by decide +kernel

/-! ## The staging memrefs and the scratch -/

abbrev ms3_0 (t : Fin cfg3.N) : Memref sig .tc .vmem S1024x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1536 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x1536 .f32 := win3_2.stage (cfg3.slots t 2)
abbrev hs3_2 (t : Fin cfg3.N) : (ms3_2 t).IsWhole := hstage3_2 ((cfg3.slots t 2).cast nbuf3_2)
/-- The accumulator: a whole scoped buffer of the kernel's own. -/
abbrev scM3 : Memref sig .tc .vmem S1024x1536 .f32 := Memref.whole cc3_scratch0

/-- The region's invariant before the first point, with the accumulator named: it is owned at some contents,
    beside the other scoped buffers and the generator register. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; rfl

/-! ## What one step does to the accumulator -/

/-- One accumulation step: the accumulator `s` plus the product of the block `a` of A and the block `x` of X. -/
abbrev step3 (s : Vec F S1024x1536 .f32) (a : Vec F S1024x1024 .bf16) (x : Vec F S1024x1536 .bf16) : Vec F S1024x1536 .f32 :=
  k3_pay2 s a x
/-- The first step starts from the zero block. -/
abbrev first3 (a : Vec F S1024x1024 .bf16) (x : Vec F S1024x1536 .bf16) : Vec F S1024x1536 .f32 :=
  k3_pay2 (k3_pay1 (F := F)) a x

theorem hz2_3 : (![0, 0] : Fin 2 → Nat) = fun _ => 0 := by funext a; fin_cases a <;> rfl

/-- A list of stores whose last one (listed first) is the whole accumulator block covers the block. -/
theorem cover_whole_3 (p : Vec F S1024x1536 .f32) (L : List (View.Piece (Elt F) S1024x1536 .f32)) (y : S1024x1536.Idx) :
    ∃ pc ∈ ((⟨Rect.unit (s := S1024x1536) ![0, 0] S1024x1536.size inb_S1024x1536_S1024x1536_0_0, p⟩ : View.Piece (Elt F) S1024x1536 .f32) :: L), y ∈ pc.1.set :=
  ⟨_, List.mem_cons_self, View.mem_set_unit_zero hz2_3 inb_S1024x1536_S1024x1536_0_0 y⟩

/-! ## The body, case by case -/

set_option maxHeartbeats 4000000 in
/-- At a point with k = 0 the body leaves the inputs and the (idle) output buffer as they were and the accumulator
    at the first step's value, whatever it held. -/
theorem run3_A (c : Dev nD) (i : grid3.Coords) (arg3 : Memref sig .tc .vmem S1024x1024 .bf16) (harg3 : arg3.IsWhole)
    (arg4 : Memref sig .tc .vmem S1024x1536 .bf16) (harg4 : arg4.IsWhole) (arg5 : Memref sig .tc .vmem S1024x1536 .f32) (harg5 : arg5.IsWhole)
    (arg6 : Memref sig .tc .vmem S1024x1536 .f32) (harg6 : arg6.IsWhole) (hc0 : cond3_0 i) (hc1 : ¬cond3_1 i)
    (a : Vec F S1024x1024 .bf16) (x : Vec F S1024x1536 .bf16) (xi : Vec F S1024x1536 .f32) (E : Set ℕ) (K : PUnit → sProp 𝕄) :
    iprop(owns (c : Thread nD τ) arg3 fullShare a ∗ owns (c : Thread nD τ) arg4 fullShare x ∗ owns (c : Thread nD τ) arg5 fullShare xi
        ∗ (∃ d, owns (c : Thread nD τ) arg6 fullShare d)
        ∗ (iprop(owns (c : Thread nD τ) arg3 fullShare a ∗ owns (c : Thread nD τ) arg4 fullShare x ∗ owns (c : Thread nD τ) arg5 fullShare xi
            ∗ owns (c : Thread nD τ) arg6 fullShare (first3 a x)) -∗ K ⟨⟩))
      ⊢ wp frame (wpE (defs₀ (F := F)) Variants.none c none) E (cc3__matmul_kernel i arg3 harg3 arg4 harg4 arg5 harg5 arg6 harg6) K := by
  simp only [cc3__matmul_kernel_eq_skeleton]; unfold cc3__matmul_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  rw [View.read_writes_eq_canon _ _ _ (cover_whole_3 _ _), View.canon_cons_unit_zero hz2_3]
  sl_unfold_run_names
  simp only [View.readAt_eq_ld, hf0, hf1, View.ld_unit_zero (S := S1024x1536) hz2_3, View.ld_unit_zero (S := S1024x1024) hz2_3]
  exact congrArg (fun z => k3_pay2 z a x) (View.readCov_unit_zero arg6.view hz2_3 _ _)

set_option maxHeartbeats 4000000 in
/-- At a point with 0 < k < 3 the body leaves the inputs and the (idle) output buffer as they were and moves the
    accumulator from `s` to one step further. -/
theorem run3_B (c : Dev nD) (i : grid3.Coords) (arg3 : Memref sig .tc .vmem S1024x1024 .bf16) (harg3 : arg3.IsWhole)
    (arg4 : Memref sig .tc .vmem S1024x1536 .bf16) (harg4 : arg4.IsWhole) (arg5 : Memref sig .tc .vmem S1024x1536 .f32) (harg5 : arg5.IsWhole)
    (arg6 : Memref sig .tc .vmem S1024x1536 .f32) (harg6 : arg6.IsWhole) (hc0 : ¬cond3_0 i) (hc1 : ¬cond3_1 i)
    (a : Vec F S1024x1024 .bf16) (x : Vec F S1024x1536 .bf16) (xi : Vec F S1024x1536 .f32) (s : Vec F S1024x1536 .f32) (E : Set ℕ) (K : PUnit → sProp 𝕄) :
    iprop(owns (c : Thread nD τ) arg3 fullShare a ∗ owns (c : Thread nD τ) arg4 fullShare x ∗ owns (c : Thread nD τ) arg5 fullShare xi
        ∗ owns (c : Thread nD τ) arg6 fullShare s
        ∗ (iprop(owns (c : Thread nD τ) arg3 fullShare a ∗ owns (c : Thread nD τ) arg4 fullShare x ∗ owns (c : Thread nD τ) arg5 fullShare xi
            ∗ owns (c : Thread nD τ) arg6 fullShare (step3 s a x)) -∗ K ⟨⟩))
      ⊢ wp frame (wpE (defs₀ (F := F)) Variants.none c none) E (cc3__matmul_kernel i arg3 harg3 arg4 harg4 arg5 harg5 arg6 harg6) K := by
  simp only [cc3__matmul_kernel_eq_skeleton]; unfold cc3__matmul_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2
  obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  sl_unfold_run_names
  rw [View.read_writes_eq_canon _ _ _ (cover_whole_3 _ []), View.canon_unit_zero hz2_3]
  simp only [View.readAt_eq_ld, hf0, hf1, hfs, View.ld_unit_zero (S := S1024x1536) hz2_3, View.ld_unit_zero (S := S1024x1024) hz2_3]

set_option maxHeartbeats 4000000 in
/-- At a point with k = 3 the body moves the accumulator from `s` one step further and stores it into the output
    block, whatever that held. -/
theorem run3_C (c : Dev nD) (i : grid3.Coords) (arg3 : Memref sig .tc .vmem S1024x1024 .bf16) (harg3 : arg3.IsWhole)
    (arg4 : Memref sig .tc .vmem S1024x1536 .bf16) (harg4 : arg4.IsWhole) (arg5 : Memref sig .tc .vmem S1024x1536 .f32) (harg5 : arg5.IsWhole)
    (arg6 : Memref sig .tc .vmem S1024x1536 .f32) (harg6 : arg6.IsWhole) (hc0 : ¬cond3_0 i) (hc1 : cond3_1 i)
    (a : Vec F S1024x1024 .bf16) (x : Vec F S1024x1536 .bf16) (s : Vec F S1024x1536 .f32) (E : Set ℕ) (K : PUnit → sProp 𝕄) :
    iprop(owns (c : Thread nD τ) arg3 fullShare a ∗ owns (c : Thread nD τ) arg4 fullShare x ∗ (∃ d, owns (c : Thread nD τ) arg5 fullShare d)
        ∗ owns (c : Thread nD τ) arg6 fullShare s
        ∗ (iprop(owns (c : Thread nD τ) arg3 fullShare a ∗ owns (c : Thread nD τ) arg4 fullShare x ∗ owns (c : Thread nD τ) arg5 fullShare (step3 s a x)
            ∗ owns (c : Thread nD τ) arg6 fullShare (step3 s a x)) -∗ K ⟨⟩))
      ⊢ wp frame (wpE (defs₀ (F := F)) Variants.none c none) E (cc3__matmul_kernel i arg3 harg3 arg4 harg4 arg5 harg5 arg6 harg6) K := by
  simp only [cc3__matmul_kernel_eq_skeleton]; unfold cc3__matmul_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1
  obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    rw [View.read_writes_eq_canon _ _ _ (cover_whole_3 _ []), View.canon_unit_zero hz2_3]
    sl_unfold_run_names
    simp only [View.readAt_eq_ld, hf0, hf1, hfs, View.ld_unit_zero (S := S1024x1536) hz2_3, View.ld_unit_zero (S := S1024x1024) hz2_3]
    exact View.readCov_unit_zero arg6.view hz2_3 _ _
  iexists _; isplitr
  swap; · iexact HS
  ipureintro
  sl_unfold_run_names
  rw [View.read_writes_eq_canon _ _ _ (cover_whole_3 _ []), View.canon_unit_zero hz2_3]
  simp only [View.readAt_eq_ld, hf0, hf1, hfs, View.ld_unit_zero (S := S1024x1536) hz2_3, View.ld_unit_zero (S := S1024x1024) hz2_3]

end Cert.KernelIdeal.Hand

end
-- ==== Proof.Matmul3.lean ====
/-
  The fourth diffusion product as proof data for the pipeline: the arrays as the region finds them, the accumulator's
  contents after every grid point (a running sum over the contraction blocks, restarted at k = 0), what each staging
  buffer holds after the body, and the body's obligation at every point.
-/
import proofs.«106054_j120259084553_1_alg».proof.Proof.Gen.KernelIdeal.Launch
import proofs.«106054_j120259084553_1_alg».proof.Proof.Gen.KernelIdeal.Skeleton
import proofs.«106054_j120259084553_1_alg».proof.Proof.Gen.KernelIdeal.Points
import proofs.«106054_j120259084553_1_alg».proof.Proof.MatmulRun3
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The block of A sits in its current staging buffer at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The block of X sits in its current staging buffer at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The accumulator after each point -/

/-- The accumulator after the body at position `n`: the first step's value where k = n mod 4 = 0, else one step
    further than after position `n − 1`. -/
def acc3 (c : Dev nD) : (n : ℕ) → n < cfg3.N → Vec F S1024x1536 .f32
  | 0, hn => first3 (iblk3 V c 0 ⟨0, hn⟩) (iblk3 V c 1 ⟨0, hn⟩)
  | n + 1, hn =>
    if (n + 1) % 4 = 0 then first3 (iblk3 V c 0 ⟨n + 1, hn⟩) (iblk3 V c 1 ⟨n + 1, hn⟩)
    else step3 (acc3 c n (Nat.lt_of_succ_lt hn)) (iblk3 V c 0 ⟨n + 1, hn⟩) (iblk3 V c 1 ⟨n + 1, hn⟩)

theorem acc3_first (c : Dev nD) (t : Fin cfg3.N) (h0 : t.val % 4 = 0) :
    acc3 V c t.val t.isLt = first3 (iblk3 V c 0 t) (iblk3 V c 1 t) := by
  obtain ⟨n, hn⟩ := t
  cases n with
  | zero => rfl
  | succ n => exact if_pos h0

theorem acc3_step (c : Dev nD) (t : Fin cfg3.N) (h0 : ¬t.val % 4 = 0) :
    acc3 V c t.val t.isLt = step3 (acc3 V c (t.val - 1) (Nat.lt_of_le_of_lt (Nat.sub_le _ _) t.isLt)) (iblk3 V c 0 t) (iblk3 V c 1 t) := by
  obtain ⟨n, hn⟩ := t
  cases n with
  | zero => exact absurd (Nat.zero_mod _) h0
  | succ n => exact if_neg h0

/-! ## The region's invariant -/

/-- Before position `n`: at the start the class's invariant (the accumulator at anything); afterwards the accumulator
    at what the point before left, beside the other scoped buffers and the generator register. -/
def PhiS3 (c : Dev nD) : (n : ℕ) → n ≤ cfg3.N → sProp 𝕄
  | 0, _ => Pipeline.ΦA spec3 c
  | n + 1, hn => iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The arrays as the region finds them; after the body each input's buffer at its block and the output's at the
    accumulator; the invariant above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c t.val t.isLt := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point: the inputs' buffers hold their blocks; k = t mod 4 says which case the point is in; the
    invariant hands the body the accumulator (at anything at the very first point, else at what the point before
    left) and takes it back at this point's value. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 32 := lt_of_lt_of_eq t.isLt (show cfg3.N = 32 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  by_cases h1 : t.val % 4 = 3
  · -- k = 3: accumulate and copy out
    have h0 : ¬t.val % 4 = 0 := by omega
    have hz : t.val ≠ 0 := by omega
    rw [show (dat3 V c).leavesExact 2 t = owns (c : Thread nD τ) (ms3_2 t) fullShare ((dat3 V c).after 2 t) from by
      unfold Dat.leavesExact; rw [liveAt3_2 t ((hcond3_1 t).mpr h1)], after3_2]
    rw [acc3_step V c t h0]
    rw [PhiS3_castSucc V c t, PhiS3_pos V c _ _ hz]
    iintro ⟨⟨⟨HS, HR⟩, Hg⟩, Ho, ⟨%d0, H0⟩, ⟨%d1, H1⟩, ⟨%d2, H2⟩⟩
    iapply (run3_C c (grid3.coords t) _ _ _ _ _ _ _ _ (fun h => h0 ((hcond3_0 t).mp h)) ((hcond3_1 t).mpr h1) (iblk3 V c 0 t) (iblk3 V c 1 t) _ Set.univ _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · rw [Dat.leavesExact_idle (dat3 V c) 2 t (idleAt3_2 t (fun h => h1 ((hcond3_1 t).mp h))) (noFlush3_2 t (fun h => h1 ((hcond3_1 t).mp h)))]
    by_cases h0 : t.val % 4 = 0
    · -- k = 0: reset and accumulate
      rw [acc3_first V c t h0]
      by_cases hz : t.val = 0
      · rw [PhiS3_castSucc V c t, PhiS3_zero V c _ _ hz, PhiA3_eq]
        iintro ⟨⟨⟨HS, HR⟩, Hg⟩, Ho, ⟨%d0, H0⟩, ⟨%d1, H1⟩, ⟨%d2, H2⟩⟩
        iapply (run3_A c (grid3.coords t) _ _ _ _ _ _ _ _ ((hcond3_0 t).mpr h0) (fun h => h1 ((hcond3_1 t).mp h)) (iblk3 V c 0 t) (iblk3 V c 1 t) _ Set.univ _)
        isplitl [H0]; · iexact H0
        isplitl [H1]; · iexact H1
        isplitl [H2]; · iexact H2
        isplitl [HS]; · iexact HS
        iintro ⟨H0, H1, H2, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact H2
      · rw [PhiS3_castSucc V c t, PhiS3_pos V c _ _ hz]
        iintro ⟨⟨⟨HS, HR⟩, Hg⟩, Ho, ⟨%d0, H0⟩, ⟨%d1, H1⟩, ⟨%d2, H2⟩⟩
        iapply (run3_A c (grid3.coords t) _ _ _ _ _ _ _ _ ((hcond3_0 t).mpr h0) (fun h => h1 ((hcond3_1 t).mp h)) (iblk3 V c 0 t) (iblk3 V c 1 t) _ Set.univ _)
        isplitl [H0]; · iexact H0
        isplitl [H1]; · iexact H1
        isplitl [H2]; · iexact H2
        isplitl [HS]; · iexists _; iexact HS
        iintro ⟨H0, H1, H2, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact H2
    · -- 0 < k < 3: accumulate
      have hz : t.val ≠ 0 := by omega
      rw [acc3_step V c t h0]
      rw [PhiS3_castSucc V c t, PhiS3_pos V c _ _ hz]
      iintro ⟨⟨⟨HS, HR⟩, Hg⟩, Ho, ⟨%d0, H0⟩, ⟨%d1, H1⟩, ⟨%d2, H2⟩⟩
      iapply (run3_B c (grid3.coords t) _ _ _ _ _ _ _ _ (fun h => h0 ((hcond3_0 t).mp h)) (fun h => h1 ((hcond3_1 t).mp h)) (iblk3 V c 0 t) (iblk3 V c 1 t) _ _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the region is entered with is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]

/-- After the last point the invariant gives the class's back: the accumulator's contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 32 := N_3; omega), PhiA3_eq]
  iintro ⟨⟨HS, HR⟩, Hg⟩
  isplitl [HS HR]
  · isplitl [HS]; · iexists _; iexact HS
    iexact HR
  iexact Hg

end

end Cert.KernelIdeal.Hand

end
-- ==== Proof.KernelRun.lean ====
/- The whole run of `KernelIdeal`'s @main: five TensorCore regions between six stretches of host operations. Per region
   the contents of every unscoped buffer at its entry and at its exit, the region as a segment record over those
   contents, and the run theorem: from any memory with zero counters every weakly fair execution terminates, and at
   the end every unscoped buffer holds the last boundary's contents. -/
import proofs.«106054_j120259084553_1_alg».proof.Proof.RegionFinal
import proofs.«106054_j120259084553_1_alg».proof.Proof.Matmul0
import proofs.«106054_j120259084553_1_alg».proof.Proof.Matmul1
import proofs.«106054_j120259084553_1_alg».proof.Proof.Matmul2
import proofs.«106054_j120259084553_1_alg».proof.Proof.Matmul3
import proofs.«106054_j120259084553_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary

`W J c` is core `c`'s valuation of the unscoped buffers after item `J - 1` of @main (items: host stretch 0, region 0,
host stretch 1, region 1, …, region 4, host stretch 5); `E J c` the same read at the TensorCore's references. A
region leaves its output array at what its write-backs fold to and every other buffer as it found it. -/

/-- At region 0's entry: the launch memory after the first host stretch. -/
abbrev W1 (c : Dev nD) : Valuation τ sig (Elt F) := Gen.V1 m c
abbrev E1 : (c : Dev nD) → (b : Ref sig .tc) → Buf (Elt F) ((c : Thread nD τ).loc b) := fun c b => W1 m c b

/-- Region 0's arrays at what the pipeline leaves in them (an input as entered, the output's write-backs folded),
    every other buffer as entered. -/
def X2 (c : Dev nD) : Valuation τ sig (Elt F) :=
  Pipeline.withArrays spec0 c (W1 m c) fun w => (dat0 (E1 m) c).arrAt w cfg0.N
theorem X2_arr (c : Dev nD) (w : Fin cfg0.W) :
    X2 m c (Proc.devRef .tc (Pipeline.arrRef spec0 w)) = (dat0 (E1 m) c).arrAt w cfg0.N := by
  unfold X2; exact Pipeline.withArrays_arr spec0 launch0.win.arr_inj c _ _ w
/-- What region 0 leaves in buffer `r` of core `c`. -/
def o2 (r : Ref sig .tc) (c : Dev nD) : Buf (Elt F) ((c : Thread nD τ).loc r) := X2 m c (Proc.devRef .tc r)
/-- At region 0's exit: only its output array `main_v26` has changed. -/
abbrev W2 (c : Dev nD) : Valuation τ sig (Elt F) := Function.update (W1 m c) main_v26 (o2 m main_v26 c)
abbrev E2 : (c : Dev nD) → (b : Ref sig .tc) → Buf (Elt F) ((c : Thread nD τ).loc b) := fun c b => W2 m c b
/-- After the host stretch that follows region 0. -/
abbrev W3 (c : Dev nD) : Valuation τ sig (Elt F) := StableHlo.after hostOps1 (W2 m c)
abbrev E3 : (c : Dev nD) → (b : Ref sig .tc) → Buf (Elt F) ((c : Thread nD τ).loc b) := fun c b => W3 m c b

/-- Region 1's arrays at what the pipeline leaves in them (an input as entered, the output's write-backs folded),
    every other buffer as entered. -/
def X4 (c : Dev nD) : Valuation τ sig (Elt F) :=
  Pipeline.withArrays spec1 c (W3 m c) fun w => (dat1 (E3 m) c).arrAt w cfg1.N
theorem X4_arr (c : Dev nD) (w : Fin cfg1.W) :
    X4 m c (Proc.devRef .tc (Pipeline.arrRef spec1 w)) = (dat1 (E3 m) c).arrAt w cfg1.N := by
  unfold X4; exact Pipeline.withArrays_arr spec1 launch1.win.arr_inj c _ _ w
/-- What region 1 leaves in buffer `r` of core `c`. -/
def o4 (r : Ref sig .tc) (c : Dev nD) : Buf (Elt F) ((c : Thread nD τ).loc r) := X4 m c (Proc.devRef .tc r)
/-- At region 1's exit: only its output array `main_v28` has changed. -/
abbrev W4 (c : Dev nD) : Valuation τ sig (Elt F) := Function.update (W3 m c) main_v28 (o4 m main_v28 c)
abbrev E4 : (c : Dev nD) → (b : Ref sig .tc) → Buf (Elt F) ((c : Thread nD τ).loc b) := fun c b => W4 m c b
/-- After the host stretch that follows region 1. -/
abbrev W5 (c : Dev nD) : Valuation τ sig (Elt F) := StableHlo.after hostOps2 (W4 m c)
abbrev E5 : (c : Dev nD) → (b : Ref sig .tc) → Buf (Elt F) ((c : Thread nD τ).loc b) := fun c b => W5 m c b

/-- Region 2's arrays at what the pipeline leaves in them (an input as entered, the output's write-backs folded),
    every other buffer as entered. -/
def X6 (c : Dev nD) : Valuation τ sig (Elt F) :=
  Pipeline.withArrays spec2 c (W5 m c) fun w => (dat2 (E5 m) c).arrAt w cfg2.N
theorem X6_arr (c : Dev nD) (w : Fin cfg2.W) :
    X6 m c (Proc.devRef .tc (Pipeline.arrRef spec2 w)) = (dat2 (E5 m) c).arrAt w cfg2.N := by
  unfold X6; exact Pipeline.withArrays_arr spec2 launch2.win.arr_inj c _ _ w
/-- What region 2 leaves in buffer `r` of core `c`. -/
def o6 (r : Ref sig .tc) (c : Dev nD) : Buf (Elt F) ((c : Thread nD τ).loc r) := X6 m c (Proc.devRef .tc r)
/-- At region 2's exit: only its output array `main_v55` has changed. -/
abbrev W6 (c : Dev nD) : Valuation τ sig (Elt F) := Function.update (W5 m c) main_v55 (o6 m main_v55 c)
abbrev E6 : (c : Dev nD) → (b : Ref sig .tc) → Buf (Elt F) ((c : Thread nD τ).loc b) := fun c b => W6 m c b
/-- After the host stretch that follows region 2. -/
abbrev W7 (c : Dev nD) : Valuation τ sig (Elt F) := StableHlo.after hostOps3 (W6 m c)
abbrev E7 : (c : Dev nD) → (b : Ref sig .tc) → Buf (Elt F) ((c : Thread nD τ).loc b) := fun c b => W7 m c b

/-- Region 3's arrays at what the pipeline leaves in them (an input as entered, the output's write-backs folded),
    every other buffer as entered. -/
def X8 (c : Dev nD) : Valuation τ sig (Elt F) :=
  Pipeline.withArrays spec3 c (W7 m c) fun w => (dat3 (E7 m) c).arrAt w cfg3.N
theorem X8_arr (c : Dev nD) (w : Fin cfg3.W) :
    X8 m c (Proc.devRef .tc (Pipeline.arrRef spec3 w)) = (dat3 (E7 m) c).arrAt w cfg3.N := by
  unfold X8; exact Pipeline.withArrays_arr spec3 launch3.win.arr_inj c _ _ w
/-- What region 3 leaves in buffer `r` of core `c`. -/
def o8 (r : Ref sig .tc) (c : Dev nD) : Buf (Elt F) ((c : Thread nD τ).loc r) := X8 m c (Proc.devRef .tc r)
/-- At region 3's exit: only its output array `main_v57` has changed. -/
abbrev W8 (c : Dev nD) : Valuation τ sig (Elt F) := Function.update (W7 m c) main_v57 (o8 m main_v57 c)
abbrev E8 : (c : Dev nD) → (b : Ref sig .tc) → Buf (Elt F) ((c : Thread nD τ).loc b) := fun c b => W8 m c b
/-- After the host stretch that follows region 3. -/
abbrev W9 (c : Dev nD) : Valuation τ sig (Elt F) := StableHlo.after hostOps4 (W8 m c)
abbrev E9 : (c : Dev nD) → (b : Ref sig .tc) → Buf (Elt F) ((c : Thread nD τ).loc b) := fun c b => W9 m c b

/-- Region 4's arrays at what the pipeline leaves in them (an input as entered, the output's write-backs folded),
    every other buffer as entered. -/
def X10 (c : Dev nD) : Valuation τ sig (Elt F) :=
  Pipeline.withArrays spec4 c (W9 m c) fun w => (dat4 (E9 m) c).arrAt w cfg4.N
theorem X10_arr (c : Dev nD) (w : Fin cfg4.W) :
    X10 m c (Proc.devRef .tc (Pipeline.arrRef spec4 w)) = (dat4 (E9 m) c).arrAt w cfg4.N := by
  unfold X10; exact Pipeline.withArrays_arr spec4 launch4.win.arr_inj c _ _ w
/-- What region 4 leaves in buffer `r` of core `c`. -/
def o10 (r : Ref sig .tc) (c : Dev nD) : Buf (Elt F) ((c : Thread nD τ).loc r) := X10 m c (Proc.devRef .tc r)
/-- At region 4's exit: only its output array `main_v72` has changed. -/
abbrev W10 (c : Dev nD) : Valuation τ sig (Elt F) := Function.update (W9 m c) main_v72 (o10 m main_v72 c)
abbrev E10 : (c : Dev nD) → (b : Ref sig .tc) → Buf (Elt F) ((c : Thread nD τ).loc b) := fun c b => W10 m c b
/-- After the host stretch that follows region 4. -/
abbrev W11 (c : Dev nD) : Valuation τ sig (Elt F) := StableHlo.after hostOps5 (W10 m c)

/-- What the regions leave, as one family: after item `J - 1` buffer `r` of core `c` holds `outs J r c`
    (read only at `(2, main_v26)`, `(4, main_v28)`, `(6, main_v55)`, `(8, main_v57)`, `(10, main_v72)`). -/
def outs : Gen.Outs (F := F) := fun J r c =>
  match J with
  | 2 => o2 m r c
  | 4 => o4 m r c
  | 6 => o6 m r c
  | 8 => o8 m r c
  | 10 => o10 m r c
  | _ => m ((c : Thread nD τ).loc r)

/-! The boundary contents of the imported Regions module, read at this family `outs`, are these, boundary by
    boundary (both sides unfold to the same term). -/
theorem V1_eq (c : Dev nD) : Gen.V1 m c = W1 m c := rfl
theorem V2_eq (c : Dev nD) : Gen.V2 m (outs m) c = W2 m c := rfl
theorem V3_eq (c : Dev nD) : Gen.V3 m (outs m) c = W3 m c := rfl
theorem V4_eq (c : Dev nD) : Gen.V4 m (outs m) c = W4 m c := rfl
theorem V5_eq (c : Dev nD) : Gen.V5 m (outs m) c = W5 m c := rfl
theorem V6_eq (c : Dev nD) : Gen.V6 m (outs m) c = W6 m c := rfl
theorem V7_eq (c : Dev nD) : Gen.V7 m (outs m) c = W7 m c := rfl
theorem V8_eq (c : Dev nD) : Gen.V8 m (outs m) c = W8 m c := rfl
theorem V9_eq (c : Dev nD) : Gen.V9 m (outs m) c = W9 m c := rfl
theorem V10_eq (c : Dev nD) : Gen.V10 m (outs m) c = W10 m c := rfl
theorem V11_eq (c : Dev nD) : Gen.V11 m (outs m) c = W11 m c := rfl

/-! ## The proof data family and what rides beside the buffers -/

/-- Every pipeline's proof data, each at its region's entry contents (a literal case split, so that the pinned
    configuration at a numeral reduces to the printed one). -/
def pdats : (p : Fin 5) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E3 m) c
  | ⟨2, _⟩ => fun c => dat2 (E5 m) c
  | ⟨3, _⟩ => fun c => dat3 (E7 m) c
  | ⟨4, _⟩ => fun c => dat4 (E9 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    debt, at nothing. -/
abbrev R (c : Dev nD) : sProp 𝕄 := iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Region 0: its arrays at the exit contents, the rest untouched -/

/-- Input window 0's array is not the output array, so it holds at the exit what it held at the entry, which is
    what the pipeline leaves in an array it only reads. -/
theorem hF0_0 (c : Dev nD) : (dat0 (E1 m) c).arrAt 0 cfg0.N = E2 m c (Pipeline.arrRef spec0 0) :=
  ((dat0 (E1 m) c).arrAt_in 0 rfl _).trans ((A_eq0 (E1 m) c 0).trans
    (Function.update_of_ne (StableHlo.devRef_ne_of_ne (by decide)) _ _).symm)
/-- Input window 1's array is not the output array, so it holds at the exit what it held at the entry, which is
    what the pipeline leaves in an array it only reads. -/
theorem hF0_1 (c : Dev nD) : (dat0 (E1 m) c).arrAt 1 cfg0.N = E2 m c (Pipeline.arrRef spec0 1) :=
  ((dat0 (E1 m) c).arrAt_in 1 rfl _).trans ((A_eq0 (E1 m) c 1).trans
    (Function.update_of_ne (StableHlo.devRef_ne_of_ne (by decide)) _ _).symm)
/-- The output window's array holds what the write-backs fold to. -/
theorem hF0_2 (c : Dev nD) : (dat0 (E1 m) c).arrAt 2 cfg0.N = E2 m c (Pipeline.arrRef spec0 2) := by
  show _ = Function.update (W1 m c) (Proc.devRef .tc main_v26) (o2 m main_v26 c) (Proc.devRef .tc main_v26)
  rw [Function.update_self]
  exact (X2_arr m c 2).symm
theorem hF0 (c : Dev nD) : ∀ w : Fin cfg0.W, (dat0 (E1 m) c).arrAt w cfg0.N = E2 m c (Pipeline.arrRef spec0 w)
  | ⟨0, _⟩ => hF0_0 m c
  | ⟨1, _⟩ => hF0_1 m c
  | ⟨2, _⟩ => hF0_2 m c
/-- A buffer that is none of the region's arrays is not its output array, so it is as entered. -/
theorem hrest0 (c : Dev nD) : ∀ b, b ∉ Finset.univ.image (Pipeline.arrRef spec0) → E2 m c b = E1 m c b :=
  fun b hb => Function.update_of_ne (StableHlo.devRef_ne_of_ne fun e =>
    hb (Finset.mem_image.mpr ⟨2, Finset.mem_univ _, (show Pipeline.arrRef spec0 2 = b from e.symm)⟩)) _ _

/-! ## Region 1: its arrays at the exit contents, the rest untouched -/

/-- Input window 0's array is not the output array, so it holds at the exit what it held at the entry, which is
    what the pipeline leaves in an array it only reads. -/
theorem hF1_0 (c : Dev nD) : (dat1 (E3 m) c).arrAt 0 cfg1.N = E4 m c (Pipeline.arrRef spec1 0) :=
  ((dat1 (E3 m) c).arrAt_in 0 rfl _).trans ((A_eq1 (E3 m) c 0).trans
    (Function.update_of_ne (StableHlo.devRef_ne_of_ne (by decide)) _ _).symm)
/-- Input window 1's array is not the output array, so it holds at the exit what it held at the entry, which is
    what the pipeline leaves in an array it only reads. -/
theorem hF1_1 (c : Dev nD) : (dat1 (E3 m) c).arrAt 1 cfg1.N = E4 m c (Pipeline.arrRef spec1 1) :=
  ((dat1 (E3 m) c).arrAt_in 1 rfl _).trans ((A_eq1 (E3 m) c 1).trans
    (Function.update_of_ne (StableHlo.devRef_ne_of_ne (by decide)) _ _).symm)
/-- The output window's array holds what the write-backs fold to. -/
theorem hF1_2 (c : Dev nD) : (dat1 (E3 m) c).arrAt 2 cfg1.N = E4 m c (Pipeline.arrRef spec1 2) := by
  show _ = Function.update (W3 m c) (Proc.devRef .tc main_v28) (o4 m main_v28 c) (Proc.devRef .tc main_v28)
  rw [Function.update_self]
  exact (X4_arr m c 2).symm
theorem hF1 (c : Dev nD) : ∀ w : Fin cfg1.W, (dat1 (E3 m) c).arrAt w cfg1.N = E4 m c (Pipeline.arrRef spec1 w)
  | ⟨0, _⟩ => hF1_0 m c
  | ⟨1, _⟩ => hF1_1 m c
  | ⟨2, _⟩ => hF1_2 m c
/-- A buffer that is none of the region's arrays is not its output array, so it is as entered. -/
theorem hrest1 (c : Dev nD) : ∀ b, b ∉ Finset.univ.image (Pipeline.arrRef spec1) → E4 m c b = E3 m c b :=
  fun b hb => Function.update_of_ne (StableHlo.devRef_ne_of_ne fun e =>
    hb (Finset.mem_image.mpr ⟨2, Finset.mem_univ _, (show Pipeline.arrRef spec1 2 = b from e.symm)⟩)) _ _

/-! ## Region 2: its arrays at the exit contents, the rest untouched -/

/-- Input window 0's array is not the output array, so it holds at the exit what it held at the entry, which is
    what the pipeline leaves in an array it only reads. -/
theorem hF2_0 (c : Dev nD) : (dat2 (E5 m) c).arrAt 0 cfg2.N = E6 m c (Pipeline.arrRef spec2 0) :=
  ((dat2 (E5 m) c).arrAt_in 0 rfl _).trans ((A_eq2 (E5 m) c 0).trans
    (Function.update_of_ne (StableHlo.devRef_ne_of_ne (by decide)) _ _).symm)
/-- Input window 1's array is not the output array, so it holds at the exit what it held at the entry, which is
    what the pipeline leaves in an array it only reads. -/
theorem hF2_1 (c : Dev nD) : (dat2 (E5 m) c).arrAt 1 cfg2.N = E6 m c (Pipeline.arrRef spec2 1) :=
  ((dat2 (E5 m) c).arrAt_in 1 rfl _).trans ((A_eq2 (E5 m) c 1).trans
    (Function.update_of_ne (StableHlo.devRef_ne_of_ne (by decide)) _ _).symm)
/-- The output window's array holds what the write-backs fold to. -/
theorem hF2_2 (c : Dev nD) : (dat2 (E5 m) c).arrAt 2 cfg2.N = E6 m c (Pipeline.arrRef spec2 2) := by
  show _ = Function.update (W5 m c) (Proc.devRef .tc main_v55) (o6 m main_v55 c) (Proc.devRef .tc main_v55)
  rw [Function.update_self]
  exact (X6_arr m c 2).symm
theorem hF2 (c : Dev nD) : ∀ w : Fin cfg2.W, (dat2 (E5 m) c).arrAt w cfg2.N = E6 m c (Pipeline.arrRef spec2 w)
  | ⟨0, _⟩ => hF2_0 m c
  | ⟨1, _⟩ => hF2_1 m c
  | ⟨2, _⟩ => hF2_2 m c
/-- A buffer that is none of the region's arrays is not its output array, so it is as entered. -/
theorem hrest2 (c : Dev nD) : ∀ b, b ∉ Finset.univ.image (Pipeline.arrRef spec2) → E6 m c b = E5 m c b :=
  fun b hb => Function.update_of_ne (StableHlo.devRef_ne_of_ne fun e =>
    hb (Finset.mem_image.mpr ⟨2, Finset.mem_univ _, (show Pipeline.arrRef spec2 2 = b from e.symm)⟩)) _ _

/-! ## Region 3: its arrays at the exit contents, the rest untouched -/

/-- Input window 0's array is not the output array, so it holds at the exit what it held at the entry, which is
    what the pipeline leaves in an array it only reads. -/
theorem hF3_0 (c : Dev nD) : (dat3 (E7 m) c).arrAt 0 cfg3.N = E8 m c (Pipeline.arrRef spec3 0) :=
  ((dat3 (E7 m) c).arrAt_in 0 rfl _).trans ((A_eq3 (E7 m) c 0).trans
    (Function.update_of_ne (StableHlo.devRef_ne_of_ne (by decide)) _ _).symm)
/-- Input window 1's array is not the output array, so it holds at the exit what it held at the entry, which is
    what the pipeline leaves in an array it only reads. -/
theorem hF3_1 (c : Dev nD) : (dat3 (E7 m) c).arrAt 1 cfg3.N = E8 m c (Pipeline.arrRef spec3 1) :=
  ((dat3 (E7 m) c).arrAt_in 1 rfl _).trans ((A_eq3 (E7 m) c 1).trans
    (Function.update_of_ne (StableHlo.devRef_ne_of_ne (by decide)) _ _).symm)
/-- The output window's array holds what the write-backs fold to. -/
theorem hF3_2 (c : Dev nD) : (dat3 (E7 m) c).arrAt 2 cfg3.N = E8 m c (Pipeline.arrRef spec3 2) := by
  show _ = Function.update (W7 m c) (Proc.devRef .tc main_v57) (o8 m main_v57 c) (Proc.devRef .tc main_v57)
  rw [Function.update_self]
  exact (X8_arr m c 2).symm
theorem hF3 (c : Dev nD) : ∀ w : Fin cfg3.W, (dat3 (E7 m) c).arrAt w cfg3.N = E8 m c (Pipeline.arrRef spec3 w)
  | ⟨0, _⟩ => hF3_0 m c
  | ⟨1, _⟩ => hF3_1 m c
  | ⟨2, _⟩ => hF3_2 m c
/-- A buffer that is none of the region's arrays is not its output array, so it is as entered. -/
theorem hrest3 (c : Dev nD) : ∀ b, b ∉ Finset.univ.image (Pipeline.arrRef spec3) → E8 m c b = E7 m c b :=
  fun b hb => Function.update_of_ne (StableHlo.devRef_ne_of_ne fun e =>
    hb (Finset.mem_image.mpr ⟨2, Finset.mem_univ _, (show Pipeline.arrRef spec3 2 = b from e.symm)⟩)) _ _

/-! ## Region 4: its arrays at the exit contents, the rest untouched -/

/-- Input window 0's array is not the output array, so it holds at the exit what it held at the entry, which is
    what the pipeline leaves in an array it only reads. -/
theorem hF4_0 (c : Dev nD) : (dat4 (E9 m) c).arrAt 0 cfg4.N = E10 m c (Pipeline.arrRef spec4 0) :=
  ((dat4 (E9 m) c).arrAt_in 0 rfl _).trans ((A_eq4 (E9 m) c 0).trans
    (Function.update_of_ne (StableHlo.devRef_ne_of_ne (by decide)) _ _).symm)
/-- Input window 1's array is not the output array, so it holds at the exit what it held at the entry, which is
    what the pipeline leaves in an array it only reads. -/
theorem hF4_1 (c : Dev nD) : (dat4 (E9 m) c).arrAt 1 cfg4.N = E10 m c (Pipeline.arrRef spec4 1) :=
  ((dat4 (E9 m) c).arrAt_in 1 rfl _).trans ((A_eq4 (E9 m) c 1).trans
    (Function.update_of_ne (StableHlo.devRef_ne_of_ne (by decide)) _ _).symm)
/-- Input window 2's array is not the output array, so it holds at the exit what it held at the entry, which is
    what the pipeline leaves in an array it only reads. -/
theorem hF4_2 (c : Dev nD) : (dat4 (E9 m) c).arrAt 2 cfg4.N = E10 m c (Pipeline.arrRef spec4 2) :=
  ((dat4 (E9 m) c).arrAt_in 2 rfl _).trans ((A_eq4 (E9 m) c 2).trans
    (Function.update_of_ne (StableHlo.devRef_ne_of_ne (by decide)) _ _).symm)
/-- The output window's array holds what the write-backs fold to. -/
theorem hF4_3 (c : Dev nD) : (dat4 (E9 m) c).arrAt 3 cfg4.N = E10 m c (Pipeline.arrRef spec4 3) := by
  show _ = Function.update (W9 m c) (Proc.devRef .tc main_v72) (o10 m main_v72 c) (Proc.devRef .tc main_v72)
  rw [Function.update_self]
  exact (X10_arr m c 3).symm
theorem hF4 (c : Dev nD) : ∀ w : Fin cfg4.W, (dat4 (E9 m) c).arrAt w cfg4.N = E10 m c (Pipeline.arrRef spec4 w)
  | ⟨0, _⟩ => hF4_0 m c
  | ⟨1, _⟩ => hF4_1 m c
  | ⟨2, _⟩ => hF4_2 m c
  | ⟨3, _⟩ => hF4_3 m c
/-- A buffer that is none of the region's arrays is not its output array, so it is as entered. -/
theorem hrest4 (c : Dev nD) : ∀ b, b ∉ Finset.univ.image (Pipeline.arrRef spec4) → E10 m c b = E9 m c b :=
  fun b hb => Function.update_of_ne (StableHlo.devRef_ne_of_ne fun e =>
    hb (Finset.mem_image.mpr ⟨3, Finset.mem_univ _, (show Pipeline.arrRef spec4 3 = b from e.symm)⟩)) _ _

/-! ## Reading the family `outs` and the entry contents -/

/-- What region 0 leaves in its output array: its write-backs folded. -/
theorem outs_2 (c : Dev nD) : outs m 2 main_v26 c = (dat0 (E1 m) c).arrAt 2 cfg0.N := X2_arr m c 2
/-- What region 1 leaves in its output array: its write-backs folded. -/
theorem outs_4 (c : Dev nD) : outs m 4 main_v28 c = (dat1 (E3 m) c).arrAt 2 cfg1.N := X4_arr m c 2
/-- What region 2 leaves in its output array: its write-backs folded. -/
theorem outs_6 (c : Dev nD) : outs m 6 main_v55 c = (dat2 (E5 m) c).arrAt 2 cfg2.N := X6_arr m c 2
/-- What region 3 leaves in its output array: its write-backs folded. -/
theorem outs_8 (c : Dev nD) : outs m 8 main_v57 c = (dat3 (E7 m) c).arrAt 2 cfg3.N := X8_arr m c 2
/-- What region 4 leaves in its output array: its write-backs folded. -/
theorem outs_10 (c : Dev nD) : outs m 10 main_v72 c = (dat4 (E9 m) c).arrAt 3 cfg4.N := X10_arr m c 3
/-- Each region's entry contents are that module's boundary contents at this family `outs`. -/
theorem E1_eq (c : Dev nD) (b : Ref sig .tc) : E1 m c b = Gen.V1 m c b := rfl
theorem E3_eq (c : Dev nD) (b : Ref sig .tc) : E3 m c b = Gen.V3 m (outs m) c b := rfl
theorem E5_eq (c : Dev nD) (b : Ref sig .tc) : E5 m c b = Gen.V5 m (outs m) c b := rfl
theorem E7_eq (c : Dev nD) (b : Ref sig .tc) : E7 m c b = Gen.V7 m (outs m) c b := rfl
theorem E9_eq (c : Dev nD) (b : Ref sig .tc) : E9 m c b = Gen.V9 m (outs m) c b := rfl

/-! ## The regions as segments -/

-- a library lemma stated over the pinned configuration unifies with the printed one only when unification may unfold
-- plain definitions in a metavariable's type
set_option backward.isDefEq.respectTransparency.types false in
/-- REGION 0 over the thread state: entered from every unscoped buffer at `W1`, left at `W2`. Its arrays are
    split out of the unscoped buffers and put back at the exit contents (`hF0`, `hrest0`); the generator register
    goes into the region's invariant and comes back; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E1 m) c)
    unfold Pipeline.ΦA
    iintro ⟨Hp, -, Hr⟩
    isplitl [Hr]; · iexact Hr
    iexact Hp
  hout c := by
    rw [Pipeline.ownSems0_none]
    refine BIBase.Entails.trans (hout0 (E1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 over the thread state: entered from every unscoped buffer at `W3`, left at `W4`. Its arrays are
    split out of the unscoped buffers and put back at the exit contents (`hF1`, `hrest1`); the generator register
    goes into the region's invariant and comes back; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E3 m) c)
    unfold Pipeline.ΦA
    iintro ⟨Hp, -, Hr⟩
    isplitl [Hr]; · iexact Hr
    iexact Hp
  hout c := by
    rw [Pipeline.ownSems0_none]
    refine BIBase.Entails.trans (hout1 (E3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 2 over the thread state: entered from every unscoped buffer at `W5`, left at `W6`. Its arrays are
    split out of the unscoped buffers and put back at the exit contents (`hF2`, `hrest2`); the generator register
    goes into the region's invariant and comes back; nothing is owed; the kernel has no semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E5 m) c)
    unfold Pipeline.ΦA
    iintro ⟨Hp, -, Hr⟩
    isplitl [Hr]; · iexact Hr
    iexact Hp
  hout c := by
    rw [Pipeline.ownSems0_none]
    refine BIBase.Entails.trans (hout2 (E5 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 3 over the thread state: entered from every unscoped buffer at `W7`, left at `W8`. Its arrays are
    split out of the unscoped buffers and put back at the exit contents (`hF3`, `hrest3`); the generator register
    goes into the region's invariant and comes back; nothing is owed; the kernel has no semaphore of its own. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (E7 m) c)
    unfold Pipeline.ΦA
    iintro ⟨Hp, -, Hr⟩
    isplitl [Hr]; · iexact Hr
    iexact Hp
  hout c := by
    rw [Pipeline.ownSems0_none]
    refine BIBase.Entails.trans (hout3 (E7 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (E7 m c) (E8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 4 over the thread state: entered from every unscoped buffer at `W9`, left at `W10`. Its arrays are
    split out of the unscoped buffers and put back at the exit contents (`hF4`, `hrest4`); the generator register
    goes into the region's invariant and comes back; nothing is owed; the kernel has no semaphore of its own. -/
def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (E9 m c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (E9 m c) (E10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- What rides along ends with the core owing nothing. -/
theorem hR_owes (c : Dev nD) : (R c : sProp 𝕄) ⊢ iprop(∃ W, owes (c : Thread nD τ) (0 : CellTallies nD τ sig Unit) W) := by
  iintro ⟨-, H⟩; iexact H

-- the launch lemma's implicit arguments are found by unifying its conclusion with this one, which takes unfolding
-- plain definitions in a metavariable's type
set_option backward.isDefEq.respectTransparency.types false in
/-- THE RUN. From any memory with zero counters, every weakly fair execution of @main on the TensorCores terminates,
    nothing faulting, and in every final state every unscoped buffer of every core holds the last boundary's contents:
    @main is the chain of its eleven items; each host stretch takes the contents at its boundary to the next, each
    region is entered from its boundary's contents and left at the next one's; the last thread state is read against
    the final state. -/
theorem run_all : θ_run defs (onTc (τ := τ) (main (F := F))) ⟨m, fun _ => 0, ρ⟩
    (fun r => ∀ c : Dev nD, ∀ b ∈ Pipeline.ucRefs τ sig, r.2.mem ((c : Thread nD τ).1, b) = Gen.V11 m (outs m) c b) := by
  refine Pipeline.θ_run_regions_kit_dev (pcfgs (F := F)) Gen.adm (pdats m) () cellOf_inj emb₁ defs₀ 𝒱₀ L lv m ρ main
    (Gen.segs m (outs m) 𝒱₀ L lv (fun _ c => R c) () (pdats m) (reg0 m) (reg1 m) (reg2 m) (reg3 m) (reg4 m))
    (fun c Q => by
      rewrite [main_chain c, Pipeline.Seg.run_eq_chain,
        show (Gen.segs m (outs m) 𝒱₀ L lv (fun _ c => R c) () (pdats m) (reg0 m) (reg1 m) (reg2 m) (reg3 m) (reg4 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V11 m (outs m) c))
    (hch := fun c => ⟨.rfl, .rfl, .rfl, .rfl, .rfl, .rfl, .rfl, .rfl, .rfl, .rfl, .rfl, sep_mono .rfl (hR_owes c)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V11 m (outs m) c b)
    (hfin := fun c s' => by
      iintro ⟨Hh, HSI⟩
      unfold StableHlo.held
      imodintro
      iapply (pointsTo_read_all (Pipeline.ucRefs τ sig) (fun b => (((c : Thread nD τ)).1, b)) (Gen.V11 m (outs m) c) s')
      isplitl [Hh] <;> iassumption)
    (hQ := fun s h c => h c)

/-- The run's result and frame together: at the end the result array `main_v73` holds the last boundary's contents
    of it, and every argument array what it held at launch (no host stretch writes an argument and no region may
    change one). -/
theorem run_result : θ_run defs (onTc (τ := τ) (main (F := F))) ⟨m, fun _ => 0, ρ⟩ (fun r => ∀ c : Dev nD,
      r.2.mem ((c.tc : Thread nD τ).loc main_v73) = Gen.V11 m (outs m) c main_v73
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v73 (by decide)),
      (h c _ (mem_uc main_arg0 (by decide))).trans (Gen.V11_main_arg0 m (outs m) c),
      (h c _ (mem_uc main_arg1 (by decide))).trans (Gen.V11_main_arg1 m (outs m) c),
      (h c _ (mem_uc main_arg2 (by decide))).trans (Gen.V11_main_arg2 m (outs m) c),
      (h c _ (mem_uc main_arg3 (by decide))).trans (Gen.V11_main_arg3 m (outs m) c),
      (h c _ (mem_uc main_arg4 (by decide))).trans (Gen.V11_main_arg4 m (outs m) c),
      (h c _ (mem_uc main_arg5 (by decide))).trans (Gen.V11_main_arg5 m (outs m) c),
      (h c _ (mem_uc main_arg6 (by decide))).trans (Gen.V11_main_arg6 m (outs m) c)⟩) (run_all m ρ)

/-- The frame alone: every argument array ends holding what it held at launch. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_result m ρ)

/-- The result alone. -/
theorem result_all : θ_run defs (onTc (τ := τ) (main (F := F))) ⟨m, fun _ => 0, ρ⟩ (fun r => ∀ c : Dev nD,
      r.2.mem ((c.tc : Thread nD τ).loc main_v73) = Gen.V11 m (outs m) c main_v73) :=
  (θ_run defs _ _).mono (fun r h c => (h c).1) (run_result m ρ)

end Cert.KernelIdeal.Hand

end
-- ==== Proof.KernelHost.lean ====
/-
  The host side of the kernel's program as pure functions of the buffers it reads: the node-major feature matrix
  x0[n, c·16 + b] = concat(inputs, state)[b, n, c]; the dense adjacency matrix of one support (a scatter-add of the
  edge values at (row, column), both indices wrapped like negative Python indices); the second Chebyshev term
  2·y − x0; the five diffusion terms stacked and re-laid as the [B·N, C·M] matrix; and the final reshape. Each host
  stretch's result buffers are these functions of what the stretch is entered with.
-/
import proofs.«106054_j120259084553_1_alg».proof.Proof.Gen.KernelIdeal.Regions
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo

variable {F : FTy → Type} [FloatOps F]

/-! ## The pure stages -/

/-- x0[n, c·16 + b] = concat(inputs, state)[b, n, c]. -/
def x0T (a0 : FVec F S16x4096x64 .f32) (a1 : FVec F S16x4096x128 .f32) : FVec F S4096x3072 .f32 :=
  shapeCast S4096x3072
    (transpose S4096x192x16 [1, 2, 0]
      (concatenate S16x4096x192 2 [⟨S16x4096x64, a0⟩, ⟨S16x4096x128, a1⟩] concatenates_S16x4096x64_S16x4096x128_S16x4096x192_d2)
      transposes_S16x4096x192_S4096x192x16_1_2_0)
    shapeCasts_S4096x192x16_S4096x3072

/-- Row `s` of a [2, E] integer array as a vector of length E (s = 0). -/
def rowI0 (a : IVec S2x65536 32) : IVec S65536 32 :=
  shapeCast S65536 (extractStridedSlice S1x65536 ![0, 0] a slices_S2x65536_S1x65536_0_0) shapeCasts_S1x65536_S65536
/-- (s = 1). -/
def rowI1 (a : IVec S2x65536 32) : IVec S65536 32 :=
  shapeCast S65536 (extractStridedSlice S1x65536 ![1, 0] a slices_S2x65536_S1x65536_1_0) shapeCasts_S1x65536_S65536
/-- Row 0 of the [2, E] value array. -/
def rowF0 (a : FVec F S2x65536 .f32) : FVec F S65536 .f32 :=
  shapeCast S65536 (extractStridedSlice S1x65536 ![0, 0] a slices_S2x65536_S1x65536_0_0) shapeCasts_S1x65536_S65536
/-- Row 1 of the [2, E] value array. -/
def rowF1 (a : FVec F S2x65536 .f32) : FVec F S65536 .f32 :=
  shapeCast S65536 (extractStridedSlice S1x65536 ![1, 0] a slices_S2x65536_S1x65536_1_0) shapeCasts_S1x65536_S65536

/-- A negative index counts from the end: v ↦ v + 4096 where v < 0. -/
def wrapT (v : IVec S65536 32) : IVec S65536 32 :=
  select (cmpi .slt v (broadcastInDim S65536 ![] bcast_S_S65536 (constantI S_ 32 0#32)))
    (addi v (broadcastInDim S65536 ![] bcast_S_S65536 (constantI S_ 32 4096#32))) v

/-- The [E, 2] index matrix (row, column) of the edges. -/
def idxT (r c : IVec S65536 32) : IVec S65536x2 32 :=
  concatenate S65536x2 1 [⟨S65536x1, broadcastInDim S65536x1 ![0] bcast_S65536_S65536x1_0 (wrapT r)⟩,
    ⟨S65536x1, broadcastInDim S65536x1 ![0] bcast_S65536_S65536x1_0 (wrapT c)⟩] concatenates_S65536x1_S65536x1_S65536x2_d1

/-- The dense adjacency matrix of one support: the edge values added at their (row, column), in the kernel's
    input format. -/
def adjT (r c : IVec S65536 32) (v : FVec F S65536 .f32) : FVec F S4096x4096 .bf16 :=
  truncf .bf16 (Host.scatterAdd scatter_S4096x4096_S65536x2_S65536_n_01_01_1
    (broadcastInDim S4096x4096 ![] bcast_S_S4096x4096 (constant S_ .f32 0x00000000#32)) (idxT r c) v) bitsLt_bf16_f32

/-- A matrix in the kernel's input format. -/
def toBf (x : FVec F S4096x3072 .f32) : FVec F S4096x3072 .bf16 := truncf .bf16 x bitsLt_bf16_f32

/-- The second Chebyshev term 2·y − x. -/
def cheb2T (y x : FVec F S4096x3072 .f32) : FVec F S4096x3072 .f32 :=
  subf (mulf (broadcastInDim S4096x3072 ![] bcast_S_S4096x3072 (constant S_ .f32 0x40000000#32)) y) x

/-- The five diffusion terms stacked on a new leading axis and re-laid as the [B·N, C·M] matrix. -/
def relayT (t0 t1 t2 t3 t4 : FVec F S4096x3072 .f32) : FVec F S65536x960 .f32 :=
  shapeCast S65536x960
    (transpose S16x4096x192x5 [3, 1, 2, 0]
      (shapeCast S5x4096x192x16
        (concatenate S5x4096x3072 0
          [⟨S1x4096x3072, broadcastInDim S1x4096x3072 ![1, 2] bcast_S4096x3072_S1x4096x3072_1_2 t0⟩,
           ⟨S1x4096x3072, broadcastInDim S1x4096x3072 ![1, 2] bcast_S4096x3072_S1x4096x3072_1_2 t1⟩,
           ⟨S1x4096x3072, broadcastInDim S1x4096x3072 ![1, 2] bcast_S4096x3072_S1x4096x3072_1_2 t2⟩,
           ⟨S1x4096x3072, broadcastInDim S1x4096x3072 ![1, 2] bcast_S4096x3072_S1x4096x3072_1_2 t3⟩,
           ⟨S1x4096x3072, broadcastInDim S1x4096x3072 ![1, 2] bcast_S4096x3072_S1x4096x3072_1_2 t4⟩]
          concatenates_S1x4096x3072_S1x4096x3072_S1x4096x3072_S1x4096x3072_S1x4096x3072_S5x4096x3072_d0)
        shapeCasts_S5x4096x3072_S5x4096x192x16)
      transposes_S5x4096x192x16_S16x4096x192x5_3_1_2_0)
    shapeCasts_S16x4096x192x5_S65536x960

/-- The result in its [B, N, H] shape. -/
def outT (y : FVec F S65536x128 .f32) : FVec F S16x4096x128 .f32 :=
  shapeCast S16x4096x128 y shapeCasts_S65536x128_S16x4096x128

/-! ## What each host stretch leaves -/

/-- A five-operand operation's result with each operand's contents at its own reference. -/
theorem nary5_result {x0 x1 x2 x3 x4 y : Ref sig .tc}
    (f : ((k : Fin 5) → ((![x0, x1, x2, x3, x4] : Fin 5 → Ref sig .tc) k).ty.Contents (Elt F)) → y.ty.Contents (Elt F)) (hxs hy)
    (G : Valuation τ sig (Elt F)) :
    (nary (τ := τ) ![x0, x1, x2, x3, x4] y f hxs hy).result G (Proc.devRef .tc y)
      = f (Fin.cons (G (Proc.devRef .tc x0)) (Fin.cons (G (Proc.devRef .tc x1)) (Fin.cons (G (Proc.devRef .tc x2))
          (Fin.cons (G (Proc.devRef .tc x3)) (Fin.cons (G (Proc.devRef .tc x4)) (fun i => i.elim0)))))) := by
  rw [nary_result]; congr 1; funext k; fin_cases k <;> rfl

theorem nary5_result' {x0 x1 x2 x3 x4 y : Ref sig .tc}
    (f : ((k : Fin 5) → ((![x0, x1, x2, x3, x4] : Fin 5 → Ref sig .tc) k).ty.Contents (Elt F)) → y.ty.Contents (Elt F)) (hxs hy)
    (G : Valuation τ sig (Elt F)) :
    (nary (τ := τ) ![x0, x1, x2, x3, x4] y f hxs hy).result G (no_index (Proc.devRef .tc y))
      = f (Fin.cons (G (Proc.devRef .tc x0)) (Fin.cons (G (Proc.devRef .tc x1)) (Fin.cons (G (Proc.devRef .tc x2))
          (Fin.cons (G (Proc.devRef .tc x3)) (Fin.cons (G (Proc.devRef .tc x4)) (fun i => i.elim0)))))) :=
  nary5_result f hxs hy G

/-- Every operation's result at its own buffer is its function of its operands' contents, and at any other buffer
    what was there: one pass over the stretch. -/
macro "host_results" : tactic =>
  `(tactic| (simp (disch := decide) only [after_cons, after_nil,
      nullary_result', unary_result', binary_result', ternary_result', quaternary_result', reshape_result', nary5_result',
      unaryIndexed_result', binaryIndexed_result',
      nullary_result_ne', unary_result_ne', binary_result_ne', ternary_result_ne', quaternary_result_ne', reshape_result_ne',
      nary_result_ne', unaryIndexed_result_ne', binaryIndexed_result_ne']))

section
variable (W : Valuation τ sig (Elt F))

set_option maxHeartbeats 4000000 in
theorem hs0_v2 : StableHlo.after (hostOps0 (F := F)) W (Proc.devRef .tc main_v2)
    = x0T (W (Proc.devRef .tc main_arg0)) (W (Proc.devRef .tc main_arg1)) := by
  host_results; try rfl

set_option maxHeartbeats 4000000 in
theorem hs0_v25 : StableHlo.after (hostOps0 (F := F)) W (Proc.devRef .tc main_v25)
    = toBf (x0T (W (Proc.devRef .tc main_arg0)) (W (Proc.devRef .tc main_arg1))) := by
  host_results; try rfl

set_option maxHeartbeats 4000000 in
theorem hs0_v24 : StableHlo.after (hostOps0 (F := F)) W (Proc.devRef .tc main_v24)
    = adjT (rowI0 (W (Proc.devRef .tc main_arg4))) (rowI0 (W (Proc.devRef .tc main_arg5))) (rowF0 (W (Proc.devRef .tc main_arg6))) := by
  host_results; try rfl

set_option maxHeartbeats 4000000 in
theorem hs1_v27 : StableHlo.after (hostOps1 (F := F)) W (Proc.devRef .tc main_v27) = toBf (W (Proc.devRef .tc main_v26)) := by
  host_results; try rfl

set_option maxHeartbeats 4000000 in
theorem hs2_v31 : StableHlo.after (hostOps2 (F := F)) W (Proc.devRef .tc main_v31)
    = cheb2T (W (Proc.devRef .tc main_v28)) (W (Proc.devRef .tc main_v2)) := by
  host_results; try rfl

set_option maxHeartbeats 4000000 in
theorem hs2_v53 : StableHlo.after (hostOps2 (F := F)) W (Proc.devRef .tc main_v53)
    = adjT (rowI1 (W (Proc.devRef .tc main_arg4))) (rowI1 (W (Proc.devRef .tc main_arg5))) (rowF1 (W (Proc.devRef .tc main_arg6))) := by
  host_results; try rfl

set_option maxHeartbeats 4000000 in
theorem hs2_v54 : StableHlo.after (hostOps2 (F := F)) W (Proc.devRef .tc main_v54) = toBf (W (Proc.devRef .tc main_v2)) := by
  host_results; try rfl

set_option maxHeartbeats 4000000 in
theorem hs3_v56 : StableHlo.after (hostOps3 (F := F)) W (Proc.devRef .tc main_v56) = toBf (W (Proc.devRef .tc main_v55)) := by
  host_results; try rfl

set_option maxHeartbeats 4000000 in
theorem hs4_v70 : StableHlo.after (hostOps4 (F := F)) W (Proc.devRef .tc main_v70)
    = truncf .bf16 (relayT (W (Proc.devRef .tc main_v2)) (W (Proc.devRef .tc main_v26)) (W (Proc.devRef .tc main_v31))
        (W (Proc.devRef .tc main_v55)) (cheb2T (W (Proc.devRef .tc main_v57)) (W (Proc.devRef .tc main_v2)))) bitsLt_bf16_f32 := by
  host_results; try rfl

set_option maxHeartbeats 4000000 in
theorem hs4_v71 : StableHlo.after (hostOps4 (F := F)) W (Proc.devRef .tc main_v71)
    = truncf .bf16 (W (Proc.devRef .tc main_arg2)) bitsLt_bf16_f32 := by
  host_results; try rfl

set_option maxHeartbeats 4000000 in
theorem hs5_v73 : StableHlo.after (hostOps5 (F := F)) W (Proc.devRef .tc main_v73) = outT (W (Proc.devRef .tc main_v72)) := by
  host_results; try rfl

end

end Cert.KernelIdeal.Hand

end
-- ==== Proof.KernelChase.lean ====
/-
  What the kernel's buffers hold at each boundary between a host stretch and a pallas region, at the ideal instance:
  the feature matrix x0, the two adjacency matrices, the four diffusion products (the regions' output arrays), the
  second Chebyshev terms, the stacked and re-laid matrix, and the result. Each is read off the boundary's contents by
  walking back through the stretches that do not write the buffer.
-/
import proofs.«106054_j120259084553_1_alg».proof.Proof.KernelRun
import proofs.«106054_j120259084553_1_alg».proof.Proof.KernelHost
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.StableHlo

variable (m : (ℓ : Loc nD τ sig) → Buf (Elt Ideal) ℓ) (c : Dev nD)

/-- The argument arrays. -/
abbrev ar0 : FVec Ideal S16x4096x64 .f32 := m ((c.tc : Thread nD τ).loc main_arg0)
abbrev ar1 : FVec Ideal S16x4096x128 .f32 := m ((c.tc : Thread nD τ).loc main_arg1)
abbrev ar2 : FVec Ideal S960x128 .f32 := m ((c.tc : Thread nD τ).loc main_arg2)
abbrev ar3 : FVec Ideal S128 .f32 := m ((c.tc : Thread nD τ).loc main_arg3)
abbrev ar4 : IVec S2x65536 32 := m ((c.tc : Thread nD τ).loc main_arg4)
abbrev ar5 : IVec S2x65536 32 := m ((c.tc : Thread nD τ).loc main_arg5)
abbrev ar6 : FVec Ideal S2x65536 .f32 := m ((c.tc : Thread nD τ).loc main_arg6)

/-- The feature matrix, the adjacency matrices, the four products and the final rows. -/
def K0 : FVec Ideal S4096x3072 .f32 := x0T (ar0 m c) (ar1 m c)
def AD0 : FVec Ideal S4096x4096 .bf16 := adjT (rowI0 (ar4 m c)) (rowI0 (ar5 m c)) (rowF0 (ar6 m c))
def AD1 : FVec Ideal S4096x4096 .bf16 := adjT (rowI1 (ar4 m c)) (rowI1 (ar5 m c)) (rowF1 (ar6 m c))
def P1 : FVec Ideal S4096x3072 .f32 := (dat0 (E1 m) c).arrAt 2 cfg0.N
def P2 : FVec Ideal S4096x3072 .f32 := (dat1 (E3 m) c).arrAt 2 cfg1.N
def P3 : FVec Ideal S4096x3072 .f32 := (dat2 (E5 m) c).arrAt 2 cfg2.N
def P4 : FVec Ideal S4096x3072 .f32 := (dat3 (E7 m) c).arrAt 2 cfg3.N
def YY : FVec Ideal S65536x128 .f32 := (dat4 (E9 m) c).arrAt 3 cfg4.N

/-! ## After the first host stretch -/

theorem W1_v2 : W1 m c (Proc.devRef .tc main_v2) = K0 m c := hs0_v2 (Gen.V0 m c)
theorem W1_v24 : W1 m c (Proc.devRef .tc main_v24) = AD0 m c := hs0_v24 (Gen.V0 m c)
theorem W1_v25 : W1 m c (Proc.devRef .tc main_v25) = toBf (K0 m c) := hs0_v25 (Gen.V0 m c)
theorem W1_arg (r : Ref sig .tc) (h : r ∉ hostOps0_W) : W1 m c r = m ((c.tc : Thread nD τ).loc r) := Gen.V1_of m c r h

/-! ## After region 0 -/

theorem W2_v26 : W2 m c (Proc.devRef .tc main_v26) = P1 m c := by
  show Function.update (W1 m c) main_v26 (o2 m main_v26 c) main_v26 = _
  rw [Function.update_self]; exact X2_arr m c 2
theorem W2_keep (r : Ref sig .tc) (h : r ∉ ([main_v26] : List (Ref sig .tc))) : W2 m c r = W1 m c r :=
  Gen.V2_of m (outs m) c r h

/-! ## After the second host stretch -/

theorem W3_v27 : W3 m c (Proc.devRef .tc main_v27) = toBf (P1 m c) := by
  rw [← W2_v26]; exact hs1_v27 (W2 m c)
theorem W3_keep (r : Ref sig .tc) (h : r ∉ hostOps1_W) : W3 m c r = W2 m c r := Gen.V3_of m (outs m) c r h

/-! ## After region 1 -/

theorem W4_v28 : W4 m c (Proc.devRef .tc main_v28) = P2 m c := by
  show Function.update (W3 m c) main_v28 (o4 m main_v28 c) main_v28 = _
  rw [Function.update_self]; exact X4_arr m c 2
theorem W4_keep (r : Ref sig .tc) (h : r ∉ ([main_v28] : List (Ref sig .tc))) : W4 m c r = W3 m c r :=
  Gen.V4_of m (outs m) c r h

theorem W4_v2 : W4 m c (Proc.devRef .tc main_v2) = K0 m c :=
  (W4_keep m c main_v2 (by decide)).trans ((W3_keep m c main_v2 (by decide)).trans ((W2_keep m c main_v2 (by decide)).trans (W1_v2 m c)))
theorem W4_arg (r : Ref sig .tc) (h0 : r ∉ hostOps0_W) (h1 : r ∉ ([main_v26] : List (Ref sig .tc))) (h2 : r ∉ hostOps1_W)
    (h3 : r ∉ ([main_v28] : List (Ref sig .tc))) : W4 m c r = m ((c.tc : Thread nD τ).loc r) :=
  (W4_keep m c r h3).trans ((W3_keep m c r h2).trans ((W2_keep m c r h1).trans (W1_arg m c r h0)))

/-! ## After the third host stretch -/

theorem W5_v31 : W5 m c (Proc.devRef .tc main_v31) = cheb2T (P2 m c) (K0 m c) := by
  rw [← W4_v28, ← W4_v2]; exact hs2_v31 (W4 m c)
theorem W5_v53 : W5 m c (Proc.devRef .tc main_v53) = AD1 m c := by
  have h := hs2_v53 (W4 m c)
  rw [W4_arg m c main_arg4 (by decide) (by decide) (by decide) (by decide), W4_arg m c main_arg5 (by decide) (by decide) (by decide) (by decide),
    W4_arg m c main_arg6 (by decide) (by decide) (by decide) (by decide)] at h
  exact h
theorem W5_v54 : W5 m c (Proc.devRef .tc main_v54) = toBf (K0 m c) := by
  rw [← W4_v2]; exact hs2_v54 (W4 m c)
theorem W5_keep (r : Ref sig .tc) (h : r ∉ hostOps2_W) : W5 m c r = W4 m c r := Gen.V5_of m (outs m) c r h

/-! ## After region 2 -/

theorem W6_v55 : W6 m c (Proc.devRef .tc main_v55) = P3 m c := by
  show Function.update (W5 m c) main_v55 (o6 m main_v55 c) main_v55 = _
  rw [Function.update_self]; exact X6_arr m c 2
theorem W6_keep (r : Ref sig .tc) (h : r ∉ ([main_v55] : List (Ref sig .tc))) : W6 m c r = W5 m c r :=
  Gen.V6_of m (outs m) c r h

/-! ## After the fourth host stretch -/

theorem W7_v56 : W7 m c (Proc.devRef .tc main_v56) = toBf (P3 m c) := by
  rw [← W6_v55]; exact hs3_v56 (W6 m c)
theorem W7_keep (r : Ref sig .tc) (h : r ∉ hostOps3_W) : W7 m c r = W6 m c r := Gen.V7_of m (outs m) c r h

/-! ## After region 3 -/

theorem W8_v57 : W8 m c (Proc.devRef .tc main_v57) = P4 m c := by
  show Function.update (W7 m c) main_v57 (o8 m main_v57 c) main_v57 = _
  rw [Function.update_self]; exact X8_arr m c 2
theorem W8_keep (r : Ref sig .tc) (h : r ∉ ([main_v57] : List (Ref sig .tc))) : W8 m c r = W7 m c r :=
  Gen.V8_of m (outs m) c r h

/-- A buffer no stretch and no region has written yet holds what it held after region 1. -/
theorem W8_of_W4 (r : Ref sig .tc) (h5 : r ∉ hostOps2_W) (h6 : r ∉ ([main_v55] : List (Ref sig .tc))) (h7 : r ∉ hostOps3_W)
    (h8 : r ∉ ([main_v57] : List (Ref sig .tc))) : W8 m c r = W4 m c r :=
  (W8_keep m c r h8).trans ((W7_keep m c r h7).trans ((W6_keep m c r h6).trans (W5_keep m c r h5)))

theorem W8_v2 : W8 m c (Proc.devRef .tc main_v2) = K0 m c :=
  (W8_of_W4 m c main_v2 (by decide) (by decide) (by decide) (by decide)).trans (W4_v2 m c)
theorem W8_v26 : W8 m c (Proc.devRef .tc main_v26) = P1 m c :=
  (W8_of_W4 m c main_v26 (by decide) (by decide) (by decide) (by decide)).trans
    ((W4_keep m c main_v26 (by decide)).trans ((W3_keep m c main_v26 (by decide)).trans (W2_v26 m c)))
theorem W8_v31 : W8 m c (Proc.devRef .tc main_v31) = cheb2T (P2 m c) (K0 m c) :=
  (W8_keep m c main_v31 (by decide)).trans ((W7_keep m c main_v31 (by decide)).trans ((W6_keep m c main_v31 (by decide)).trans (W5_v31 m c)))
theorem W8_v55 : W8 m c (Proc.devRef .tc main_v55) = P3 m c :=
  (W8_keep m c main_v55 (by decide)).trans ((W7_keep m c main_v55 (by decide)).trans (W6_v55 m c))
theorem W8_arg2 : W8 m c (Proc.devRef .tc main_arg2) = ar2 m c :=
  (W8_of_W4 m c main_arg2 (by decide) (by decide) (by decide) (by decide)).trans (W4_arg m c main_arg2 (by decide) (by decide) (by decide) (by decide))
theorem W8_arg3 : W8 m c (Proc.devRef .tc main_arg3) = ar3 m c :=
  (W8_of_W4 m c main_arg3 (by decide) (by decide) (by decide) (by decide)).trans (W4_arg m c main_arg3 (by decide) (by decide) (by decide) (by decide))

/-! ## After the fifth host stretch -/

theorem W9_v70 : W9 m c (Proc.devRef .tc main_v70)
    = truncf .bf16 (relayT (K0 m c) (P1 m c) (cheb2T (P2 m c) (K0 m c)) (P3 m c) (cheb2T (P4 m c) (K0 m c))) bitsLt_bf16_f32 := by
  have h := hs4_v70 (W8 m c)
  rw [W8_v2 m c, W8_v26 m c, W8_v31 m c, W8_v55 m c, W8_v57 m c] at h
  exact h
theorem W9_v71 : W9 m c (Proc.devRef .tc main_v71) = truncf .bf16 (ar2 m c) bitsLt_bf16_f32 := by
  have h := hs4_v71 (W8 m c)
  rw [W8_arg2 m c] at h
  exact h
theorem W9_arg3 : W9 m c (Proc.devRef .tc main_arg3) = ar3 m c :=
  (Gen.V9_of m (outs m) c main_arg3 (by decide)).trans (W8_arg3 m c)

/-! ## After region 4 and the last reshape -/

theorem W10_v72 : W10 m c (Proc.devRef .tc main_v72) = YY m c := by
  show Function.update (W9 m c) main_v72 (o10 m main_v72 c) main_v72 = _
  rw [Function.update_self]; exact X10_arr m c 3
theorem W11_v73 : W11 m c (Proc.devRef .tc main_v73) = outT (YY m c) := by
  rw [← W10_v72]; exact hs5_v73 (W10 m c)

/-! ## What each region finds in its input windows' arrays -/

theorem E1_in0 : E1 m c (Pipeline.arrRef spec0 0) = AD0 m c := W1_v24 m c
theorem E1_in1 : E1 m c (Pipeline.arrRef spec0 1) = toBf (K0 m c) := W1_v25 m c
theorem E3_in0 : E3 m c (Pipeline.arrRef spec1 0) = AD0 m c :=
  (W3_keep m c main_v24 (by decide)).trans ((W2_keep m c main_v24 (by decide)).trans (W1_v24 m c))
theorem E3_in1 : E3 m c (Pipeline.arrRef spec1 1) = toBf (P1 m c) := W3_v27 m c
theorem E5_in0 : E5 m c (Pipeline.arrRef spec2 0) = AD1 m c := W5_v53 m c
theorem E5_in1 : E5 m c (Pipeline.arrRef spec2 1) = toBf (K0 m c) := W5_v54 m c
theorem E7_in0 : E7 m c (Pipeline.arrRef spec3 0) = AD1 m c :=
  (W7_keep m c main_v53 (by decide)).trans ((W6_keep m c main_v53 (by decide)).trans (W5_v53 m c))
theorem E7_in1 : E7 m c (Pipeline.arrRef spec3 1) = toBf (P3 m c) := W7_v56 m c
theorem E9_in0 : E9 m c (Pipeline.arrRef spec4 0)
    = truncf .bf16 (relayT (K0 m c) (P1 m c) (cheb2T (P2 m c) (K0 m c)) (P3 m c) (cheb2T (P4 m c) (K0 m c))) bitsLt_bf16_f32 := W9_v70 m c
theorem E9_in1 : E9 m c (Pipeline.arrRef spec4 1) = truncf .bf16 (ar2 m c) bitsLt_bf16_f32 := W9_v71 m c
theorem E9_in2 : E9 m c (Pipeline.arrRef spec4 2) = ar3 m c := W9_arg3 m c

end Cert.KernelIdeal.Hand

end
-- ==== Proof.MatmulBlock0.lean ====
/-
  One accumulation step of the blocked product read at an entry. The step adds to the accumulator block s the product
  of a 1024 × 1024 block a and a 1024 × 1536 block x: entry (p, q) becomes s(p, q) + Σ_{k'} a(p, k') · x(k', q), the
  sum over the 1024 positions of the contraction inside the block. The block the first step starts from is zero.
-/
import proofs.«106054_j120259084553_1_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

/-- The dimension record of the block product: contract axis 1 of the left block with axis 0 of the right one. -/
abbrev D0 : DotDims S1024x1024 S1024x1536 S1024x1536 := dot_S1024x1024_S1024x1536_S1024x1536_1_0_0_1_n_n

theorem D0_lhs_0 (i : S1024x1536.Idx) (q : D0.contr.Idx) : (D0.lhsIdx i q 0).val = (i 0).val := by
  unfold DotDims.lhsIdx
  rw [dif_neg (show ¬(0 : Fin S1024x1024.rank) ∈ D0.lhsBatch by decide), dif_pos (show (0 : Fin S1024x1024.rank) ∈ D0.lhsNonContracting by decide)]
  rfl
theorem D0_lhs_1 (i : S1024x1536.Idx) (q : D0.contr.Idx) : (D0.lhsIdx i q 1).val = (q ⟨0, by decide⟩).val :=
  D0.lhsIdx_val_of_single rfl i q
theorem D0_rhs_0 (i : S1024x1536.Idx) (q : D0.contr.Idx) : (D0.rhsIdx i q 0).val = (q ⟨0, by decide⟩).val :=
  D0.rhsIdx_val_of_single rfl i q
theorem D0_rhs_1 (i : S1024x1536.Idx) (q : D0.contr.Idx) : (D0.rhsIdx i q 1).val = (i 1).val := by
  unfold DotDims.rhsIdx
  rw [dif_neg (show ¬(1 : Fin S1024x1536.rank) ∈ D0.rhsBatch by decide), dif_pos (show (1 : Fin S1024x1536.rank) ∈ D0.rhsNonContracting by decide)]
  rfl

/-- The block product into zero, at entry (p, q): Σ_{k'} a(p, k') · x(k', q). -/
theorem blockProd_apply (a : FVec Ideal S1024x1024 .bf16) (x : FVec Ideal S1024x1536 .bf16) (p : Fin 1024) (q : Fin 1536) :
    FloatOps.matmul D0 none a x (constant (F := Ideal) S1024x1536 .f32 0x00000000#32) (ix2 p q)
      = ∑ k' : Fin 1024, a (ix2 p k') * x (ix2 k' q) := by
  rw [Ideal.matmul_constant_zero_apply, ← Equiv.sum_comp (contrEquiv1 D0 1024 rfl rfl).symm]
  refine Finset.sum_congr rfl fun k _ => ?_
  have hk := contrEquiv1_symm_val D0 1024 rfl rfl k
  have el : D0.lhsIdx (ix2 p q) ((contrEquiv1 D0 1024 rfl rfl).symm k) = ix2 p k := funext fun b => Fin.ext (by
    match b with
    | ⟨0, _⟩ => exact D0_lhs_0 _ _
    | ⟨1, _⟩ => exact (D0_lhs_1 _ _).trans hk)
  have er : D0.rhsIdx (ix2 p q) ((contrEquiv1 D0 1024 rfl rfl).symm k) = ix2 k q := funext fun b => Fin.ext (by
    match b with
    | ⟨0, _⟩ => exact (D0_rhs_0 _ _).trans hk
    | ⟨1, _⟩ => exact D0_rhs_1 _ _)
  rw [el, er]

/-- ONE STEP at an entry: the accumulator's entry plus the block product's. -/
theorem pay2_apply (s : Vec Ideal S1024x1536 .f32) (a : Vec Ideal S1024x1024 .bf16) (x : Vec Ideal S1024x1536 .bf16)
    (p : Fin 1024) (q : Fin 1536) :
    k0_pay2 (F := Ideal) s a x (ix2 p q) = s (ix2 p q) + ∑ k' : Fin 1024, a (ix2 p k') * x (ix2 k' q) := by
  unfold k0_pay2
  simp only [shapeCast_self]
  rw [addf_apply]
  simp only [matmul]
  rw [blockProd_apply]

/-- The block the first step starts from is zero at every entry. -/
theorem pay1_apply (j : S1024x1536.Idx) : k0_pay1 (F := Ideal) j = 0 := by
  unfold k0_pay1
  simp only [shapeCast_self]
  show Ideal.ofBits .f32 0x00000000#32 = 0
  exact Ideal.ofBits_zero_f32

end Cert.KernelIdeal.Hand

end
-- ==== Proof.LibBlockSumN.lean ====
/-
  A sum over `b · n` indices, taken in `b` blocks of `n`.

  In any additive commutative monoid, a sum over the indices `0 … b·n − 1` is the sum over the blocks
  `t = 0 … b − 1` of the sums over the positions `j = 0 … n − 1` inside the block, the index being `t · n + j`:
  the map `(t, j) ↦ t · n + j` is a bijection from pairs to indices, and a sum over pairs is an iterated sum.
  Nothing here needs the summands to be finite, so it holds for extended reals: it is the law that joins a
  contraction accumulated block by block with the whole contraction.
-/
import Idealize.ShloMosaic.Lib.ValueIdx

namespace Cert.BlockSumN

open scoped BigOperators

/-- Position `j` of block `t` is an index below `b · n`. -/
theorem blk_lt {b n : Nat} (t : Fin b) (j : Fin n) : t.val * n + j.val < b * n := by
  have h1 : t.val * n + n ≤ b * n := by
    have : (t.val + 1) * n ≤ b * n := Nat.mul_le_mul_right n t.isLt
    simpa [Nat.succ_mul] using this
  have := j.isLt
  omega

/-- A sum over `b · n` indices is the sum over the `b` blocks of the sums over the `n` positions in a block. -/
theorem sum_blocks {α : Type} [AddCommMonoid α] (b n : Nat) (f : Fin (b * n) → α) :
    ∑ k : Fin (b * n), f k = ∑ t : Fin b, ∑ j : Fin n, f ⟨t.val * n + j.val, blk_lt t j⟩ := by
  rw [← Equiv.sum_comp finProdFinEquiv f, Fintype.sum_prod_type]
  refine Finset.sum_congr rfl fun t _ => Finset.sum_congr rfl fun j _ => ?_
  congr 1
  apply Fin.ext
  show j.val + n * t.val = t.val * n + j.val
  rw [Nat.mul_comm, Nat.add_comm]

/-- The same over `Fin K` with `K = b · n` given as an equation (for a literal `K`). -/
theorem sum_blocks_of_eq {α : Type} [AddCommMonoid α] {K : Nat} (b n : Nat) (hK : K = b * n) (f : Fin K → α) :
    ∑ k : Fin K, f k = ∑ t : Fin b, ∑ j : Fin n, f ⟨t.val * n + j.val, hK ▸ blk_lt t j⟩ := by
  subst hK
  exact sum_blocks b n f

end Cert.BlockSumN
-- ==== Proof.LibBlockAcc.lean ====
/-
  An accumulator that starts at zero and adds one block's partial sum per step holds the whole sum at the end.

  Let the `K = b · n` summands be cut into `b` blocks of `n` consecutive ones, and let `P t` be the sum of block
  `t`. Then the sum of the `P t` over the blocks is the sum of all `K` summands — whichever way the positions of a
  block are named, as long as position `j` of block `t` is the summand `t · n + j`. For four blocks the accumulator's
  literal value `(((0 + P 0) + P 1) + P 2) + P 3` is that sum. Holds in any additive commutative monoid, so for
  extended reals with no finiteness.
-/
import Mathlib.Algebra.BigOperators.Fin
import proofs.«106054_j120259084553_1_alg».proof.Proof.LibBlockSumN

namespace Cert.BlockAcc

open scoped BigOperators

/-- The block sums add up to the whole sum: `idx t j` names position `j` of block `t`, the summand `t · n + j`. -/
theorem sum_block_sums {α : Type} [AddCommMonoid α] {K : Nat} (b n : Nat) (hK : K = b * n) (f : Fin K → α)
    (idx : Fin b → Fin n → Fin K) (hidx : ∀ t j, (idx t j).val = t.val * n + j.val)
    (P : Fin b → α) (hP : ∀ t, P t = ∑ j : Fin n, f (idx t j)) :
    ∑ t : Fin b, P t = ∑ k : Fin K, f k := by
  rw [Cert.BlockSumN.sum_blocks_of_eq b n hK f]
  refine Finset.sum_congr rfl fun t _ => ?_
  rw [hP t]
  refine Finset.sum_congr rfl fun j _ => ?_
  exact congrArg f (Fin.ext (hidx t j))

/-- The same with the blocks counted by natural numbers below `b` (a sum over `Finset.range b`). -/
theorem sum_range_block_sums {α : Type} [AddCommMonoid α] {K : Nat} (b n : Nat) (hK : K = b * n) (f : Fin K → α)
    (idx : Fin b → Fin n → Fin K) (hidx : ∀ t j, (idx t j).val = t.val * n + j.val)
    (P : Nat → α) (hP : ∀ t : Fin b, P t.val = ∑ j : Fin n, f (idx t j)) :
    ∑ t ∈ Finset.range b, P t = ∑ k : Fin K, f k := by
  rw [Finset.sum_range]
  exact sum_block_sums b n hK f idx hidx (fun t => P t.val) hP

/-- Four blocks: the accumulator's literal value after the four steps is the whole sum. -/
theorem acc4_eq_sum {α : Type} [AddCommMonoid α] {K : Nat} (n : Nat) (hK : K = 4 * n) (f : Fin K → α)
    (idx : Fin 4 → Fin n → Fin K) (hidx : ∀ t j, (idx t j).val = t.val * n + j.val)
    (P : Fin 4 → α) (hP : ∀ t, P t = ∑ j : Fin n, f (idx t j)) :
    (((0 + P 0) + P 1) + P 2) + P 3 = ∑ k : Fin K, f k := by
  rw [← sum_block_sums 4 n hK f idx hidx P hP, Fin.sum_univ_four, zero_add]

end Cert.BlockAcc
-- ==== Proof.Acc4.lean ====
/-
  Four blocks of 1024 make the 4096-term contraction: an accumulator that starts at zero and adds the partial sum of
  one block of 1024 consecutive terms per step holds, after four steps, the sum of all 4096 terms.
-/
import proofs.«106054_j120259084553_1_alg».proof.Proof.LibBlockAcc

open scoped BigOperators

namespace Cert.DenseSparse

/-- Position k' of block j is the term j · 1024 + k' of the 4096. -/
def blk (j : Fin 4) (k' : Fin 1024) : Fin 4096 := ⟨j.val * 1024 + k'.val, by have := j.isLt; have := k'.isLt; omega⟩

theorem blk_val (j : Fin 4) (k' : Fin 1024) : (blk j k').val = j.val * 1024 + k'.val := rfl

/-- The accumulator's literal value after the four steps is the whole sum; idx j k' names position k' of block j. -/
theorem acc4_4096 {α : Type} [AddCommMonoid α] (t : Fin 4096 → α) (idx : Fin 4 → Fin 1024 → Fin 4096)
    (hidx : ∀ j k', (idx j k').val = j.val * 1024 + k'.val) (P : Fin 4 → α)
    (hP : ∀ j, P j = ∑ k' : Fin 1024, t (idx j k')) :
    (((0 + P 0) + P 1) + P 2) + P 3 = ∑ k : Fin 4096, t k :=
  Cert.BlockAcc.acc4_eq_sum 1024 (by norm_num) t idx hidx P hP

/-- The same with the four partial sums given one by one, block j's positions named by blk j. -/
theorem acc4_4096' {α : Type} [AddCommMonoid α] (t : Fin 4096 → α) (P0 P1 P2 P3 : α)
    (h0 : P0 = ∑ k' : Fin 1024, t (blk 0 k')) (h1 : P1 = ∑ k' : Fin 1024, t (blk 1 k'))
    (h2 : P2 = ∑ k' : Fin 1024, t (blk 2 k')) (h3 : P3 = ∑ k' : Fin 1024, t (blk 3 k')) :
    (((0 + P0) + P1) + P2) + P3 = ∑ k : Fin 4096, t k :=
  acc4_4096 t blk blk_val ![P0, P1, P2, P3] (fun j => by
    match j with
    | ⟨0, _⟩ => exact h0
    | ⟨1, _⟩ => exact h1
    | ⟨2, _⟩ => exact h2
    | ⟨3, _⟩ => exact h3)

end Cert.DenseSparse
-- ==== Proof.MatmulValue0.lean ====
/-
  What the first diffusion product leaves in its output array: the matrix product of the two input arrays, entry by
  entry. The grid point t = (i, j, k) accumulates block k of the contraction into the output block (i, j); the point
  with k = 3 writes the block back, holding the four partial sums added in order from zero; four blocks of 1024 make
  the 4096-term contraction; the output's blocks tile the array.
-/
import proofs.«106054_j120259084553_1_alg».proof.Proof.Matmul0
import proofs.«106054_j120259084553_1_alg».proof.Proof.MatmulBlock0
import proofs.«106054_j120259084553_1_alg».proof.Proof.Acc4
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## Four steps from zero at an entry -/

/-- Four accumulation steps from the zero block, at entry j: zero plus the four block products in order. -/
theorem chain4_apply (a0 a1 a2 a3 : Vec Ideal S1024x1024 .bf16) (x0 x1 x2 x3 : Vec Ideal S1024x1536 .bf16)
    (p : Fin 1024) (q : Fin 1536) :
    k0_pay2 (F := Ideal) (k0_pay2 (F := Ideal) (k0_pay2 (F := Ideal) (k0_pay2 (F := Ideal) (k0_pay1 (F := Ideal)) a0 x0) a1 x1) a2 x2) a3 x3 (ix2 p q)
      = (((0 + ∑ k' : Fin 1024, a0 (ix2 p k') * x0 (ix2 k' q)) + ∑ k' : Fin 1024, a1 (ix2 p k') * x1 (ix2 k' q))
          + ∑ k' : Fin 1024, a2 (ix2 p k') * x2 (ix2 k' q)) + ∑ k' : Fin 1024, a3 (ix2 p k') * x3 (ix2 k' q) := by
  rw [pay2_apply, pay2_apply, pay2_apply, pay2_apply, pay1_apply]

/-! ## The printed index maps, decided once over the grid -/

/-- Point t = (i, j, k) = (t / 8, t / 4 mod 2, t mod 4): the left block is (i, k), the right one (k, j), the output's (i, j). -/
theorem idx_facts0 : ∀ t : Fin cfg0.N, win0_0.index t (0 : Fin 2) = t.val / 8 ∧ win0_0.index t (1 : Fin 2) = t.val % 4
    ∧ win0_1.index t (0 : Fin 2) = t.val % 4 ∧ win0_1.index t (1 : Fin 2) = t.val / 4 % 2
    ∧ win0_2.index t (0 : Fin 2) = t.val / 8 ∧ win0_2.index t (1 : Fin 2) = t.val / 4 % 2 :=
  (by decide +kernel : ∀ t : Fin grid0.N, _)

section
variable (V : (c : Dev nD) → (b : Ref sig .tc) → Buf (Elt Ideal) ((c : Thread nD τ).loc b))

/-- The left array as the region finds it. -/
abbrev mA0 (c : Dev nD) : S4096x4096.Idx → EReal := V c (Pipeline.arrRef spec0 0)
/-- The right array as the region finds it. -/
abbrev mX0 (c : Dev nD) : S4096x3072.Idx → EReal := V c (Pipeline.arrRef spec0 1)

/-- The matrix product at entry (r, f). -/
def prod0 (c : Dev nD) (r : Fin 4096) (f : Fin 3072) : EReal := ∑ k : Fin 4096, mA0 V c (ix2 r k) * mX0 V c (ix2 k f)

/-- The matrix product as contents of the output array. -/
def G0 (c : Dev nD) : S4096x3072.Idx → EReal := fun i => prod0 V c ⟨(i 0).val, (i 0).isLt⟩ ⟨(i 1).val, (i 1).isLt⟩

/-! ## The input blocks read where they sit in their arrays -/

/-- Entry (p, k') of the left block at point t is entry (i·1024 + p, k·1024 + k') of the left array. -/
theorem iblk0_0_apply (c : Dev nD) (t : Fin cfg0.N) (p k' : Fin 1024) (r kk : Fin 4096)
    (hr : r.val = win0_0.index t (0 : Fin 2) * 1024 + p.val) (hk : kk.val = win0_0.index t (1 : Fin 2) * 1024 + k'.val) :
    (iblk0 V c 0 t : Vec Ideal S1024x1024 .bf16) (ix2 p k') = mA0 V c (ix2 r kk) := by
  show mA0 V c (((cfg0.win 0).blk t).view.emb (ix2 p k')) = mA0 V c (ix2 r kk)
  congr 1
  funext a
  apply Fin.ext
  match a with
  | ⟨0, _⟩ => show win0_0.index t (0 : Fin 2) * 1024 + 1 * p.val = r.val; omega
  | ⟨1, _⟩ => show win0_0.index t (1 : Fin 2) * 1024 + 1 * k'.val = kk.val; omega

/-- Entry (k', q) of the right block at point t is entry (k·1024 + k', j·1536 + q) of the right array. -/
theorem iblk0_1_apply (c : Dev nD) (t : Fin cfg0.N) (k' : Fin 1024) (q : Fin 1536) (kk : Fin 4096) (f : Fin 3072)
    (hk : kk.val = win0_1.index t (0 : Fin 2) * 1024 + k'.val) (hf : f.val = win0_1.index t (1 : Fin 2) * 1536 + q.val) :
    (iblk0 V c 1 t : Vec Ideal S1024x1536 .bf16) (ix2 k' q) = mX0 V c (ix2 kk f) := by
  show mX0 V c (((cfg0.win 1).blk t).view.emb (ix2 k' q)) = mX0 V c (ix2 kk f)
  congr 1
  funext a
  apply Fin.ext
  match a with
  | ⟨0, _⟩ => show win0_1.index t (0 : Fin 2) * 1024 + 1 * k'.val = kk.val; omega
  | ⟨1, _⟩ => show win0_1.index t (1 : Fin 2) * 1536 + 1 * q.val = f.val; omega

/-! ## The accumulator at a point that writes back -/

/-- A point below 32 is a point of the grid. -/
theorem lt0 {n : ℕ} (h : n < 32) : n < cfg0.N := lt_of_lt_of_eq h N_0.symm

/-- Away from k = 0 the accumulator is one step further than after the point before. -/
theorem acc0_succ (c : Dev nD) (n : ℕ) (hn : n + 1 < cfg0.N) (h0 : ¬(n + 1) % 4 = 0) :
    acc0 V c (n + 1) hn = step0 (acc0 V c n (Nat.lt_of_succ_lt hn)) (iblk0 V c 0 ⟨n + 1, hn⟩) (iblk0 V c 1 ⟨n + 1, hn⟩) :=
  if_neg h0

/-- At the point b + 3 of a run b, b + 1, b + 2, b + 3 (b a multiple of 4) the accumulator holds four steps from zero. -/
theorem acc0_run4 (c : Dev nD) (b : ℕ) (hb : b + 3 < 32) (h0 : b % 4 = 0) :
    acc0 V c (b + 3) (lt0 hb)
      = step0 (step0 (step0 (first0 (iblk0 V c 0 ⟨b, lt0 (by omega)⟩) (iblk0 V c 1 ⟨b, lt0 (by omega)⟩))
            (iblk0 V c 0 ⟨b + 1, lt0 (by omega)⟩) (iblk0 V c 1 ⟨b + 1, lt0 (by omega)⟩))
          (iblk0 V c 0 ⟨b + 2, lt0 (by omega)⟩) (iblk0 V c 1 ⟨b + 2, lt0 (by omega)⟩))
        (iblk0 V c 0 ⟨b + 3, lt0 hb⟩) (iblk0 V c 1 ⟨b + 3, lt0 hb⟩) := by
  have e0 : acc0 V c b (lt0 (by omega)) = first0 (iblk0 V c 0 ⟨b, lt0 (by omega)⟩) (iblk0 V c 1 ⟨b, lt0 (by omega)⟩) :=
    acc0_first V c ⟨b, lt0 (by omega)⟩ h0
  rw [acc0_succ V c (b + 2) (lt0 hb) (by omega), acc0_succ V c (b + 1) (lt0 (by omega)) (by omega),
    acc0_succ V c b (lt0 (by omega)) (by omega), e0]

/-! ## What a point writes back -/

/-- The matrix product as contents of the output array, at an index whose coordinates are r and f. -/
theorem G0_apply (c : Dev nD) (i : S4096x3072.Idx) (r : Fin 4096) (f : Fin 3072) (hr : (i 0).val = r.val) (hf : (i 1).val = f.val) :
    G0 V c i = prod0 V c r f := by
  unfold G0
  have e1 : (⟨(i 0).val, (i 0).isLt⟩ : Fin 4096) = r := Fin.ext hr
  have e2 : (⟨(i 1).val, (i 1).isLt⟩ : Fin 3072) = f := Fin.ext hf
  rw [e1, e2]

/-- One block's partial sum is that block's 1024 terms of the contraction, when the left block's row p is row r of
    the left array at the columns of block m and the right block's column q is column f of the right array at the rows
    of block m. -/
theorem part_eq (a : Vec Ideal S1024x1024 .bf16) (x : Vec Ideal S1024x1536 .bf16) (A : S4096x4096.Idx → EReal)
    (X : S4096x3072.Idx → EReal) (m : Fin 4) (p : Fin 1024) (q : Fin 1536) (r : Fin 4096) (f : Fin 3072)
    (ha : ∀ k' : Fin 1024, a (ix2 p k') = A (ix2 r (Cert.DenseSparse.blk m k')))
    (hx : ∀ k' : Fin 1024, x (ix2 k' q) = X (ix2 (Cert.DenseSparse.blk m k') f)) :
    (∑ k' : Fin 1024, a (ix2 p k') * x (ix2 k' q))
      = ∑ k' : Fin 1024, A (ix2 r (Cert.DenseSparse.blk m k')) * X (ix2 (Cert.DenseSparse.blk m k') f) :=
  Finset.sum_congr rfl fun k' _ => by rw [ha k', hx k']

/-- The blocks at a point whose left block is (i, m) and right block (m, j), read at row p and column q. -/
theorem part0_eq (c : Dev nD) (t : Fin cfg0.N) (m : Fin 4) (p : Fin 1024) (q : Fin 1536) (r : Fin 4096) (f : Fin 3072)
    (h00 : r.val = win0_0.index t (0 : Fin 2) * 1024 + p.val) (h01 : win0_0.index t (1 : Fin 2) = m.val)
    (h10 : win0_1.index t (0 : Fin 2) = m.val) (h11 : f.val = win0_1.index t (1 : Fin 2) * 1536 + q.val) :
    (∀ k' : Fin 1024, (iblk0 V c 0 t : Vec Ideal S1024x1024 .bf16) (ix2 p k') = mA0 V c (ix2 r (Cert.DenseSparse.blk m k')))
      ∧ (∀ k' : Fin 1024, (iblk0 V c 1 t : Vec Ideal S1024x1536 .bf16) (ix2 k' q) = mX0 V c (ix2 (Cert.DenseSparse.blk m k') f)) := by
  refine ⟨fun k' => ?_, fun k' => ?_⟩
  · have e : (Cert.DenseSparse.blk m k').val = m.val * 1024 + k'.val := rfl
    exact iblk0_0_apply V c t p k' r (Cert.DenseSparse.blk m k') h00 (by rw [h01, e])
  · have e : (Cert.DenseSparse.blk m k').val = m.val * 1024 + k'.val := rfl
    exact iblk0_1_apply V c t k' q (Cert.DenseSparse.blk m k') f (by rw [h10, e]) h11

set_option maxHeartbeats 1000000 in
/-- The accumulator after the last point of a run, at entry (p, q) of its block: the matrix product at the entry of
    the array the block's entry sits at. -/
theorem run4_apply (c : Dev nD) (b : ℕ) (hb : b + 3 < 32) (h0 : b % 4 = 0) (p : Fin 1024) (q : Fin 1536)
    (r : Fin 4096) (f : Fin 3072) (hr : r.val = (b + 3) / 8 * 1024 + p.val) (hf : f.val = (b + 3) / 4 % 2 * 1536 + q.val) :
    acc0 V c (b + 3) (lt0 hb) (ix2 p q) = prod0 V c r f := by
  rw [acc0_run4 V c b hb h0]
  refine (chain4_apply _ _ _ _ _ _ _ _ p q).trans ?_
  obtain ⟨a0, a1, a2, a3, -, -⟩ := idx_facts0 ⟨b, lt0 (by omega)⟩
  obtain ⟨b0, b1, b2, b3, -, -⟩ := idx_facts0 ⟨b + 1, lt0 (by omega)⟩
  obtain ⟨c0, c1, c2, c3, -, -⟩ := idx_facts0 ⟨b + 2, lt0 (by omega)⟩
  obtain ⟨d0, d1, d2, d3, -, -⟩ := idx_facts0 ⟨b + 3, lt0 hb⟩
  have hp := p.isLt
  have hq := q.isLt
  unfold prod0
  refine Cert.DenseSparse.acc4_4096' (fun k => mA0 V c (ix2 r k) * mX0 V c (ix2 k f)) _ _ _ _ ?_ ?_ ?_ ?_
  · refine (fun h => part_eq _ _ (mA0 V c) (mX0 V c) 0 p q r f h.1 h.2) (part0_eq V c _ 0 p q r f (by rw [a0, hr]; show (b + 3) / 8 * 1024 + p.val = b / 8 * 1024 + p.val; omega)
      (by rw [a1]; show b % 4 = 0; omega) (by rw [a2]; show b % 4 = 0; omega)
      (by rw [a3, hf]; show (b + 3) / 4 % 2 * 1536 + q.val = b / 4 % 2 * 1536 + q.val; omega))
  · refine (fun h => part_eq _ _ (mA0 V c) (mX0 V c) 1 p q r f h.1 h.2) (part0_eq V c _ 1 p q r f (by rw [b0, hr]; show (b + 3) / 8 * 1024 + p.val = (b + 1) / 8 * 1024 + p.val; omega)
      (by rw [b1]; show (b + 1) % 4 = 1; omega) (by rw [b2]; show (b + 1) % 4 = 1; omega)
      (by rw [b3, hf]; show (b + 3) / 4 % 2 * 1536 + q.val = (b + 1) / 4 % 2 * 1536 + q.val; omega))
  · refine (fun h => part_eq _ _ (mA0 V c) (mX0 V c) 2 p q r f h.1 h.2) (part0_eq V c _ 2 p q r f (by rw [c0, hr]; show (b + 3) / 8 * 1024 + p.val = (b + 2) / 8 * 1024 + p.val; omega)
      (by rw [c1]; show (b + 2) % 4 = 2; omega) (by rw [c2]; show (b + 2) % 4 = 2; omega)
      (by rw [c3, hf]; show (b + 3) / 4 % 2 * 1536 + q.val = (b + 2) / 4 % 2 * 1536 + q.val; omega))
  · refine (fun h => part_eq _ _ (mA0 V c) (mX0 V c) 3 p q r f h.1 h.2) (part0_eq V c _ 3 p q r f (by rw [d0, hr])
      (by rw [d1]; show (b + 3) % 4 = 3; omega) (by rw [d2]; show (b + 3) % 4 = 3; omega)
      (by rw [d3, hf]))

set_option maxHeartbeats 1000000 in
/-- WHAT A POINT WITH k = 3 WRITES BACK is its block of the matrix product. -/
theorem flushed0_eq (c : Dev nD) (t : Fin cfg0.N) (hf : (cfg0.win 2).flush t = true) :
    (dat0 V c).flushed 2 t = ((cfg0.win 2).blk t).view.read (Elt Ideal) (G0 V c) := by
  have h3 : t.val % 4 = 3 := (flush0_2 t).mp hf
  have hN : t.val < 32 := lt_of_lt_of_eq t.isLt N_0
  show (cfg0.win 2).cut (grid0.coords t) ((dat0 V c).after 2 t) = _
  rw [after0_2]
  obtain ⟨n, hn⟩ := t
  obtain ⟨b, rfl⟩ : ∃ b, n = b + 3 := ⟨n - 3, by have : n % 4 = 3 := h3; omega⟩
  have hb : b + 3 < 32 := hN
  have hb0 : b % 4 = 0 := by have : (b + 3) % 4 = 3 := h3; omega
  obtain ⟨-, -, -, -, d4, d5⟩ := idx_facts0 ⟨b + 3, hn⟩
  funext j
  obtain ⟨p, q, rfl⟩ : ∃ (p : Fin 1024) (q : Fin 1536), j = ix2 p q := ⟨j 0, j 1, eq_ix2 j⟩
  have hp := p.isLt
  have hq := q.isLt
  refine (run4_apply V c b hb hb0 p q ⟨(b + 3) / 8 * 1024 + p.val, by omega⟩ ⟨(b + 3) / 4 % 2 * 1536 + q.val, by omega⟩ rfl rfl).trans ?_
  symm
  refine G0_apply V c (((cfg0.win 2).blk ⟨b + 3, hn⟩).view.emb (ix2 p q)) _ _ ?_ ?_
  · show win0_2.index ⟨b + 3, hn⟩ (0 : Fin 2) * 1024 + 1 * p.val = (b + 3) / 8 * 1024 + p.val
    rw [d4]; show (b + 3) / 8 * 1024 + 1 * p.val = _; omega
  · show win0_2.index ⟨b + 3, hn⟩ (1 : Fin 2) * 1536 + 1 * q.val = (b + 3) / 4 % 2 * 1536 + q.val
    rw [d5]; show (b + 3) / 4 % 2 * 1536 + 1 * q.val = _; omega

/-! ## The output's blocks tile the array -/

/-- An index of the array is in point t's block iff each coordinate is in the block's range on its axis. -/
theorem mem_blk0 (t : Fin cfg0.N) (i : S4096x3072.Idx) :
    i ∈ ((cfg0.win 2).blk t).view.set ↔ ∀ a : Fin 2, win0_2.index t a * S1024x1536.size a ≤ (i a).val ∧ (i a).val < win0_2.index t a * S1024x1536.size a + S1024x1536.size a := by
  show i ∈ ((View.whole main_v26).slice (win0_2.rect t)).set ↔ _
  rw [View.set_slice_whole, Rect.mem_set_unit]
  exact Iff.rfl

/-- Every entry (r, f) is in the block of the point (r / 1024, f / 1536, 3), which writes back. -/
theorem cover0 (i : S4096x3072.Idx) : ∃ t : Fin cfg0.N, (cfg0.win 2).flush t = true ∧ i ∈ ((cfg0.win 2).blk t).view.set := by
  have h0 : (i 0).val < 4096 := (i 0).isLt
  have h1 : (i 1).val < 3072 := (i 1).isLt
  have hn : ((i 0).val / 1024 * 2 + (i 1).val / 1536) * 4 + 3 < 32 := by omega
  refine ⟨⟨((i 0).val / 1024 * 2 + (i 1).val / 1536) * 4 + 3, lt0 hn⟩, (flush0_2 _).mpr (by show (((i 0).val / 1024 * 2 + (i 1).val / 1536) * 4 + 3) % 4 = 3; omega), ?_⟩
  rw [mem_blk0]
  obtain ⟨-, -, -, -, e4, e5⟩ := idx_facts0 ⟨((i 0).val / 1024 * 2 + (i 1).val / 1536) * 4 + 3, lt0 hn⟩
  intro a
  match a with
  | ⟨0, _⟩ =>
    show win0_2.index _ (0 : Fin 2) * 1024 ≤ (i 0).val ∧ (i 0).val < win0_2.index _ (0 : Fin 2) * 1024 + 1024
    rw [e4]
    show (((i 0).val / 1024 * 2 + (i 1).val / 1536) * 4 + 3) / 8 * 1024 ≤ (i 0).val ∧ (i 0).val < (((i 0).val / 1024 * 2 + (i 1).val / 1536) * 4 + 3) / 8 * 1024 + 1024
    omega
  | ⟨1, _⟩ =>
    show win0_2.index _ (1 : Fin 2) * 1536 ≤ (i 1).val ∧ (i 1).val < win0_2.index _ (1 : Fin 2) * 1536 + 1536
    rw [e5]
    show (((i 0).val / 1024 * 2 + (i 1).val / 1536) * 4 + 3) / 4 % 2 * 1536 ≤ (i 1).val ∧ (i 1).val < (((i 0).val / 1024 * 2 + (i 1).val / 1536) * 4 + 3) / 4 % 2 * 1536 + 1536
    omega

/-! ## The array after the region -/

/-- THE OUTPUT ARRAY after the region is the matrix product of the two input arrays as the region finds them. -/
theorem final0 (c : Dev nD) : (dat0 V c).arrAt 2 cfg0.N = G0 V c :=
  (dat0 V c).arrAt_eq_of_cover 2 (G0 V c) (fun t hf => flushed0_eq V c t hf) cover0

/-- Entry (r, f) of the output array after the region: Σ_k A(r, k) · X(k, f). -/
theorem arrAt0_apply (c : Dev nD) (r : Fin 4096) (f : Fin 3072) :
    (dat0 V c).arrAt 2 cfg0.N (ix2 r f)
      = ∑ k : Fin 4096, mA0 V c (ix2 r k) * mX0 V c (ix2 k f) := by
  rw [final0]
  rfl

end

end Cert.KernelIdeal.Hand

end
-- ==== Proof.MatmulBlock1.lean ====
/-
  One accumulation step of the blocked product read at an entry. The step adds to the accumulator block s the product
  of a 1024 × 1024 block a and a 1024 × 1536 block x: entry (p, q) becomes s(p, q) + Σ_{k'} a(p, k') · x(k', q), the
  sum over the 1024 positions of the contraction inside the block. The block the first step starts from is zero.
-/
import proofs.«106054_j120259084553_1_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

/-- The dimension record of the block product: contract axis 1 of the left block with axis 0 of the right one. -/
abbrev D1 : DotDims S1024x1024 S1024x1536 S1024x1536 := dot_S1024x1024_S1024x1536_S1024x1536_1_0_0_1_n_n

theorem D1_lhs_0 (i : S1024x1536.Idx) (q : D1.contr.Idx) : (D1.lhsIdx i q 0).val = (i 0).val := by
  unfold DotDims.lhsIdx
  rw [dif_neg (show ¬(0 : Fin S1024x1024.rank) ∈ D1.lhsBatch by decide), dif_pos (show (0 : Fin S1024x1024.rank) ∈ D1.lhsNonContracting by decide)]
  rfl
theorem D1_lhs_1 (i : S1024x1536.Idx) (q : D1.contr.Idx) : (D1.lhsIdx i q 1).val = (q ⟨0, by decide⟩).val :=
  D1.lhsIdx_val_of_single rfl i q
theorem D1_rhs_0 (i : S1024x1536.Idx) (q : D1.contr.Idx) : (D1.rhsIdx i q 0).val = (q ⟨0, by decide⟩).val :=
  D1.rhsIdx_val_of_single rfl i q
theorem D1_rhs_1 (i : S1024x1536.Idx) (q : D1.contr.Idx) : (D1.rhsIdx i q 1).val = (i 1).val := by
  unfold DotDims.rhsIdx
  rw [dif_neg (show ¬(1 : Fin S1024x1536.rank) ∈ D1.rhsBatch by decide), dif_pos (show (1 : Fin S1024x1536.rank) ∈ D1.rhsNonContracting by decide)]
  rfl

/-- The block product into zero, at entry (p, q): Σ_{k'} a(p, k') · x(k', q). -/
theorem blockProd1_apply (a : FVec Ideal S1024x1024 .bf16) (x : FVec Ideal S1024x1536 .bf16) (p : Fin 1024) (q : Fin 1536) :
    FloatOps.matmul D1 none a x (constant (F := Ideal) S1024x1536 .f32 0x00000000#32) (ix2 p q)
      = ∑ k' : Fin 1024, a (ix2 p k') * x (ix2 k' q) := by
  rw [Ideal.matmul_constant_zero_apply, ← Equiv.sum_comp (contrEquiv1 D1 1024 rfl rfl).symm]
  refine Finset.sum_congr rfl fun k _ => ?_
  have hk := contrEquiv1_symm_val D1 1024 rfl rfl k
  have el : D1.lhsIdx (ix2 p q) ((contrEquiv1 D1 1024 rfl rfl).symm k) = ix2 p k := funext fun b => Fin.ext (by
    match b with
    | ⟨0, _⟩ => exact D1_lhs_0 _ _
    | ⟨1, _⟩ => exact (D1_lhs_1 _ _).trans hk)
  have er : D1.rhsIdx (ix2 p q) ((contrEquiv1 D1 1024 rfl rfl).symm k) = ix2 k q := funext fun b => Fin.ext (by
    match b with
    | ⟨0, _⟩ => exact (D1_rhs_0 _ _).trans hk
    | ⟨1, _⟩ => exact D1_rhs_1 _ _)
  rw [el, er]

/-- ONE STEP at an entry: the accumulator's entry plus the block product's. -/
theorem k1_pay2_apply (s : Vec Ideal S1024x1536 .f32) (a : Vec Ideal S1024x1024 .bf16) (x : Vec Ideal S1024x1536 .bf16)
    (p : Fin 1024) (q : Fin 1536) :
    k1_pay2 (F := Ideal) s a x (ix2 p q) = s (ix2 p q) + ∑ k' : Fin 1024, a (ix2 p k') * x (ix2 k' q) := by
  unfold k1_pay2
  simp only [shapeCast_self]
  rw [addf_apply]
  simp only [matmul]
  rw [blockProd1_apply]

/-- The block the first step starts from is zero at every entry. -/
theorem k1_pay1_apply (j : S1024x1536.Idx) : k1_pay1 (F := Ideal) j = 0 := by
  unfold k1_pay1
  simp only [shapeCast_self]
  show Ideal.ofBits .f32 0x00000000#32 = 0
  exact Ideal.ofBits_zero_f32

end Cert.KernelIdeal.Hand

end
-- ==== Proof.MatmulValue1.lean ====
/-
  What the second diffusion product (the first support's second step) leaves in its output array: the matrix product of the two input arrays, entry by
  entry. The grid point t = (i, j, k) accumulates block k of the contraction into the output block (i, j); the point
  with k = 3 writes the block back, holding the four partial sums added in order from zero; four blocks of 1024 make
  the 4096-term contraction; the output's blocks tile the array.
-/
import proofs.«106054_j120259084553_1_alg».proof.Proof.Matmul1
import proofs.«106054_j120259084553_1_alg».proof.Proof.MatmulBlock1
import proofs.«106054_j120259084553_1_alg».proof.Proof.Acc4
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## Four steps from zero at an entry -/

/-- Four accumulation steps from the zero block, at entry j: zero plus the four block products in order. -/
theorem chain4_1_apply (a0 a1 a2 a3 : Vec Ideal S1024x1024 .bf16) (x0 x1 x2 x3 : Vec Ideal S1024x1536 .bf16)
    (p : Fin 1024) (q : Fin 1536) :
    k1_pay2 (F := Ideal) (k1_pay2 (F := Ideal) (k1_pay2 (F := Ideal) (k1_pay2 (F := Ideal) (k1_pay1 (F := Ideal)) a0 x0) a1 x1) a2 x2) a3 x3 (ix2 p q)
      = (((0 + ∑ k' : Fin 1024, a0 (ix2 p k') * x0 (ix2 k' q)) + ∑ k' : Fin 1024, a1 (ix2 p k') * x1 (ix2 k' q))
          + ∑ k' : Fin 1024, a2 (ix2 p k') * x2 (ix2 k' q)) + ∑ k' : Fin 1024, a3 (ix2 p k') * x3 (ix2 k' q) := by
  rw [k1_pay2_apply, k1_pay2_apply, k1_pay2_apply, k1_pay2_apply, k1_pay1_apply]

/-! ## The printed index maps, decided once over the grid -/

/-- Point t = (i, j, k) = (t / 8, t / 4 mod 2, t mod 4): the left block is (i, k), the right one (k, j), the output's (i, j). -/
theorem idx_facts1 : ∀ t : Fin cfg1.N, win1_0.index t (0 : Fin 2) = t.val / 8 ∧ win1_0.index t (1 : Fin 2) = t.val % 4
    ∧ win1_1.index t (0 : Fin 2) = t.val % 4 ∧ win1_1.index t (1 : Fin 2) = t.val / 4 % 2
    ∧ win1_2.index t (0 : Fin 2) = t.val / 8 ∧ win1_2.index t (1 : Fin 2) = t.val / 4 % 2 :=
  (by decide +kernel : ∀ t : Fin grid1.N, _)

section
variable (V : (c : Dev nD) → (b : Ref sig .tc) → Buf (Elt Ideal) ((c : Thread nD τ).loc b))

/-- The left array as the region finds it. -/
abbrev mA1 (c : Dev nD) : S4096x4096.Idx → EReal := V c (Pipeline.arrRef spec1 0)
/-- The right array as the region finds it. -/
abbrev mX1 (c : Dev nD) : S4096x3072.Idx → EReal := V c (Pipeline.arrRef spec1 1)

/-- The matrix product at entry (r, f). -/
def prod1 (c : Dev nD) (r : Fin 4096) (f : Fin 3072) : EReal := ∑ k : Fin 4096, mA1 V c (ix2 r k) * mX1 V c (ix2 k f)

/-- The matrix product as contents of the output array. -/
def G1 (c : Dev nD) : S4096x3072.Idx → EReal := fun i => prod1 V c ⟨(i 0).val, (i 0).isLt⟩ ⟨(i 1).val, (i 1).isLt⟩

/-! ## The input blocks read where they sit in their arrays -/

/-- Entry (p, k') of the left block at point t is entry (i·1024 + p, k·1024 + k') of the left array. -/
theorem iblk1_0_apply (c : Dev nD) (t : Fin cfg1.N) (p k' : Fin 1024) (r kk : Fin 4096)
    (hr : r.val = win1_0.index t (0 : Fin 2) * 1024 + p.val) (hk : kk.val = win1_0.index t (1 : Fin 2) * 1024 + k'.val) :
    (iblk1 V c 0 t : Vec Ideal S1024x1024 .bf16) (ix2 p k') = mA1 V c (ix2 r kk) := by
  show mA1 V c (((cfg1.win 0).blk t).view.emb (ix2 p k')) = mA1 V c (ix2 r kk)
  congr 1
  funext a
  apply Fin.ext
  match a with
  | ⟨0, _⟩ => show win1_0.index t (0 : Fin 2) * 1024 + 1 * p.val = r.val; omega
  | ⟨1, _⟩ => show win1_0.index t (1 : Fin 2) * 1024 + 1 * k'.val = kk.val; omega

/-- Entry (k', q) of the right block at point t is entry (k·1024 + k', j·1536 + q) of the right array. -/
theorem iblk1_1_apply (c : Dev nD) (t : Fin cfg1.N) (k' : Fin 1024) (q : Fin 1536) (kk : Fin 4096) (f : Fin 3072)
    (hk : kk.val = win1_1.index t (0 : Fin 2) * 1024 + k'.val) (hf : f.val = win1_1.index t (1 : Fin 2) * 1536 + q.val) :
    (iblk1 V c 1 t : Vec Ideal S1024x1536 .bf16) (ix2 k' q) = mX1 V c (ix2 kk f) := by
  show mX1 V c (((cfg1.win 1).blk t).view.emb (ix2 k' q)) = mX1 V c (ix2 kk f)
  congr 1
  funext a
  apply Fin.ext
  match a with
  | ⟨0, _⟩ => show win1_1.index t (0 : Fin 2) * 1024 + 1 * k'.val = kk.val; omega
  | ⟨1, _⟩ => show win1_1.index t (1 : Fin 2) * 1536 + 1 * q.val = f.val; omega

/-! ## The accumulator at a point that writes back -/

/-- A point below 32 is a point of the grid. -/
theorem lt1 {n : ℕ} (h : n < 32) : n < cfg1.N := lt_of_lt_of_eq h N_1.symm

/-- Away from k = 0 the accumulator is one step further than after the point before. -/
theorem acc1_succ (c : Dev nD) (n : ℕ) (hn : n + 1 < cfg1.N) (h0 : ¬(n + 1) % 4 = 0) :
    acc1 V c (n + 1) hn = step1 (acc1 V c n (Nat.lt_of_succ_lt hn)) (iblk1 V c 0 ⟨n + 1, hn⟩) (iblk1 V c 1 ⟨n + 1, hn⟩) :=
  if_neg h0

/-- At the point b + 3 of a run b, b + 1, b + 2, b + 3 (b a multiple of 4) the accumulator holds four steps from zero. -/
theorem acc1_run4 (c : Dev nD) (b : ℕ) (hb : b + 3 < 32) (h0 : b % 4 = 0) :
    acc1 V c (b + 3) (lt1 hb)
      = step1 (step1 (step1 (first1 (iblk1 V c 0 ⟨b, lt1 (by omega)⟩) (iblk1 V c 1 ⟨b, lt1 (by omega)⟩))
            (iblk1 V c 0 ⟨b + 1, lt1 (by omega)⟩) (iblk1 V c 1 ⟨b + 1, lt1 (by omega)⟩))
          (iblk1 V c 0 ⟨b + 2, lt1 (by omega)⟩) (iblk1 V c 1 ⟨b + 2, lt1 (by omega)⟩))
        (iblk1 V c 0 ⟨b + 3, lt1 hb⟩) (iblk1 V c 1 ⟨b + 3, lt1 hb⟩) := by
  have e0 : acc1 V c b (lt1 (by omega)) = first1 (iblk1 V c 0 ⟨b, lt1 (by omega)⟩) (iblk1 V c 1 ⟨b, lt1 (by omega)⟩) :=
    acc1_first V c ⟨b, lt1 (by omega)⟩ h0
  rw [acc1_succ V c (b + 2) (lt1 hb) (by omega), acc1_succ V c (b + 1) (lt1 (by omega)) (by omega),
    acc1_succ V c b (lt1 (by omega)) (by omega), e0]

/-! ## What a point writes back -/

/-- The matrix product as contents of the output array, at an index whose coordinates are r and f. -/
theorem G1_apply (c : Dev nD) (i : S4096x3072.Idx) (r : Fin 4096) (f : Fin 3072) (hr : (i 0).val = r.val) (hf : (i 1).val = f.val) :
    G1 V c i = prod1 V c r f := by
  unfold G1
  have e1 : (⟨(i 0).val, (i 0).isLt⟩ : Fin 4096) = r := Fin.ext hr
  have e2 : (⟨(i 1).val, (i 1).isLt⟩ : Fin 3072) = f := Fin.ext hf
  rw [e1, e2]

/-- One block's partial sum is that block's 1024 terms of the contraction, when the left block's row p is row r of
    the left array at the columns of block m and the right block's column q is column f of the right array at the rows
    of block m. -/
theorem part_eq1 (a : Vec Ideal S1024x1024 .bf16) (x : Vec Ideal S1024x1536 .bf16) (A : S4096x4096.Idx → EReal)
    (X : S4096x3072.Idx → EReal) (m : Fin 4) (p : Fin 1024) (q : Fin 1536) (r : Fin 4096) (f : Fin 3072)
    (ha : ∀ k' : Fin 1024, a (ix2 p k') = A (ix2 r (Cert.DenseSparse.blk m k')))
    (hx : ∀ k' : Fin 1024, x (ix2 k' q) = X (ix2 (Cert.DenseSparse.blk m k') f)) :
    (∑ k' : Fin 1024, a (ix2 p k') * x (ix2 k' q))
      = ∑ k' : Fin 1024, A (ix2 r (Cert.DenseSparse.blk m k')) * X (ix2 (Cert.DenseSparse.blk m k') f) :=
  Finset.sum_congr rfl fun k' _ => by rw [ha k', hx k']

/-- The blocks at a point whose left block is (i, m) and right block (m, j), read at row p and column q. -/
theorem part1_eq (c : Dev nD) (t : Fin cfg1.N) (m : Fin 4) (p : Fin 1024) (q : Fin 1536) (r : Fin 4096) (f : Fin 3072)
    (h00 : r.val = win1_0.index t (0 : Fin 2) * 1024 + p.val) (h01 : win1_0.index t (1 : Fin 2) = m.val)
    (h10 : win1_1.index t (0 : Fin 2) = m.val) (h11 : f.val = win1_1.index t (1 : Fin 2) * 1536 + q.val) :
    (∀ k' : Fin 1024, (iblk1 V c 0 t : Vec Ideal S1024x1024 .bf16) (ix2 p k') = mA1 V c (ix2 r (Cert.DenseSparse.blk m k')))
      ∧ (∀ k' : Fin 1024, (iblk1 V c 1 t : Vec Ideal S1024x1536 .bf16) (ix2 k' q) = mX1 V c (ix2 (Cert.DenseSparse.blk m k') f)) := by
  refine ⟨fun k' => ?_, fun k' => ?_⟩
  · have e : (Cert.DenseSparse.blk m k').val = m.val * 1024 + k'.val := rfl
    exact iblk1_0_apply V c t p k' r (Cert.DenseSparse.blk m k') h00 (by rw [h01, e])
  · have e : (Cert.DenseSparse.blk m k').val = m.val * 1024 + k'.val := rfl
    exact iblk1_1_apply V c t k' q (Cert.DenseSparse.blk m k') f (by rw [h10, e]) h11

set_option maxHeartbeats 1000000 in
/-- The accumulator after the last point of a run, at entry (p, q) of its block: the matrix product at the entry of
    the array the block's entry sits at. -/
theorem run4_1_apply (c : Dev nD) (b : ℕ) (hb : b + 3 < 32) (h0 : b % 4 = 0) (p : Fin 1024) (q : Fin 1536)
    (r : Fin 4096) (f : Fin 3072) (hr : r.val = (b + 3) / 8 * 1024 + p.val) (hf : f.val = (b + 3) / 4 % 2 * 1536 + q.val) :
    acc1 V c (b + 3) (lt1 hb) (ix2 p q) = prod1 V c r f := by
  rw [acc1_run4 V c b hb h0]
  refine (chain4_1_apply _ _ _ _ _ _ _ _ p q).trans ?_
  obtain ⟨a0, a1, a2, a3, -, -⟩ := idx_facts1 ⟨b, lt1 (by omega)⟩
  obtain ⟨b0, b1, b2, b3, -, -⟩ := idx_facts1 ⟨b + 1, lt1 (by omega)⟩
  obtain ⟨c0, c1, c2, c3, -, -⟩ := idx_facts1 ⟨b + 2, lt1 (by omega)⟩
  obtain ⟨d0, d1, d2, d3, -, -⟩ := idx_facts1 ⟨b + 3, lt1 hb⟩
  have hp := p.isLt
  have hq := q.isLt
  unfold prod1
  refine Cert.DenseSparse.acc4_4096' (fun k => mA1 V c (ix2 r k) * mX1 V c (ix2 k f)) _ _ _ _ ?_ ?_ ?_ ?_
  · refine (fun h => part_eq1 _ _ (mA1 V c) (mX1 V c) 0 p q r f h.1 h.2) (part1_eq V c _ 0 p q r f (by rw [a0, hr]; show (b + 3) / 8 * 1024 + p.val = b / 8 * 1024 + p.val; omega)
      (by rw [a1]; show b % 4 = 0; omega) (by rw [a2]; show b % 4 = 0; omega)
      (by rw [a3, hf]; show (b + 3) / 4 % 2 * 1536 + q.val = b / 4 % 2 * 1536 + q.val; omega))
  · refine (fun h => part_eq1 _ _ (mA1 V c) (mX1 V c) 1 p q r f h.1 h.2) (part1_eq V c _ 1 p q r f (by rw [b0, hr]; show (b + 3) / 8 * 1024 + p.val = (b + 1) / 8 * 1024 + p.val; omega)
      (by rw [b1]; show (b + 1) % 4 = 1; omega) (by rw [b2]; show (b + 1) % 4 = 1; omega)
      (by rw [b3, hf]; show (b + 3) / 4 % 2 * 1536 + q.val = (b + 1) / 4 % 2 * 1536 + q.val; omega))
  · refine (fun h => part_eq1 _ _ (mA1 V c) (mX1 V c) 2 p q r f h.1 h.2) (part1_eq V c _ 2 p q r f (by rw [c0, hr]; show (b + 3) / 8 * 1024 + p.val = (b + 2) / 8 * 1024 + p.val; omega)
      (by rw [c1]; show (b + 2) % 4 = 2; omega) (by rw [c2]; show (b + 2) % 4 = 2; omega)
      (by rw [c3, hf]; show (b + 3) / 4 % 2 * 1536 + q.val = (b + 2) / 4 % 2 * 1536 + q.val; omega))
  · refine (fun h => part_eq1 _ _ (mA1 V c) (mX1 V c) 3 p q r f h.1 h.2) (part1_eq V c _ 3 p q r f (by rw [d0, hr])
      (by rw [d1]; show (b + 3) % 4 = 3; omega) (by rw [d2]; show (b + 3) % 4 = 3; omega)
      (by rw [d3, hf]))

set_option maxHeartbeats 1000000 in
/-- WHAT A POINT WITH k = 3 WRITES BACK is its block of the matrix product. -/
theorem flushed1_eq (c : Dev nD) (t : Fin cfg1.N) (hf : (cfg1.win 2).flush t = true) :
    (dat1 V c).flushed 2 t = ((cfg1.win 2).blk t).view.read (Elt Ideal) (G1 V c) := by
  have h3 : t.val % 4 = 3 := (flush1_2 t).mp hf
  have hN : t.val < 32 := lt_of_lt_of_eq t.isLt N_1
  show (cfg1.win 2).cut (grid1.coords t) ((dat1 V c).after 2 t) = _
  rw [after1_2]
  obtain ⟨n, hn⟩ := t
  obtain ⟨b, rfl⟩ : ∃ b, n = b + 3 := ⟨n - 3, by have : n % 4 = 3 := h3; omega⟩
  have hb : b + 3 < 32 := hN
  have hb0 : b % 4 = 0 := by have : (b + 3) % 4 = 3 := h3; omega
  obtain ⟨-, -, -, -, d4, d5⟩ := idx_facts1 ⟨b + 3, hn⟩
  funext j
  obtain ⟨p, q, rfl⟩ : ∃ (p : Fin 1024) (q : Fin 1536), j = ix2 p q := ⟨j 0, j 1, eq_ix2 j⟩
  have hp := p.isLt
  have hq := q.isLt
  refine (run4_1_apply V c b hb hb0 p q ⟨(b + 3) / 8 * 1024 + p.val, by omega⟩ ⟨(b + 3) / 4 % 2 * 1536 + q.val, by omega⟩ rfl rfl).trans ?_
  symm
  refine G1_apply V c (((cfg1.win 2).blk ⟨b + 3, hn⟩).view.emb (ix2 p q)) _ _ ?_ ?_
  · show win1_2.index ⟨b + 3, hn⟩ (0 : Fin 2) * 1024 + 1 * p.val = (b + 3) / 8 * 1024 + p.val
    rw [d4]; show (b + 3) / 8 * 1024 + 1 * p.val = _; omega
  · show win1_2.index ⟨b + 3, hn⟩ (1 : Fin 2) * 1536 + 1 * q.val = (b + 3) / 4 % 2 * 1536 + q.val
    rw [d5]; show (b + 3) / 4 % 2 * 1536 + 1 * q.val = _; omega

/-! ## The output's blocks tile the array -/

/-- An index of the array is in point t's block iff each coordinate is in the block's range on its axis. -/
theorem mem_blk1 (t : Fin cfg1.N) (i : S4096x3072.Idx) :
    i ∈ ((cfg1.win 2).blk t).view.set ↔ ∀ a : Fin 2, win1_2.index t a * S1024x1536.size a ≤ (i a).val ∧ (i a).val < win1_2.index t a * S1024x1536.size a + S1024x1536.size a := by
  show i ∈ ((View.whole main_v28).slice (win1_2.rect t)).set ↔ _
  rw [View.set_slice_whole, Rect.mem_set_unit]
  exact Iff.rfl

/-- Every entry (r, f) is in the block of the point (r / 1024, f / 1536, 3), which writes back. -/
theorem cover1 (i : S4096x3072.Idx) : ∃ t : Fin cfg1.N, (cfg1.win 2).flush t = true ∧ i ∈ ((cfg1.win 2).blk t).view.set := by
  have h0 : (i 0).val < 4096 := (i 0).isLt
  have h1 : (i 1).val < 3072 := (i 1).isLt
  have hn : ((i 0).val / 1024 * 2 + (i 1).val / 1536) * 4 + 3 < 32 := by omega
  refine ⟨⟨((i 0).val / 1024 * 2 + (i 1).val / 1536) * 4 + 3, lt1 hn⟩, (flush1_2 _).mpr (by show (((i 0).val / 1024 * 2 + (i 1).val / 1536) * 4 + 3) % 4 = 3; omega), ?_⟩
  rw [mem_blk1]
  obtain ⟨-, -, -, -, e4, e5⟩ := idx_facts1 ⟨((i 0).val / 1024 * 2 + (i 1).val / 1536) * 4 + 3, lt1 hn⟩
  intro a
  match a with
  | ⟨0, _⟩ =>
    show win1_2.index _ (0 : Fin 2) * 1024 ≤ (i 0).val ∧ (i 0).val < win1_2.index _ (0 : Fin 2) * 1024 + 1024
    rw [e4]
    show (((i 0).val / 1024 * 2 + (i 1).val / 1536) * 4 + 3) / 8 * 1024 ≤ (i 0).val ∧ (i 0).val < (((i 0).val / 1024 * 2 + (i 1).val / 1536) * 4 + 3) / 8 * 1024 + 1024
    omega
  | ⟨1, _⟩ =>
    show win1_2.index _ (1 : Fin 2) * 1536 ≤ (i 1).val ∧ (i 1).val < win1_2.index _ (1 : Fin 2) * 1536 + 1536
    rw [e5]
    show (((i 0).val / 1024 * 2 + (i 1).val / 1536) * 4 + 3) / 4 % 2 * 1536 ≤ (i 1).val ∧ (i 1).val < (((i 0).val / 1024 * 2 + (i 1).val / 1536) * 4 + 3) / 4 % 2 * 1536 + 1536
    omega

/-! ## The array after the region -/

/-- THE OUTPUT ARRAY after the region is the matrix product of the two input arrays as the region finds them. -/
theorem final1 (c : Dev nD) : (dat1 V c).arrAt 2 cfg1.N = G1 V c :=
  (dat1 V c).arrAt_eq_of_cover 2 (G1 V c) (fun t hf => flushed1_eq V c t hf) cover1

/-- Entry (r, f) of the output array after the region: Σ_k A(r, k) · X(k, f). -/
theorem arrAt1_apply (c : Dev nD) (r : Fin 4096) (f : Fin 3072) :
    (dat1 V c).arrAt 2 cfg1.N (ix2 r f)
      = ∑ k : Fin 4096, mA1 V c (ix2 r k) * mX1 V c (ix2 k f) := by
  rw [final1]
  rfl

end

end Cert.KernelIdeal.Hand

end
-- ==== Proof.MatmulBlock2.lean ====
/-
  One accumulation step of the blocked product read at an entry. The step adds to the accumulator block s the product
  of a 1024 × 1024 block a and a 1024 × 1536 block x: entry (p, q) becomes s(p, q) + Σ_{k'} a(p, k') · x(k', q), the
  sum over the 1024 positions of the contraction inside the block. The block the first step starts from is zero.
-/
import proofs.«106054_j120259084553_1_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

/-- The dimension record of the block product: contract axis 1 of the left block with axis 0 of the right one. -/
abbrev D2 : DotDims S1024x1024 S1024x1536 S1024x1536 := dot_S1024x1024_S1024x1536_S1024x1536_1_0_0_1_n_n

theorem D2_lhs_0 (i : S1024x1536.Idx) (q : D2.contr.Idx) : (D2.lhsIdx i q 0).val = (i 0).val := by
  unfold DotDims.lhsIdx
  rw [dif_neg (show ¬(0 : Fin S1024x1024.rank) ∈ D2.lhsBatch by decide), dif_pos (show (0 : Fin S1024x1024.rank) ∈ D2.lhsNonContracting by decide)]
  rfl
theorem D2_lhs_1 (i : S1024x1536.Idx) (q : D2.contr.Idx) : (D2.lhsIdx i q 1).val = (q ⟨0, by decide⟩).val :=
  D2.lhsIdx_val_of_single rfl i q
theorem D2_rhs_0 (i : S1024x1536.Idx) (q : D2.contr.Idx) : (D2.rhsIdx i q 0).val = (q ⟨0, by decide⟩).val :=
  D2.rhsIdx_val_of_single rfl i q
theorem D2_rhs_1 (i : S1024x1536.Idx) (q : D2.contr.Idx) : (D2.rhsIdx i q 1).val = (i 1).val := by
  unfold DotDims.rhsIdx
  rw [dif_neg (show ¬(1 : Fin S1024x1536.rank) ∈ D2.rhsBatch by decide), dif_pos (show (1 : Fin S1024x1536.rank) ∈ D2.rhsNonContracting by decide)]
  rfl

/-- The block product into zero, at entry (p, q): Σ_{k'} a(p, k') · x(k', q). -/
theorem blockProd2_apply (a : FVec Ideal S1024x1024 .bf16) (x : FVec Ideal S1024x1536 .bf16) (p : Fin 1024) (q : Fin 1536) :
    FloatOps.matmul D2 none a x (constant (F := Ideal) S1024x1536 .f32 0x00000000#32) (ix2 p q)
      = ∑ k' : Fin 1024, a (ix2 p k') * x (ix2 k' q) := by
  rw [Ideal.matmul_constant_zero_apply, ← Equiv.sum_comp (contrEquiv1 D2 1024 rfl rfl).symm]
  refine Finset.sum_congr rfl fun k _ => ?_
  have hk := contrEquiv1_symm_val D2 1024 rfl rfl k
  have el : D2.lhsIdx (ix2 p q) ((contrEquiv1 D2 1024 rfl rfl).symm k) = ix2 p k := funext fun b => Fin.ext (by
    match b with
    | ⟨0, _⟩ => exact D2_lhs_0 _ _
    | ⟨1, _⟩ => exact (D2_lhs_1 _ _).trans hk)
  have er : D2.rhsIdx (ix2 p q) ((contrEquiv1 D2 1024 rfl rfl).symm k) = ix2 k q := funext fun b => Fin.ext (by
    match b with
    | ⟨0, _⟩ => exact (D2_rhs_0 _ _).trans hk
    | ⟨1, _⟩ => exact D2_rhs_1 _ _)
  rw [el, er]

/-- ONE STEP at an entry: the accumulator's entry plus the block product's. -/
theorem k2_pay2_apply (s : Vec Ideal S1024x1536 .f32) (a : Vec Ideal S1024x1024 .bf16) (x : Vec Ideal S1024x1536 .bf16)
    (p : Fin 1024) (q : Fin 1536) :
    k2_pay2 (F := Ideal) s a x (ix2 p q) = s (ix2 p q) + ∑ k' : Fin 1024, a (ix2 p k') * x (ix2 k' q) := by
  unfold k2_pay2
  simp only [shapeCast_self]
  rw [addf_apply]
  simp only [matmul]
  rw [blockProd2_apply]

/-- The block the first step starts from is zero at every entry. -/
theorem k2_pay1_apply (j : S1024x1536.Idx) : k2_pay1 (F := Ideal) j = 0 := by
  unfold k2_pay1
  simp only [shapeCast_self]
  show Ideal.ofBits .f32 0x00000000#32 = 0
  exact Ideal.ofBits_zero_f32

end Cert.KernelIdeal.Hand

end
-- ==== Proof.MatmulValue2.lean ====
/-
  What the third diffusion product (the second support's first step) leaves in its output array: the matrix product of the two input arrays, entry by
  entry. The grid point t = (i, j, k) accumulates block k of the contraction into the output block (i, j); the point
  with k = 3 writes the block back, holding the four partial sums added in order from zero; four blocks of 1024 make
  the 4096-term contraction; the output's blocks tile the array.
-/
import proofs.«106054_j120259084553_1_alg».proof.Proof.Matmul2
import proofs.«106054_j120259084553_1_alg».proof.Proof.MatmulBlock2
import proofs.«106054_j120259084553_1_alg».proof.Proof.Acc4
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## Four steps from zero at an entry -/

/-- Four accumulation steps from the zero block, at entry j: zero plus the four block products in order. -/
theorem chain4_2_apply (a0 a1 a2 a3 : Vec Ideal S1024x1024 .bf16) (x0 x1 x2 x3 : Vec Ideal S1024x1536 .bf16)
    (p : Fin 1024) (q : Fin 1536) :
    k2_pay2 (F := Ideal) (k2_pay2 (F := Ideal) (k2_pay2 (F := Ideal) (k2_pay2 (F := Ideal) (k2_pay1 (F := Ideal)) a0 x0) a1 x1) a2 x2) a3 x3 (ix2 p q)
      = (((0 + ∑ k' : Fin 1024, a0 (ix2 p k') * x0 (ix2 k' q)) + ∑ k' : Fin 1024, a1 (ix2 p k') * x1 (ix2 k' q))
          + ∑ k' : Fin 1024, a2 (ix2 p k') * x2 (ix2 k' q)) + ∑ k' : Fin 1024, a3 (ix2 p k') * x3 (ix2 k' q) := by
  rw [k2_pay2_apply, k2_pay2_apply, k2_pay2_apply, k2_pay2_apply, k2_pay1_apply]

/-! ## The printed index maps, decided once over the grid -/

/-- Point t = (i, j, k) = (t / 8, t / 4 mod 2, t mod 4): the left block is (i, k), the right one (k, j), the output's (i, j). -/
theorem idx_facts2 : ∀ t : Fin cfg2.N, win2_0.index t (0 : Fin 2) = t.val / 8 ∧ win2_0.index t (1 : Fin 2) = t.val % 4
    ∧ win2_1.index t (0 : Fin 2) = t.val % 4 ∧ win2_1.index t (1 : Fin 2) = t.val / 4 % 2
    ∧ win2_2.index t (0 : Fin 2) = t.val / 8 ∧ win2_2.index t (1 : Fin 2) = t.val / 4 % 2 :=
  (by decide +kernel : ∀ t : Fin grid2.N, _)

section
variable (V : (c : Dev nD) → (b : Ref sig .tc) → Buf (Elt Ideal) ((c : Thread nD τ).loc b))

/-- The left array as the region finds it. -/
abbrev mA2 (c : Dev nD) : S4096x4096.Idx → EReal := V c (Pipeline.arrRef spec2 0)
/-- The right array as the region finds it. -/
abbrev mX2 (c : Dev nD) : S4096x3072.Idx → EReal := V c (Pipeline.arrRef spec2 1)

/-- The matrix product at entry (r, f). -/
def prod2 (c : Dev nD) (r : Fin 4096) (f : Fin 3072) : EReal := ∑ k : Fin 4096, mA2 V c (ix2 r k) * mX2 V c (ix2 k f)

/-- The matrix product as contents of the output array. -/
def G2 (c : Dev nD) : S4096x3072.Idx → EReal := fun i => prod2 V c ⟨(i 0).val, (i 0).isLt⟩ ⟨(i 1).val, (i 1).isLt⟩

/-! ## The input blocks read where they sit in their arrays -/

/-- Entry (p, k') of the left block at point t is entry (i·1024 + p, k·1024 + k') of the left array. -/
theorem iblk2_0_apply (c : Dev nD) (t : Fin cfg2.N) (p k' : Fin 1024) (r kk : Fin 4096)
    (hr : r.val = win2_0.index t (0 : Fin 2) * 1024 + p.val) (hk : kk.val = win2_0.index t (1 : Fin 2) * 1024 + k'.val) :
    (iblk2 V c 0 t : Vec Ideal S1024x1024 .bf16) (ix2 p k') = mA2 V c (ix2 r kk) := by
  show mA2 V c (((cfg2.win 0).blk t).view.emb (ix2 p k')) = mA2 V c (ix2 r kk)
  congr 1
  funext a
  apply Fin.ext
  match a with
  | ⟨0, _⟩ => show win2_0.index t (0 : Fin 2) * 1024 + 1 * p.val = r.val; omega
  | ⟨1, _⟩ => show win2_0.index t (1 : Fin 2) * 1024 + 1 * k'.val = kk.val; omega

/-- Entry (k', q) of the right block at point t is entry (k·1024 + k', j·1536 + q) of the right array. -/
theorem iblk2_1_apply (c : Dev nD) (t : Fin cfg2.N) (k' : Fin 1024) (q : Fin 1536) (kk : Fin 4096) (f : Fin 3072)
    (hk : kk.val = win2_1.index t (0 : Fin 2) * 1024 + k'.val) (hf : f.val = win2_1.index t (1 : Fin 2) * 1536 + q.val) :
    (iblk2 V c 1 t : Vec Ideal S1024x1536 .bf16) (ix2 k' q) = mX2 V c (ix2 kk f) := by
  show mX2 V c (((cfg2.win 1).blk t).view.emb (ix2 k' q)) = mX2 V c (ix2 kk f)
  congr 1
  funext a
  apply Fin.ext
  match a with
  | ⟨0, _⟩ => show win2_1.index t (0 : Fin 2) * 1024 + 1 * k'.val = kk.val; omega
  | ⟨1, _⟩ => show win2_1.index t (1 : Fin 2) * 1536 + 1 * q.val = f.val; omega

/-! ## The accumulator at a point that writes back -/

/-- A point below 32 is a point of the grid. -/
theorem lt2 {n : ℕ} (h : n < 32) : n < cfg2.N := lt_of_lt_of_eq h N_2.symm

/-- Away from k = 0 the accumulator is one step further than after the point before. -/
theorem acc2_succ (c : Dev nD) (n : ℕ) (hn : n + 1 < cfg2.N) (h0 : ¬(n + 1) % 4 = 0) :
    acc2 V c (n + 1) hn = step2 (acc2 V c n (Nat.lt_of_succ_lt hn)) (iblk2 V c 0 ⟨n + 1, hn⟩) (iblk2 V c 1 ⟨n + 1, hn⟩) :=
  if_neg h0

/-- At the point b + 3 of a run b, b + 1, b + 2, b + 3 (b a multiple of 4) the accumulator holds four steps from zero. -/
theorem acc2_run4 (c : Dev nD) (b : ℕ) (hb : b + 3 < 32) (h0 : b % 4 = 0) :
    acc2 V c (b + 3) (lt2 hb)
      = step2 (step2 (step2 (first2 (iblk2 V c 0 ⟨b, lt2 (by omega)⟩) (iblk2 V c 1 ⟨b, lt2 (by omega)⟩))
            (iblk2 V c 0 ⟨b + 1, lt2 (by omega)⟩) (iblk2 V c 1 ⟨b + 1, lt2 (by omega)⟩))
          (iblk2 V c 0 ⟨b + 2, lt2 (by omega)⟩) (iblk2 V c 1 ⟨b + 2, lt2 (by omega)⟩))
        (iblk2 V c 0 ⟨b + 3, lt2 hb⟩) (iblk2 V c 1 ⟨b + 3, lt2 hb⟩) := by
  have e0 : acc2 V c b (lt2 (by omega)) = first2 (iblk2 V c 0 ⟨b, lt2 (by omega)⟩) (iblk2 V c 1 ⟨b, lt2 (by omega)⟩) :=
    acc2_first V c ⟨b, lt2 (by omega)⟩ h0
  rw [acc2_succ V c (b + 2) (lt2 hb) (by omega), acc2_succ V c (b + 1) (lt2 (by omega)) (by omega),
    acc2_succ V c b (lt2 (by omega)) (by omega), e0]

/-! ## What a point writes back -/

/-- The matrix product as contents of the output array, at an index whose coordinates are r and f. -/
theorem G2_apply (c : Dev nD) (i : S4096x3072.Idx) (r : Fin 4096) (f : Fin 3072) (hr : (i 0).val = r.val) (hf : (i 1).val = f.val) :
    G2 V c i = prod2 V c r f := by
  unfold G2
  have e1 : (⟨(i 0).val, (i 0).isLt⟩ : Fin 4096) = r := Fin.ext hr
  have e2 : (⟨(i 1).val, (i 1).isLt⟩ : Fin 3072) = f := Fin.ext hf
  rw [e1, e2]

/-- One block's partial sum is that block's 1024 terms of the contraction, when the left block's row p is row r of
    the left array at the columns of block m and the right block's column q is column f of the right array at the rows
    of block m. -/
theorem part_eq2 (a : Vec Ideal S1024x1024 .bf16) (x : Vec Ideal S1024x1536 .bf16) (A : S4096x4096.Idx → EReal)
    (X : S4096x3072.Idx → EReal) (m : Fin 4) (p : Fin 1024) (q : Fin 1536) (r : Fin 4096) (f : Fin 3072)
    (ha : ∀ k' : Fin 1024, a (ix2 p k') = A (ix2 r (Cert.DenseSparse.blk m k')))
    (hx : ∀ k' : Fin 1024, x (ix2 k' q) = X (ix2 (Cert.DenseSparse.blk m k') f)) :
    (∑ k' : Fin 1024, a (ix2 p k') * x (ix2 k' q))
      = ∑ k' : Fin 1024, A (ix2 r (Cert.DenseSparse.blk m k')) * X (ix2 (Cert.DenseSparse.blk m k') f) :=
  Finset.sum_congr rfl fun k' _ => by rw [ha k', hx k']

/-- The blocks at a point whose left block is (i, m) and right block (m, j), read at row p and column q. -/
theorem part2_eq (c : Dev nD) (t : Fin cfg2.N) (m : Fin 4) (p : Fin 1024) (q : Fin 1536) (r : Fin 4096) (f : Fin 3072)
    (h00 : r.val = win2_0.index t (0 : Fin 2) * 1024 + p.val) (h01 : win2_0.index t (1 : Fin 2) = m.val)
    (h10 : win2_1.index t (0 : Fin 2) = m.val) (h11 : f.val = win2_1.index t (1 : Fin 2) * 1536 + q.val) :
    (∀ k' : Fin 1024, (iblk2 V c 0 t : Vec Ideal S1024x1024 .bf16) (ix2 p k') = mA2 V c (ix2 r (Cert.DenseSparse.blk m k')))
      ∧ (∀ k' : Fin 1024, (iblk2 V c 1 t : Vec Ideal S1024x1536 .bf16) (ix2 k' q) = mX2 V c (ix2 (Cert.DenseSparse.blk m k') f)) := by
  refine ⟨fun k' => ?_, fun k' => ?_⟩
  · have e : (Cert.DenseSparse.blk m k').val = m.val * 1024 + k'.val := rfl
    exact iblk2_0_apply V c t p k' r (Cert.DenseSparse.blk m k') h00 (by rw [h01, e])
  · have e : (Cert.DenseSparse.blk m k').val = m.val * 1024 + k'.val := rfl
    exact iblk2_1_apply V c t k' q (Cert.DenseSparse.blk m k') f (by rw [h10, e]) h11

set_option maxHeartbeats 1000000 in
/-- The accumulator after the last point of a run, at entry (p, q) of its block: the matrix product at the entry of
    the array the block's entry sits at. -/
theorem run4_2_apply (c : Dev nD) (b : ℕ) (hb : b + 3 < 32) (h0 : b % 4 = 0) (p : Fin 1024) (q : Fin 1536)
    (r : Fin 4096) (f : Fin 3072) (hr : r.val = (b + 3) / 8 * 1024 + p.val) (hf : f.val = (b + 3) / 4 % 2 * 1536 + q.val) :
    acc2 V c (b + 3) (lt2 hb) (ix2 p q) = prod2 V c r f := by
  rw [acc2_run4 V c b hb h0]
  refine (chain4_2_apply _ _ _ _ _ _ _ _ p q).trans ?_
  obtain ⟨a0, a1, a2, a3, -, -⟩ := idx_facts2 ⟨b, lt2 (by omega)⟩
  obtain ⟨b0, b1, b2, b3, -, -⟩ := idx_facts2 ⟨b + 1, lt2 (by omega)⟩
  obtain ⟨c0, c1, c2, c3, -, -⟩ := idx_facts2 ⟨b + 2, lt2 (by omega)⟩
  obtain ⟨d0, d1, d2, d3, -, -⟩ := idx_facts2 ⟨b + 3, lt2 hb⟩
  have hp := p.isLt
  have hq := q.isLt
  unfold prod2
  refine Cert.DenseSparse.acc4_4096' (fun k => mA2 V c (ix2 r k) * mX2 V c (ix2 k f)) _ _ _ _ ?_ ?_ ?_ ?_
  · refine (fun h => part_eq2 _ _ (mA2 V c) (mX2 V c) 0 p q r f h.1 h.2) (part2_eq V c _ 0 p q r f (by rw [a0, hr]; show (b + 3) / 8 * 1024 + p.val = b / 8 * 1024 + p.val; omega)
      (by rw [a1]; show b % 4 = 0; omega) (by rw [a2]; show b % 4 = 0; omega)
      (by rw [a3, hf]; show (b + 3) / 4 % 2 * 1536 + q.val = b / 4 % 2 * 1536 + q.val; omega))
  · refine (fun h => part_eq2 _ _ (mA2 V c) (mX2 V c) 1 p q r f h.1 h.2) (part2_eq V c _ 1 p q r f (by rw [b0, hr]; show (b + 3) / 8 * 1024 + p.val = (b + 1) / 8 * 1024 + p.val; omega)
      (by rw [b1]; show (b + 1) % 4 = 1; omega) (by rw [b2]; show (b + 1) % 4 = 1; omega)
      (by rw [b3, hf]; show (b + 3) / 4 % 2 * 1536 + q.val = (b + 1) / 4 % 2 * 1536 + q.val; omega))
  · refine (fun h => part_eq2 _ _ (mA2 V c) (mX2 V c) 2 p q r f h.1 h.2) (part2_eq V c _ 2 p q r f (by rw [c0, hr]; show (b + 3) / 8 * 1024 + p.val = (b + 2) / 8 * 1024 + p.val; omega)
      (by rw [c1]; show (b + 2) % 4 = 2; omega) (by rw [c2]; show (b + 2) % 4 = 2; omega)
      (by rw [c3, hf]; show (b + 3) / 4 % 2 * 1536 + q.val = (b + 2) / 4 % 2 * 1536 + q.val; omega))
  · refine (fun h => part_eq2 _ _ (mA2 V c) (mX2 V c) 3 p q r f h.1 h.2) (part2_eq V c _ 3 p q r f (by rw [d0, hr])
      (by rw [d1]; show (b + 3) % 4 = 3; omega) (by rw [d2]; show (b + 3) % 4 = 3; omega)
      (by rw [d3, hf]))

set_option maxHeartbeats 1000000 in
/-- WHAT A POINT WITH k = 3 WRITES BACK is its block of the matrix product. -/
theorem flushed2_eq (c : Dev nD) (t : Fin cfg2.N) (hf : (cfg2.win 2).flush t = true) :
    (dat2 V c).flushed 2 t = ((cfg2.win 2).blk t).view.read (Elt Ideal) (G2 V c) := by
  have h3 : t.val % 4 = 3 := (flush2_2 t).mp hf
  have hN : t.val < 32 := lt_of_lt_of_eq t.isLt N_2
  show (cfg2.win 2).cut (grid2.coords t) ((dat2 V c).after 2 t) = _
  rw [after2_2]
  obtain ⟨n, hn⟩ := t
  obtain ⟨b, rfl⟩ : ∃ b, n = b + 3 := ⟨n - 3, by have : n % 4 = 3 := h3; omega⟩
  have hb : b + 3 < 32 := hN
  have hb0 : b % 4 = 0 := by have : (b + 3) % 4 = 3 := h3; omega
  obtain ⟨-, -, -, -, d4, d5⟩ := idx_facts2 ⟨b + 3, hn⟩
  funext j
  obtain ⟨p, q, rfl⟩ : ∃ (p : Fin 1024) (q : Fin 1536), j = ix2 p q := ⟨j 0, j 1, eq_ix2 j⟩
  have hp := p.isLt
  have hq := q.isLt
  refine (run4_2_apply V c b hb hb0 p q ⟨(b + 3) / 8 * 1024 + p.val, by omega⟩ ⟨(b + 3) / 4 % 2 * 1536 + q.val, by omega⟩ rfl rfl).trans ?_
  symm
  refine G2_apply V c (((cfg2.win 2).blk ⟨b + 3, hn⟩).view.emb (ix2 p q)) _ _ ?_ ?_
  · show win2_2.index ⟨b + 3, hn⟩ (0 : Fin 2) * 1024 + 1 * p.val = (b + 3) / 8 * 1024 + p.val
    rw [d4]; show (b + 3) / 8 * 1024 + 1 * p.val = _; omega
  · show win2_2.index ⟨b + 3, hn⟩ (1 : Fin 2) * 1536 + 1 * q.val = (b + 3) / 4 % 2 * 1536 + q.val
    rw [d5]; show (b + 3) / 4 % 2 * 1536 + 1 * q.val = _; omega

/-! ## The output's blocks tile the array -/

/-- An index of the array is in point t's block iff each coordinate is in the block's range on its axis. -/
theorem mem_blk2 (t : Fin cfg2.N) (i : S4096x3072.Idx) :
    i ∈ ((cfg2.win 2).blk t).view.set ↔ ∀ a : Fin 2, win2_2.index t a * S1024x1536.size a ≤ (i a).val ∧ (i a).val < win2_2.index t a * S1024x1536.size a + S1024x1536.size a := by
  show i ∈ ((View.whole main_v55).slice (win2_2.rect t)).set ↔ _
  rw [View.set_slice_whole, Rect.mem_set_unit]
  exact Iff.rfl

/-- Every entry (r, f) is in the block of the point (r / 1024, f / 1536, 3), which writes back. -/
theorem cover2 (i : S4096x3072.Idx) : ∃ t : Fin cfg2.N, (cfg2.win 2).flush t = true ∧ i ∈ ((cfg2.win 2).blk t).view.set := by
  have h0 : (i 0).val < 4096 := (i 0).isLt
  have h1 : (i 1).val < 3072 := (i 1).isLt
  have hn : ((i 0).val / 1024 * 2 + (i 1).val / 1536) * 4 + 3 < 32 := by omega
  refine ⟨⟨((i 0).val / 1024 * 2 + (i 1).val / 1536) * 4 + 3, lt2 hn⟩, (flush2_2 _).mpr (by show (((i 0).val / 1024 * 2 + (i 1).val / 1536) * 4 + 3) % 4 = 3; omega), ?_⟩
  rw [mem_blk2]
  obtain ⟨-, -, -, -, e4, e5⟩ := idx_facts2 ⟨((i 0).val / 1024 * 2 + (i 1).val / 1536) * 4 + 3, lt2 hn⟩
  intro a
  match a with
  | ⟨0, _⟩ =>
    show win2_2.index _ (0 : Fin 2) * 1024 ≤ (i 0).val ∧ (i 0).val < win2_2.index _ (0 : Fin 2) * 1024 + 1024
    rw [e4]
    show (((i 0).val / 1024 * 2 + (i 1).val / 1536) * 4 + 3) / 8 * 1024 ≤ (i 0).val ∧ (i 0).val < (((i 0).val / 1024 * 2 + (i 1).val / 1536) * 4 + 3) / 8 * 1024 + 1024
    omega
  | ⟨1, _⟩ =>
    show win2_2.index _ (1 : Fin 2) * 1536 ≤ (i 1).val ∧ (i 1).val < win2_2.index _ (1 : Fin 2) * 1536 + 1536
    rw [e5]
    show (((i 0).val / 1024 * 2 + (i 1).val / 1536) * 4 + 3) / 4 % 2 * 1536 ≤ (i 1).val ∧ (i 1).val < (((i 0).val / 1024 * 2 + (i 1).val / 1536) * 4 + 3) / 4 % 2 * 1536 + 1536
    omega

/-! ## The array after the region -/

/-- THE OUTPUT ARRAY after the region is the matrix product of the two input arrays as the region finds them. -/
theorem final2 (c : Dev nD) : (dat2 V c).arrAt 2 cfg2.N = G2 V c :=
  (dat2 V c).arrAt_eq_of_cover 2 (G2 V c) (fun t hf => flushed2_eq V c t hf) cover2

/-- Entry (r, f) of the output array after the region: Σ_k A(r, k) · X(k, f). -/
theorem arrAt2_apply (c : Dev nD) (r : Fin 4096) (f : Fin 3072) :
    (dat2 V c).arrAt 2 cfg2.N (ix2 r f)
      = ∑ k : Fin 4096, mA2 V c (ix2 r k) * mX2 V c (ix2 k f) := by
  rw [final2]
  rfl

end

end Cert.KernelIdeal.Hand

end
-- ==== Proof.MatmulBlock3.lean ====
/-
  One accumulation step of the blocked product read at an entry. The step adds to the accumulator block s the product
  of a 1024 × 1024 block a and a 1024 × 1536 block x: entry (p, q) becomes s(p, q) + Σ_{k'} a(p, k') · x(k', q), the
  sum over the 1024 positions of the contraction inside the block. The block the first step starts from is zero.
-/
import proofs.«106054_j120259084553_1_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

/-- The dimension record of the block product: contract axis 1 of the left block with axis 0 of the right one. -/
abbrev D3 : DotDims S1024x1024 S1024x1536 S1024x1536 := dot_S1024x1024_S1024x1536_S1024x1536_1_0_0_1_n_n

theorem D3_lhs_0 (i : S1024x1536.Idx) (q : D3.contr.Idx) : (D3.lhsIdx i q 0).val = (i 0).val := by
  unfold DotDims.lhsIdx
  rw [dif_neg (show ¬(0 : Fin S1024x1024.rank) ∈ D3.lhsBatch by decide), dif_pos (show (0 : Fin S1024x1024.rank) ∈ D3.lhsNonContracting by decide)]
  rfl
theorem D3_lhs_1 (i : S1024x1536.Idx) (q : D3.contr.Idx) : (D3.lhsIdx i q 1).val = (q ⟨0, by decide⟩).val :=
  D3.lhsIdx_val_of_single rfl i q
theorem D3_rhs_0 (i : S1024x1536.Idx) (q : D3.contr.Idx) : (D3.rhsIdx i q 0).val = (q ⟨0, by decide⟩).val :=
  D3.rhsIdx_val_of_single rfl i q
theorem D3_rhs_1 (i : S1024x1536.Idx) (q : D3.contr.Idx) : (D3.rhsIdx i q 1).val = (i 1).val := by
  unfold DotDims.rhsIdx
  rw [dif_neg (show ¬(1 : Fin S1024x1536.rank) ∈ D3.rhsBatch by decide), dif_pos (show (1 : Fin S1024x1536.rank) ∈ D3.rhsNonContracting by decide)]
  rfl

/-- The block product into zero, at entry (p, q): Σ_{k'} a(p, k') · x(k', q). -/
theorem blockProd3_apply (a : FVec Ideal S1024x1024 .bf16) (x : FVec Ideal S1024x1536 .bf16) (p : Fin 1024) (q : Fin 1536) :
    FloatOps.matmul D3 none a x (constant (F := Ideal) S1024x1536 .f32 0x00000000#32) (ix2 p q)
      = ∑ k' : Fin 1024, a (ix2 p k') * x (ix2 k' q) := by
  rw [Ideal.matmul_constant_zero_apply, ← Equiv.sum_comp (contrEquiv1 D3 1024 rfl rfl).symm]
  refine Finset.sum_congr rfl fun k _ => ?_
  have hk := contrEquiv1_symm_val D3 1024 rfl rfl k
  have el : D3.lhsIdx (ix2 p q) ((contrEquiv1 D3 1024 rfl rfl).symm k) = ix2 p k := funext fun b => Fin.ext (by
    match b with
    | ⟨0, _⟩ => exact D3_lhs_0 _ _
    | ⟨1, _⟩ => exact (D3_lhs_1 _ _).trans hk)
  have er : D3.rhsIdx (ix2 p q) ((contrEquiv1 D3 1024 rfl rfl).symm k) = ix2 k q := funext fun b => Fin.ext (by
    match b with
    | ⟨0, _⟩ => exact (D3_rhs_0 _ _).trans hk
    | ⟨1, _⟩ => exact D3_rhs_1 _ _)
  rw [el, er]

/-- ONE STEP at an entry: the accumulator's entry plus the block product's. -/
theorem k3_pay2_apply (s : Vec Ideal S1024x1536 .f32) (a : Vec Ideal S1024x1024 .bf16) (x : Vec Ideal S1024x1536 .bf16)
    (p : Fin 1024) (q : Fin 1536) :
    k3_pay2 (F := Ideal) s a x (ix2 p q) = s (ix2 p q) + ∑ k' : Fin 1024, a (ix2 p k') * x (ix2 k' q) := by
  unfold k3_pay2
  simp only [shapeCast_self]
  rw [addf_apply]
  simp only [matmul]
  rw [blockProd3_apply]

/-- The block the first step starts from is zero at every entry. -/
theorem k3_pay1_apply (j : S1024x1536.Idx) : k3_pay1 (F := Ideal) j = 0 := by
  unfold k3_pay1
  simp only [shapeCast_self]
  show Ideal.ofBits .f32 0x00000000#32 = 0
  exact Ideal.ofBits_zero_f32

end Cert.KernelIdeal.Hand

end
-- ==== Proof.MatmulValue3.lean ====
/-
  What the fourth diffusion product (the second support's second step) leaves in its output array: the matrix product of the two input arrays, entry by
  entry. The grid point t = (i, j, k) accumulates block k of the contraction into the output block (i, j); the point
  with k = 3 writes the block back, holding the four partial sums added in order from zero; four blocks of 1024 make
  the 4096-term contraction; the output's blocks tile the array.
-/
import proofs.«106054_j120259084553_1_alg».proof.Proof.Matmul3
import proofs.«106054_j120259084553_1_alg».proof.Proof.MatmulBlock3
import proofs.«106054_j120259084553_1_alg».proof.Proof.Acc4
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## Four steps from zero at an entry -/

/-- Four accumulation steps from the zero block, at entry j: zero plus the four block products in order. -/
theorem chain4_3_apply (a0 a1 a2 a3 : Vec Ideal S1024x1024 .bf16) (x0 x1 x2 x3 : Vec Ideal S1024x1536 .bf16)
    (p : Fin 1024) (q : Fin 1536) :
    k3_pay2 (F := Ideal) (k3_pay2 (F := Ideal) (k3_pay2 (F := Ideal) (k3_pay2 (F := Ideal) (k3_pay1 (F := Ideal)) a0 x0) a1 x1) a2 x2) a3 x3 (ix2 p q)
      = (((0 + ∑ k' : Fin 1024, a0 (ix2 p k') * x0 (ix2 k' q)) + ∑ k' : Fin 1024, a1 (ix2 p k') * x1 (ix2 k' q))
          + ∑ k' : Fin 1024, a2 (ix2 p k') * x2 (ix2 k' q)) + ∑ k' : Fin 1024, a3 (ix2 p k') * x3 (ix2 k' q) := by
  rw [k3_pay2_apply, k3_pay2_apply, k3_pay2_apply, k3_pay2_apply, k3_pay1_apply]

/-! ## The printed index maps, decided once over the grid -/

/-- Point t = (i, j, k) = (t / 8, t / 4 mod 2, t mod 4): the left block is (i, k), the right one (k, j), the output's (i, j). -/
theorem idx_facts3 : ∀ t : Fin cfg3.N, win3_0.index t (0 : Fin 2) = t.val / 8 ∧ win3_0.index t (1 : Fin 2) = t.val % 4
    ∧ win3_1.index t (0 : Fin 2) = t.val % 4 ∧ win3_1.index t (1 : Fin 2) = t.val / 4 % 2
    ∧ win3_2.index t (0 : Fin 2) = t.val / 8 ∧ win3_2.index t (1 : Fin 2) = t.val / 4 % 2 :=
  (by decide +kernel : ∀ t : Fin grid3.N, _)

section
variable (V : (c : Dev nD) → (b : Ref sig .tc) → Buf (Elt Ideal) ((c : Thread nD τ).loc b))

/-- The left array as the region finds it. -/
abbrev mA3 (c : Dev nD) : S4096x4096.Idx → EReal := V c (Pipeline.arrRef spec3 0)
/-- The right array as the region finds it. -/
abbrev mX3 (c : Dev nD) : S4096x3072.Idx → EReal := V c (Pipeline.arrRef spec3 1)

/-- The matrix product at entry (r, f). -/
def prod3 (c : Dev nD) (r : Fin 4096) (f : Fin 3072) : EReal := ∑ k : Fin 4096, mA3 V c (ix2 r k) * mX3 V c (ix2 k f)

/-- The matrix product as contents of the output array. -/
def G3 (c : Dev nD) : S4096x3072.Idx → EReal := fun i => prod3 V c ⟨(i 0).val, (i 0).isLt⟩ ⟨(i 1).val, (i 1).isLt⟩

/-! ## The input blocks read where they sit in their arrays -/

/-- Entry (p, k') of the left block at point t is entry (i·1024 + p, k·1024 + k') of the left array. -/
theorem iblk3_0_apply (c : Dev nD) (t : Fin cfg3.N) (p k' : Fin 1024) (r kk : Fin 4096)
    (hr : r.val = win3_0.index t (0 : Fin 2) * 1024 + p.val) (hk : kk.val = win3_0.index t (1 : Fin 2) * 1024 + k'.val) :
    (iblk3 V c 0 t : Vec Ideal S1024x1024 .bf16) (ix2 p k') = mA3 V c (ix2 r kk) := by
  show mA3 V c (((cfg3.win 0).blk t).view.emb (ix2 p k')) = mA3 V c (ix2 r kk)
  congr 1
  funext a
  apply Fin.ext
  match a with
  | ⟨0, _⟩ => show win3_0.index t (0 : Fin 2) * 1024 + 1 * p.val = r.val; omega
  | ⟨1, _⟩ => show win3_0.index t (1 : Fin 2) * 1024 + 1 * k'.val = kk.val; omega

/-- Entry (k', q) of the right block at point t is entry (k·1024 + k', j·1536 + q) of the right array. -/
theorem iblk3_1_apply (c : Dev nD) (t : Fin cfg3.N) (k' : Fin 1024) (q : Fin 1536) (kk : Fin 4096) (f : Fin 3072)
    (hk : kk.val = win3_1.index t (0 : Fin 2) * 1024 + k'.val) (hf : f.val = win3_1.index t (1 : Fin 2) * 1536 + q.val) :
    (iblk3 V c 1 t : Vec Ideal S1024x1536 .bf16) (ix2 k' q) = mX3 V c (ix2 kk f) := by
  show mX3 V c (((cfg3.win 1).blk t).view.emb (ix2 k' q)) = mX3 V c (ix2 kk f)
  congr 1
  funext a
  apply Fin.ext
  match a with
  | ⟨0, _⟩ => show win3_1.index t (0 : Fin 2) * 1024 + 1 * k'.val = kk.val; omega
  | ⟨1, _⟩ => show win3_1.index t (1 : Fin 2) * 1536 + 1 * q.val = f.val; omega

/-! ## The accumulator at a point that writes back -/

/-- A point below 32 is a point of the grid. -/
theorem lt3 {n : ℕ} (h : n < 32) : n < cfg3.N := lt_of_lt_of_eq h N_3.symm

/-- Away from k = 0 the accumulator is one step further than after the point before. -/
theorem acc3_succ (c : Dev nD) (n : ℕ) (hn : n + 1 < cfg3.N) (h0 : ¬(n + 1) % 4 = 0) :
    acc3 V c (n + 1) hn = step3 (acc3 V c n (Nat.lt_of_succ_lt hn)) (iblk3 V c 0 ⟨n + 1, hn⟩) (iblk3 V c 1 ⟨n + 1, hn⟩) :=
  if_neg h0

/-- At the point b + 3 of a run b, b + 1, b + 2, b + 3 (b a multiple of 4) the accumulator holds four steps from zero. -/
theorem acc3_run4 (c : Dev nD) (b : ℕ) (hb : b + 3 < 32) (h0 : b % 4 = 0) :
    acc3 V c (b + 3) (lt3 hb)
      = step3 (step3 (step3 (first3 (iblk3 V c 0 ⟨b, lt3 (by omega)⟩) (iblk3 V c 1 ⟨b, lt3 (by omega)⟩))
            (iblk3 V c 0 ⟨b + 1, lt3 (by omega)⟩) (iblk3 V c 1 ⟨b + 1, lt3 (by omega)⟩))
          (iblk3 V c 0 ⟨b + 2, lt3 (by omega)⟩) (iblk3 V c 1 ⟨b + 2, lt3 (by omega)⟩))
        (iblk3 V c 0 ⟨b + 3, lt3 hb⟩) (iblk3 V c 1 ⟨b + 3, lt3 hb⟩) := by
  have e0 : acc3 V c b (lt3 (by omega)) = first3 (iblk3 V c 0 ⟨b, lt3 (by omega)⟩) (iblk3 V c 1 ⟨b, lt3 (by omega)⟩) :=
    acc3_first V c ⟨b, lt3 (by omega)⟩ h0
  rw [acc3_succ V c (b + 2) (lt3 hb) (by omega), acc3_succ V c (b + 1) (lt3 (by omega)) (by omega),
    acc3_succ V c b (lt3 (by omega)) (by omega), e0]

/-! ## What a point writes back -/

/-- The matrix product as contents of the output array, at an index whose coordinates are r and f. -/
theorem G3_apply (c : Dev nD) (i : S4096x3072.Idx) (r : Fin 4096) (f : Fin 3072) (hr : (i 0).val = r.val) (hf : (i 1).val = f.val) :
    G3 V c i = prod3 V c r f := by
  unfold G3
  have e1 : (⟨(i 0).val, (i 0).isLt⟩ : Fin 4096) = r := Fin.ext hr
  have e2 : (⟨(i 1).val, (i 1).isLt⟩ : Fin 3072) = f := Fin.ext hf
  rw [e1, e2]

/-- One block's partial sum is that block's 1024 terms of the contraction, when the left block's row p is row r of
    the left array at the columns of block m and the right block's column q is column f of the right array at the rows
    of block m. -/
theorem part_eq3 (a : Vec Ideal S1024x1024 .bf16) (x : Vec Ideal S1024x1536 .bf16) (A : S4096x4096.Idx → EReal)
    (X : S4096x3072.Idx → EReal) (m : Fin 4) (p : Fin 1024) (q : Fin 1536) (r : Fin 4096) (f : Fin 3072)
    (ha : ∀ k' : Fin 1024, a (ix2 p k') = A (ix2 r (Cert.DenseSparse.blk m k')))
    (hx : ∀ k' : Fin 1024, x (ix2 k' q) = X (ix2 (Cert.DenseSparse.blk m k') f)) :
    (∑ k' : Fin 1024, a (ix2 p k') * x (ix2 k' q))
      = ∑ k' : Fin 1024, A (ix2 r (Cert.DenseSparse.blk m k')) * X (ix2 (Cert.DenseSparse.blk m k') f) :=
  Finset.sum_congr rfl fun k' _ => by rw [ha k', hx k']

/-- The blocks at a point whose left block is (i, m) and right block (m, j), read at row p and column q. -/
theorem part3_eq (c : Dev nD) (t : Fin cfg3.N) (m : Fin 4) (p : Fin 1024) (q : Fin 1536) (r : Fin 4096) (f : Fin 3072)
    (h00 : r.val = win3_0.index t (0 : Fin 2) * 1024 + p.val) (h01 : win3_0.index t (1 : Fin 2) = m.val)
    (h10 : win3_1.index t (0 : Fin 2) = m.val) (h11 : f.val = win3_1.index t (1 : Fin 2) * 1536 + q.val) :
    (∀ k' : Fin 1024, (iblk3 V c 0 t : Vec Ideal S1024x1024 .bf16) (ix2 p k') = mA3 V c (ix2 r (Cert.DenseSparse.blk m k')))
      ∧ (∀ k' : Fin 1024, (iblk3 V c 1 t : Vec Ideal S1024x1536 .bf16) (ix2 k' q) = mX3 V c (ix2 (Cert.DenseSparse.blk m k') f)) := by
  refine ⟨fun k' => ?_, fun k' => ?_⟩
  · have e : (Cert.DenseSparse.blk m k').val = m.val * 1024 + k'.val := rfl
    exact iblk3_0_apply V c t p k' r (Cert.DenseSparse.blk m k') h00 (by rw [h01, e])
  · have e : (Cert.DenseSparse.blk m k').val = m.val * 1024 + k'.val := rfl
    exact iblk3_1_apply V c t k' q (Cert.DenseSparse.blk m k') f (by rw [h10, e]) h11

set_option maxHeartbeats 1000000 in
/-- The accumulator after the last point of a run, at entry (p, q) of its block: the matrix product at the entry of
    the array the block's entry sits at. -/
theorem run4_3_apply (c : Dev nD) (b : ℕ) (hb : b + 3 < 32) (h0 : b % 4 = 0) (p : Fin 1024) (q : Fin 1536)
    (r : Fin 4096) (f : Fin 3072) (hr : r.val = (b + 3) / 8 * 1024 + p.val) (hf : f.val = (b + 3) / 4 % 2 * 1536 + q.val) :
    acc3 V c (b + 3) (lt3 hb) (ix2 p q) = prod3 V c r f := by
  rw [acc3_run4 V c b hb h0]
  refine (chain4_3_apply _ _ _ _ _ _ _ _ p q).trans ?_
  obtain ⟨a0, a1, a2, a3, -, -⟩ := idx_facts3 ⟨b, lt3 (by omega)⟩
  obtain ⟨b0, b1, b2, b3, -, -⟩ := idx_facts3 ⟨b + 1, lt3 (by omega)⟩
  obtain ⟨c0, c1, c2, c3, -, -⟩ := idx_facts3 ⟨b + 2, lt3 (by omega)⟩
  obtain ⟨d0, d1, d2, d3, -, -⟩ := idx_facts3 ⟨b + 3, lt3 hb⟩
  have hp := p.isLt
  have hq := q.isLt
  unfold prod3
  refine Cert.DenseSparse.acc4_4096' (fun k => mA3 V c (ix2 r k) * mX3 V c (ix2 k f)) _ _ _ _ ?_ ?_ ?_ ?_
  · refine (fun h => part_eq3 _ _ (mA3 V c) (mX3 V c) 0 p q r f h.1 h.2) (part3_eq V c _ 0 p q r f (by rw [a0, hr]; show (b + 3) / 8 * 1024 + p.val = b / 8 * 1024 + p.val; omega)
      (by rw [a1]; show b % 4 = 0; omega) (by rw [a2]; show b % 4 = 0; omega)
      (by rw [a3, hf]; show (b + 3) / 4 % 2 * 1536 + q.val = b / 4 % 2 * 1536 + q.val; omega))
  · refine (fun h => part_eq3 _ _ (mA3 V c) (mX3 V c) 1 p q r f h.1 h.2) (part3_eq V c _ 1 p q r f (by rw [b0, hr]; show (b + 3) / 8 * 1024 + p.val = (b + 1) / 8 * 1024 + p.val; omega)
      (by rw [b1]; show (b + 1) % 4 = 1; omega) (by rw [b2]; show (b + 1) % 4 = 1; omega)
      (by rw [b3, hf]; show (b + 3) / 4 % 2 * 1536 + q.val = (b + 1) / 4 % 2 * 1536 + q.val; omega))
  · refine (fun h => part_eq3 _ _ (mA3 V c) (mX3 V c) 2 p q r f h.1 h.2) (part3_eq V c _ 2 p q r f (by rw [c0, hr]; show (b + 3) / 8 * 1024 + p.val = (b + 2) / 8 * 1024 + p.val; omega)
      (by rw [c1]; show (b + 2) % 4 = 2; omega) (by rw [c2]; show (b + 2) % 4 = 2; omega)
      (by rw [c3, hf]; show (b + 3) / 4 % 2 * 1536 + q.val = (b + 2) / 4 % 2 * 1536 + q.val; omega))
  · refine (fun h => part_eq3 _ _ (mA3 V c) (mX3 V c) 3 p q r f h.1 h.2) (part3_eq V c _ 3 p q r f (by rw [d0, hr])
      (by rw [d1]; show (b + 3) % 4 = 3; omega) (by rw [d2]; show (b + 3) % 4 = 3; omega)
      (by rw [d3, hf]))

set_option maxHeartbeats 1000000 in
/-- WHAT A POINT WITH k = 3 WRITES BACK is its block of the matrix product. -/
theorem flushed3_eq (c : Dev nD) (t : Fin cfg3.N) (hf : (cfg3.win 2).flush t = true) :
    (dat3 V c).flushed 2 t = ((cfg3.win 2).blk t).view.read (Elt Ideal) (G3 V c) := by
  have h3 : t.val % 4 = 3 := (flush3_2 t).mp hf
  have hN : t.val < 32 := lt_of_lt_of_eq t.isLt N_3
  show (cfg3.win 2).cut (grid3.coords t) ((dat3 V c).after 2 t) = _
  rw [after3_2]
  obtain ⟨n, hn⟩ := t
  obtain ⟨b, rfl⟩ : ∃ b, n = b + 3 := ⟨n - 3, by have : n % 4 = 3 := h3; omega⟩
  have hb : b + 3 < 32 := hN
  have hb0 : b % 4 = 0 := by have : (b + 3) % 4 = 3 := h3; omega
  obtain ⟨-, -, -, -, d4, d5⟩ := idx_facts3 ⟨b + 3, hn⟩
  funext j
  obtain ⟨p, q, rfl⟩ : ∃ (p : Fin 1024) (q : Fin 1536), j = ix2 p q := ⟨j 0, j 1, eq_ix2 j⟩
  have hp := p.isLt
  have hq := q.isLt
  refine (run4_3_apply V c b hb hb0 p q ⟨(b + 3) / 8 * 1024 + p.val, by omega⟩ ⟨(b + 3) / 4 % 2 * 1536 + q.val, by omega⟩ rfl rfl).trans ?_
  symm
  refine G3_apply V c (((cfg3.win 2).blk ⟨b + 3, hn⟩).view.emb (ix2 p q)) _ _ ?_ ?_
  · show win3_2.index ⟨b + 3, hn⟩ (0 : Fin 2) * 1024 + 1 * p.val = (b + 3) / 8 * 1024 + p.val
    rw [d4]; show (b + 3) / 8 * 1024 + 1 * p.val = _; omega
  · show win3_2.index ⟨b + 3, hn⟩ (1 : Fin 2) * 1536 + 1 * q.val = (b + 3) / 4 % 2 * 1536 + q.val
    rw [d5]; show (b + 3) / 4 % 2 * 1536 + 1 * q.val = _; omega

/-! ## The output's blocks tile the array -/

/-- An index of the array is in point t's block iff each coordinate is in the block's range on its axis. -/
theorem mem_blk3 (t : Fin cfg3.N) (i : S4096x3072.Idx) :
    i ∈ ((cfg3.win 2).blk t).view.set ↔ ∀ a : Fin 2, win3_2.index t a * S1024x1536.size a ≤ (i a).val ∧ (i a).val < win3_2.index t a * S1024x1536.size a + S1024x1536.size a := by
  show i ∈ ((View.whole main_v57).slice (win3_2.rect t)).set ↔ _
  rw [View.set_slice_whole, Rect.mem_set_unit]
  exact Iff.rfl

/-- Every entry (r, f) is in the block of the point (r / 1024, f / 1536, 3), which writes back. -/
theorem cover3 (i : S4096x3072.Idx) : ∃ t : Fin cfg3.N, (cfg3.win 2).flush t = true ∧ i ∈ ((cfg3.win 2).blk t).view.set := by
  have h0 : (i 0).val < 4096 := (i 0).isLt
  have h1 : (i 1).val < 3072 := (i 1).isLt
  have hn : ((i 0).val / 1024 * 2 + (i 1).val / 1536) * 4 + 3 < 32 := by omega
  refine ⟨⟨((i 0).val / 1024 * 2 + (i 1).val / 1536) * 4 + 3, lt3 hn⟩, (flush3_2 _).mpr (by show (((i 0).val / 1024 * 2 + (i 1).val / 1536) * 4 + 3) % 4 = 3; omega), ?_⟩
  rw [mem_blk3]
  obtain ⟨-, -, -, -, e4, e5⟩ := idx_facts3 ⟨((i 0).val / 1024 * 2 + (i 1).val / 1536) * 4 + 3, lt3 hn⟩
  intro a
  match a with
  | ⟨0, _⟩ =>
    show win3_2.index _ (0 : Fin 2) * 1024 ≤ (i 0).val ∧ (i 0).val < win3_2.index _ (0 : Fin 2) * 1024 + 1024
    rw [e4]
    show (((i 0).val / 1024 * 2 + (i 1).val / 1536) * 4 + 3) / 8 * 1024 ≤ (i 0).val ∧ (i 0).val < (((i 0).val / 1024 * 2 + (i 1).val / 1536) * 4 + 3) / 8 * 1024 + 1024
    omega
  | ⟨1, _⟩ =>
    show win3_2.index _ (1 : Fin 2) * 1536 ≤ (i 1).val ∧ (i 1).val < win3_2.index _ (1 : Fin 2) * 1536 + 1536
    rw [e5]
    show (((i 0).val / 1024 * 2 + (i 1).val / 1536) * 4 + 3) / 4 % 2 * 1536 ≤ (i 1).val ∧ (i 1).val < (((i 0).val / 1024 * 2 + (i 1).val / 1536) * 4 + 3) / 4 % 2 * 1536 + 1536
    omega

/-! ## The array after the region -/

/-- THE OUTPUT ARRAY after the region is the matrix product of the two input arrays as the region finds them. -/
theorem final3 (c : Dev nD) : (dat3 V c).arrAt 2 cfg3.N = G3 V c :=
  (dat3 V c).arrAt_eq_of_cover 2 (G3 V c) (fun t hf => flushed3_eq V c t hf) cover3

/-- Entry (r, f) of the output array after the region: Σ_k A(r, k) · X(k, f). -/
theorem arrAt3_apply (c : Dev nD) (r : Fin 4096) (f : Fin 3072) :
    (dat3 V c).arrAt 2 cfg3.N (ix2 r f)
      = ∑ k : Fin 4096, mA3 V c (ix2 r k) * mX3 V c (ix2 k f) := by
  rw [final3]
  rfl

end

end Cert.KernelIdeal.Hand

end
-- ==== Proof.FinalBlock.lean ====
/- The payload of the final region's one store, read at an index: at the extended reals the stored block is, entry by
   entry, tanh of the row-by-column contraction of the two loaded operand blocks plus the bias entry of the column. -/
import proofs.«106054_j120259084553_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

/-- The [4096, 960] by [960, 128] product into the zero accumulator, at entry (p, q): the sum over the 960 contraction
    terms k of the left operand at (p, k) times the right operand at (k, q). -/
theorem matmul4_apply (a : FVec Ideal S4096x960 .bf16) (b : FVec Ideal S960x128 .bf16) (p : Fin 4096) (q : Fin 128) :
    FloatOps.matmul dot_S4096x960_S960x128_S4096x128_1_0_0_1_n_n none a b (constant (F := Ideal) S4096x128 .f32 0x00000000#32) (ix2 p q)
      = ∑ k : Fin 960, a (ix2 p k) * b (ix2 k q) := by
  refine (Ideal.matmul_constant_zero_apply dot_S4096x960_S960x128_S4096x128_1_0_0_1_n_n none a b (ix2 p q)).trans ?_
  rw [← Equiv.sum_comp (contrEquiv1 dot_S4096x960_S960x128_S4096x128_1_0_0_1_n_n 960 rfl rfl).symm]
  refine Finset.sum_congr rfl fun k _ => ?_
  have hk := contrEquiv1_symm_val dot_S4096x960_S960x128_S4096x128_1_0_0_1_n_n 960 rfl rfl k
  have el : dot_S4096x960_S960x128_S4096x128_1_0_0_1_n_n.lhsIdx (ix2 p q) ((contrEquiv1 dot_S4096x960_S960x128_S4096x128_1_0_0_1_n_n 960 rfl rfl).symm k) = ix2 p k := funext fun ax => Fin.ext (by
    match ax with
    | ⟨0, _⟩ =>
      show (dot_S4096x960_S960x128_S4096x128_1_0_0_1_n_n.lhsIdx (ix2 p q) _ 0).val = p.val
      unfold DotDims.lhsIdx
      rw [dif_neg (show ¬(0 : Fin S4096x960.rank) ∈ dot_S4096x960_S960x128_S4096x128_1_0_0_1_n_n.lhsBatch by decide), dif_pos (show (0 : Fin S4096x960.rank) ∈ dot_S4096x960_S960x128_S4096x128_1_0_0_1_n_n.lhsNonContracting by decide)]
      rfl
    | ⟨1, _⟩ => exact (dot_S4096x960_S960x128_S4096x128_1_0_0_1_n_n.lhsIdx_val_of_single rfl (ix2 p q) _).trans hk)
  have er : dot_S4096x960_S960x128_S4096x128_1_0_0_1_n_n.rhsIdx (ix2 p q) ((contrEquiv1 dot_S4096x960_S960x128_S4096x128_1_0_0_1_n_n 960 rfl rfl).symm k) = ix2 k q := funext fun ax => Fin.ext (by
    match ax with
    | ⟨0, _⟩ => exact (dot_S4096x960_S960x128_S4096x128_1_0_0_1_n_n.rhsIdx_val_of_single rfl (ix2 p q) _).trans hk
    | ⟨1, _⟩ =>
      show (dot_S4096x960_S960x128_S4096x128_1_0_0_1_n_n.rhsIdx (ix2 p q) _ 1).val = q.val
      unfold DotDims.rhsIdx
      rw [dif_neg (show ¬(1 : Fin S960x128.rank) ∈ dot_S4096x960_S960x128_S4096x128_1_0_0_1_n_n.rhsBatch by decide), dif_pos (show (1 : Fin S960x128.rank) ∈ dot_S4096x960_S960x128_S4096x128_1_0_0_1_n_n.rhsNonContracting by decide)]
      rfl)
  rw [el, er]

/-- The bias vector [128] cast to one row [1, 128] and that row repeated over 4096 rows reads, at (p, q), the bias
    at q. -/
theorem biasRows4_apply {α : Type} (v : S128.Idx → α) (p : Fin 4096) (q : Fin 128) :
    broadcastTo S4096x128 (shapeCast S1x128 v shapeCasts_S128_S1x128) broadcasts_S1x128_S4096x128 (ix2 p q) = v (ix1 q) :=
  (broadcastTo_1b_ab_apply _ broadcasts_S1x128_S4096x128 p q).trans (shapeCast_a_1a_apply v shapeCasts_S128_S1x128 0 q)

/-- THE STORED BLOCK AT AN ENTRY: tanh of (the contraction over the 960 terms of the left block's row p with the right
    block's column q, plus the bias at q). -/
theorem k4_pay1_apply (x0 : FVec Ideal S4096x960 .bf16) (x1 : FVec Ideal S960x128 .bf16) (x2 : FVec Ideal S128 .f32)
    (p : Fin 4096) (q : Fin 128) :
    k4_pay1 (F := Ideal) x0 x1 x2 (ix2 p q) = Ideal.tanh ((∑ k : Fin 960, x0 (ix2 p k) * x1 (ix2 k q)) + x2 (ix1 q)) := by
  unfold k4_pay1
  rw [shapeCast_self, shapeCast_self]
  refine congrArg Ideal.tanh ?_
  exact congrArg₂ (· + ·) (matmul4_apply x0 x1 p q) (biasRows4_apply x2 p q)

end Cert.KernelIdeal.Hand

end
-- ==== Proof.FinalValue.lean ====
/- The final region's result array after its run, at the extended reals, entry by entry: row `row`, column `h` of the
   [65536, 128] array is tanh of (the contraction over the 960 terms of row `row` of the left array with column `h` of
   the right array, plus the bias at `h`). The grid's 16 points each write back one block of 4096 rows; every block
   is the restriction of that one whole-array function, and the blocks cover the array. -/
import proofs.«106054_j120259084553_1_alg».proof.Proof.RegionFinal
import proofs.«106054_j120259084553_1_alg».proof.Proof.FinalBlock
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

/-- The entry (r, h) of the result as a function of the three whole arrays: tanh of (Σ_j A (r, j) · W (j, h) + bias h). -/
def finalAt (A : S65536x960.Idx → EReal) (W : S960x128.Idx → EReal) (bias : S128.Idx → EReal) (r : Fin 65536) (h : Fin 128) : EReal :=
  Ideal.tanh ((∑ j : Fin 960, A (ix2 r j) * W (ix2 j h)) + bias (ix1 h))

/-- The result array as one function of its index. -/
def finalArr (A : S65536x960.Idx → EReal) (W : S960x128.Idx → EReal) (bias : S128.Idx → EReal) : S65536x128.Idx → EReal :=
  fun i => finalAt A W bias (i 0) (i 1)

theorem zeros2 : (![0, 0] : Fin 2 → Nat) = fun _ => 0 := funext fun a => by fin_cases a <;> rfl
theorem zeros1 : (![0] : Fin 1 → Nat) = fun _ => 0 := funext fun a => by fin_cases a; rfl

/-- One entry of a stored block: when row p of the left block is row r of the left array, column q of the right block
    is column h of the right array, and the bias block at q is the bias at h, the stored entry (p, q) is the result's
    entry (r, h). -/
theorem block_entry (x0 : FVec Ideal S4096x960 .bf16) (x1 : FVec Ideal S960x128 .bf16) (x2 : FVec Ideal S128 .f32)
    (A : S65536x960.Idx → EReal) (W : S960x128.Idx → EReal) (bias : S128.Idx → EReal)
    (p : Fin 4096) (q : Fin 128) (r : Fin 65536) (h : Fin 128)
    (h0 : ∀ k : Fin 960, x0 (ix2 p k) = A (ix2 r k)) (h1 : ∀ k : Fin 960, x1 (ix2 k q) = W (ix2 k h))
    (h2 : x2 (ix1 q) = bias (ix1 h)) :
    k4_pay1 (F := Ideal) x0 x1 x2 (ix2 p q) = finalAt A W bias r h := by
  rw [k4_pay1_apply, h2]
  unfold finalAt
  exact congrArg (fun s => Ideal.tanh (s + bias (ix1 h))) (Finset.sum_congr rfl fun k _ => by rw [h0 k, h1 k])

/-- The printed block-index maps over the grid: the left operand's and the result's row-block index is the point's
    number and their column-block index is 0; the right operand's and the bias's block indices are 0. -/
theorem index_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

/-- The left operand's block at point t is rows 4096 t … 4096 t + 4095 of the left array. -/
theorem iblk4_0_apply (c : Dev nD) (t : Fin cfg4.N) (p : Fin 4096) (k : Fin 960) (r : Fin 65536)
    (hr : r.val = t.val * 4096 + p.val) :
    (iblk4 V c 0 t : S4096x960.Idx → EReal) (ix2 p k) = (V c (Pipeline.arrRef spec4 0) : S65536x960.Idx → EReal) (ix2 r k) := by
  obtain ⟨e00, e01, -⟩ := index_facts4 t
  show (V c (Pipeline.arrRef spec4 0) : S65536x960.Idx → EReal) (((cfg4.win 0).blk t).view.emb (ix2 p k)) = _
  refine congrArg _ (funext fun a => Fin.ext ?_)
  match a with
  | ⟨0, _⟩ =>
    show win4_0.index t (0 : Fin 2) * 4096 + 1 * p.val = r.val
    rw [e00, hr]; omega
  | ⟨1, _⟩ =>
    show win4_0.index t (1 : Fin 2) * 960 + 1 * k.val = k.val
    rw [e01]; omega

/-- The right operand's block at every point is the whole right array. -/
theorem iblk4_1_apply (c : Dev nD) (t : Fin cfg4.N) (k : Fin 960) (q h : Fin 128) (hh : h.val = q.val) :
    (iblk4 V c 1 t : S960x128.Idx → EReal) (ix2 k q) = (V c (Pipeline.arrRef spec4 1) : S960x128.Idx → EReal) (ix2 k h) := by
  obtain ⟨-, -, e10, e11, -⟩ := index_facts4 t
  show (V c (Pipeline.arrRef spec4 1) : S960x128.Idx → EReal) (((cfg4.win 1).blk t).view.emb (ix2 k q)) = _
  refine congrArg _ (funext fun a => Fin.ext ?_)
  match a with
  | ⟨0, _⟩ =>
    show win4_1.index t (0 : Fin 2) * 960 + 1 * k.val = k.val
    rw [e10]; omega
  | ⟨1, _⟩ =>
    show win4_1.index t (1 : Fin 2) * 128 + 1 * q.val = h.val
    rw [e11, hh]; omega

/-- The bias's block at every point is the whole bias. -/
theorem iblk4_2_apply (c : Dev nD) (t : Fin cfg4.N) (q h : Fin 128) (hh : h.val = q.val) :
    (iblk4 V c 2 t : S128.Idx → EReal) (ix1 q) = (V c (Pipeline.arrRef spec4 2) : S128.Idx → EReal) (ix1 h) := by
  obtain ⟨-, -, -, -, e20, -⟩ := index_facts4 t
  show (V c (Pipeline.arrRef spec4 2) : S128.Idx → EReal) (((cfg4.win 2).blk t).view.emb (ix1 q)) = _
  refine congrArg _ (funext fun a => Fin.ext ?_)
  match a with
  | ⟨0, _⟩ =>
    show win4_2.index t (0 : Fin 1) * 128 + 1 * q.val = h.val
    rw [e20, hh]; omega

/-- Where the result's block at point t sits in the result array: entry (p, q) of the block is entry (4096 t + p, q). -/
theorem emb4_3_val (t : Fin cfg4.N) (j : S4096x128.Idx) :
    ((((cfg4.win 3).blk t).view.emb j) 0).val = t.val * 4096 + (j 0).val
      ∧ ((((cfg4.win 3).blk t).view.emb j) 1).val = (j 1).val := by
  obtain ⟨-, -, -, -, -, e30, e31⟩ := index_facts4 t
  constructor
  · show win4_3.index t (0 : Fin 2) * 4096 + 1 * (j 0).val = _
    rw [e30]; omega
  · show win4_3.index t (1 : Fin 2) * 128 + 1 * (j 1).val = _
    rw [e31]; omega

set_option maxHeartbeats 1000000 in
/-- WHAT POINT t WRITES BACK is block t of the whole-array function of the three arrays as the region finds them. -/
theorem flushed4_eq (c : Dev nD) (t : Fin cfg4.N) :
    (dat4 (F := Ideal) V c).flushed 3 t = ((cfg4.win 3).blk t).view.read (Elt Ideal)
      (finalArr (V c (Pipeline.arrRef spec4 0)) (V c (Pipeline.arrRef spec4 1)) (V c (Pipeline.arrRef spec4 2))) := by
  show (cfg4.win 3).cut (grid4.coords t) ((dat4 (F := Ideal) V c).after 3 t) = _
  rw [after4_3]
  unfold out4_3
  rw [View.canon_unit_zero zeros2]
  simp only [View.ld_unit_zero (S := S4096x960) zeros2, View.ld_unit_zero (S := S960x128) zeros2, View.ld_unit_zero (S := S128) zeros1]
  funext j
  have hj := emb4_3_val t j
  exact block_entry (iblk4 V c 0 t) (iblk4 V c 1 t) (iblk4 V c 2 t) (V c (Pipeline.arrRef spec4 0)) (V c (Pipeline.arrRef spec4 1))
    (V c (Pipeline.arrRef spec4 2)) (j 0) (j 1) ((((cfg4.win 3).blk t).view.emb j) 0) ((((cfg4.win 3).blk t).view.emb j) 1)
    (fun k => iblk4_0_apply V c t (j 0) k _ hj.1) (fun k => iblk4_1_apply V c t k (j 1) _ hj.2) (iblk4_2_apply V c t (j 1) _ hj.2)

/-- An index of the result array is in point t's block iff each coordinate is in the block's range on its axis. -/
theorem mem_blk4 (t : Fin cfg4.N) (i : S65536x128.Idx) :
    i ∈ ((cfg4.win 3).blk t).view.set ↔ ∀ a : Fin 2, win4_3.index t a * S4096x128.size a ≤ (i a).val ∧ (i a).val < win4_3.index t a * S4096x128.size a + S4096x128.size a := by
  show i ∈ ((View.whole main_v72).slice (win4_3.rect t)).set ↔ _
  rw [View.set_slice_whole, Rect.mem_set_unit]
  exact Iff.rfl

/-- THE COVER: row r of the result array lies in the block of point r / 4096, which writes back (every point does). -/
theorem cover4 (i : S65536x128.Idx) : ∃ t : Fin cfg4.N, (cfg4.win 3).flush t = true ∧ i ∈ ((cfg4.win 3).blk t).view.set := by
  have hN : cfg4.N = 16 := N_4
  have hi0 : (i 0).val < 65536 := (i 0).isLt
  have hi1 : (i 1).val < 128 := (i 1).isLt
  refine ⟨⟨(i 0).val / 4096, by rw [hN]; omega⟩, flush4_3 _, ?_⟩
  rw [mem_blk4]
  obtain ⟨-, -, -, -, -, e30, e31⟩ := index_facts4 ⟨(i 0).val / 4096, by rw [hN]; omega⟩
  intro a
  match a with
  | ⟨0, _⟩ =>
    show win4_3.index _ (0 : Fin 2) * 4096 ≤ (i 0).val ∧ (i 0).val < win4_3.index _ (0 : Fin 2) * 4096 + 4096
    rw [e30]; show (i 0).val / 4096 * 4096 ≤ (i 0).val ∧ (i 0).val < (i 0).val / 4096 * 4096 + 4096; omega
  | ⟨1, _⟩ =>
    show win4_3.index _ (1 : Fin 2) * 128 ≤ (i 1).val ∧ (i 1).val < win4_3.index _ (1 : Fin 2) * 128 + 128
    rw [e31]; omega

/-- THE RESULT ARRAY after the run is the whole-array function of the three arrays as the region finds them. -/
theorem final4 (c : Dev nD) : (dat4 (F := Ideal) V c).arrAt 3 cfg4.N
    = finalArr (V c (Pipeline.arrRef spec4 0)) (V c (Pipeline.arrRef spec4 1)) (V c (Pipeline.arrRef spec4 2)) :=
  (dat4 (F := Ideal) V c).arrAt_eq_of_cover 3
    (finalArr (V c (Pipeline.arrRef spec4 0)) (V c (Pipeline.arrRef spec4 1)) (V c (Pipeline.arrRef spec4 2)))
    (fun t _ => flushed4_eq V c t) cover4

/-- THE RESULT ARRAY AT AN ENTRY: row `row`, column `h` is the entry function of the three arrays as the region
    finds them. -/
theorem arrAt4_finalAt (c : Dev nD) (row : Fin 65536) (h : Fin 128) :
    (dat4 (F := Ideal) V c).arrAt 3 cfg4.N (ix2 row h)
      = finalAt (V c (Pipeline.arrRef spec4 0)) (V c (Pipeline.arrRef spec4 1)) (V c (Pipeline.arrRef spec4 2)) row h := by
  rw [final4]
  rfl

/-- The same with the three arrays named: when the region finds the left array at A, the right array at W and the
    bias at `bias`, the result's entry (row, h) is tanh of (Σ_j A (row, j) · W (j, h) + bias h). -/
theorem arrAt4_apply (c : Dev nD) (A : S65536x960.Idx → EReal) (W : S960x128.Idx → EReal) (bias : S128.Idx → EReal)
    (hA : V c (Pipeline.arrRef spec4 0) = A) (hW : V c (Pipeline.arrRef spec4 1) = W)
    (hb : V c (Pipeline.arrRef spec4 2) = bias) (row : Fin 65536) (h : Fin 128) :
    (dat4 (F := Ideal) V c).arrAt 3 cfg4.N (ix2 row h)
      = Ideal.tanh ((∑ j : Fin 960, A (ix2 row j) * W (ix2 j h)) + bias (ix1 h)) := by
  rw [arrAt4_finalAt, hA, hW, hb]
  rfl

end Cert.KernelIdeal.Hand

end
-- ==== Proof.AdjScatter.lean ====
/-
  An accumulating scatter of E scalar updates into an N0 × N1 matrix by an E × 2 array of signed (row, column) pairs,
  read at an entry, over the extended reals. The dimension record is
    update window axes [], inserted window axes [0, 1], scatter-to-operand map [0, 1], index-vector axis 1.

  Where an update lands. The window is a single element: on operand axis 0 it starts at the word at (e, 0) read
  signed, on axis 1 at the word at (e, 1) read signed, neither clamped, and the window coordinate is 0 on both axes.
  Hence update e lands iff both words name a row and a column of the matrix, and then at that (row, column).

  The sum. Entry (r, k) of the result is the operand's entry plus the sum of the updates e whose pair is (r, k).
-/
import proofs.«106054_j120259084553_1_alg».proof.KernelIdeal
import Idealize.ShloMosaic.PureOps.Dims
import Idealize.ShloMosaic.PureOps.Ideal
import Idealize.ShloMosaic.Lib.ValueIdx

noncomputable section

open scoped BigOperators

namespace Cert.AdjScatter
open Idealize.ShloMosaic
open Idealize.ShloMosaic.ValueIdx

variable {N0 N1 E : Nat}

/-- The operand: an N0 × N1 matrix. -/
abbrev SN (N0 N1 : Nat) : Shape := ⟨2, ![N0, N1]⟩
/-- The E (row, column) pairs. -/
abbrev SI (E : Nat) : Shape := ⟨2, ![E, 2]⟩
/-- The E scalar updates. -/
abbrev SU (E : Nat) : Shape := ⟨1, ![E]⟩

/-- The record, over any proof of its well-formedness. -/
abbrev D2 (wf : ScatterDims.WF (SN N0 N1) (SI E) (SU E) [] [0, 1] [0, 1] 1) : ScatterDims (SN N0 N1) (SI E) (SU E) :=
  ⟨[], [0, 1], [0, 1], 1, wf⟩

/-- A rank-1 index set is its coordinate range, so a sum over it is the sum over the coordinate. -/
theorem sum_idx1 {M : Type} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-! ## Where an update lands -/

/-- The scatter-indices index read for update e and component c: row e, column c. -/
theorem siIdx2 (wf : ScatterDims.WF (SN N0 N1) (SI E) (SU E) [] [0, 1] [0, 1] 1) (e : Fin E) (c : Fin 2) :
    (D2 wf).siIdx (ix1 e) c = ix2 e c := by
  funext b
  match b with
  | ⟨0, _⟩ => exact Fin.ext rfl
  | ⟨1, _⟩ => exact Fin.ext (by simp [ScatterDims.siIdx])

/-- On operand axis 0 the window starts at the word at (e, 0) read signed. -/
theorem start2_0 (wf : ScatterDims.WF (SN N0 N1) (SI E) (SU E) [] [0, 1] [0, 1] 1) {w : Nat} (idx : IVec (SI E) w)
    (e : Fin E) : (D2 wf).start (ix1 e) idx 0 = (idx (ix2 e (0 : Fin 2))).toInt := by
  unfold ScatterDims.start
  simp [siIdx2]

/-- On operand axis 1 the window starts at the word at (e, 1) read signed. -/
theorem start2_1 (wf : ScatterDims.WF (SN N0 N1) (SI E) (SU E) [] [0, 1] [0, 1] 1) {w : Nat} (idx : IVec (SI E) w)
    (e : Fin E) : (D2 wf).start (ix1 e) idx 1 = (idx (ix2 e (1 : Fin 2))).toInt := by
  unfold ScatterDims.start
  simp [siIdx2]

/-- Both operand axes are inserted window axes: the window coordinate is 0. -/
theorem window2 (wf : ScatterDims.WF (SN N0 N1) (SI E) (SU E) [] [0, 1] [0, 1] 1) (j) (a) :
    (D2 wf).window j a = 0 := by
  unfold ScatterDims.window
  match a with
  | ⟨0, _⟩ => simp [Shape.kept]
  | ⟨1, _⟩ => simp [Shape.kept]

/-- Update e lands on (r, k) iff its pair, read signed, is (r, k). -/
theorem land2 (wf : ScatterDims.WF (SN N0 N1) (SI E) (SU E) [] [0, 1] [0, 1] 1) {w : Nat} (idx : IVec (SI E) w)
    (e : Fin E) (r : Fin N0) (k : Fin N1) :
    (D2 wf).resultIdx? (ix1 e) idx = some (ix2 r k) ↔
      (idx (ix2 e (0 : Fin 2))).toInt = (r.val : Int) ∧ (idx (ix2 e (1 : Fin 2))).toInt = (k.val : Int) := by
  have hr := r.isLt
  have hk := k.isLt
  unfold ScatterDims.resultIdx?
  split
  · rename_i h
    have h0 := h 0
    have h1 := h 1
    simp only [start2_0, start2_1, window2] at h0 h1
    change 0 ≤ (idx (ix2 e (0 : Fin 2))).toInt + ((0 : Nat) : Int) ∧
      (idx (ix2 e (0 : Fin 2))).toInt + ((0 : Nat) : Int) < ((N0 : Nat) : Int) at h0
    change 0 ≤ (idx (ix2 e (1 : Fin 2))).toInt + ((0 : Nat) : Int) ∧
      (idx (ix2 e (1 : Fin 2))).toInt + ((0 : Nat) : Int) < ((N1 : Nat) : Int) at h1
    rw [Option.some.injEq, funext_iff, Fin.forall_fin_two]
    simp only [Fin.ext_iff, start2_0, start2_1, window2]
    change ((idx (ix2 e (0 : Fin 2))).toInt + ((0 : Nat) : Int)).toNat = r.val ∧
      ((idx (ix2 e (1 : Fin 2))).toInt + ((0 : Nat) : Int)).toNat = k.val ↔ _
    omega
  · rename_i h
    simp only [Fin.forall_fin_two, start2_0, start2_1, window2] at h
    change ¬((0 ≤ (idx (ix2 e (0 : Fin 2))).toInt + ((0 : Nat) : Int) ∧
      (idx (ix2 e (0 : Fin 2))).toInt + ((0 : Nat) : Int) < ((N0 : Nat) : Int)) ∧
      0 ≤ (idx (ix2 e (1 : Fin 2))).toInt + ((0 : Nat) : Int) ∧
      (idx (ix2 e (1 : Fin 2))).toInt + ((0 : Nat) : Int) < ((N1 : Nat) : Int)) at h
    constructor
    · intro hc; exact absurd hc (by simp)
    · rintro ⟨h1, h2⟩; exact absurd (by omega) h

/-- The same for any record with these four fields. -/
theorem land2_of_eq (d : ScatterDims (SN N0 N1) (SI E) (SU E)) (h1 : d.updateWindowDims = [])
    (h2 : d.insertedWindowDims = [0, 1]) (h3 : d.scatterDimsToOperandDims = [0, 1]) (h4 : d.indexVectorDim = 1)
    {w : Nat} (idx : IVec (SI E) w) (e : Fin E) (r : Fin N0) (k : Fin N1) :
    d.resultIdx? (ix1 e) idx = some (ix2 r k) ↔
      (idx (ix2 e (0 : Fin 2))).toInt = (r.val : Int) ∧ (idx (ix2 e (1 : Fin 2))).toInt = (k.val : Int) := by
  obtain ⟨uw, iw, sd, iv, wf⟩ := d
  simp only at h1 h2 h3 h4
  subst h1 h2 h3 h4
  exact land2 wf idx e r k

/-! ## The sum -/

/-- Scalars scattered into a matrix and added: entry (r, k) gains every update whose pair is (r, k). -/
theorem scatterAdd2_apply (d : ScatterDims (SN N0 N1) (SI E) (SU E)) (h1 : d.updateWindowDims = [])
    (h2 : d.insertedWindowDims = [0, 1]) (h3 : d.scatterDimsToOperandDims = [0, 1]) (h4 : d.indexVectorDim = 1) {w : Nat}
    (x : (SN N0 N1).Idx → EReal) (idx : IVec (SI E) w) (upd : (SU E).Idx → EReal) (r : Fin N0) (k : Fin N1) :
    Ideal.hostScatterAdd d x idx upd (ix2 r k) = x (ix2 r k) + ∑ e : Fin E,
      if (idx (ix2 e (0 : Fin 2))).toInt = (r.val : Int) ∧ (idx (ix2 e (1 : Fin 2))).toInt = (k.val : Int)
        then upd (ix1 e) else 0 := by
  show x (ix2 r k) + ∑ u ∈ Finset.univ.filter (fun u : (SU E).Idx => d.resultIdx? u idx = some (ix2 r k)), upd u = _
  refine congrArg (x (ix2 r k) + ·) ?_
  rw [Finset.sum_filter, sum_idx1]
  refine Finset.sum_congr rfl fun e _ => ?_
  simp only [land2_of_eq d h1 h2 h3 h4]

/-! ## The kernel's adjacency scatter -/

/-- The kernel's scatter of the 65536 weights into a 4096 × 4096 matrix by the (row, column) pairs, at entry (r, k):
    the operand's entry plus the weights of the edges whose pair, read signed, is (r, k). -/
theorem adj_apply [Cert.KernelIdeal.Facts] (x : FVec Ideal Cert.KernelIdeal.S4096x4096 .f32)
    (idx : IVec Cert.KernelIdeal.S65536x2 32) (u : FVec Ideal Cert.KernelIdeal.S65536 .f32) (r k : Fin 4096) :
    Host.scatterAdd (F := Ideal) Cert.KernelIdeal.scatter_S4096x4096_S65536x2_S65536_n_01_01_1 x idx u (ix2 r k)
      = x (ix2 r k) + ∑ e : Fin 65536,
          if (idx (ix2 e (0 : Fin 2))).toInt = (r.val : Int) ∧ (idx (ix2 e (1 : Fin 2))).toInt = (k.val : Int)
            then u (ix1 e) else 0 :=
  scatterAdd2_apply (N0 := 4096) (N1 := 4096) (E := 65536)
    Cert.KernelIdeal.scatter_S4096x4096_S65536x2_S65536_n_01_01_1 rfl rfl rfl rfl x idx u r k

/-- Into a matrix of zeros: the entry is the sum of those weights alone. -/
theorem adj_apply_zero [Cert.KernelIdeal.Facts] (x : FVec Ideal Cert.KernelIdeal.S4096x4096 .f32) (hx : ∀ i, x i = 0)
    (idx : IVec Cert.KernelIdeal.S65536x2 32) (u : FVec Ideal Cert.KernelIdeal.S65536 .f32) (r k : Fin 4096) :
    Host.scatterAdd (F := Ideal) Cert.KernelIdeal.scatter_S4096x4096_S65536x2_S65536_n_01_01_1 x idx u (ix2 r k)
      = ∑ e : Fin 65536,
          if (idx (ix2 e (0 : Fin 2))).toInt = (r.val : Int) ∧ (idx (ix2 e (1 : Fin 2))).toInt = (k.val : Int)
            then u (ix1 e) else 0 := by
  rw [adj_apply, hx, zero_add]

end Cert.AdjScatter

end
-- ==== Proof.KernelAdj.lean ====
/-
  The dense adjacency matrix of one support, entry by entry, over the extended reals: the entry at (i, k) is the sum
  of the values of the edges whose row is i and whose column is k. The [E, 2] index matrix's two columns are the
  (wrapped) rows and columns; where every index lies in [0, 4096) the wrap does nothing.
-/
import proofs.«106054_j120259084553_1_alg».proof.Proof.KernelHost
import proofs.«106054_j120259084553_1_alg».proof.Proof.AdjScatter
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-! ## A row of a [2, E] array -/

section Rows
variable {α : Type}

/-- Row 0 of a [2, E] array, as a vector, read at e. -/
theorem row0_apply (a : S2x65536.Idx → α) (e : Fin 65536) :
    shapeCast S65536 (extractStridedSlice S1x65536 ![0, 0] a slices_S2x65536_S1x65536_0_0) shapeCasts_S1x65536_S65536 (ix1 e)
      = a (ix2 (0 : Fin 2) e) := by
  rw [shapeCast_apply _ shapeCasts_S1x65536_S65536 (ix1 e) (ix2 (0 : Fin 1) e)
    (by rewrite [Shape.rowMajor_val_two, Shape.rowMajor_val_one]; show 0 * 65536 + e.val = e.val; omega)]
  exact extractStridedSlice_apply ![0, 0] a slices_S2x65536_S1x65536_0_0 (ix2 (0 : Fin 1) e) (ix2 (0 : Fin 2) e) (fun b => match b with
    | ⟨0, _⟩ => by show (0 : ℕ) = 0 + 0; rfl
    | ⟨1, _⟩ => by show e.val = 0 + e.val; omega)

/-- Row 1 of a [2, E] array, as a vector, read at e. -/
theorem row1_apply (a : S2x65536.Idx → α) (e : Fin 65536) :
    shapeCast S65536 (extractStridedSlice S1x65536 ![1, 0] a slices_S2x65536_S1x65536_1_0) shapeCasts_S1x65536_S65536 (ix1 e)
      = a (ix2 (1 : Fin 2) e) := by
  rw [shapeCast_apply _ shapeCasts_S1x65536_S65536 (ix1 e) (ix2 (0 : Fin 1) e)
    (by rewrite [Shape.rowMajor_val_two, Shape.rowMajor_val_one]; show 0 * 65536 + e.val = e.val; omega)]
  exact extractStridedSlice_apply ![1, 0] a slices_S2x65536_S1x65536_1_0 (ix2 (0 : Fin 1) e) (ix2 (1 : Fin 2) e) (fun b => match b with
    | ⟨0, _⟩ => by show (1 : ℕ) = 1 + 0; rfl
    | ⟨1, _⟩ => by show e.val = 0 + e.val; omega)

end Rows

theorem rowI0_apply (a : IVec S2x65536 32) (e : Fin 65536) : rowI0 a (ix1 e) = a (ix2 (0 : Fin 2) e) := row0_apply a e
theorem rowI1_apply (a : IVec S2x65536 32) (e : Fin 65536) : rowI1 a (ix1 e) = a (ix2 (1 : Fin 2) e) := row1_apply a e
theorem rowF0_apply (a : FVec Ideal S2x65536 .f32) (e : Fin 65536) : rowF0 a (ix1 e) = a (ix2 (0 : Fin 2) e) := row0_apply a e
theorem rowF1_apply (a : FVec Ideal S2x65536 .f32) (e : Fin 65536) : rowF1 a (ix1 e) = a (ix2 (1 : Fin 2) e) := row1_apply a e

/-! ## The wrap of a non-negative index -/

/-- A non-negative index is left as it is. -/
theorem wrapT_apply_of_nonneg (v : IVec S65536 32) (e : Fin 65536) (h : 0 ≤ (v (ix1 e)).toInt) : wrapT v (ix1 e) = v (ix1 e) := by
  unfold wrapT
  rw [select_apply]
  have hc : cmpi .slt v (broadcastInDim S65536 ![] bcast_S_S65536 (constantI S_ 32 0#32)) (ix1 e) = 0#1 := by
    apply eq_zero_of_ne_one
    intro h1
    have h2 : IntOp.cmpi .slt (v (ix1 e)) (0#32) = 1#1 := h1
    rw [IntOp.cmpi_slt] at h2
    have z0 : (0#32 : BitVec 32).toInt = 0 := by decide
    omega
  rw [hc, select_zero]

/-! ## The index matrix's columns -/

/-- A vector as a one-column matrix, read at (e, 0): the vector at e. -/
theorem col_at {α : Type} (p : S65536.Idx → α) (e : Fin 65536) :
    broadcastInDim S65536x1 ![0] bcast_S65536_S65536x1_0 p (ix2 e (0 : Fin 1)) = p (ix1 e) :=
  broadcastInDim_apply _ bcast_S65536_S65536x1_0 p _ (ix1 e) (fun a => match a with
    | ⟨0, _⟩ => by show e.val = if (65536 : Nat) = 1 then 0 else e.val; rw [if_neg (by decide)])

theorem idxT_apply0 (r c : IVec S65536 32) (e : Fin 65536) : idxT r c (ix2 e (0 : Fin 2)) = wrapT r (ix1 e) := by
  unfold idxT
  refine (concatenate_pair_apply_left (t := S65536x2) (s₁ := S65536x1) (s₂ := S65536x1) (1 : Fin 2) _ _
    concatenates_S65536x1_S65536x1_S65536x2_d1 (ix2 e (0 : Fin 2)) rfl (ix2 e (0 : Fin 1)) (by
      intro b
      match b with
      | ⟨0, _⟩ => rfl
      | ⟨1, _⟩ => rfl)).trans ?_
  exact col_at (wrapT r) e

theorem idxT_apply1 (r c : IVec S65536 32) (e : Fin 65536) : idxT r c (ix2 e (1 : Fin 2)) = wrapT c (ix1 e) := by
  unfold idxT
  refine (concatenate_pair_apply_right (t := S65536x2) (s₁ := S65536x1) (s₂ := S65536x1) (1 : Fin 2) _ _
    concatenates_S65536x1_S65536x1_S65536x2_d1 (ix2 e (1 : Fin 2)) rfl rfl (ix2 e (0 : Fin 1)) (by
      intro b hb
      match b with
      | ⟨0, _⟩ => rfl
      | ⟨1, _⟩ => exact absurd rfl hb) (by
      show (0 : ℕ) + 1 = 1; rfl)).trans ?_
  exact col_at (wrapT c) e

/-! ## The adjacency matrix at an entry -/

/-- The adjacency matrix's entry (i, k): the sum of the values of the edges landing there. -/
theorem adjT_apply (r c : IVec S65536 32) (v : FVec Ideal S65536 .f32)
    (hr : ∀ e : Fin 65536, 0 ≤ (r (ix1 e)).toInt) (hc : ∀ e : Fin 65536, 0 ≤ (c (ix1 e)).toInt) (i k : Fin 4096) :
    (adjT (F := Ideal) r c v : S4096x4096.Idx → EReal) (ix2 i k)
      = ∑ e : Fin 65536, if (r (ix1 e)).toInt = (i.val : Int) ∧ (c (ix1 e)).toInt = (k.val : Int) then v (ix1 e) else 0 := by
  unfold adjT
  rw [truncf_apply]
  rw [Cert.AdjScatter.adj_apply_zero (broadcastInDim S4096x4096 ![] bcast_S_S4096x4096 (constant (F := Ideal) S_ .f32 0x00000000#32))
    (fun _ => Ideal.ofBits_zero_f32) (idxT r c) v i k]
  refine Finset.sum_congr rfl fun e _ => ?_
  rw [idxT_apply0, idxT_apply1, wrapT_apply_of_nonneg r e (hr e), wrapT_apply_of_nonneg c e (hc e)]

end Cert.KernelIdeal.Hand

end
-- ==== Proof.Spec.lean ====
/-
  The result of the graph-convolution step, stated index by index over the extended reals, as one function of the
  seven argument arrays.

  Sizes: batch 16, nodes 4096, channels 192 = 64 + 128, feature width 3072 = 192 · 16, 65536 edges per support, two
  supports, five stacked matrices, 960 = 192 · 5 contraction terms, 128 outputs.

  * x0 n f is the concatenation of the inputs and the state along the channel axis, read at batch f % 16, node n,
    channel f / 16 (the inputs for a channel below 64, the state at channel − 64 otherwise).
  * spmm s X r f = Σ_e [row_s(e) = r] · val_s(e) · X (col_s(e)) f : the sparse matrix of support s, given by its
    edge list, applied to X. The row of an edge is its row word read signed; the column is its column word read
    signed and clamped into [0, 4095].
  * xs 0 = x0, xs 1 = spmm 0 x0, xs 2 = 2 · spmm 0 (spmm 0 x0) − x0, xs 3 = spmm 1 x0,
    xs 4 = 2 · spmm 1 (spmm 1 x0) − x0 (the Chebyshev recurrence), where 2 is the single-precision word 0x40000000.
  * G at (b, n, h) = tanh ( Σ_{j < 960} xs (j % 5) n ((j / 5) · 16 + b) · w (j, h) + bias h ).
-/
import Idealize.ShloMosaic.PureOps.Ideal
import Idealize.ShloMosaic.Lib.ValueIdx

noncomputable section

namespace Cert.Spec

open Idealize.ShloMosaic Idealize.ShloMosaic.ValueIdx
open scoped BigOperators

abbrev S16x4096x64 : Shape := ⟨3, ![16, 4096, 64]⟩
abbrev S16x4096x128 : Shape := ⟨3, ![16, 4096, 128]⟩
abbrev S960x128 : Shape := ⟨2, ![960, 128]⟩
abbrev S128 : Shape := ⟨1, ![128]⟩
abbrev S2x65536 : Shape := ⟨2, ![2, 65536]⟩

/-- The batch a feature column belongs to: f % 16. -/
def batchOf (f : Fin 3072) : Fin 16 := ⟨f.val % 16, Nat.mod_lt _ (by decide)⟩

theorem batchOf_val (f : Fin 3072) : (batchOf f).val = f.val % 16 := rfl

/-- The concatenated input, node-major: x0 n f is the inputs (channel f / 16 below 64) or the state (at channel
    f / 16 − 64) at batch f % 16 and node n. -/
def x0 (inp : S16x4096x64.Idx → EReal) (st : S16x4096x128.Idx → EReal) (n : Fin 4096) (f : Fin 3072) : EReal :=
  if h : f.val / 16 < 64 then inp (ix3 (batchOf f) n (⟨f.val / 16, h⟩ : Fin 64))
  else st (ix3 (batchOf f) n (⟨f.val / 16 - 64, by have := f.isLt; omega⟩ : Fin 128))

/-- The row of edge e of support s: its row word read as a signed integer. -/
def rowOf (rows : S2x65536.Idx → BitVec 32) (s : Fin 2) (e : Fin 65536) : ℤ := (rows (ix2 s e)).toInt

/-- The column of edge e of support s: its column word read signed and clamped into [0, 4095]. -/
def colOf (cols : S2x65536.Idx → BitVec 32) (s : Fin 2) (e : Fin 65536) : Fin 4096 :=
  ⟨min (cols (ix2 s e)).toInt.toNat 4095, by omega⟩

theorem colOf_val (cols : S2x65536.Idx → BitVec 32) (s : Fin 2) (e : Fin 65536) :
    (colOf cols s e).val = min (cols (ix2 s e)).toInt.toNat 4095 := rfl

/-- The sparse matrix of support s applied to X: entry (r, f) is the sum over the edges whose row is r of the
    edge's value times X at the edge's column. -/
def spmm (rows cols : S2x65536.Idx → BitVec 32) (vals : S2x65536.Idx → EReal) (s : Fin 2)
    (X : Fin 4096 → Fin 3072 → EReal) (r : Fin 4096) (f : Fin 3072) : EReal :=
  ∑ e : Fin 65536, if rowOf rows s e = (r.val : ℤ) then vals (ix2 s e) * X (colOf cols s e) f else 0

/-- The factor of the Chebyshev recurrence: what the single-precision word 0x40000000 denotes. -/
def two : EReal := Ideal.ofBits .f32 0x40000000#32

/-- The second Chebyshev term of support s: 2 · spmm s (spmm s x0) − x0. -/
def cheb2 (inp : S16x4096x64.Idx → EReal) (st : S16x4096x128.Idx → EReal) (rows cols : S2x65536.Idx → BitVec 32)
    (vals : S2x65536.Idx → EReal) (s : Fin 2) (n : Fin 4096) (f : Fin 3072) : EReal :=
  two * spmm rows cols vals s (spmm rows cols vals s (x0 inp st)) n f - x0 inp st n f

/-- The five stacked matrices. -/
def xs (inp : S16x4096x64.Idx → EReal) (st : S16x4096x128.Idx → EReal) (rows cols : S2x65536.Idx → BitVec 32)
    (vals : S2x65536.Idx → EReal) (mm : Fin 5) : Fin 4096 → Fin 3072 → EReal :=
  match mm with
  | ⟨0, _⟩ => x0 inp st
  | ⟨1, _⟩ => spmm rows cols vals 0 (x0 inp st)
  | ⟨2, _⟩ => cheb2 inp st rows cols vals 0
  | ⟨3, _⟩ => spmm rows cols vals 1 (x0 inp st)
  | ⟨4, _⟩ => cheb2 inp st rows cols vals 1

/-- Which stacked matrix contraction term j reads: j % 5. -/
def mmOf (j : Fin 960) : Fin 5 := ⟨j.val % 5, Nat.mod_lt _ (by decide)⟩

/-- Which feature column contraction term j reads at batch b: (j / 5) · 16 + b. -/
def colAt (j : Fin 960) (b : Fin 16) : Fin 3072 :=
  ⟨j.val / 5 * 16 + b.val, by have := j.isLt; have := b.isLt; omega⟩

theorem mmOf_val (j : Fin 960) : (mmOf j).val = j.val % 5 := rfl
theorem colAt_val (j : Fin 960) (b : Fin 16) : (colAt j b).val = j.val / 5 * 16 + b.val := rfl

/-- The result at batch b, node n, output h: tanh of the contraction of the stacked matrices with the weights, plus
    the bias. -/
def Gat (inp : S16x4096x64.Idx → EReal) (st : S16x4096x128.Idx → EReal) (w : S960x128.Idx → EReal)
    (bias : S128.Idx → EReal) (rows cols : S2x65536.Idx → BitVec 32) (vals : S2x65536.Idx → EReal)
    (b : Fin 16) (n : Fin 4096) (h : Fin 128) : EReal :=
  Ideal.tanh ((∑ j : Fin 960, xs inp st rows cols vals (mmOf j) n (colAt j b) * w (ix2 j h)) + bias (ix1 h))

/-- The result as an array over [16, 4096, 128]. -/
def G (inp : S16x4096x64.Idx → EReal) (st : S16x4096x128.Idx → EReal) (w : S960x128.Idx → EReal)
    (bias : S128.Idx → EReal) (rows cols : S2x65536.Idx → BitVec 32) (vals : S2x65536.Idx → EReal) :
    S16x4096x128.Idx → EReal :=
  fun i => Gat inp st w bias rows cols vals (i 0) (i 1) (i 2)

/-- G read at an index given by its coordinates. -/
theorem G_ix3 (inp : S16x4096x64.Idx → EReal) (st : S16x4096x128.Idx → EReal) (w : S960x128.Idx → EReal)
    (bias : S128.Idx → EReal) (rows cols : S2x65536.Idx → BitVec 32) (vals : S2x65536.Idx → EReal)
    (b : Fin 16) (n : Fin 4096) (h : Fin 128) :
    G inp st w bias rows cols vals (ix3 b n h) = Gat inp st w bias rows cols vals b n h := rfl

end Cert.Spec

end
-- ==== Proof.DenseSparse.lean ====
/-
  The dense and the sparse forms of a sparse-matrix product agree on real entries, and the closure facts that keep
  every intermediate real.

  A sparse matrix is a list of entries e with a column col e, a weight v e and a row test P e ("entry e lies in the
  row in view"). The dense form first accumulates the weights into a row A k = Σ_e [P e ∧ col e = k] · v e and then
  contracts it with a column x, Σ_k A k · x k; the sparse form sums v e · x (col e) over the entries of the row. With
  real weights and a real column the two are the same number: distribute the product over the inner sum, exchange the
  two sums, and the sum over k keeps only k = col e. The statement is over extended reals with every entry real, which
  is what makes distributivity hold there.
-/
import Idealize.ShloMosaic.PureOps.Ideal

noncomputable section

open scoped BigOperators

namespace Cert.DenseSparse

/-- The coercion of reals into extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A conditional between a coerced real and zero is the coercion of the conditional. -/
theorem coe_ite (c : Prop) [Decidable c] (a : ℝ) : (if c then (a : EReal) else 0) = ((if c then a else 0 : ℝ) : EReal) := by
  split_ifs <;> simp

/-- The law over the reals: Σ_k (Σ_e [P e ∧ col e = k] v e) · x k = Σ_e [P e] v e · x (col e). -/
theorem dense_eq_sparse_real {E K : Type} [Fintype E] [Fintype K] [DecidableEq K] (col : E → K) (P : E → Prop)
    [DecidablePred P] (v : E → ℝ) (x : K → ℝ) :
    (∑ k : K, (∑ e : E, if P e ∧ col e = k then v e else 0) * x k) = ∑ e : E, if P e then v e * x (col e) else 0 := by
  simp_rw [Finset.sum_mul]
  rw [Finset.sum_comm]
  refine Finset.sum_congr rfl fun e _ => ?_
  by_cases hp : P e
  · simp only [hp, true_and, if_true, ite_mul, zero_mul]
    rw [Finset.sum_ite_eq]
    simp
  · simp [hp]

/-- THE DENSE-VERSUS-SPARSE LAW on extended reals with real entries. -/
theorem dense_eq_sparse {E K : Type} [Fintype E] [Fintype K] [DecidableEq K] (col : E → K) (P : E → Prop) [DecidablePred P]
    (v : E → EReal) (x : K → EReal) (hv : ∀ e, ∃ r : ℝ, v e = (r : EReal)) (hx : ∀ k, ∃ r : ℝ, x k = (r : EReal)) :
    (∑ k : K, (∑ e : E, if P e ∧ col e = k then v e else 0) * x k) = ∑ e : E, if P e then v e * x (col e) else 0 := by
  choose v' hv' using hv
  choose x' hx' using hx
  have hvf : v = fun e => (v' e : EReal) := funext hv'
  have hxf : x = fun k => (x' k : EReal) := funext hx'
  subst hvf hxf
  calc (∑ k : K, (∑ e : E, if P e ∧ col e = k then (v' e : EReal) else 0) * (x' k : EReal))
      = ∑ k : K, (((∑ e : E, if P e ∧ col e = k then v' e else 0) * x' k : ℝ) : EReal) := by
        refine Finset.sum_congr rfl fun k _ => ?_
        rw [EReal.coe_mul, coe_sum]
        congr 1
        exact Finset.sum_congr rfl fun e _ => coe_ite _ _
    _ = ((∑ k : K, (∑ e : E, if P e ∧ col e = k then v' e else 0) * x' k : ℝ) : EReal) := (coe_sum _ _).symm
    _ = ((∑ e : E, if P e then v' e * x' (col e) else 0 : ℝ) : EReal) := congrArg _ (dense_eq_sparse_real col P v' x')
    _ = ∑ e : E, ((if P e then v' e * x' (col e) else 0 : ℝ) : EReal) := coe_sum _ _
    _ = ∑ e : E, if P e then (v' e : EReal) * (x' (col e) : EReal) else 0 := by
        refine Finset.sum_congr rfl fun e _ => ?_
        rw [← coe_ite, EReal.coe_mul]

/-! ## Closure: the intermediates are real again -/

/-- Zero is real. -/
theorem real_zero : ∃ r : ℝ, (0 : EReal) = (r : EReal) := ⟨0, rfl⟩

/-- A product of two reals is real. -/
theorem real_mul {a b : EReal} (ha : ∃ r : ℝ, a = (r : EReal)) (hb : ∃ r : ℝ, b = (r : EReal)) : ∃ r : ℝ, a * b = (r : EReal) := by
  obtain ⟨p, rfl⟩ := ha; obtain ⟨q, rfl⟩ := hb; exact ⟨p * q, (EReal.coe_mul p q).symm⟩

/-- A sum of two reals is real. -/
theorem real_add {a b : EReal} (ha : ∃ r : ℝ, a = (r : EReal)) (hb : ∃ r : ℝ, b = (r : EReal)) : ∃ r : ℝ, a + b = (r : EReal) := by
  obtain ⟨p, rfl⟩ := ha; obtain ⟨q, rfl⟩ := hb; exact ⟨p + q, (EReal.coe_add p q).symm⟩

/-- A difference of two reals is real. -/
theorem real_sub {a b : EReal} (ha : ∃ r : ℝ, a = (r : EReal)) (hb : ∃ r : ℝ, b = (r : EReal)) : ∃ r : ℝ, a - b = (r : EReal) := by
  obtain ⟨p, rfl⟩ := ha; obtain ⟨q, rfl⟩ := hb; exact ⟨p - q, (EReal.coe_sub p q).symm⟩

/-- A conditional between a real and zero is real. -/
theorem real_ite (c : Prop) [Decidable c] {a : EReal} (ha : ∃ r : ℝ, a = (r : EReal)) : ∃ r : ℝ, (if c then a else 0) = (r : EReal) := by
  split_ifs
  · exact ha
  · exact real_zero

/-- A finite sum of reals is real. -/
theorem real_sum {ι : Type} (s : Finset ι) (f : ι → EReal) (hf : ∀ i, ∃ r : ℝ, f i = (r : EReal)) :
    ∃ r : ℝ, ∑ i ∈ s, f i = (r : EReal) := by
  choose f' hf' using hf
  refine ⟨∑ i ∈ s, f' i, ?_⟩
  rw [coe_sum]
  exact Finset.sum_congr rfl fun i _ => hf' i

/-- The sparse product's entry Σ_e [P e] v e · x (col e) is real when the weights and the column are. -/
theorem real_sparse {E K : Type} [Fintype E] (col : E → K) (P : E → Prop) [DecidablePred P]
    (v : E → EReal) (x : K → EReal) (hv : ∀ e, ∃ r : ℝ, v e = (r : EReal)) (hx : ∀ k, ∃ r : ℝ, x k = (r : EReal)) :
    ∃ r : ℝ, (∑ e : E, if P e then v e * x (col e) else 0) = (r : EReal) :=
  real_sum _ _ fun e => real_ite _ (real_mul (hv e) (hx (col e)))

/-- The dense row A k = Σ_e [P e ∧ col e = k] v e is real when the weights are. -/
theorem real_dense_row {E K : Type} [Fintype E] [DecidableEq K] (col : E → K) (P : E → Prop) [DecidablePred P]
    (v : E → EReal) (hv : ∀ e, ∃ r : ℝ, v e = (r : EReal)) (k : K) :
    ∃ r : ℝ, (∑ e : E, if P e ∧ col e = k then v e else 0) = (r : EReal) :=
  real_sum _ _ fun e => real_ite _ (hv e)

/-- The second Chebyshev term c · y − z is real when c, y and z are. -/
theorem real_mul_sub {c y z : EReal} (hc : ∃ r : ℝ, c = (r : EReal)) (hy : ∃ r : ℝ, y = (r : EReal))
    (hz : ∃ r : ℝ, z = (r : EReal)) : ∃ r : ℝ, c * y - z = (r : EReal) :=
  real_sub (real_mul hc hy) hz

/-- The f32 pattern 0x40000000 denotes the real number 2. -/
theorem ofBits_two : Idealize.ShloMosaic.Ideal.ofBits .f32 0x40000000#32 = ((2 : ℝ) : EReal) := by
  simp [Idealize.ShloMosaic.Ideal.ofBits, Idealize.ShloMosaic.Ideal.ieee, -EReal.coe_mul]; norm_num

/-- An accumulator started at zero: 0 + s = s. -/
theorem zero_add_ereal (s : EReal) : (0 : EReal) + s = s := zero_add s

end Cert.DenseSparse

end
-- ==== Proof.KernelMath.lean ====
/-
  The law that joins the two programs. The kernel multiplies by the dense adjacency matrix of a support,
  A[i, k] = Σ over the edges e with row(e) = i and col(e) = k of val(e); the reference sums val(e) · X[col(e), f]
  over the edges of row i. For real entries (A·X)[i, f] = Σ_k A[i, k] · X[k, f] is that sum: the finite sums
  commute and the product distributes. Every intermediate (x0, the first products) is real again, so the law applies
  to the second product too.
-/
import proofs.«106054_j120259084553_1_alg».proof.Proof.Spec
import proofs.«106054_j120259084553_1_alg».proof.Proof.DenseSparse

noncomputable section

namespace Cert.KernelMath

open Idealize.ShloMosaic Idealize.ShloMosaic.ValueIdx Cert.Spec

variable (rows cols : S2x65536.Idx → BitVec 32) (vals : S2x65536.Idx → EReal)

/-- The dense adjacency matrix of support `s` at (i, k). -/
def adj (s : Fin 2) (i k : Fin 4096) : EReal :=
  ∑ e : Fin 65536, if (rows (ix2 s e)).toInt = (i.val : ℤ) ∧ (cols (ix2 s e)).toInt = (k.val : ℤ) then vals (ix2 s e) else 0

/-- A dense product (A·X)[r, f]. -/
def mm (A : Fin 4096 → Fin 4096 → EReal) (X : Fin 4096 → Fin 3072 → EReal) (r : Fin 4096) (f : Fin 3072) : EReal :=
  ∑ k : Fin 4096, A r k * X k f

/-- Where the column indices lie in [0, 4096), an edge's column is k exactly when its clamped column is. -/
theorem colOf_eq_iff (hcols : ∀ i, 0 ≤ (cols i).toInt ∧ (cols i).toInt < 4096) (s : Fin 2) (e : Fin 65536) (k : Fin 4096) :
    (cols (ix2 s e)).toInt = (k.val : ℤ) ↔ colOf cols s e = k := by
  obtain ⟨h0, h1⟩ := hcols (ix2 s e)
  constructor
  · intro h; apply Fin.ext; rw [colOf_val]; omega
  · intro h; have h2 := congrArg Fin.val h; rw [colOf_val] at h2; omega

/-- The dense product with the adjacency matrix is the sparse product. -/
theorem mm_adj_eq_spmm (hvals : ∀ i, ∃ r : ℝ, vals i = (r : EReal)) (hcols : ∀ i, 0 ≤ (cols i).toInt ∧ (cols i).toInt < 4096)
    (s : Fin 2) (X : Fin 4096 → Fin 3072 → EReal) (hX : ∀ k f, ∃ r : ℝ, X k f = (r : EReal)) (r : Fin 4096) (f : Fin 3072) :
    mm (adj rows cols vals s) X r f = spmm rows cols vals s X r f := by
  unfold mm adj spmm rowOf
  rw [← Cert.DenseSparse.dense_eq_sparse (colOf cols s) (fun e => (rows (ix2 s e)).toInt = (r.val : ℤ)) (fun e => vals (ix2 s e))
    (fun k => X k f) (fun e => hvals _) (fun k => hX k f)]
  refine Finset.sum_congr rfl fun k _ => ?_
  refine congrArg (· * X k f) ?_
  refine Finset.sum_congr rfl fun e _ => ?_
  simp only [colOf_eq_iff cols hcols s e k]

/-- The node-major feature matrix of real inputs is real. -/
theorem x0_real (inp : S16x4096x64.Idx → EReal) (st : S16x4096x128.Idx → EReal) (hinp : ∀ i, ∃ r : ℝ, inp i = (r : EReal))
    (hst : ∀ i, ∃ r : ℝ, st i = (r : EReal)) (n : Fin 4096) (f : Fin 3072) : ∃ r : ℝ, x0 inp st n f = (r : EReal) := by
  unfold x0; split
  · exact hinp _
  · exact hst _

/-- A sparse product of real values with a real matrix is real. -/
theorem spmm_real (hvals : ∀ i, ∃ r : ℝ, vals i = (r : EReal)) (s : Fin 2) (X : Fin 4096 → Fin 3072 → EReal)
    (hX : ∀ k f, ∃ r : ℝ, X k f = (r : EReal)) (r : Fin 4096) (f : Fin 3072) : ∃ q : ℝ, spmm rows cols vals s X r f = (q : EReal) := by
  unfold spmm
  exact Cert.DenseSparse.real_sparse (colOf cols s) (fun e => rowOf rows s e = (r.val : ℤ)) (fun e => vals (ix2 s e)) (fun k => X k f)
    (fun e => hvals _) (fun k => hX k f)

/-- The kernel's five diffusion terms, with dense products. -/
def kxs (inp : S16x4096x64.Idx → EReal) (st : S16x4096x128.Idx → EReal) (mmi : Fin 5) : Fin 4096 → Fin 3072 → EReal :=
  match mmi with
  | ⟨0, _⟩ => x0 inp st
  | ⟨1, _⟩ => mm (adj rows cols vals 0) (x0 inp st)
  | ⟨2, _⟩ => fun n f => two * mm (adj rows cols vals 0) (mm (adj rows cols vals 0) (x0 inp st)) n f - x0 inp st n f
  | ⟨3, _⟩ => mm (adj rows cols vals 1) (x0 inp st)
  | ⟨4, _⟩ => fun n f => two * mm (adj rows cols vals 1) (mm (adj rows cols vals 1) (x0 inp st)) n f - x0 inp st n f

/-- They are the specification's. -/
theorem kxs_eq_xs (inp : S16x4096x64.Idx → EReal) (st : S16x4096x128.Idx → EReal)
    (hinp : ∀ i, ∃ r : ℝ, inp i = (r : EReal)) (hst : ∀ i, ∃ r : ℝ, st i = (r : EReal))
    (hvals : ∀ i, ∃ r : ℝ, vals i = (r : EReal)) (hcols : ∀ i, 0 ≤ (cols i).toInt ∧ (cols i).toInt < 4096) (mmi : Fin 5) :
    kxs rows cols vals inp st mmi = xs inp st rows cols vals mmi := by
  have h1 : ∀ s : Fin 2, mm (adj rows cols vals s) (x0 inp st) = spmm rows cols vals s (x0 inp st) := fun s =>
    funext fun r => funext fun f => mm_adj_eq_spmm rows cols vals hvals hcols s _ (x0_real inp st hinp hst) r f
  have h2 : ∀ s : Fin 2, mm (adj rows cols vals s) (spmm rows cols vals s (x0 inp st)) = spmm rows cols vals s (spmm rows cols vals s (x0 inp st)) := fun s =>
    funext fun r => funext fun f => mm_adj_eq_spmm rows cols vals hvals hcols s _
      (spmm_real rows cols vals hvals s _ (x0_real inp st hinp hst)) r f
  match mmi with
  | ⟨0, _⟩ => rfl
  | ⟨1, _⟩ => exact h1 0
  | ⟨2, _⟩ => show (fun n f => two * mm (adj rows cols vals 0) (mm (adj rows cols vals 0) (x0 inp st)) n f - x0 inp st n f) = cheb2 inp st rows cols vals 0
              rw [h1 0, h2 0]; rfl
  | ⟨3, _⟩ => exact h1 1
  | ⟨4, _⟩ => show (fun n f => two * mm (adj rows cols vals 1) (mm (adj rows cols vals 1) (x0 inp st)) n f - x0 inp st n f) = cheb2 inp st rows cols vals 1
              rw [h1 1, h2 1]; rfl

end Cert.KernelMath

end
-- ==== Proof.HostStages.lean ====
/-
  The dense host stretches of the graph-convolution step, read at an index, for operands given as variables and for
  any proof of each shape relation. They are stated over the pure operations alone, so they apply to every program
  that spells these stretches with the same operations.

  * x0_at: the inputs and the state joined along the channel axis, transposed to [node, channel, batch] and
    flattened to [4096, 3072], read at (n, f): the specification's x0.
  * cheb_at: (2 · y) − x entrywise, 2 being the broadcast single-precision word 0x40000000.
  * concat5_at / stack_at: five [4096, 3072] matrices, each given a leading unit axis, joined along it, regrouped to
    [5, 4096, 192, 16], transposed to [16, 4096, 192, 5] and flattened to [65536, 960]: row b · 4096 + n, column j reads
    matrix j % 5 at node n and feature column (j / 5) · 16 + b.
  * out_at: the [65536, 128] result regrouped to [16, 4096, 128], read at (b, n, h): row b · 4096 + n, column h.
-/
import Idealize.ShloMosaic.Lib.Pipeline.Value
import Idealize.ShloMosaic.Lib.ValueIdx
import Idealize.ShloMosaic.PureOps.Ideal.Laws
import proofs.«106054_j120259084553_1_alg».proof.Proof.Spec

noncomputable section

namespace Cert.HostStages

open Idealize.ShloMosaic Idealize.ShloMosaic.ValueIdx Cert.Spec
open scoped BigOperators

abbrev T_ : Shape := ⟨0, ![]⟩
abbrev T16x4096x192 : Shape := ⟨3, ![16, 4096, 192]⟩
abbrev T4096x192x16 : Shape := ⟨3, ![4096, 192, 16]⟩
abbrev T4096x3072 : Shape := ⟨2, ![4096, 3072]⟩
abbrev T1x4096x3072 : Shape := ⟨3, ![1, 4096, 3072]⟩
abbrev T5x4096x3072 : Shape := ⟨3, ![5, 4096, 3072]⟩
abbrev T5x4096x192x16 : Shape := ⟨4, ![5, 4096, 192, 16]⟩
abbrev T16x4096x192x5 : Shape := ⟨4, ![16, 4096, 192, 5]⟩
abbrev T65536x960 : Shape := ⟨2, ![65536, 960]⟩
abbrev T65536x128 : Shape := ⟨2, ![65536, 128]⟩

/-- The row of a [65536, ·] matrix that holds batch b and node n: b · 4096 + n. -/
def rowAt (b : Fin 16) (n : Fin 4096) : Fin 65536 := ⟨b.val * 4096 + n.val, by have := b.isLt; have := n.isLt; omega⟩

theorem rowAt_val (b : Fin 16) (n : Fin 4096) : (rowAt b n).val = b.val * 4096 + n.val := rfl

/-! ## The concatenated input -/

/-- The inputs and the state joined along the channel axis, moved to node-major order and flattened: entry (n, f)
    is the joined array at batch f % 16, node n, channel f / 16. -/
theorem x0_at (inp : S16x4096x64.Idx → EReal) (st : S16x4096x128.Idx → EReal)
    (hc : Shape.Concatenates [S16x4096x64, S16x4096x128] T16x4096x192 2)
    (ht : T16x4096x192.Transposes [1, 2, 0] T4096x192x16) (hs : T4096x192x16.ShapeCasts T4096x3072)
    (n : Fin 4096) (f : Fin 3072) :
    shapeCast T4096x3072 (transpose T4096x192x16 [1, 2, 0]
        (concatenate T16x4096x192 2 [⟨S16x4096x64, inp⟩, ⟨S16x4096x128, st⟩] hc) ht) hs (ix2 n f)
      = x0 inp st n f := by
  have hn := n.isLt
  have hf := f.isLt
  refine (shapeCast_apply _ hs (ix2 n f)
    (ix3 n (⟨f.val / 16, by omega⟩ : Fin 192) (⟨f.val % 16, by omega⟩ : Fin 16))
    (by rewrite [Shape.rowMajor_val_three, Shape.rowMajor_val_two]
        show (n.val * 192 + f.val / 16) * 16 + f.val % 16 = n.val * 3072 + f.val
        omega)).trans ?_
  refine (transpose_apply [1, 2, 0] _ ht _
    (ix3 (⟨f.val % 16, by omega⟩ : Fin 16) n (⟨f.val / 16, by omega⟩ : Fin 192))
    (fun b => match b with
      | ⟨0, _⟩ => rfl
      | ⟨1, _⟩ => rfl
      | ⟨2, _⟩ => rfl)).trans ?_
  unfold x0
  split
  · rename_i h
    refine concatenate_pair_apply_left (t := T16x4096x192) (s₁ := S16x4096x64) (s₂ := S16x4096x128) 2 inp st hc _ rfl
      (ix3 (batchOf f) n (⟨f.val / 16, h⟩ : Fin 64)) (fun b => ?_)
    match b with
    | ⟨0, _⟩ => rfl
    | ⟨1, _⟩ => rfl
    | ⟨2, _⟩ => rfl
  · rename_i h
    refine concatenate_pair_apply_right (t := T16x4096x192) (s₁ := S16x4096x64) (s₂ := S16x4096x128) 2 inp st hc _ rfl
      rfl (ix3 (batchOf f) n (⟨f.val / 16 - 64, by omega⟩ : Fin 128)) (fun b hb => ?_) ?_
    · match b with
      | ⟨0, _⟩ => rfl
      | ⟨1, _⟩ => rfl
      | ⟨2, _⟩ => exact absurd rfl hb
    · show f.val / 16 - 64 + 64 = f.val / 16
      omega

/-! ## The Chebyshev recurrence -/

/-- (2 · y) − x entrywise, the 2 a broadcast of the single-precision word 0x40000000. -/
theorem cheb_at (hb : T_.BroadcastsInDim T4096x3072 (![] : Fin 0 → Fin T4096x3072.rank))
    (y x : FVec Ideal T4096x3072 .f32) (i : T4096x3072.Idx) :
    subf (mulf (broadcastInDim T4096x3072 ![] hb (constant (F := Ideal) T_ .f32 0x40000000#32)) y) x i
      = two * y i - x i := rfl

/-! ## The stack -/

/-- One of five, by its number. -/
def pick5 {α : Type} (p0 p1 p2 p3 p4 : α) (mm : Fin 5) : α :=
  match mm with
  | ⟨0, _⟩ => p0
  | ⟨1, _⟩ => p1
  | ⟨2, _⟩ => p2
  | ⟨3, _⟩ => p3
  | ⟨4, _⟩ => p4

/-- A matrix given a leading unit axis, read at (0, n, f): the matrix at (n, f). -/
theorem lead_at {α : Type} (hb : T4096x3072.BroadcastsInDim T1x4096x3072 (![1, 2] : Fin 2 → Fin T1x4096x3072.rank))
    (p : T4096x3072.Idx → α) (n : Fin 4096) (f : Fin 3072) :
    broadcastInDim T1x4096x3072 ![1, 2] hb p (ix3 (0 : Fin 1) n f) = p (ix2 n f) :=
  broadcastInDim_apply _ hb p _ (ix2 n f) (fun a => match a with
    | ⟨0, _⟩ => by show n.val = if (4096 : Nat) = 1 then 0 else n.val; rw [if_neg (by decide)]
    | ⟨1, _⟩ => by show f.val = if (3072 : Nat) = 1 then 0 else f.val; rw [if_neg (by decide)])

/-- Five arrays of one leading unit axis joined along it, read at (mm, n, f): array mm at (0, n, f). -/
theorem concat5_at {α : Type} (q0 q1 q2 q3 q4 : T1x4096x3072.Idx → α)
    (hc : Shape.Concatenates [T1x4096x3072, T1x4096x3072, T1x4096x3072, T1x4096x3072, T1x4096x3072] T5x4096x3072 0)
    (mm : Fin 5) (n : Fin 4096) (f : Fin 3072) :
    concatenate T5x4096x3072 0
        [⟨T1x4096x3072, q0⟩, ⟨T1x4096x3072, q1⟩, ⟨T1x4096x3072, q2⟩, ⟨T1x4096x3072, q3⟩, ⟨T1x4096x3072, q4⟩] hc
        (ix3 mm n f)
      = pick5 q0 q1 q2 q3 q4 mm (ix3 (0 : Fin 1) n f) := by
  have hi : ∀ (m : Fin 5) (b : Fin T1x4096x3072.rank), b.cast rfl ≠ (0 : Fin T5x4096x3072.rank) →
      ((ix3 (0 : Fin 1) n f) b).val = ((ix3 m n f) (b.cast rfl)).val := fun m b hb =>
    match b with
    | ⟨0, _⟩ => absurd rfl hb
    | ⟨1, _⟩ => rfl
    | ⟨2, _⟩ => rfl
  match mm with
  | ⟨0, _⟩ =>
    refine concatenate_apply_piece (t := T5x4096x3072) 0 _ _ _ 0 ?_ T1x4096x3072 q0 ?_ rfl 0 ?_
      (ix3 (0 : Fin 1) n f) (hi _) ?_
    · exact (by decide : (0 : Nat) < 5)
    · rfl
    · rfl
    · rfl
  | ⟨1, _⟩ =>
    refine concatenate_apply_piece (t := T5x4096x3072) 0 _ _ _ 1 ?_ T1x4096x3072 q1 ?_ rfl 1 ?_
      (ix3 (0 : Fin 1) n f) (hi _) ?_
    · exact (by decide : (1 : Nat) < 5)
    · rfl
    · rfl
    · rfl
  | ⟨2, _⟩ =>
    refine concatenate_apply_piece (t := T5x4096x3072) 0 _ _ _ 2 ?_ T1x4096x3072 q2 ?_ rfl 2 ?_
      (ix3 (0 : Fin 1) n f) (hi _) ?_
    · exact (by decide : (2 : Nat) < 5)
    · rfl
    · rfl
    · rfl
  | ⟨3, _⟩ =>
    refine concatenate_apply_piece (t := T5x4096x3072) 0 _ _ _ 3 ?_ T1x4096x3072 q3 ?_ rfl 3 ?_
      (ix3 (0 : Fin 1) n f) (hi _) ?_
    · exact (by decide : (3 : Nat) < 5)
    · rfl
    · rfl
    · rfl
  | ⟨4, _⟩ =>
    refine concatenate_apply_piece (t := T5x4096x3072) 0 _ _ _ 4 ?_ T1x4096x3072 q4 ?_ rfl 4 ?_
      (ix3 (0 : Fin 1) n f) (hi _) ?_
    · exact (by decide : (4 : Nat) < 5)
    · rfl
    · rfl
    · rfl

/-- The regrouping of a [5, 4096, 3072] stack into the [65536, 960] left operand of the contraction: row b · 4096 + n,
    column j reads the stack at (j % 5, n, (j / 5) · 16 + b). -/
theorem regroup_at {α : Type} (Y : T5x4096x3072.Idx → α) (hs1 : T5x4096x3072.ShapeCasts T5x4096x192x16)
    (ht : T5x4096x192x16.Transposes [3, 1, 2, 0] T16x4096x192x5) (hs2 : T16x4096x192x5.ShapeCasts T65536x960)
    (b : Fin 16) (n : Fin 4096) (j : Fin 960) :
    shapeCast T65536x960 (transpose T16x4096x192x5 [3, 1, 2, 0] (shapeCast T5x4096x192x16 Y hs1) ht) hs2
        (ix2 (rowAt b n) j)
      = Y (ix3 (mmOf j) n (colAt j b)) := by
  have hb := b.isLt
  have hn := n.isLt
  have hj := j.isLt
  refine (shapeCast_apply _ hs2 (ix2 (rowAt b n) j)
    (ix4 b n (⟨j.val / 5, by omega⟩ : Fin 192) (⟨j.val % 5, by omega⟩ : Fin 5))
    (by rewrite [Shape.rowMajor_val_four, Shape.rowMajor_val_two]
        show ((b.val * 4096 + n.val) * 192 + j.val / 5) * 5 + j.val % 5 = (b.val * 4096 + n.val) * 960 + j.val
        omega)).trans ?_
  refine (transpose_apply [3, 1, 2, 0] _ ht _
    (ix4 (⟨j.val % 5, by omega⟩ : Fin 5) n (⟨j.val / 5, by omega⟩ : Fin 192) b)
    (fun a => match a with
      | ⟨0, _⟩ => rfl
      | ⟨1, _⟩ => rfl
      | ⟨2, _⟩ => rfl
      | ⟨3, _⟩ => rfl)).trans ?_
  exact shapeCast_apply Y hs1 _ (ix3 (mmOf j) n (colAt j b))
    (by rewrite [Shape.rowMajor_val_three, Shape.rowMajor_val_four]
        show (j.val % 5 * 4096 + n.val) * 3072 + (j.val / 5 * 16 + b.val)
          = ((j.val % 5 * 4096 + n.val) * 192 + j.val / 5) * 16 + b.val
        omega)

/-- The five matrices stacked and regrouped: row b · 4096 + n, column j reads matrix j % 5 at node n and feature column
    (j / 5) · 16 + b. -/
theorem stack_at {α : Type} (p0 p1 p2 p3 p4 : T4096x3072.Idx → α)
    (hb : T4096x3072.BroadcastsInDim T1x4096x3072 (![1, 2] : Fin 2 → Fin T1x4096x3072.rank))
    (hc : Shape.Concatenates [T1x4096x3072, T1x4096x3072, T1x4096x3072, T1x4096x3072, T1x4096x3072] T5x4096x3072 0)
    (hs1 : T5x4096x3072.ShapeCasts T5x4096x192x16) (ht : T5x4096x192x16.Transposes [3, 1, 2, 0] T16x4096x192x5)
    (hs2 : T16x4096x192x5.ShapeCasts T65536x960) (b : Fin 16) (n : Fin 4096) (j : Fin 960) :
    shapeCast T65536x960 (transpose T16x4096x192x5 [3, 1, 2, 0] (shapeCast T5x4096x192x16
        (concatenate T5x4096x3072 0
          [⟨T1x4096x3072, broadcastInDim T1x4096x3072 ![1, 2] hb p0⟩,
           ⟨T1x4096x3072, broadcastInDim T1x4096x3072 ![1, 2] hb p1⟩,
           ⟨T1x4096x3072, broadcastInDim T1x4096x3072 ![1, 2] hb p2⟩,
           ⟨T1x4096x3072, broadcastInDim T1x4096x3072 ![1, 2] hb p3⟩,
           ⟨T1x4096x3072, broadcastInDim T1x4096x3072 ![1, 2] hb p4⟩] hc) hs1) ht) hs2 (ix2 (rowAt b n) j)
      = pick5 p0 p1 p2 p3 p4 (mmOf j) (ix2 n (colAt j b)) := by
  rw [regroup_at _ hs1 ht hs2 b n j, concat5_at _ _ _ _ _ hc (mmOf j) n (colAt j b)]
  generalize mmOf j = mm
  match mm with
  | ⟨0, _⟩ => exact lead_at hb p0 n _
  | ⟨1, _⟩ => exact lead_at hb p1 n _
  | ⟨2, _⟩ => exact lead_at hb p2 n _
  | ⟨3, _⟩ => exact lead_at hb p3 n _
  | ⟨4, _⟩ => exact lead_at hb p4 n _

/-- The same against the specification's five matrices: when the five operands are x0, spmm 0 x0, the second
    Chebyshev term of support 0, spmm 1 x0 and the second Chebyshev term of support 1, entry by entry. -/
theorem stack_at_xs (inp : S16x4096x64.Idx → EReal) (st : S16x4096x128.Idx → EReal)
    (rows cols : S2x65536.Idx → BitVec 32) (vals : S2x65536.Idx → EReal) (p0 p1 p2 p3 p4 : T4096x3072.Idx → EReal)
    (h0 : ∀ n f, p0 (ix2 n f) = x0 inp st n f)
    (h1 : ∀ n f, p1 (ix2 n f) = spmm rows cols vals 0 (x0 inp st) n f)
    (h2 : ∀ n f, p2 (ix2 n f) = cheb2 inp st rows cols vals 0 n f)
    (h3 : ∀ n f, p3 (ix2 n f) = spmm rows cols vals 1 (x0 inp st) n f)
    (h4 : ∀ n f, p4 (ix2 n f) = cheb2 inp st rows cols vals 1 n f)
    (hb : T4096x3072.BroadcastsInDim T1x4096x3072 (![1, 2] : Fin 2 → Fin T1x4096x3072.rank))
    (hc : Shape.Concatenates [T1x4096x3072, T1x4096x3072, T1x4096x3072, T1x4096x3072, T1x4096x3072] T5x4096x3072 0)
    (hs1 : T5x4096x3072.ShapeCasts T5x4096x192x16) (ht : T5x4096x192x16.Transposes [3, 1, 2, 0] T16x4096x192x5)
    (hs2 : T16x4096x192x5.ShapeCasts T65536x960) (b : Fin 16) (n : Fin 4096) (j : Fin 960) :
    shapeCast T65536x960 (transpose T16x4096x192x5 [3, 1, 2, 0] (shapeCast T5x4096x192x16
        (concatenate T5x4096x3072 0
          [⟨T1x4096x3072, broadcastInDim T1x4096x3072 ![1, 2] hb p0⟩,
           ⟨T1x4096x3072, broadcastInDim T1x4096x3072 ![1, 2] hb p1⟩,
           ⟨T1x4096x3072, broadcastInDim T1x4096x3072 ![1, 2] hb p2⟩,
           ⟨T1x4096x3072, broadcastInDim T1x4096x3072 ![1, 2] hb p3⟩,
           ⟨T1x4096x3072, broadcastInDim T1x4096x3072 ![1, 2] hb p4⟩] hc) hs1) ht) hs2 (ix2 (rowAt b n) j)
      = xs inp st rows cols vals (mmOf j) n (colAt j b) := by
  rw [stack_at p0 p1 p2 p3 p4 hb hc hs1 ht hs2 b n j]
  generalize mmOf j = mm
  match mm with
  | ⟨0, _⟩ => exact h0 n _
  | ⟨1, _⟩ => exact h1 n _
  | ⟨2, _⟩ => exact h2 n _
  | ⟨3, _⟩ => exact h3 n _
  | ⟨4, _⟩ => exact h4 n _

/-! ## The result's regrouping -/

/-- The [65536, 128] result regrouped to [16, 4096, 128], read at (b, n, h): row b · 4096 + n, column h. -/
theorem out_at {α : Type} (y : T65536x128.Idx → α) (hs : T65536x128.ShapeCasts S16x4096x128)
    (b : Fin 16) (n : Fin 4096) (h : Fin 128) :
    shapeCast S16x4096x128 y hs (ix3 b n h) = y (ix2 (rowAt b n) h) :=
  shapeCast_apply y hs _ _
    (by rewrite [Shape.rowMajor_val_two, Shape.rowMajor_val_three]
        show (b.val * 4096 + n.val) * 128 + h.val = (b.val * 4096 + n.val) * 128 + h.val
        rfl)

end Cert.HostStages

end
-- ==== Proof.KernelTerms.lean ====
/-
  The kernel's host stages read at an index, over the extended reals.

  The node-major feature matrix is the specification's x0; the dense adjacency matrix of support s has at (r, k) the
  sum of the values of the edges from row r to column k; a matrix-product array whose entry (r, f) is
  Σ_k A(r, k) · X(k, f) is the dense product of the adjacency matrix with X; and the five diffusion terms the stack
  is built from are, entry by entry, the five terms written with dense products.
-/
import proofs.«106054_j120259084553_1_alg».proof.Proof.KernelAdj
import proofs.«106054_j120259084553_1_alg».proof.Proof.KernelMath
import proofs.«106054_j120259084553_1_alg».proof.Proof.HostStages

noncomputable section

namespace Cert.KernelIdeal.Hand

open Cert.KernelIdeal Cert.KernelIdeal.Gen
open Idealize.ShloMosaic Idealize.ShloMosaic.ValueIdx
open scoped BigOperators

variable (a0 : FVec Ideal S16x4096x64 .f32) (a1 : FVec Ideal S16x4096x128 .f32) (a4 a5 : IVec S2x65536 32)
  (a6 : FVec Ideal S2x65536 .f32)

/-! ## The pure stages at an index -/

/-- The node-major feature matrix at (n, f) is the specification's x0. -/
theorem x0T_at (n : Fin 4096) (f : Fin 3072) :
    (x0T (F := Ideal) a0 a1 : S4096x3072.Idx → EReal) (ix2 n f) = Spec.x0 a0 a1 n f := by
  unfold x0T
  exact HostStages.x0_at a0 a1 _ _ _ n f

/-- A change of format is the identity over the extended reals. -/
theorem toBf_at (x : FVec Ideal S4096x3072 .f32) (i : S4096x3072.Idx) :
    (toBf (F := Ideal) x : S4096x3072.Idx → EReal) i = x i := rfl

/-- The second Chebyshev term entrywise: 2 · y − x, the 2 the single-precision word 0x40000000. -/
theorem cheb2T_at (y x : FVec Ideal S4096x3072 .f32) (i : S4096x3072.Idx) :
    (cheb2T (F := Ideal) y x : S4096x3072.Idx → EReal) i = Spec.two * y i - x i := rfl

/-- The five matrices stacked and regrouped: row b · 4096 + n, column j reads matrix j % 5 at node n and feature
    column (j / 5) · 16 + b. -/
theorem relayT_at (t0 t1 t2 t3 t4 : FVec Ideal S4096x3072 .f32) (b : Fin 16) (n : Fin 4096) (j : Fin 960) :
    (relayT (F := Ideal) t0 t1 t2 t3 t4 : S65536x960.Idx → EReal) (ix2 (HostStages.rowAt b n) j)
      = HostStages.pick5 t0 t1 t2 t3 t4 (Spec.mmOf j) (ix2 n (Spec.colAt j b)) := by
  unfold relayT
  exact HostStages.stack_at t0 t1 t2 t3 t4 _ _ _ _ _ b n j

/-- The result regrouped to [16, 4096, 128], read at (b, n, h): row b · 4096 + n, column h. -/
theorem outT_at (y : FVec Ideal S65536x128 .f32) (b : Fin 16) (n : Fin 4096) (h : Fin 128) :
    (outT (F := Ideal) y : S16x4096x128.Idx → EReal) (ix3 b n h) = y (ix2 (HostStages.rowAt b n) h) := by
  unfold outT
  exact HostStages.out_at y _ b n h

/-! ## The adjacency matrices -/

section
variable (hrows : ∀ i, 0 ≤ (a4 i).toInt ∧ (a4 i).toInt < 4096) (hcols : ∀ i, 0 ≤ (a5 i).toInt ∧ (a5 i).toInt < 4096)
include hrows hcols

/-- The adjacency matrix of support 0 at (r, k). -/
theorem adj0_at (r k : Fin 4096) :
    (adjT (F := Ideal) (rowI0 a4) (rowI0 a5) (rowF0 a6) : S4096x4096.Idx → EReal) (ix2 r k)
      = KernelMath.adj a4 a5 a6 0 r k := by
  rw [adjT_apply _ _ _ (fun e => by rw [rowI0_apply]; exact (hrows _).1) (fun e => by rw [rowI0_apply]; exact (hcols _).1)]
  unfold KernelMath.adj
  refine Finset.sum_congr rfl fun e _ => ?_
  rw [rowI0_apply, rowI0_apply, rowF0_apply]

/-- The adjacency matrix of support 1 at (r, k). -/
theorem adj1_at (r k : Fin 4096) :
    (adjT (F := Ideal) (rowI1 a4) (rowI1 a5) (rowF1 a6) : S4096x4096.Idx → EReal) (ix2 r k)
      = KernelMath.adj a4 a5 a6 1 r k := by
  rw [adjT_apply _ _ _ (fun e => by rw [rowI1_apply]; exact (hrows _).1) (fun e => by rw [rowI1_apply]; exact (hcols _).1)]
  unfold KernelMath.adj
  refine Finset.sum_congr rfl fun e _ => ?_
  rw [rowI1_apply, rowI1_apply, rowF1_apply]

end

/-! ## A matrix-product array is the dense product -/

/-- An array whose entry (r, f) is Σ_k A(r, k) · X(k, f), A the adjacency matrix of support s and X a matrix given as
    a function of node and feature column, is the dense product. -/
theorem prod_at (s : Fin 2) (A : FVec Ideal S4096x4096 .bf16)
    (hA : ∀ r k : Fin 4096, (A : S4096x4096.Idx → EReal) (ix2 r k) = KernelMath.adj a4 a5 a6 s r k)
    (X : FVec Ideal S4096x3072 .f32) (Xf : Fin 4096 → Fin 3072 → EReal) (hX : ∀ n f, X (ix2 n f) = Xf n f)
    (P : FVec Ideal S4096x3072 .f32)
    (hP : ∀ (r : Fin 4096) (f : Fin 3072), P (ix2 r f)
      = ∑ k : Fin 4096, (A : S4096x4096.Idx → EReal) (ix2 r k) * (toBf (F := Ideal) X : S4096x3072.Idx → EReal) (ix2 k f))
    (r : Fin 4096) (f : Fin 3072) :
    P (ix2 r f) = KernelMath.mm (KernelMath.adj a4 a5 a6 s) Xf r f := by
  rw [hP]
  unfold KernelMath.mm
  refine Finset.sum_congr rfl fun k _ => ?_
  rw [hA, toBf_at, hX]

end Cert.KernelIdeal.Hand

end
-- ==== Proof.KernelBridge.lean ====
/-
  The kernel's value is the specification's G.

  Given the four matrix-product arrays as sums Σ_k A_s(r, k) · X(k, f) over the kernel's operands and the final
  array as tanh(Σ_j L(row, j) · W(j, h) + bias(h)) over the stacked and regrouped left operand L, the regrouped
  result at (b, n, h) is tanh(Σ_j xs(j % 5)(n, (j / 5) · 16 + b) · W(j, h) + bias(h)): the five matrices the stack is
  built from are the five terms written with dense products, which for real inputs and in-range columns are the
  specification's.
-/
import proofs.«106054_j120259084553_1_alg».proof.Proof.KernelTerms

noncomputable section

namespace Cert.KernelIdeal.Hand

open Cert.KernelIdeal Cert.KernelIdeal.Gen
open Idealize.ShloMosaic Idealize.ShloMosaic.ValueIdx
open scoped BigOperators

variable (a0 : FVec Ideal S16x4096x64 .f32) (a1 : FVec Ideal S16x4096x128 .f32) (a2 : FVec Ideal S960x128 .f32)
  (a3 : FVec Ideal S128 .f32) (a4 a5 : IVec S2x65536 32) (a6 : FVec Ideal S2x65536 .f32)

/-- The five matrices the stack is built from, entry by entry: the five diffusion terms with dense products. -/
theorem terms_at
    (hrows : ∀ i, 0 ≤ (a4 i).toInt ∧ (a4 i).toInt < 4096) (hcols : ∀ i, 0 ≤ (a5 i).toInt ∧ (a5 i).toInt < 4096)
    (P1 P2 P3 P4 : FVec Ideal S4096x3072 .f32)
    (hP1 : ∀ (r : Fin 4096) (f : Fin 3072), P1 (ix2 r f) = ∑ k : Fin 4096,
      (adjT (rowI0 a4) (rowI0 a5) (rowF0 a6) : S4096x4096.Idx → EReal) (ix2 r k)
        * (toBf (x0T a0 a1) : S4096x3072.Idx → EReal) (ix2 k f))
    (hP2 : ∀ (r : Fin 4096) (f : Fin 3072), P2 (ix2 r f) = ∑ k : Fin 4096,
      (adjT (rowI0 a4) (rowI0 a5) (rowF0 a6) : S4096x4096.Idx → EReal) (ix2 r k)
        * (toBf P1 : S4096x3072.Idx → EReal) (ix2 k f))
    (hP3 : ∀ (r : Fin 4096) (f : Fin 3072), P3 (ix2 r f) = ∑ k : Fin 4096,
      (adjT (rowI1 a4) (rowI1 a5) (rowF1 a6) : S4096x4096.Idx → EReal) (ix2 r k)
        * (toBf (x0T a0 a1) : S4096x3072.Idx → EReal) (ix2 k f))
    (hP4 : ∀ (r : Fin 4096) (f : Fin 3072), P4 (ix2 r f) = ∑ k : Fin 4096,
      (adjT (rowI1 a4) (rowI1 a5) (rowF1 a6) : S4096x4096.Idx → EReal) (ix2 r k)
        * (toBf P3 : S4096x3072.Idx → EReal) (ix2 k f))
    (mm : Fin 5) (n : Fin 4096) (f : Fin 3072) :
    HostStages.pick5 (x0T (F := Ideal) a0 a1) P1 (cheb2T P2 (x0T a0 a1)) P3 (cheb2T P4 (x0T a0 a1)) mm (ix2 n f)
      = KernelMath.kxs a4 a5 a6 a0 a1 mm n f := by
  have e1 := prod_at a4 a5 a6 0 _ (adj0_at a4 a5 a6 hrows hcols) _ _ (x0T_at a0 a1) P1 hP1
  have e2 := prod_at a4 a5 a6 0 _ (adj0_at a4 a5 a6 hrows hcols) _ _ e1 P2 hP2
  have e3 := prod_at a4 a5 a6 1 _ (adj1_at a4 a5 a6 hrows hcols) _ _ (x0T_at a0 a1) P3 hP3
  have e4 := prod_at a4 a5 a6 1 _ (adj1_at a4 a5 a6 hrows hcols) _ _ e3 P4 hP4
  match mm with
  | ⟨0, _⟩ => exact x0T_at a0 a1 n f
  | ⟨1, _⟩ => exact e1 n f
  | ⟨2, _⟩ =>
    show (cheb2T (F := Ideal) P2 (x0T a0 a1) : S4096x3072.Idx → EReal) (ix2 n f)
      = Spec.two * KernelMath.mm (KernelMath.adj a4 a5 a6 0) (KernelMath.mm (KernelMath.adj a4 a5 a6 0) (Spec.x0 a0 a1)) n f
        - Spec.x0 a0 a1 n f
    rw [cheb2T_at, e2, x0T_at]
  | ⟨3, _⟩ => exact e3 n f
  | ⟨4, _⟩ =>
    show (cheb2T (F := Ideal) P4 (x0T a0 a1) : S4096x3072.Idx → EReal) (ix2 n f)
      = Spec.two * KernelMath.mm (KernelMath.adj a4 a5 a6 1) (KernelMath.mm (KernelMath.adj a4 a5 a6 1) (Spec.x0 a0 a1)) n f
        - Spec.x0 a0 a1 n f
    rw [cheb2T_at, e4, x0T_at]

/-- The kernel's regrouped result is the specification's result. -/
theorem kernel_value
    (h0 : ∀ i, ∃ r : ℝ, a0 i = (r : EReal)) (h1 : ∀ i, ∃ r : ℝ, a1 i = (r : EReal))
    (h6 : ∀ i, ∃ r : ℝ, a6 i = (r : EReal))
    (hrows : ∀ i, 0 ≤ (a4 i).toInt ∧ (a4 i).toInt < 4096) (hcols : ∀ i, 0 ≤ (a5 i).toInt ∧ (a5 i).toInt < 4096)
    (P1 P2 P3 P4 : FVec Ideal S4096x3072 .f32) (Y : FVec Ideal S65536x128 .f32)
    (hP1 : ∀ (r : Fin 4096) (f : Fin 3072), P1 (ix2 r f) = ∑ k : Fin 4096,
      (adjT (rowI0 a4) (rowI0 a5) (rowF0 a6) : S4096x4096.Idx → EReal) (ix2 r k)
        * (toBf (x0T a0 a1) : S4096x3072.Idx → EReal) (ix2 k f))
    (hP2 : ∀ (r : Fin 4096) (f : Fin 3072), P2 (ix2 r f) = ∑ k : Fin 4096,
      (adjT (rowI0 a4) (rowI0 a5) (rowF0 a6) : S4096x4096.Idx → EReal) (ix2 r k)
        * (toBf P1 : S4096x3072.Idx → EReal) (ix2 k f))
    (hP3 : ∀ (r : Fin 4096) (f : Fin 3072), P3 (ix2 r f) = ∑ k : Fin 4096,
      (adjT (rowI1 a4) (rowI1 a5) (rowF1 a6) : S4096x4096.Idx → EReal) (ix2 r k)
        * (toBf (x0T a0 a1) : S4096x3072.Idx → EReal) (ix2 k f))
    (hP4 : ∀ (r : Fin 4096) (f : Fin 3072), P4 (ix2 r f) = ∑ k : Fin 4096,
      (adjT (rowI1 a4) (rowI1 a5) (rowF1 a6) : S4096x4096.Idx → EReal) (ix2 r k)
        * (toBf P3 : S4096x3072.Idx → EReal) (ix2 k f))
    (hY : ∀ (row : Fin 65536) (h : Fin 128), Y (ix2 row h) = Ideal.tanh ((∑ j : Fin 960,
      (truncf .bf16 (relayT (x0T a0 a1) P1 (cheb2T P2 (x0T a0 a1)) P3 (cheb2T P4 (x0T a0 a1))) bitsLt_bf16_f32
          : S65536x960.Idx → EReal) (ix2 row j)
        * (truncf .bf16 a2 bitsLt_bf16_f32 : S960x128.Idx → EReal) (ix2 j h)) + a3 (ix1 h))) :
    outT Y = Cert.Spec.G a0 a1 a2 a3 a4 a5 a6 := by
  funext i
  obtain ⟨b, n, h, rfl⟩ : ∃ (b : Fin 16) (n : Fin 4096) (h : Fin 128), i = ix3 b n h := ⟨i 0, i 1, i 2, eq_ix3 i⟩
  rw [Spec.G_ix3, outT_at, hY]
  unfold Spec.Gat
  refine congrArg Ideal.tanh (congrArg₂ (· + ·) (Finset.sum_congr rfl fun j _ => congrArg₂ (· * ·) ?_ rfl) rfl)
  rw [truncf_apply, relayT_at, terms_at a0 a1 a4 a5 a6 hrows hcols P1 P2 P3 P4 hP1 hP2 hP3 hP4]
  exact congrFun (congrFun (KernelMath.kxs_eq_xs a4 a5 a6 a0 a1 h0 h1 h6 hcols (Spec.mmOf j)) n) (Spec.colAt j b)

end Cert.KernelIdeal.Hand

end
-- ==== Proof.PreFacts.lean ====
/-
  The precondition decoded. The printed predicate is a conjunction of seven "all" reductions; when its one result
  word is 1, every float argument's entries are real numbers (their absolute value is below +∞) and every entry of the
  two integer index arrays lies in [0, 4096) read signed.
-/
import proofs.«106054_j120259084553_1_alg».proof.Pre_finite_inputs
import Idealize.ShloMosaic.Lib.ReduceAll
import Idealize.ShloMosaic.Lib.ValueIdx
import Idealize.ShloMosaic.PureOps.Ideal

noncomputable section

namespace Cert.PreFacts

open Idealize.ShloMosaic Idealize.ShloMosaic.ValueIdx Cert.Pre_finite_inputs

/-- The scalar shape has one index. -/
instance subsingleton_S_ : Subsingleton S_.Idx := ⟨fun _ _ => funext fun d => d.elim0⟩

/-- The f32 pattern 0x7F800000 denotes +∞. -/
theorem ofBits_inf : Ideal.ofBits .f32 0x7F800000#32 = (⊤ : EReal) := by simp [Ideal.ofBits, Ideal.ieee]

/-- An extended real x with max x (−x) < +∞ is a real number. -/
theorem real_of_abs_lt_top (x : EReal) (h : Ideal.cmp .olt (max x (-x)) (⊤ : EReal) = 1#1) : ∃ r : ℝ, x = (r : EReal) := by
  induction x using EReal.rec with
  | bot => simp [Ideal.cmp] at h
  | coe r => exact ⟨r, rfl⟩
  | top => simp [Ideal.cmp] at h

/-- The elementwise test |a| < +∞ (against the broadcast +∞ constant), true at an index, says that entry is real. -/
theorem real_of_test {s : Shape} (hb : S_.BroadcastsInDim s (![] : Fin 0 → Fin s.rank)) (a : FVec Ideal s .f32) (i : s.Idx)
    (h : cmpf .olt (Host.absf a) (broadcastInDim s ![] hb (constant (F := Ideal) S_ .f32 0x7F800000#32)) i = 1#1) :
    ∃ r : ℝ, a i = (r : EReal) := by
  refine real_of_abs_lt_top (a i) ?_
  rw [← ofBits_inf]
  exact h

/-- The two signed range tests 0 ≤ w and w < 4096 (against broadcast constants), both true at an index, bound the word
    read signed. -/
theorem range_of_test {s : Shape} (hb : S_.BroadcastsInDim s (![] : Fin 0 → Fin s.rank)) (a : IVec s 32) (i : s.Idx)
    (h0 : cmpi .sge a (broadcastInDim s ![] hb (constantI S_ 32 0#32)) i = 1#1)
    (h1 : cmpi .slt a (broadcastInDim s ![] hb (constantI S_ 32 4096#32)) i = 1#1) :
    0 ≤ (a i).toInt ∧ (a i).toInt < 4096 := by
  have e0 : IntOp.cmpi .sge (a i) (0#32) = 1#1 := h0
  have e1 : IntOp.cmpi .slt (a i) (4096#32) = 1#1 := h1
  rw [IntOp.cmpi_sge] at e0
  rw [IntOp.cmpi_slt] at e1
  have z0 : (0#32 : BitVec 32).toInt = 0 := by decide
  have z1 : (4096#32 : BitVec 32).toInt = 4096 := by decide
  rw [z0] at e0
  rw [z1] at e1
  exact ⟨e0, e1⟩

/-- A conjunction of two one-bit words read at an index. -/
theorem andi_ix {s : Shape} (x y : IVec s 1) (i : s.Idx) : andi x y i = IntOp.andi (x i) (y i) := rfl

variable [Cert.Pre_finite_inputs.Facts]

/-- THE PRECONDITION DECODED: every float argument is real entrywise, and both index arrays have every entry in
    [0, 4096) read signed. -/
theorem decode (a0 : FVec Ideal S16x4096x64 .f32) (a1 : FVec Ideal S16x4096x128 .f32) (a2 : FVec Ideal S960x128 .f32)
    (a3 : FVec Ideal S128 .f32) (a4 a5 : IVec S2x65536 32) (a6 : FVec Ideal S2x65536 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a6 i = (r : EReal))
      ∧ (∀ i, 0 ≤ (a4 i).toInt ∧ (a4 i).toInt < 4096) ∧ (∀ i, 0 ≤ (a5 i).toInt ∧ (a5 i).toInt < 4096) := by
  have e := congrFun h ix0
  dsimp only [fn, fn_part1, fn_part2] at e
  simp only [andi_ix, IntOp.andi_eq_one] at e
  obtain ⟨⟨⟨⟨⟨⟨e0, e1⟩, e2⟩, e3⟩, e6⟩, e4⟩, e5⟩ := e
  refine ⟨fun i => ?_, fun i => ?_, fun i => ?_, fun i => ?_, fun i => ?_, fun i => ?_, fun i => ?_⟩
  · exact real_of_test _ a0 i (Host.reduce_andi_all _ _ _ _ _ e0 i)
  · exact real_of_test _ a1 i (Host.reduce_andi_all _ _ _ _ _ e1 i)
  · exact real_of_test _ a2 i (Host.reduce_andi_all _ _ _ _ _ e2 i)
  · exact real_of_test _ a3 i (Host.reduce_andi_all _ _ _ _ _ e3 i)
  · exact real_of_test _ a6 i (Host.reduce_andi_all _ _ _ _ _ e6 i)
  · have t := Host.reduce_andi_all _ _ _ _ _ e4 i
    rw [andi_ix, IntOp.andi_eq_one] at t
    exact range_of_test _ a4 i t.1 t.2
  · have t := Host.reduce_andi_all _ _ _ _ _ e5 i
    rw [andi_ix, IntOp.andi_eq_one] at t
    exact range_of_test _ a5 i t.1 t.2

end Cert.PreFacts

end
-- ==== Proof.KernelResult.lean ====
/-
  The kernel's result is the specification: under the precondition (every float input real, every index in [0, 4096))
  the four pallas products are the dense products with the adjacency matrices, the final region's rows are
  tanh(X·W + b), and the value bridge turns the dense products into the reference's sparse ones.
-/
import proofs.«106054_j120259084553_1_alg».proof.Proof.KernelChase
import proofs.«106054_j120259084553_1_alg».proof.Proof.MatmulValue0
import proofs.«106054_j120259084553_1_alg».proof.Proof.MatmulValue1
import proofs.«106054_j120259084553_1_alg».proof.Proof.MatmulValue2
import proofs.«106054_j120259084553_1_alg».proof.Proof.MatmulValue3
import proofs.«106054_j120259084553_1_alg».proof.Proof.FinalValue
import proofs.«106054_j120259084553_1_alg».proof.Proof.KernelBridge
import proofs.«106054_j120259084553_1_alg».proof.Proof.PreFacts
import proofs.«106054_j120259084553_1_alg».proof.Proof.Gen.Pre_finite_inputs

set_option maxRecDepth 16384

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

/-- The first product: the adjacency matrix of support 0 times x0. -/
theorem P1_apply (r : Fin 4096) (f : Fin 3072) :
    P1 m c (ix2 r f) = ∑ k : Fin 4096, (AD0 m c : S4096x4096.Idx → EReal) (ix2 r k) * (toBf (K0 m c) : S4096x3072.Idx → EReal) (ix2 k f) := by
  have h := arrAt0_apply (E1 m) c r f
  unfold mA0 mX0 at h
  rw [E1_in0 m c, E1_in1 m c] at h
  exact h

/-- The second: the same matrix times the first product. -/
theorem P2_apply (r : Fin 4096) (f : Fin 3072) :
    P2 m c (ix2 r f) = ∑ k : Fin 4096, (AD0 m c : S4096x4096.Idx → EReal) (ix2 r k) * (toBf (P1 m c) : S4096x3072.Idx → EReal) (ix2 k f) := by
  have h := arrAt1_apply (E3 m) c r f
  unfold mA1 mX1 at h
  rw [E3_in0 m c, E3_in1 m c] at h
  exact h

/-- The third: the adjacency matrix of support 1 times x0. -/
theorem P3_apply (r : Fin 4096) (f : Fin 3072) :
    P3 m c (ix2 r f) = ∑ k : Fin 4096, (AD1 m c : S4096x4096.Idx → EReal) (ix2 r k) * (toBf (K0 m c) : S4096x3072.Idx → EReal) (ix2 k f) := by
  have h := arrAt2_apply (E5 m) c r f
  unfold mA2 mX2 at h
  rw [E5_in0 m c, E5_in1 m c] at h
  exact h

/-- The fourth: that matrix times the third product. -/
theorem P4_apply (r : Fin 4096) (f : Fin 3072) :
    P4 m c (ix2 r f) = ∑ k : Fin 4096, (AD1 m c : S4096x4096.Idx → EReal) (ix2 r k) * (toBf (P3 m c) : S4096x3072.Idx → EReal) (ix2 k f) := by
  have h := arrAt3_apply (E7 m) c r f
  unfold mA3 mX3 at h
  rw [E7_in0 m c, E7_in1 m c] at h
  exact h

/-- The final region's rows. -/
theorem YY_apply (row : Fin 65536) (h : Fin 128) :
    YY m c (ix2 row h) = Ideal.tanh ((∑ j : Fin 960,
        (truncf .bf16 (relayT (K0 m c) (P1 m c) (cheb2T (P2 m c) (K0 m c)) (P3 m c) (cheb2T (P4 m c) (K0 m c))) bitsLt_bf16_f32 : S65536x960.Idx → EReal) (ix2 row j)
          * (truncf .bf16 (ar2 m c) bitsLt_bf16_f32 : S960x128.Idx → EReal) (ix2 j h)) + ar3 m c (ix1 h)) :=
  arrAt4_apply (E9 m) c _ _ _ (E9_in0 m c) (E9_in1 m c) (E9_in2 m c) row h

/-- THE KERNEL'S RESULT. -/
theorem kernel_result
    (hpre : Cert.Pre_finite_inputs.fn (F := Ideal) (ar0 m c) (ar1 m c) (ar2 m c) (ar3 m c) (ar4 m c) (ar5 m c) (ar6 m c) = fun _ => 1#1) :
    Gen.V11 m (outs m) c main_v73 = Cert.Spec.G (ar0 m c) (ar1 m c) (ar2 m c) (ar3 m c) (ar4 m c) (ar5 m c) (ar6 m c) := by
  obtain ⟨h0, h1, h2, h3, h6, hrows, hcols⟩ := Cert.PreFacts.decode _ _ _ _ _ _ _ hpre
  rw [V11_eq m c, W11_v73 m c]
  exact kernel_value (ar0 m c) (ar1 m c) (ar2 m c) (ar3 m c) (ar4 m c) (ar5 m c) (ar6 m c) h0 h1 h6 hrows hcols
    (P1 m c) (P2 m c) (P3 m c) (P4 m c) (YY m c) (P1_apply m c) (P2_apply m c) (P3_apply m c) (P4_apply m c) (YY_apply m c)

end Cert.KernelIdeal.Hand

end
-- ==== Proof.LibScatterRows.lean ====
/-
  An accumulating scatter of the rows of an E × K matrix of updates into the rows of an N × K matrix, by an E × 1
  column of signed row numbers, read at an entry, over the extended reals. The node count N, the edge count E and
  the width K are arbitrary. The dimension record is
    update window axes [1], inserted window axes [0], scatter-to-operand map [0], index-vector axis 1.

  Where an update lands. The start of the window on operand axis 0 is the row number at `(e, 0)`, read signed and
  not clamped; on axis 1 it is 0. The window coordinate is 0 on axis 0 and the update's column on axis 1. Hence
  update `(e, k)` lands iff that row number lies in [0, N), and then at (that row, column `k`).

  The sum. Edge e goes to the row whose number the index column holds at e and is dropped when that number is not
  a row. So row n receives exactly the edges of `inEdges idx n`, and entry (n, j) of the result is the operand's
  entry plus the sum over those edges of the updates' column j.
-/
import Idealize.ShloMosaic.PureOps.Dims
import Idealize.ShloMosaic.PureOps.Ideal
import Idealize.ShloMosaic.Lib.ValueIdx

noncomputable section

namespace Cert.LibScatterRows
open Idealize.ShloMosaic
open Idealize.ShloMosaic.ValueIdx

variable {N E K : Nat}

/-- The operand: N rows of width K. -/
abbrev SN (N K : Nat) : Shape := ⟨2, ![N, K]⟩
/-- The column of E row numbers. -/
abbrev SI (E : Nat) : Shape := ⟨2, ![E, 1]⟩
/-- The updates: E rows of width K. -/
abbrev SU (E K : Nat) : Shape := ⟨2, ![E, K]⟩

/-- The record, over any proof of its well-formedness. -/
abbrev D2 (wf : ScatterDims.WF (SN N K) (SI E) (SU E K) [1] [0] [0] 1) : ScatterDims (SN N K) (SI E) (SU E K) :=
  ⟨[1], [0], [0], 1, wf⟩

/-! ## Where an update lands -/

/-- The scatter-indices index read for an update index `(e, k)`: row `e`, the one column. -/
theorem siIdx2 (wf : ScatterDims.WF (SN N K) (SI E) (SU E K) [1] [0] [0] 1) (e : Fin E) (k : Fin K) (c) :
    (D2 wf).siIdx (ix2 e k) c = ix2 e (0 : Fin 1) := by
  funext b
  match b with
  | ⟨0, _⟩ => exact Fin.ext rfl
  | ⟨1, _⟩ => exact Fin.ext (by simp [ScatterDims.siIdx])

/-- On operand axis 0 the window starts at the row number read signed at `(e, 0)`. -/
theorem start2_0 (wf : ScatterDims.WF (SN N K) (SI E) (SU E K) [1] [0] [0] 1) {w : Nat} (idx : IVec (SI E) w)
    (e : Fin E) (k : Fin K) :
    (D2 wf).start (ix2 e k) idx 0 = (idx (ix2 e (0 : Fin 1))).toInt := by
  unfold ScatterDims.start
  simp [siIdx2]

/-- Operand axis 1 is not in the scatter-to-operand map: the window starts at 0 there. -/
theorem start2_1 (wf : ScatterDims.WF (SN N K) (SI E) (SU E K) [1] [0] [0] 1) {w : Nat} (idx : IVec (SI E) w) (j) :
    (D2 wf).start j idx 1 = 0 := by
  unfold ScatterDims.start
  simp

/-- Operand axis 0 is an inserted window axis: the window coordinate is 0 there. -/
theorem window2_0 (wf : ScatterDims.WF (SN N K) (SI E) (SU E K) [1] [0] [0] 1) (j) :
    (D2 wf).window j 0 = 0 := by
  unfold ScatterDims.window
  simp [Shape.kept]

/-- Operand axis 1 is the only kept axis and takes the update's window axis 1. -/
theorem window2_1 (wf : ScatterDims.WF (SN N K) (SI E) (SU E K) [1] [0] [0] 1) (j) :
    (D2 wf).window j 1 = (j 1).val := rfl

/-- Update `(e, k)` lands on `(n, j)` iff the row number at `(e, 0)` is `n` and the columns agree. -/
theorem land2 (wf : ScatterDims.WF (SN N K) (SI E) (SU E K) [1] [0] [0] 1) {w : Nat} (idx : IVec (SI E) w)
    (e : Fin E) (k : Fin K) (n : Fin N) (j : Fin K) :
    (D2 wf).resultIdx? (ix2 e k) idx = some (ix2 n j) ↔
      (idx (ix2 e (0 : Fin 1))).toInt = (n.val : Int) ∧ k = j := by
  have hk := k.isLt
  have hj := j.isLt
  have hn := n.isLt
  unfold ScatterDims.resultIdx?
  split
  · rename_i h
    have h0 := h 0
    simp only [start2_0, window2_0] at h0
    change 0 ≤ (idx (ix2 e (0 : Fin 1))).toInt + ((0 : Nat) : Int) ∧
      (idx (ix2 e (0 : Fin 1))).toInt + ((0 : Nat) : Int) < ((N : Nat) : Int) at h0
    rw [Option.some.injEq, funext_iff, Fin.forall_fin_two]
    simp only [Fin.ext_iff, start2_0, start2_1, window2_0, window2_1]
    change ((idx (ix2 e (0 : Fin 1))).toInt + ((0 : Nat) : Int)).toNat = n.val ∧
      ((0 : Int) + ((k.val : Nat) : Int)).toNat = j.val ↔ _
    omega
  · rename_i h
    simp only [Fin.forall_fin_two, start2_0, start2_1, window2_0, window2_1] at h
    change ¬((0 ≤ (idx (ix2 e (0 : Fin 1))).toInt + ((0 : Nat) : Int) ∧
      (idx (ix2 e (0 : Fin 1))).toInt + ((0 : Nat) : Int) < ((N : Nat) : Int)) ∧
      0 ≤ (0 : Int) + ((k.val : Nat) : Int) ∧ (0 : Int) + ((k.val : Nat) : Int) < ((K : Nat) : Int)) at h
    constructor
    · intro hc; exact absurd hc (by simp)
    · rintro ⟨h1, _⟩; exact absurd (by omega) h

/-- The same for any record with these four fields. -/
theorem land2_of_eq (d : ScatterDims (SN N K) (SI E) (SU E K)) (h1 : d.updateWindowDims = [1])
    (h2 : d.insertedWindowDims = [0]) (h3 : d.scatterDimsToOperandDims = [0]) (h4 : d.indexVectorDim = 1)
    {w : Nat} (idx : IVec (SI E) w) (e : Fin E) (k : Fin K) (n : Fin N) (j : Fin K) :
    d.resultIdx? (ix2 e k) idx = some (ix2 n j) ↔
      (idx (ix2 e (0 : Fin 1))).toInt = (n.val : Int) ∧ k = j := by
  obtain ⟨uw, iw, sd, iv, wf⟩ := d
  simp only at h1 h2 h3 h4
  subst h1 h2 h3 h4
  exact land2 wf idx e k n j

/-! ## The sum -/

/-- The edges whose destination is node n: the index column, read signed at the edge, is n. -/
def inEdges {w : Nat} (idx : IVec (SI E) w) (n : Fin N) : Finset (Fin E) :=
  Finset.univ.filter fun e => (idx (ix2 e (0 : Fin 1))).toInt = (n.val : Int)

/-- The accumulating scatter at an operand index: the operand there plus the updates that land there. -/
theorem scatterAdd_eq {s si su : Shape} (d : ScatterDims s si su) {w : Nat} (x : s.Idx → EReal) (idx : IVec si w)
    (upd : su.Idx → EReal) (i : s.Idx) :
    Ideal.hostScatterAdd d x idx upd i =
      x i + ∑ u ∈ Finset.univ.filter (fun u : su.Idx => d.resultIdx? u idx = some i), upd u := rfl

/-- The host's accumulating scatter, read over the extended reals, is that sum. -/
theorem host_eq {s si su : Shape} {φ : FTy} (d : ScatterDims s si su) {w : Nat} (x : FVec Ideal s φ) (idx : IVec si w)
    (upd : FVec Ideal su φ) : Host.scatterAdd (F := Ideal) d x idx upd = Ideal.hostScatterAdd d x idx upd := rfl

/-- Summing over the edges sent to n is summing over all edges with the others zeroed. -/
theorem sum_inEdges {w : Nat} (idx : IVec (SI E) w) (n : Fin N) (f : Fin E → EReal) :
    ∑ e ∈ inEdges idx n, f e = ∑ e : Fin E, if (idx (ix2 e (0 : Fin 1))).toInt = (n.val : Int) then f e else 0 := by
  unfold inEdges
  rw [Finset.sum_filter]

/-- Rows of a matrix scattered and added: entry (n, j) gains column j of every update row sent to n. -/
theorem scatterAdd2_apply (d : ScatterDims (SN N K) (SI E) (SU E K)) (h1 : d.updateWindowDims = [1])
    (h2 : d.insertedWindowDims = [0]) (h3 : d.scatterDimsToOperandDims = [0]) (h4 : d.indexVectorDim = 1) {w : Nat}
    (x : (SN N K).Idx → EReal) (idx : IVec (SI E) w) (upd : (SU E K).Idx → EReal) (n : Fin N) (j : Fin K) :
    Ideal.hostScatterAdd d x idx upd (ix2 n j) = x (ix2 n j) + ∑ e ∈ inEdges idx n, upd (ix2 e j) := by
  rw [scatterAdd_eq, sum_inEdges]
  refine congrArg (x (ix2 n j) + ·) ?_
  rw [Finset.sum_filter, sum_idx2]
  refine Finset.sum_congr rfl fun e _ => ?_
  simp only [land2_of_eq d h1 h2 h3 h4]
  by_cases he : (idx (ix2 e (0 : Fin 1))).toInt = (n.val : Int)
  · simp only [he, true_and, if_true]
    rw [Finset.sum_ite_eq' Finset.univ j]
    simp
  · simp only [he, false_and, if_false, Finset.sum_const_zero]

end Cert.LibScatterRows

end
-- ==== Proof.LibGatherRows.lean ====
/-
  A row gather read at an index: rows of an N × K matrix picked by an E × 1 column of row numbers, giving an
  E × K matrix. The node count N (positive), the edge count E and the width K are arbitrary. The dimension record is
    offset axes [1], collapsed slice axes [0], start index map [0], index-vector axis 1, slice sizes (1, K),
  with no batching axes.

  On operand axis 0 the slice starts at the row number at (e, 0), read as a signed integer and clamped into
  [0, N − 1]; the axis is collapsed, so nothing is added to it. On operand axis 1 the slice starts at 0 and the
  offset is the result's column. Hence result element (e, k) is the operand's at (clamped row number, k).
-/
import Idealize.ShloMosaic.PureOps.Dims
import Idealize.ShloMosaic.PureOps.Ideal
import Idealize.ShloMosaic.Lib.ValueIdx

namespace Cert.LibGatherRows
open Idealize.ShloMosaic
open Idealize.ShloMosaic.ValueIdx

variable {N E K : Nat}

/-- The operand: N rows of width K. -/
abbrev SN (N K : Nat) : Shape := ⟨2, ![N, K]⟩
/-- The column of E row numbers. -/
abbrev SI (E : Nat) : Shape := ⟨2, ![E, 1]⟩
/-- The result: E rows of width K. -/
abbrev SU (E K : Nat) : Shape := ⟨2, ![E, K]⟩

/-- The row an index word selects: read signed, clamped into [0, N − 1]. -/
def rowOf [NeZero N] {w : Nat} (v : BitVec w) : Fin N :=
  ⟨min v.toInt.toNat (N - 1), by have := NeZero.pos N; omega⟩

theorem rowOf_val [NeZero N] {w : Nat} (v : BitVec w) : (rowOf (N := N) v).val = min v.toInt.toNat (N - 1) := rfl

/-- A word whose signed value is a row number selects that row. -/
theorem rowOf_of_toInt [NeZero N] {w : Nat} (v : BitVec w) (n : Fin N) (h : v.toInt = (n.val : Int)) :
    rowOf v = n := by
  have hn := n.isLt
  refine Fin.ext ?_
  rw [rowOf_val, h]
  omega

/-- The record, over any proof of its well-formedness. -/
abbrev G2 (wf : GatherDims.WF (SN N K) (SI E) (SU E K) [1] [0] [] [0] [] 1 ![1, K]) :
    GatherDims (SN N K) (SI E) (SU E K) :=
  ⟨[1], [0], [], [], [0], 1, ![1, K], wf⟩

/-- The start-indices index read for result index (e, k): row e, the one column. -/
theorem siIdx2 (wf : GatherDims.WF (SN N K) (SI E) (SU E K) [1] [0] [] [0] [] 1 ![1, K]) (e : Fin E) (k : Fin K) (c) :
    (G2 wf).siIdx (ix2 e k) c = ix2 e (0 : Fin 1) := by
  funext b
  match b with
  | ⟨0, _⟩ => exact Fin.ext rfl
  | ⟨1, _⟩ => exact Fin.ext (by simp [GatherDims.siIdx])

/-- On operand axis 0 the slice starts at the clamped row number. -/
theorem start2_0 [NeZero N] (wf : GatherDims.WF (SN N K) (SI E) (SU E K) [1] [0] [] [0] [] 1 ![1, K]) {w : Nat}
    (idx : IVec (SI E) w) (e : Fin E) (k : Fin K) :
    (G2 wf).start (ix2 e k) idx 0 = (rowOf (N := N) (idx (ix2 e (0 : Fin 1)))).val := by
  unfold GatherDims.start
  rw [dif_pos (show (0 : Fin 2) ∈ (G2 wf).startIndexMap from List.mem_singleton.mpr rfl), siIdx2]
  rfl

/-- Operand axis 1 is not in the start index map: the slice starts at 0 there. -/
theorem start2_1 (wf : GatherDims.WF (SN N K) (SI E) (SU E K) [1] [0] [] [0] [] 1 ![1, K]) {w : Nat}
    (idx : IVec (SI E) w) (j) :
    (G2 wf).start j idx 1 = 0 := by
  unfold GatherDims.start
  simp

/-- Operand axis 0 is collapsed: no offset there. -/
theorem offCoord2_0 (wf : GatherDims.WF (SN N K) (SI E) (SU E K) [1] [0] [] [0] [] 1 ![1, K]) (j) :
    (G2 wf).offCoord j 0 = 0 :=
  GatherDims.offCoord_eq_zero _ _ _ (fun h => ((GatherDims.mem_sKept _ _).mp h).1 (List.mem_singleton.mpr rfl))

/-- Operand axis 1 is the only kept axis and takes the result's offset axis 1. -/
theorem offCoord2_1 (wf : GatherDims.WF (SN N K) (SI E) (SU E K) [1] [0] [] [0] [] 1 ![1, K]) (j) :
    (G2 wf).offCoord j 1 = (j 1).val := rfl

/-- Result element (e, k) is the operand's at (clamped row number at (e, 0), k). -/
theorem gather2 [NeZero N] {α : Type} (wf : GatherDims.WF (SN N K) (SI E) (SU E K) [1] [0] [] [0] [] 1 ![1, K])
    {w : Nat} (x : (SN N K).Idx → α) (idx : IVec (SI E) w) (e : Fin E) (k : Fin K) :
    Host.gather (G2 wf) x idx (ix2 e k) = x (ix2 (rowOf (idx (ix2 e (0 : Fin 1)))) k) := by
  unfold Host.gather
  congr 1
  funext a
  refine Fin.ext ?_
  match a with
  | ⟨0, _⟩ =>
    show (G2 wf).start (ix2 e k) idx 0 + (G2 wf).batchCoord (ix2 e k) 0 + (G2 wf).offCoord (ix2 e k) 0 = _
    rw [GatherDims.batchCoord_eq_zero _ _ _ List.not_mem_nil, offCoord2_0, start2_0]
    rfl
  | ⟨1, _⟩ =>
    show (G2 wf).start (ix2 e k) idx 1 + (G2 wf).batchCoord (ix2 e k) 1 + (G2 wf).offCoord (ix2 e k) 1 = _
    rw [GatherDims.batchCoord_eq_zero _ _ _ List.not_mem_nil, offCoord2_1, start2_1]
    simp
    rfl

/-- The same for any record with these seven fields. -/
theorem gather2_apply [NeZero N] {α : Type} (d : GatherDims (SN N K) (SI E) (SU E K)) (h1 : d.offsetDims = [1])
    (h2 : d.collapsedSliceDims = [0]) (h3 : d.operandBatchingDims = []) (h4 : d.startIndicesBatchingDims = [])
    (h5 : d.startIndexMap = [0]) (h6 : d.indexVectorDim = 1) (h7 : d.sliceSizes = ![1, K])
    {w : Nat} (x : (SN N K).Idx → α) (idx : IVec (SI E) w) (e : Fin E) (k : Fin K) :
    Host.gather d x idx (ix2 e k) = x (ix2 (rowOf (idx (ix2 e (0 : Fin 1)))) k) := by
  obtain ⟨od, cd, ob, sb, sm, iv, ss, wf⟩ := d
  simp only at h1 h2 h3 h4 h5 h6 h7
  subst h1 h2 h3 h4 h5 h6 h7
  exact gather2 wf x idx e k

end Cert.LibGatherRows
-- ==== Proof.LibRowGather.lean ====
/-
  A row gather read at an index, for the two dimension records
    offset axes [1], collapsed slice axes [0], start index map [0], index-vector axis 1, slice sizes (1, 128)
      (rows of a 100000 × 128 matrix picked by a 900000 × 1 column of row numbers: a 900000 × 128 matrix), and
    offset axes [],  collapsed slice axes [0], start index map [0], index-vector axis 1, slice sizes (1)
      (entries of a vector of length 100000 picked by the same column: a vector of length 900000),
  neither with batching axes.

  On operand axis 0 the slice starts at the row number at (e, 0), read as a signed integer and clamped into
  [0, 100000 − 1]; the axis is collapsed, so nothing is added to it. On operand axis 1 (when there is one) the slice
  starts at 0 and the offset is the result's column. Hence result element (e, k) is the operand's at
  (clamped row number, k).

  Last, the normalisation of a possibly negative row number (v < 0 ? v + 100000 : v) keeps a number that is not negative.
-/
import Idealize.ShloMosaic.PureOps.Dims
import Idealize.ShloMosaic.PureOps.Ideal
import Idealize.ShloMosaic.Lib.ValueIdx

namespace Cert.LibRowGather
open Idealize.ShloMosaic
open Idealize.ShloMosaic.ValueIdx

abbrev SN2 : Shape := ⟨2, ![100000, 128]⟩
abbrev SI : Shape := ⟨2, ![900000, 1]⟩
abbrev SU2 : Shape := ⟨2, ![900000, 128]⟩
abbrev SN1 : Shape := ⟨1, ![100000]⟩
abbrev SU1 : Shape := ⟨1, ![900000]⟩

/-- The row an index word selects: read signed, clamped into [0, 99999]. -/
def rowOf {w : Nat} (v : BitVec w) : Fin 100000 := ⟨min v.toInt.toNat 99999, by omega⟩

theorem rowOf_val {w : Nat} (v : BitVec w) : (rowOf v).val = min v.toInt.toNat 99999 := rfl

/-- A word whose signed value is a row number selects that row. -/
theorem rowOf_of_toInt {w : Nat} (v : BitVec w) (n : Fin 100000) (h : v.toInt = (n.val : Int)) : rowOf v = n := by
  have hn := n.isLt
  refine Fin.ext ?_
  rw [rowOf_val, h]
  omega

/-- The matrix record, over any proof of its well-formedness. -/
abbrev G2 (wf : GatherDims.WF SN2 SI SU2 [1] [0] [] [0] [] 1 ![1, 128]) : GatherDims SN2 SI SU2 :=
  ⟨[1], [0], [], [], [0], 1, ![1, 128], wf⟩
/-- The vector record, over any proof of its well-formedness. -/
abbrev G1 (wf : GatherDims.WF SN1 SI SU1 [] [0] [] [0] [] 1 ![1]) : GatherDims SN1 SI SU1 :=
  ⟨[], [0], [], [], [0], 1, ![1], wf⟩

/-! ## The matrix record -/

/-- The start-indices index read for result index (e, k): row e, the one column. -/
theorem siIdx2 (wf) (e : Fin 900000) (k : Fin 128) (c) :
    (G2 wf).siIdx (ix2 e k) c = ix2 e (0 : Fin 1) := by
  funext b
  match b with
  | ⟨0, _⟩ => exact Fin.ext rfl
  | ⟨1, _⟩ => exact Fin.ext (by simp [GatherDims.siIdx])

/-- On operand axis 0 the slice starts at the clamped row number. -/
theorem start2_0 (wf) {w : Nat} (idx : IVec SI w) (e : Fin 900000) (k : Fin 128) :
    (G2 wf).start (ix2 e k) idx 0 = (rowOf (idx (ix2 e (0 : Fin 1)))).val := by
  unfold GatherDims.start
  rw [dif_pos (show (0 : Fin 2) ∈ (G2 wf).startIndexMap from List.mem_singleton.mpr rfl), siIdx2]
  rfl

/-- Operand axis 1 is not in the start index map: the slice starts at 0 there. -/
theorem start2_1 (wf) {w : Nat} (idx : IVec SI w) (j) :
    (G2 wf).start j idx 1 = 0 := by
  unfold GatherDims.start
  simp

/-- Operand axis 0 is collapsed: no offset there. -/
theorem offCoord2_0 (wf) (j) : (G2 wf).offCoord j 0 = 0 :=
  GatherDims.offCoord_eq_zero _ _ _ (fun h => ((GatherDims.mem_sKept _ _).mp h).1 (List.mem_singleton.mpr rfl))

/-- Operand axis 1 is the only kept axis and takes the result's offset axis 1. -/
theorem offCoord2_1 (wf) (j) : (G2 wf).offCoord j 1 = (j 1).val := rfl

/-- Result element (e, k) is the operand's at (clamped row number at (e, 0), k). -/
theorem gather2 {α : Type} (wf) {w : Nat} (x : SN2.Idx → α) (idx : IVec SI w) (e : Fin 900000) (k : Fin 128) :
    Host.gather (G2 wf) x idx (ix2 e k) = x (ix2 (rowOf (idx (ix2 e (0 : Fin 1)))) k) := by
  unfold Host.gather
  congr 1
  funext a
  refine Fin.ext ?_
  match a with
  | ⟨0, _⟩ =>
    show (G2 wf).start (ix2 e k) idx 0 + (G2 wf).batchCoord (ix2 e k) 0 + (G2 wf).offCoord (ix2 e k) 0 = _
    rw [GatherDims.batchCoord_eq_zero _ _ _ List.not_mem_nil, offCoord2_0, start2_0]
    rfl
  | ⟨1, _⟩ =>
    show (G2 wf).start (ix2 e k) idx 1 + (G2 wf).batchCoord (ix2 e k) 1 + (G2 wf).offCoord (ix2 e k) 1 = _
    rw [GatherDims.batchCoord_eq_zero _ _ _ List.not_mem_nil, offCoord2_1, start2_1]
    simp

/-- The same for any record with these seven fields. -/
theorem gather2_apply {α : Type} (d : GatherDims SN2 SI SU2) (h1 : d.offsetDims = [1]) (h2 : d.collapsedSliceDims = [0])
    (h3 : d.operandBatchingDims = []) (h4 : d.startIndicesBatchingDims = []) (h5 : d.startIndexMap = [0])
    (h6 : d.indexVectorDim = 1) (h7 : d.sliceSizes = ![1, 128])
    {w : Nat} (x : SN2.Idx → α) (idx : IVec SI w) (e : Fin 900000) (k : Fin 128) :
    Host.gather d x idx (ix2 e k) = x (ix2 (rowOf (idx (ix2 e (0 : Fin 1)))) k) := by
  obtain ⟨od, cd, ob, sb, sm, iv, ss, wf⟩ := d
  simp only at h1 h2 h3 h4 h5 h6 h7
  subst h1 h2 h3 h4 h5 h6 h7
  exact gather2 wf x idx e k

/-! ## The vector record -/

/-- The start-indices index read for result index e: row e, the one column. -/
theorem siIdx1 (wf) (e : Fin 900000) (c) :
    (G1 wf).siIdx (ix1 e) c = ix2 e (0 : Fin 1) := by
  funext b
  match b with
  | ⟨0, _⟩ => exact Fin.ext rfl
  | ⟨1, _⟩ => exact Fin.ext (by simp [GatherDims.siIdx])

/-- On the operand's axis the slice starts at the clamped row number. -/
theorem start1_0 (wf) {w : Nat} (idx : IVec SI w) (e : Fin 900000) :
    (G1 wf).start (ix1 e) idx 0 = (rowOf (idx (ix2 e (0 : Fin 1)))).val := by
  unfold GatherDims.start
  rw [dif_pos (show (0 : Fin 1) ∈ (G1 wf).startIndexMap from List.mem_singleton.mpr rfl), siIdx1]
  rfl

/-- The operand's axis is collapsed: no offset there. -/
theorem offCoord1_0 (wf) (j) : (G1 wf).offCoord j 0 = 0 :=
  GatherDims.offCoord_eq_zero _ _ _ (fun h => ((GatherDims.mem_sKept _ _).mp h).1 (List.mem_singleton.mpr rfl))

/-- Result element e is the operand's at the clamped row number at (e, 0). -/
theorem gather1 {α : Type} (wf) {w : Nat} (x : SN1.Idx → α) (idx : IVec SI w) (e : Fin 900000) :
    Host.gather (G1 wf) x idx (ix1 e) = x (ix1 (rowOf (idx (ix2 e (0 : Fin 1))))) := by
  unfold Host.gather
  congr 1
  funext a
  obtain rfl : a = 0 := Subsingleton.elim _ _
  refine Fin.ext ?_
  show (G1 wf).start (ix1 e) idx 0 + (G1 wf).batchCoord (ix1 e) 0 + (G1 wf).offCoord (ix1 e) 0 = _
  rw [GatherDims.batchCoord_eq_zero _ _ _ List.not_mem_nil, offCoord1_0, start1_0]
  rfl

/-- The same for any record with these seven fields. -/
theorem gather1_apply {α : Type} (d : GatherDims SN1 SI SU1) (h1 : d.offsetDims = []) (h2 : d.collapsedSliceDims = [0])
    (h3 : d.operandBatchingDims = []) (h4 : d.startIndicesBatchingDims = []) (h5 : d.startIndexMap = [0])
    (h6 : d.indexVectorDim = 1) (h7 : d.sliceSizes = ![1])
    {w : Nat} (x : SN1.Idx → α) (idx : IVec SI w) (e : Fin 900000) :
    Host.gather d x idx (ix1 e) = x (ix1 (rowOf (idx (ix2 e (0 : Fin 1))))) := by
  obtain ⟨od, cd, ob, sb, sm, iv, ss, wf⟩ := d
  simp only at h1 h2 h3 h4 h5 h6 h7
  subst h1 h2 h3 h4 h5 h6 h7
  exact gather1 wf x idx e

/-! ## The normalisation of a row number -/

/-- A word that is not negative is not below zero in the signed order, so "v < 0 ? v + c : v" keeps it. -/
theorem select_slt_zero_keep {S : Shape} (v z c : IVec S 32) (i : S.Idx) (hz : z i = 0#32) (hv : 0 ≤ (v i).toInt) :
    (select (cmpi .slt v z) (addi v c) v) i = v i := by
  show Scalar.select (IntOp.cmpi .slt (v i) (z i)) (IntOp.addi (v i) (c i)) (v i) = v i
  have hc : IntOp.cmpi .slt (v i) (z i) = 0#1 := by
    rw [hz]
    show BitVec.ofBool ((v i).slt 0#32) = 0#1
    have : (v i).slt 0#32 = false := by
      rw [BitVec.slt_eq_decide]
      simp only [BitVec.toInt_zero, decide_eq_false_iff_not, not_lt]
      exact hv
    rw [this]; rfl
  rw [hc, select_zero]

end Cert.LibRowGather
-- ==== Proof.RefSpmm.lean ====
/-
  The reference's sparse products, read at an entry.

  Each sparse product of the reference is an accumulating row scatter, into a zero matrix, of the edge values
  times the gathered rows of the operand: entry (r, f) is the sum over the edges whose row word is r of the edge's
  value times the operand at (the edge's column, f). The row and column words of support s are row s of the two
  index arrays; the column word passes through "v < 0 ? v + 4096 : v", which keeps a word that is not negative.
-/
import proofs.«106054_j120259084553_1_alg».proof.Proof.Gen.ReferenceIdeal.Read
import proofs.«106054_j120259084553_1_alg».proof.Proof.Spec
import proofs.«106054_j120259084553_1_alg».proof.Proof.LibScatterRows
import proofs.«106054_j120259084553_1_alg».proof.Proof.LibGatherRows
import proofs.«106054_j120259084553_1_alg».proof.Proof.LibRowGather

noncomputable section

namespace Cert.RefValue

open Cert.ReferenceIdeal Cert.ReferenceIdeal.Gen Cert.ReferenceIdeal.Read Idealize.ShloMosaic Idealize.ShloMosaic.ValueIdx
open scoped BigOperators

/-- Closes the equality of two coordinates of literal size: equal as written, or equal once a remainder by the
    extent is dropped. -/
macro "coord" : tactic =>
  `(tactic| first | rfl | exact Fin.ext (Nat.mod_eq_of_lt (Fin.isLt _)) | (refine Fin.ext ?_; simp))
/-- Two rank-1 indices agree coordinate by coordinate. -/
macro "idx_r1" : tactic => `(tactic| (congr 1; funext a; match a with | ⟨0, _⟩ => coord))
/-- Two rank-2 indices agree coordinate by coordinate. -/
macro "idx_r2" : tactic => `(tactic| (congr 1; funext a; match a with | ⟨0, _⟩ => coord | ⟨1, _⟩ => coord))

variable (x0 : (⟨S16x4096x64, .f32⟩ : BufTy).Contents (Elt Ideal)) (x1 : (⟨S16x4096x128, .f32⟩ : BufTy).Contents (Elt Ideal))
  (x4 x5 : (⟨S2x65536, .i32⟩ : BufTy).Contents (Elt Ideal)) (x6 : (⟨S2x65536, .f32⟩ : BufTy).Contents (Elt Ideal))

/-! ## Row s of an index or value array, as a vector over the edges -/

/-- Row 0 of the row words. -/
theorem v4_at (e : Fin 65536) : val_main_v4 (F := Ideal) x4 (ix1 e) = x4 (ix2 (0 : Fin 2) e) := by
  rw [val_main_v4_apply, val_main_v3_apply]; idx_r2
/-- Row 1 of the row words. -/
theorem v39_at (e : Fin 65536) : val_main_v39 (F := Ideal) x4 (ix1 e) = x4 (ix2 (1 : Fin 2) e) := by
  rw [val_main_v39_apply, val_main_v38_apply]; idx_r2
/-- Row 0 of the column words. -/
theorem v6_at (e : Fin 65536) : val_main_v6 (F := Ideal) x5 (ix1 e) = x5 (ix2 (0 : Fin 2) e) := by
  rw [val_main_v6_apply, val_main_v5_apply]; idx_r2
/-- Row 1 of the column words. -/
theorem v41_at (e : Fin 65536) : val_main_v41 (F := Ideal) x5 (ix1 e) = x5 (ix2 (1 : Fin 2) e) := by
  rw [val_main_v41_apply, val_main_v40_apply]; idx_r2
/-- Row 0 of the edge values. -/
theorem v8_at (e : Fin 65536) : val_main_v8 (F := Ideal) x6 (ix1 e) = x6 (ix2 (0 : Fin 2) e) := by
  rw [val_main_v8_apply, val_main_v7_apply]; idx_r2
/-- Row 1 of the edge values. -/
theorem v43_at (e : Fin 65536) : val_main_v43 (F := Ideal) x6 (ix1 e) = x6 (ix2 (1 : Fin 2) e) := by
  rw [val_main_v43_apply, val_main_v42_apply]; idx_r2

/-! ## The row columns of the four scatters -/

theorem v20_at (e : Fin 65536) : val_main_v20 (F := Ideal) x4 (ix2 e (0 : Fin 1)) = x4 (ix2 (0 : Fin 2) e) := by
  rw [val_main_v20_apply, ← v4_at x4 e]; idx_r1
theorem v33_at (e : Fin 65536) : val_main_v33 (F := Ideal) x4 (ix2 e (0 : Fin 1)) = x4 (ix2 (0 : Fin 2) e) := by
  rw [val_main_v33_apply, ← v4_at x4 e]; idx_r1
theorem v55_at (e : Fin 65536) : val_main_v55 (F := Ideal) x4 (ix2 e (0 : Fin 1)) = x4 (ix2 (1 : Fin 2) e) := by
  rw [val_main_v55_apply, ← v39_at x4 e]; idx_r1
theorem v68_at (e : Fin 65536) : val_main_v68 (F := Ideal) x4 (ix2 e (0 : Fin 1)) = x4 (ix2 (1 : Fin 2) e) := by
  rw [val_main_v68_apply, ← v39_at x4 e]; idx_r1

/-! ## The edge values spread along the rows -/

theorem v17_at (e : Fin 65536) (f : Fin 3072) : val_main_v17 (F := Ideal) x6 (ix2 e f) = x6 (ix2 (0 : Fin 2) e) := by
  rw [val_main_v17_apply, val_main_v9_apply, ← v8_at x6 e]; idx_r1
theorem v30_at (e : Fin 65536) (f : Fin 3072) : val_main_v30 (F := Ideal) x6 (ix2 e f) = x6 (ix2 (0 : Fin 2) e) := by
  rw [val_main_v30_apply, val_main_v22_apply, ← v8_at x6 e]; idx_r1
theorem v52_at (e : Fin 65536) (f : Fin 3072) : val_main_v52 (F := Ideal) x6 (ix2 e f) = x6 (ix2 (1 : Fin 2) e) := by
  rw [val_main_v52_apply, val_main_v44_apply, ← v43_at x6 e]; idx_r1
theorem v65_at (e : Fin 65536) (f : Fin 3072) : val_main_v65 (F := Ideal) x6 (ix2 e f) = x6 (ix2 (1 : Fin 2) e) := by
  rw [val_main_v65_apply, val_main_v57_apply, ← v43_at x6 e]; idx_r1

/-! ## The column columns of the four gathers: the normalisation keeps a column that is not negative -/

theorem v15_at (hcols : ∀ (s : Fin 2) (e : Fin 65536), 0 ≤ (x5 (ix2 s e)).toInt ∧ (x5 (ix2 s e)).toInt < 4096)
    (e : Fin 65536) : val_main_v15 (F := Ideal) x5 (ix2 e (0 : Fin 1)) = x5 (ix2 (0 : Fin 2) e) := by
  have h6 := v6_at x5 e
  have hk := LibRowGather.select_slt_zero_keep (val_main_v6 (F := Ideal) x5) (val_main_v10 (F := Ideal))
    (val_main_v12 (F := Ideal)) (ix1 e) (by rw [val_main_v10_apply]; rfl) (by rw [h6]; exact (hcols 0 e).1)
  rw [val_main_v15_apply, ← h6]
  refine Eq.trans ?_ hk
  idx_r1
theorem v28_at (hcols : ∀ (s : Fin 2) (e : Fin 65536), 0 ≤ (x5 (ix2 s e)).toInt ∧ (x5 (ix2 s e)).toInt < 4096)
    (e : Fin 65536) : val_main_v28 (F := Ideal) x5 (ix2 e (0 : Fin 1)) = x5 (ix2 (0 : Fin 2) e) := by
  have h6 := v6_at x5 e
  have hk := LibRowGather.select_slt_zero_keep (val_main_v6 (F := Ideal) x5) (val_main_v23 (F := Ideal))
    (val_main_v25 (F := Ideal)) (ix1 e) (by rw [val_main_v23_apply]; rfl) (by rw [h6]; exact (hcols 0 e).1)
  rw [val_main_v28_apply, ← h6]
  refine Eq.trans ?_ hk
  idx_r1
theorem v50_at (hcols : ∀ (s : Fin 2) (e : Fin 65536), 0 ≤ (x5 (ix2 s e)).toInt ∧ (x5 (ix2 s e)).toInt < 4096)
    (e : Fin 65536) : val_main_v50 (F := Ideal) x5 (ix2 e (0 : Fin 1)) = x5 (ix2 (1 : Fin 2) e) := by
  have h6 := v41_at x5 e
  have hk := LibRowGather.select_slt_zero_keep (val_main_v41 (F := Ideal) x5) (val_main_v45 (F := Ideal))
    (val_main_v47 (F := Ideal)) (ix1 e) (by rw [val_main_v45_apply]; rfl) (by rw [h6]; exact (hcols 1 e).1)
  rw [val_main_v50_apply, ← h6]
  refine Eq.trans ?_ hk
  idx_r1
theorem v63_at (hcols : ∀ (s : Fin 2) (e : Fin 65536), 0 ≤ (x5 (ix2 s e)).toInt ∧ (x5 (ix2 s e)).toInt < 4096)
    (e : Fin 65536) : val_main_v63 (F := Ideal) x5 (ix2 e (0 : Fin 1)) = x5 (ix2 (1 : Fin 2) e) := by
  have h6 := v41_at x5 e
  have hk := LibRowGather.select_slt_zero_keep (val_main_v41 (F := Ideal) x5) (val_main_v58 (F := Ideal))
    (val_main_v60 (F := Ideal)) (ix1 e) (by rw [val_main_v58_apply]; rfl) (by rw [h6]; exact (hcols 1 e).1)
  rw [val_main_v63_apply, ← h6]
  refine Eq.trans ?_ hk
  idx_r1

/-! ## The zero matrices the scatters accumulate into -/

theorem v19_zero (i : S4096x3072.Idx) : val_main_v19 (F := Ideal) i = 0 := by
  rw [val_main_v19_apply, val_main_cst_apply]; exact Ideal.ofBits_zero_f32
theorem v32_zero (i : S4096x3072.Idx) : val_main_v32 (F := Ideal) i = 0 := by
  rw [val_main_v32_apply, val_main_cst_3_apply]; exact Ideal.ofBits_zero_f32
theorem v54_zero (i : S4096x3072.Idx) : val_main_v54 (F := Ideal) i = 0 := by
  rw [val_main_v54_apply, val_main_cst_7_apply]; exact Ideal.ofBits_zero_f32
theorem v67_zero (i : S4096x3072.Idx) : val_main_v67 (F := Ideal) i = 0 := by
  rw [val_main_v67_apply, val_main_cst_10_apply]; exact Ideal.ofBits_zero_f32

/-! ## One sparse product at an entry -/

/-- The clamped row of the gather is the specification's clamped column. -/
theorem rowOf_eq (v : BitVec 32) : LibGatherRows.rowOf (N := 4096) v = (⟨min v.toInt.toNat 4095, by omega⟩ : Fin 4096) :=
  Fin.ext rfl

/-- A row scatter, into a zero matrix, of values times gathered rows: entry (r, f) is the sum over the edges sent to
    row r of the edge's value times the operand at (the edge's clamped column, f). -/
theorem stage_apply (X Z : FVec Ideal S4096x3072 .f32) (hZ : ∀ i, Z i = 0) (ri ci : IVec S65536x1 32)
    (vv : FVec Ideal S65536x3072 .f32) (r : Fin 4096) (f : Fin 3072) :
    Host.scatterAdd (F := Ideal) scatter_S4096x3072_S65536x1_S65536x3072_1_0_0_1 Z ri
        (mulf vv (Host.gather gather_S4096x3072_S65536x1_S65536x3072_1_0_n_n_0_1_13072 X ci)) (ix2 r f)
      = ∑ e : Fin 65536, if (ri (ix2 e (0 : Fin 1))).toInt = (r.val : ℤ)
          then vv (ix2 e f) * X (ix2 (LibGatherRows.rowOf (N := 4096) (ci (ix2 e (0 : Fin 1)))) f) else 0 := by
  rw [LibScatterRows.host_eq,
    LibScatterRows.scatterAdd2_apply (N := 4096) (E := 65536) (K := 3072) _ rfl rfl rfl rfl, hZ, zero_add,
    LibScatterRows.sum_inEdges]
  refine Finset.sum_congr rfl fun e _ => ?_
  rw [ValueIdx.mulf_apply, LibGatherRows.gather2_apply (N := 4096) (E := 65536) (K := 3072) _ rfl rfl rfl rfl rfl rfl rfl]

/-- The same, against the specification's sparse product: when the row column, the column column and the spread
    values are row s of the three edge arrays and the operand is X as a function of node and feature column. -/
theorem stage_spec (s : Fin 2) (X Z : FVec Ideal S4096x3072 .f32) (Xf : Fin 4096 → Fin 3072 → EReal)
    (hX : ∀ n f, X (ix2 n f) = Xf n f) (hZ : ∀ i, Z i = 0) (ri ci : IVec S65536x1 32)
    (vv : FVec Ideal S65536x3072 .f32) (hri : ∀ e : Fin 65536, ri (ix2 e (0 : Fin 1)) = x4 (ix2 s e))
    (hci : ∀ e : Fin 65536, ci (ix2 e (0 : Fin 1)) = x5 (ix2 s e))
    (hvv : ∀ (e : Fin 65536) (f : Fin 3072), vv (ix2 e f) = x6 (ix2 s e)) (r : Fin 4096) (f : Fin 3072) :
    Host.scatterAdd (F := Ideal) scatter_S4096x3072_S65536x1_S65536x3072_1_0_0_1 Z ri
        (mulf vv (Host.gather gather_S4096x3072_S65536x1_S65536x3072_1_0_n_n_0_1_13072 X ci)) (ix2 r f)
      = Spec.spmm x4 x5 x6 s Xf r f := by
  rw [stage_apply X Z hZ ri ci vv r f]
  unfold Spec.spmm Spec.rowOf
  refine Finset.sum_congr rfl fun e _ => ?_
  rw [hri, hvv, hci, hX, rowOf_eq]
  rfl

end Cert.RefValue

end
-- ==== Proof.RefStages.lean ====
/-
  The five stacked matrices of the reference, read at an entry.

  The concatenated input read at (n, f) is the specification's x0; each sparse product is the specification's spmm
  of its operand; the second Chebyshev term is 2 · spmm (spmm x0) − x0; and the five-piece concatenation along a
  new leading axis, read at (mm, n, f), is piece mm at (n, f).
-/
import proofs.«106054_j120259084553_1_alg».proof.Proof.RefSpmm

noncomputable section

namespace Cert.RefValue

open Cert.ReferenceIdeal Cert.ReferenceIdeal.Gen Cert.ReferenceIdeal.Read Idealize.ShloMosaic Idealize.ShloMosaic.ValueIdx
open scoped BigOperators

variable (x0 : (⟨S16x4096x64, .f32⟩ : BufTy).Contents (Elt Ideal)) (x1 : (⟨S16x4096x128, .f32⟩ : BufTy).Contents (Elt Ideal))
  (x4 x5 : (⟨S2x65536, .i32⟩ : BufTy).Contents (Elt Ideal)) (x6 : (⟨S2x65536, .f32⟩ : BufTy).Contents (Elt Ideal))

/-! ## The concatenated input -/

/-- The inputs and the state joined along the channel axis, moved to node-major order and flattened: entry (n, f)
    is the joined array at batch f % 16, node n, channel f / 16. -/
theorem v2_at (n : Fin 4096) (f : Fin 3072) : val_main_v2 (F := Ideal) x0 x1 (ix2 n f) = Spec.x0 x0 x1 n f := by
  rw [val_main_v2_apply, val_main_v1_apply]
  unfold val_main_v0 Spec.x0
  have hn := n.isLt
  have hf := f.isLt
  split
  · rename_i h
    refine concatenate_pair_apply_left (t := S16x4096x192) (s₁ := S16x4096x64) (s₂ := S16x4096x128) 2 x0 x1
      concatenates_S16x4096x64_S16x4096x128_S16x4096x192_d2 _ rfl
      (ix3 (Spec.batchOf f) n (⟨f.val / 16, h⟩ : Fin 64)) (fun b => ?_)
    match b with
    | ⟨0, _⟩ => show f.val % 16 = (n.val * 3072 + f.val) % 16; omega
    | ⟨1, _⟩ => show n.val = (n.val * 3072 + f.val) / 3072; omega
    | ⟨2, _⟩ => show f.val / 16 = (n.val * 3072 + f.val) / 16 % 192; omega
  · rename_i h
    refine concatenate_pair_apply_right (t := S16x4096x192) (s₁ := S16x4096x64) (s₂ := S16x4096x128) 2 x0 x1
      concatenates_S16x4096x64_S16x4096x128_S16x4096x192_d2 _ rfl rfl
      (ix3 (Spec.batchOf f) n (⟨f.val / 16 - 64, by omega⟩ : Fin 128)) (fun b hb => ?_) ?_
    · match b with
      | ⟨0, _⟩ => show f.val % 16 = (n.val * 3072 + f.val) % 16; omega
      | ⟨1, _⟩ => show n.val = (n.val * 3072 + f.val) / 3072; omega
      | ⟨2, _⟩ => exact absurd rfl hb
    · show f.val / 16 - 64 + 64 = (n.val * 3072 + f.val) / 16 % 192; omega

/-! ## The sparse products -/

section
variable (hcols : ∀ (s : Fin 2) (e : Fin 65536), 0 ≤ (x5 (ix2 s e)).toInt ∧ (x5 (ix2 s e)).toInt < 4096)
include hcols

/-- The first sparse product of support 0. -/
theorem v21_at (r : Fin 4096) (f : Fin 3072) :
    val_main_v21 (F := Ideal) x0 x1 x4 x5 x6 (ix2 r f) = Spec.spmm x4 x5 x6 0 (Spec.x0 x0 x1) r f := by
  unfold val_main_v21 val_main_v18 val_main_v16
  exact stage_spec x4 x5 x6 0 _ _ _ (v2_at x0 x1) v19_zero _ _ _ (v20_at x4) (v15_at x5 hcols) (v17_at x6) r f

/-- The second sparse product of support 0. -/
theorem v34_at (r : Fin 4096) (f : Fin 3072) :
    val_main_v34 (F := Ideal) x0 x1 x4 x5 x6 (ix2 r f)
      = Spec.spmm x4 x5 x6 0 (Spec.spmm x4 x5 x6 0 (Spec.x0 x0 x1)) r f := by
  unfold val_main_v34 val_main_v31 val_main_v29
  exact stage_spec x4 x5 x6 0 _ _ _ (v21_at x0 x1 x4 x5 x6 hcols) v32_zero _ _ _ (v33_at x4) (v28_at x5 hcols)
    (v30_at x6) r f

/-- The first sparse product of support 1. -/
theorem v56_at (r : Fin 4096) (f : Fin 3072) :
    val_main_v56 (F := Ideal) x0 x1 x4 x5 x6 (ix2 r f) = Spec.spmm x4 x5 x6 1 (Spec.x0 x0 x1) r f := by
  unfold val_main_v56 val_main_v53 val_main_v51
  exact stage_spec x4 x5 x6 1 _ _ _ (v2_at x0 x1) v54_zero _ _ _ (v55_at x4) (v50_at x5 hcols) (v52_at x6) r f

/-- The second sparse product of support 1. -/
theorem v69_at (r : Fin 4096) (f : Fin 3072) :
    val_main_v69 (F := Ideal) x0 x1 x4 x5 x6 (ix2 r f)
      = Spec.spmm x4 x5 x6 1 (Spec.spmm x4 x5 x6 1 (Spec.x0 x0 x1)) r f := by
  unfold val_main_v69 val_main_v66 val_main_v64
  exact stage_spec x4 x5 x6 1 _ _ _ (v56_at x0 x1 x4 x5 x6 hcols) v67_zero _ _ _ (v68_at x4) (v63_at x5 hcols)
    (v65_at x6) r f

/-! ## The second Chebyshev terms -/

/-- 2 · spmm 0 (spmm 0 x0) − x0. -/
theorem v37_at (n : Fin 4096) (f : Fin 3072) :
    val_main_v37 (F := Ideal) x0 x1 x4 x5 x6 (ix2 n f) = Spec.cheb2 x0 x1 x4 x5 x6 0 n f := by
  rw [val_main_v37_apply, val_main_v36_apply, val_main_v35_apply, val_main_cst_4_apply,
    v34_at x0 x1 x4 x5 x6 hcols, v2_at]
  rfl

/-- 2 · spmm 1 (spmm 1 x0) − x0. -/
theorem v72_at (n : Fin 4096) (f : Fin 3072) :
    val_main_v72 (F := Ideal) x0 x1 x4 x5 x6 (ix2 n f) = Spec.cheb2 x0 x1 x4 x5 x6 1 n f := by
  rw [val_main_v72_apply, val_main_v71_apply, val_main_v70_apply, val_main_cst_11_apply,
    v69_at x0 x1 x4 x5 x6 hcols, v2_at]
  rfl

/-! ## The stack -/

/-- The five matrices stacked along a new leading axis, read at (mm, n, f): matrix mm at (n, f). -/
theorem v78_at (mm : Fin 5) (n : Fin 4096) (f : Fin 3072) :
    val_main_v78 (F := Ideal) x0 x1 x4 x5 x6 (ix3 mm n f) = Spec.xs x0 x1 x4 x5 x6 mm n f := by
  unfold val_main_v78
  match mm with
  | ⟨0, _⟩ =>
    refine Eq.trans (concatenate_apply_piece (t := S5x4096x3072) 0 _ _ _ 0 ?_ S1x4096x3072
      (val_main_v73 (F := Ideal) x0 x1) ?_ rfl 0 ?_ (ix3 (0 : Fin 1) n f) ?_ ?_) ?_
    · exact (by decide : (0 : Nat) < 5)
    · rfl
    · rfl
    · intro b hb
      match b with
      | ⟨0, _⟩ => exact absurd rfl hb
      | ⟨1, _⟩ => rfl
      | ⟨2, _⟩ => rfl
    · rfl
    · rw [val_main_v73_apply]
      refine Eq.trans ?_ (v2_at x0 x1 n f)
      idx_r2
  | ⟨1, _⟩ =>
    refine Eq.trans (concatenate_apply_piece (t := S5x4096x3072) 0 _ _ _ 1 ?_ S1x4096x3072
      (val_main_v74 (F := Ideal) x0 x1 x4 x5 x6) ?_ rfl 1 ?_ (ix3 (0 : Fin 1) n f) ?_ ?_) ?_
    · exact (by decide : (1 : Nat) < 5)
    · rfl
    · rfl
    · intro b hb
      match b with
      | ⟨0, _⟩ => exact absurd rfl hb
      | ⟨1, _⟩ => rfl
      | ⟨2, _⟩ => rfl
    · rfl
    · rw [val_main_v74_apply]
      refine Eq.trans ?_ (v21_at x0 x1 x4 x5 x6 hcols n f)
      idx_r2
  | ⟨2, _⟩ =>
    refine Eq.trans (concatenate_apply_piece (t := S5x4096x3072) 0 _ _ _ 2 ?_ S1x4096x3072
      (val_main_v75 (F := Ideal) x0 x1 x4 x5 x6) ?_ rfl 2 ?_ (ix3 (0 : Fin 1) n f) ?_ ?_) ?_
    · exact (by decide : (2 : Nat) < 5)
    · rfl
    · rfl
    · intro b hb
      match b with
      | ⟨0, _⟩ => exact absurd rfl hb
      | ⟨1, _⟩ => rfl
      | ⟨2, _⟩ => rfl
    · rfl
    · rw [val_main_v75_apply]
      refine Eq.trans ?_ (v37_at x0 x1 x4 x5 x6 hcols n f)
      idx_r2
  | ⟨3, _⟩ =>
    refine Eq.trans (concatenate_apply_piece (t := S5x4096x3072) 0 _ _ _ 3 ?_ S1x4096x3072
      (val_main_v76 (F := Ideal) x0 x1 x4 x5 x6) ?_ rfl 3 ?_ (ix3 (0 : Fin 1) n f) ?_ ?_) ?_
    · exact (by decide : (3 : Nat) < 5)
    · rfl
    · rfl
    · intro b hb
      match b with
      | ⟨0, _⟩ => exact absurd rfl hb
      | ⟨1, _⟩ => rfl
      | ⟨2, _⟩ => rfl
    · rfl
    · rw [val_main_v76_apply]
      refine Eq.trans ?_ (v56_at x0 x1 x4 x5 x6 hcols n f)
      idx_r2
  | ⟨4, _⟩ =>
    refine Eq.trans (concatenate_apply_piece (t := S5x4096x3072) 0 _ _ _ 4 ?_ S1x4096x3072
      (val_main_v77 (F := Ideal) x0 x1 x4 x5 x6) ?_ rfl 4 ?_ (ix3 (0 : Fin 1) n f) ?_ ?_) ?_
    · exact (by decide : (4 : Nat) < 5)
    · rfl
    · rfl
    · intro b hb
      match b with
      | ⟨0, _⟩ => exact absurd rfl hb
      | ⟨1, _⟩ => rfl
      | ⟨2, _⟩ => rfl
    · rfl
    · rw [val_main_v77_apply]
      refine Eq.trans ?_ (v72_at x0 x1 x4 x5 x6 hcols n f)
      idx_r2

end

end Cert.RefValue

end
-- ==== Proof.RefValue.lean ====
/-
  The reference run's result is the specification's G.

  The result at (b, n, h) is the tanh of the contraction, over k < 960, of the regrouped stack at row b · 4096 + n and
  column k with the weights at (k, h), plus the bias at h. The regrouping (a reshape to [5, 4096, 192, 16], the
  transposition that swaps the first and last axes, a reshape to [65536, 960]) reads the stack at matrix k % 5, node n
  and feature column (k / 5) · 16 + b.
-/
import proofs.«106054_j120259084553_1_alg».proof.Proof.RefStages
import proofs.«106054_j120259084553_1_alg».proof.Proof.HostStages

noncomputable section

namespace Cert.RefValue

open Cert.ReferenceIdeal Cert.ReferenceIdeal.Gen Cert.ReferenceIdeal.Read Idealize.ShloMosaic Idealize.ShloMosaic.ValueIdx
open scoped BigOperators

variable (x0 : (⟨S16x4096x64, .f32⟩ : BufTy).Contents (Elt Ideal)) (x1 : (⟨S16x4096x128, .f32⟩ : BufTy).Contents (Elt Ideal))
  (x2 : (⟨S960x128, .f32⟩ : BufTy).Contents (Elt Ideal)) (x3 : (⟨S128, .f32⟩ : BufTy).Contents (Elt Ideal))
  (x4 x5 : (⟨S2x65536, .i32⟩ : BufTy).Contents (Elt Ideal)) (x6 : (⟨S2x65536, .f32⟩ : BufTy).Contents (Elt Ideal))

/-- The stack regrouped into the contraction's left operand: row b · 4096 + n, column k is stacked matrix k % 5 at
    node n and feature column (k / 5) · 16 + b. -/
theorem v81_at (hcols : ∀ (s : Fin 2) (e : Fin 65536), 0 ≤ (x5 (ix2 s e)).toInt ∧ (x5 (ix2 s e)).toInt < 4096)
    (b : Fin 16) (n : Fin 4096) (k : Fin 960) :
    val_main_v81 (F := Ideal) x0 x1 x4 x5 x6 (ix2 (HostStages.rowAt b n) k)
      = Spec.xs x0 x1 x4 x5 x6 (Spec.mmOf k) n (Spec.colAt k b) := by
  unfold val_main_v81 val_main_v80 val_main_v79
  exact (HostStages.regroup_at _ _ _ _ b n k).trans (v78_at x0 x1 x4 x5 x6 hcols _ n _)

/-- The reference run's result term is the specification's result. -/
theorem result_eq
    (hrows : ∀ (s : Fin 2) (e : Fin 65536), 0 ≤ (x4 (ix2 s e)).toInt ∧ (x4 (ix2 s e)).toInt < 4096)
    (hcols : ∀ (s : Fin 2) (e : Fin 65536), 0 ≤ (x5 (ix2 s e)).toInt ∧ (x5 (ix2 s e)).toInt < 4096) :
    val_main_v87 (F := Ideal) x0 x1 x2 x3 x4 x5 x6 = Cert.Spec.G x0 x1 x2 x3 x4 x5 x6 := by
  funext i
  obtain ⟨b, n, h, rfl⟩ : ∃ (b : Fin 16) (n : Fin 4096) (h : Fin 128), i = ix3 b n h := ⟨i 0, i 1, i 2, eq_ix3 i⟩
  have hb := b.isLt
  have hn := n.isLt
  have hh := h.isLt
  rw [Spec.G_ix3, val_main_v87_apply, val_main_v86_apply, val_main_v85_apply, val_main_v82_apply, val_main_v84_apply,
    val_main_v83_apply, Ideal.hostUnary_tanh_def, Ideal.addf_def]
  unfold Spec.Gat
  refine congrArg Ideal.tanh (congrArg₂ (· + ·) (Finset.sum_congr rfl fun k _ => congrArg₂ (· * ·) ?_ ?_) ?_)
  · refine Eq.trans ?_ (v81_at x0 x1 x4 x5 x6 hcols b n k)
    congr 1
    funext a
    match a with
    | ⟨0, _⟩ => exact Fin.ext (show ((b.val * 4096 + n.val) * 128 + h.val) / 128 = b.val * 4096 + n.val by omega)
    | ⟨1, _⟩ => rfl
  · congr 1
    funext a
    match a with
    | ⟨0, _⟩ => rfl
    | ⟨1, _⟩ => exact Fin.ext (show ((b.val * 4096 + n.val) * 128 + h.val) % 128 = h.val by omega)
  · congr 1
    funext a
    match a with
    | ⟨0, _⟩ => exact Fin.ext (show ((b.val * 4096 + n.val) * 128 + h.val) % 128 = h.val by omega)

end Cert.RefValue

end
-- ==== Proof.lean ====
/-
  The certificate's proof. The kernel computes a diffusion graph convolution: from x0[n, c·16 + b] =
  concat(inputs, state)[b, n, c] it forms, for each of two supports, x1 = A·x0 and x2 = 2·A·x1 − x0, where A is the
  support's dense adjacency matrix (the edge values scatter-added at (row, column)) and each product is a blocked
  matrix product accumulated over four contraction blocks; the five terms are stacked and re-laid as a [B·N, C·M] matrix X
  and the result is tanh(X·W + b). The reference forms the same products edge by edge: (A·x)[r, f] =
  Σ over the edges e of row r of val(e) · x[col(e), f]. Over the extended reals the two agree where every float input is
  a real number (the sums commute and the product distributes) and every index lies in [0, 4096) (outside it the
  kernel drops an edge the reference clamps, and wraps a row the reference drops).

  The three frames: each program runs to the end, faults nowhere, and leaves its arguments as they were — for the
  kernel, at the word level and at the ideal level, from the five pallas regions' runs chained through the host
  stretches; for the reference from its straight-line run. The idealization rewrote nothing. The algebraic claim: both
  results are the one function `Cert.Spec.G` of the arguments.
-/
import proofs.«106054_j120259084553_1_alg».proof.Defs
import proofs.«106054_j120259084553_1_alg».proof.Proof.Gen.Kernel
import proofs.«106054_j120259084553_1_alg».proof.Proof.Gen.KernelIdeal
import proofs.«106054_j120259084553_1_alg».proof.Proof.Gen.ReferenceIdeal
import proofs.«106054_j120259084553_1_alg».proof.Proof.Gen.Pre_finite_inputs
import proofs.«106054_j120259084553_1_alg».proof.Proof.Gen.ReferenceIdeal.Run
import proofs.«106054_j120259084553_1_alg».proof.Proof.Gen.ReferenceIdeal.Read
import proofs.«106054_j120259084553_1_alg».proof.Proof.KernelRunBits
import proofs.«106054_j120259084553_1_alg».proof.Proof.KernelResult
import proofs.«106054_j120259084553_1_alg».proof.Proof.RefValue
import proofs.«106054_j120259084553_1_alg».proof.Proof.PreFacts
import Idealize.ShloMosaic.Adequacy
import Idealize.ShloMosaic.Init

noncomputable section

namespace Cert.Proof

open Idealize.ShloMosaic Idealize.ShloMosaic.ValueIdx Idealize.SL.Sem

/-- The word-level kernel runs and leaves its arguments unchanged. -/
theorem frame_k : Cert.frame_Kernel := fun m g _ => Cert.Kernel.Hand.frame_all (F := Bits) m g

/-- So does the idealized kernel. -/
theorem frame_ki : Cert.frame_KernelIdeal := fun m g _ => Cert.KernelIdeal.Hand.frame_all (F := Ideal) m g

/-- So does the idealized reference: its run, the result dropped. -/
theorem frame_ri : Cert.frame_ReferenceIdeal := fun m g _ =>
  (θ_run Cert.ReferenceIdeal.defs _ _).mono (fun _ h c => (h c).2) (Cert.ReferenceIdeal.Value.run (F := Ideal) m g)

/-- The idealization rewrote no operation. -/
theorem preserves : Cert.preserves_Kernel_KernelIdeal := trivial

/-- Both programs end with the specification's value of the arguments. -/
theorem algebraic : Cert.algebraic_KernelIdeal_ReferenceIdeal := by
  intro m g m' g' hpre hagree
  refine ⟨fun c => Cert.Spec.G (Cert.KernelIdeal.Hand.ar0 m c) (Cert.KernelIdeal.Hand.ar1 m c) (Cert.KernelIdeal.Hand.ar2 m c)
    (Cert.KernelIdeal.Hand.ar3 m c) (Cert.KernelIdeal.Hand.ar4 m c) (Cert.KernelIdeal.Hand.ar5 m c) (Cert.KernelIdeal.Hand.ar6 m c), ?_, ?_⟩
  · exact (θ_run Cert.KernelIdeal.defs _ _).mono
      (fun r h c => ⟨(h c).1.trans (Cert.KernelIdeal.Hand.kernel_result m c (hpre c)), (h c).2⟩)
      (Cert.KernelIdeal.Hand.run_result (F := Ideal) m g)
  · refine (θ_run Cert.ReferenceIdeal.defs _ _).mono (fun r h c => ⟨?_, (h c).2⟩)
      (Cert.ReferenceIdeal.Value.run (F := Ideal) m' g')
    obtain ⟨-, -, -, -, -, hrows, hcols⟩ := Cert.PreFacts.decode _ _ _ _ _ _ _ (hpre c)
    rw [(h c).1, Cert.ReferenceIdeal.Read.val_main_v87_eq, (hagree c).1, (hagree c).2.1, (hagree c).2.2.1, (hagree c).2.2.2.1,
      (hagree c).2.2.2.2.1, (hagree c).2.2.2.2.2.1, (hagree c).2.2.2.2.2.2]
    exact Cert.RefValue.result_eq _ _ _ _ _ _ _ (fun s e => hrows (ix2 s e)) (fun s e => hcols (ix2 s e))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
